-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048 : Shape := ⟨2, ![2048, 2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel

variable [Facts]

def fn_part1 {F : FTy → Type} [FloatOps F] (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  main_v18

def fn {F : FTy → Type} [FloatOps F] (main_arg0 : FVec F S2048x2048 .f32) (main_arg1 : FVec F S2048x2048 .f32) (main_arg2 : FVec F S2048x2048 .f32) (main_arg3 : FVec F S2048x2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_v13 main_v16
-- ==== Kernel.lean ====
abbrev S2048x2048 : Shape := ⟨2, ![2048, 2048]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 13
  | .vmem => 47
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .bf16⟩
  | .hbm, ⟨5, _⟩ => ⟨S2048x2048, .bf16⟩
  | .hbm, ⟨6, _⟩ => ⟨S2048x2048, .bf16⟩
  | .hbm, ⟨7, _⟩ => ⟨S2048x2048, .bf16⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S1024x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x1024, .bf16⟩
  | .local _ .vmem, ⟨8, _⟩ => ⟨S512x1024, .bf16⟩
  | .local _ .vmem, ⟨9, _⟩ => ⟨S1024x512, .bf16⟩
  | .local _ .vmem, ⟨10, _⟩ => ⟨S1024x512, .bf16⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x1024, .bf16⟩
  | .local _ .vmem, ⟨15, _⟩ => ⟨S512x1024, .bf16⟩
  | .local _ .vmem, ⟨16, _⟩ => ⟨S1024x512, .bf16⟩
  | .local _ .vmem, ⟨17, _⟩ => ⟨S1024x512, .bf16⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S1024x512, .bf16⟩
  | .local _ .vmem, ⟨26, _⟩ => ⟨S1024x512, .bf16⟩
  | .local _ .vmem, ⟨27, _⟩ => ⟨S512x512, .f32⟩
  | .local _ .vmem, ⟨28, _⟩ => ⟨S512x512, .f32⟩
  | .local _ .vmem, ⟨29, _⟩ => ⟨S512x512, .f32⟩
  | .local _ .vmem, ⟨30, _⟩ => ⟨S512x512, .f32⟩
  | .local _ .vmem, ⟨31, _⟩ => ⟨S512x512, .f32⟩
  | .local _ .vmem, ⟨32, _⟩ => ⟨S512x1024, .f32⟩
  | .local _ .vmem, ⟨33, _⟩ => ⟨S512x1024, .f32⟩
  | .local _ .vmem, ⟨34, _⟩ => ⟨S1024x512, .bf16⟩
  | .local _ .vmem, ⟨35, _⟩ => ⟨S1024x512, .bf16⟩
  | .local _ .vmem, ⟨36, _⟩ => ⟨S512x512, .f32⟩
  | .local _ .vmem, ⟨37, _⟩ => ⟨S512x512, .f32⟩
  | .local _ .vmem, ⟨38, _⟩ => ⟨S512x512, .f32⟩
  | .local _ .vmem, ⟨39, _⟩ => ⟨S512x512, .f32⟩
  | .local _ .vmem, ⟨40, _⟩ => ⟨S512x512, .f32⟩
  | .local _ .vmem, ⟨41, _⟩ => ⟨S512x512, .f32⟩
  | .local _ .vmem, ⟨42, _⟩ => ⟨S512x512, .f32⟩
  | .local _ .vmem, ⟨43, _⟩ => ⟨S512x512, .f32⟩
  | .local _ .vmem, ⟨44, _⟩ => ⟨S512x512, .f32⟩
  | .local _ .vmem, ⟨45, _⟩ => ⟨S512x512, .f32⟩
  | .local _ .vmem, ⟨46, _⟩ => ⟨S512x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_scratch0 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg3_1 : Ref sig .tc := ⟨.vmem, 28, rfl⟩
abbrev cc3_stg4_0 : Ref sig .tc := ⟨.vmem, 29, rfl⟩
abbrev cc3_stg4_1 : Ref sig .tc := ⟨.vmem, 30, rfl⟩
abbrev cc3_scratch0 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc4_stg3_0 : Ref sig .tc := ⟨.vmem, 38, rfl⟩
abbrev cc4_stg3_1 : Ref sig .tc := ⟨.vmem, 39, rfl⟩
abbrev cc4_stg4_0 : Ref sig .tc := ⟨.vmem, 40, rfl⟩
abbrev cc4_stg4_1 : Ref sig .tc := ⟨.vmem, 41, rfl⟩
abbrev cc4_stg5_0 : Ref sig .tc := ⟨.vmem, 42, rfl⟩
abbrev cc4_stg5_1 : Ref sig .tc := ⟨.vmem, 43, rfl⟩
abbrev cc4_stg6_0 : Ref sig .tc := ⟨.vmem, 44, rfl⟩
abbrev cc4_stg6_1 : Ref sig .tc := ⟨.vmem, 45, rfl⟩
abbrev cc4_scratch0 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc4_sem3_0 : DmaSem sig := 34
abbrev cc4_sem3_1 : DmaSem sig := 35
abbrev cc4_sem4_0 : DmaSem sig := 36
abbrev cc4_sem4_1 : DmaSem sig := 37
abbrev cc4_sem5_0 : DmaSem sig := 38
abbrev cc4_sem5_1 : DmaSem sig := 39
abbrev cc4_sem6_0 : DmaSem sig := 40
abbrev cc4_sem6_1 : DmaSem sig := 41

abbrev nD : Nat := 1
abbrev τ : Topo := Topo.v7x

variable {F : FTy → Type} [FloatOps F]

abbrev grid0 : Pipeline.Grid := ⟨3, ![4, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 4, 2], ![false, false, false]⟩

def k1_cond2 (i : grid1.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![4, 4, 2], ![false, false, false]⟩

def k2_cond2 (i : grid2.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![4, 4, 2], ![false, false, false]⟩

def k3_cond2 (i : grid3.Coords) : BitVec 1 :=
  let arg2 : BitVec 32 := BitVec.ofNat 32 (i 2).val
  let c1_i32 : BitVec 32 := 1#32
  let v16 : BitVec 1 := Scalar.cmpi .eq arg2 c1_i32
  let v17 : BitVec 32 := Scalar.extui v16
  let c0_i32_10 : BitVec 32 := 0#32
  let v18 : BitVec 1 := Scalar.cmpi .ne v17 c0_i32_10
  v18

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_4 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S512x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false, true]

abbrev stage3_2 : Fin 2 → Memref sig .tc .vmem S1024x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true, true]

abbrev stage3_3 : Fin 2 → Memref sig .tc .vmem S512x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev stage3_4 : Fin 2 → Memref sig .tc .vmem S512x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true, false]

abbrev grid4 : Pipeline.Grid := ⟨3, ![4, 4, 2], ![false, false, false]⟩

def k4_cond2 (i : grid4.Coords) : BitVec 1 :=
  let arg2 : BitVec 32 := BitVec.ofNat 32 (i 2).val
  let c1_i32 : BitVec 32 := 1#32
  let v14 : BitVec 1 := Scalar.cmpi .eq arg2 c1_i32
  let v15 : BitVec 32 := Scalar.extui v14
  let c0_i32_8 : BitVec 32 := 0#32
  let v16 : BitVec 1 := Scalar.cmpi .ne v15 c0_i32_8
  v16

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc4_transform_3 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc4_transform_4 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc4_transform_5 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc4_transform_6 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S512x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S1024x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S512x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev stage4_3 : Fin 2 → Memref sig .tc .vmem S512x512 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true, false]

abbrev stage4_4 : Fin 2 → Memref sig .tc .vmem S512x512 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true, false]

abbrev stage4_5 : Fin 2 → Memref sig .tc .vmem S512x512 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true, false]

abbrev stage4_6 : Fin 2 → Memref sig .tc .vmem S512x512 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true, true, false]

class Facts₀ : Prop where
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  dot_S512x1024_S1024x512_S512x512_1_0_0_1_n_n_wf : DotDims.WF S512x1024 S1024x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S2048x2048.size a
  hwx0_0 : ∀ i : grid0.Coords, EltTy.bits .bf16 = 32 ∨ (Rect.block (s := S2048x2048) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S2048x2048.size a
  hwx0_1 : ∀ i : grid0.Coords, EltTy.bits .bf16 = 32 ∨ (Rect.block (s := S2048x2048) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S2048x2048.size a
  hwx0_2 : ∀ i : grid0.Coords, EltTy.bits .f32 = 32 ∨ (Rect.block (s := S2048x2048) S512x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S2048x2048.size a
  hwx1_0 : ∀ i : grid1.Coords, EltTy.bits .bf16 = 32 ∨ (Rect.block (s := S2048x2048) S512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S2048x2048.size a
  hwx1_1 : ∀ i : grid1.Coords, EltTy.bits .bf16 = 32 ∨ (Rect.block (s := S2048x2048) S1024x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S2048x2048.size a
  hwx1_2 : ∀ i : grid1.Coords, EltTy.bits .f32 = 32 ∨ (Rect.block (s := S2048x2048) S512x512.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S2048x2048.size a
  hwx2_0 : ∀ i : grid2.Coords, EltTy.bits .bf16 = 32 ∨ (Rect.block (s := S2048x2048) S512x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x512.size a ≤ S2048x2048.size a
  hwx2_1 : ∀ i : grid2.Coords, EltTy.bits .bf16 = 32 ∨ (Rect.block (s := S2048x2048) S1024x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S2048x2048.size a
  hwx2_2 : ∀ i : grid2.Coords, EltTy.bits .f32 = 32 ∨ (Rect.block (s := S2048x2048) S512x512.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x1024.size a ≤ S2048x2048.size a
  hwx3_0 : ∀ i : grid3.Coords, EltTy.bits .f32 = 32 ∨ (Rect.block (s := S2048x2048) S512x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x1024.size a ≤ S2048x2048.size a
  hwx3_1 : ∀ i : grid3.Coords, EltTy.bits .f32 = 32 ∨ (Rect.block (s := S2048x2048) S512x1024.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x512.size a ≤ S2048x2048.size a
  hwx3_2 : ∀ i : grid3.Coords, EltTy.bits .bf16 = 32 ∨ (Rect.block (s := S2048x2048) S1024x512.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x512.size a ≤ S2048x2048.size a
  hwx3_3 : ∀ i : grid3.Coords, EltTy.bits .f32 = 32 ∨ (Rect.block (s := S2048x2048) S512x512.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S512x512.size a ≤ S2048x2048.size a
  hwx3_4 : ∀ i : grid3.Coords, EltTy.bits .f32 = 32 ∨ (Rect.block (s := S2048x2048) S512x512.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x1024.size a ≤ S2048x2048.size a
  hwx4_0 : ∀ i : grid4.Coords, EltTy.bits .f32 = 32 ∨ (Rect.block (s := S2048x2048) S512x1024.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x512.size a ≤ S2048x2048.size a
  hwx4_1 : ∀ i : grid4.Coords, EltTy.bits .bf16 = 32 ∨ (Rect.block (s := S2048x2048) S1024x512.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S512x512.size a ≤ S2048x2048.size a
  hwx4_2 : ∀ i : grid4.Coords, EltTy.bits .f32 = 32 ∨ (Rect.block (s := S2048x2048) S512x512.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x512.size a ≤ S2048x2048.size a
  hwx4_3 : ∀ i : grid4.Coords, EltTy.bits .f32 = 32 ∨ (Rect.block (s := S2048x2048) S512x512.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S512x512.size a ≤ S2048x2048.size a
  hwx4_4 : ∀ i : grid4.Coords, EltTy.bits .f32 = 32 ∨ (Rect.block (s := S2048x2048) S512x512.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S512x512.size a ≤ S2048x2048.size a
  hwx4_5 : ∀ i : grid4.Coords, EltTy.bits .f32 = 32 ∨ (Rect.block (s := S2048x2048) S512x512.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S512x512.size a ≤ S2048x2048.size a
  hwx4_6 : ∀ i : grid4.Coords, EltTy.bits .f32 = 32 ∨ (Rect.block (s := S2048x2048) S512x512.size (cc4_transform_6 i) (hinb4_6 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S512x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v3) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S1024x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v6) S512x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v4) S512x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg1) S512x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v0) S1024x512.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg1) S512x512.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v7) S512x512.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

abbrev win4_0 : Pipeline.Window sig grid4 :=
  Pipeline.Window.ofSpec (Memref.whole main_v4) S512x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v0) S1024x512.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v4) S512x512.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v5) S512x512.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v6) S512x512.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v7) S512x512.size cc4_transform_5 reads4_5 false false 2 stage4_5 sem4_5
    hrank4 hreads4_5 hinb4_5 nbuf4_5 (Memref.isWhole_whole _) hwx4_5 hstage4_5

abbrev win4_6 : Pipeline.Window sig grid4 :=
  Pipeline.Window.ofSpec (Memref.whole main_v8) S512x512.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev idle4 : Fin 7 → grid4.Coords → Bool := fun | 0 => fun _ => false | 1 => fun _ => false | 2 => fun _ => false | 3 => fun _ => false | 4 => fun _ => false | 5 => fun _ => false | 6 => fun i => !(k4_cond2 i == 1#1) | ⟨_ + 7, h⟩ => absurd h (Nat.not_lt.2 (Nat.le_add_left _ _))

class Facts : Prop extends Facts₀ where

variable [Facts]
-- ==== ReferenceIdeal.lean ====
abbrev S2048x2048 : Shape := ⟨2, ![2048, 2048]⟩

abbrev nBuf : Space → Nat
  | .hbm => 25
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩

abbrev nD : Nat := 1
abbrev τ : Topo := Topo.v7x

variable {F : FTy → Type} [FloatOps F]

class Facts₀ : Prop where
  dot_S2048x2048_S2048x2048_S2048x2048_1_0_0_1_n_n_wf : DotDims.WF S2048x2048 S2048x2048 S2048x2048 [1] [0] [0] [1] [] []

variable [Facts₀]

def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf

class Facts : Prop extends Facts₀ where

variable [Facts]
-- ==== Proof.K.Base.lean ====
import proofs.«141637_j39676907881857_2_alg».proof.Proof.Gen.Kernel.Launch
import proofs.«141637_j39676907881857_2_alg».proof.Proof.Gen.Kernel.Skeleton
import proofs.«141637_j39676907881857_2_alg».proof.Proof.Gen.Kernel.Points
import proofs.«141637_j39676907881857_2_alg».proof.Proof.Gen.Kernel.Regions
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-block access, however spelt. -/
theorem hz2 : (![0, 0] : Fin 2 → Nat) = fun _ => 0 := by funext a; fin_cases a <;> rfl

end Cert.Kernel.Hand
end
-- ==== Proof.K.Run0.lean ====
import proofs.«141637_j39676907881857_2_alg».proof.Proof.K.Base

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 0: the first matrix product. The grid is 4 × 4 × 2: the last coordinate k runs over the two halves of the
    contracted axis. At k = 0 the body zeroes its accumulator and adds the first half's product; at k = 1 it adds the
    second half's and copies the accumulator to the output block. -/

/-- The body's first branch: k = 0. -/
abbrev cond0_0 (i : grid0.Coords) : Prop := (Scalar.cmpi .ne (Scalar.extui (Scalar.cmpi .eq (BitVec.ofNat 32 (i 2).val) 0#32)) 0#32) = 1#1
/-- The body's second branch: k = 1, the last. -/
abbrev cond0_1 (i : grid0.Coords) : Prop := k0_cond2 i = 1#1

theorem hcond0_0 : ∀ t : Fin cfg0.N, cond0_0 (grid0.coords t) ↔ t.val % 2 = 0 :=
  (by decide +kernel : ∀ t : Fin grid0.N, cond0_0 (grid0.coords t) ↔ t.val % 2 = 0)
theorem hcond0_1 : ∀ t : Fin cfg0.N, cond0_1 (grid0.coords t) ↔ t.val % 2 = 1 :=
  (by decide +kernel : ∀ t : Fin grid0.N, cond0_1 (grid0.coords t) ↔ t.val % 2 = 1)

set_option maxHeartbeats 1000000 in
/-- The body at k = 0 on whole memrefs: the operand blocks a, b are kept, the output block is not touched, and the
    accumulator, whatever it held, ends at 0 + a·b (the payload of the zero fill put through the accumulation's). -/
theorem run0_first (c : Dev nD) (i : grid0.Coords) (arg3 : Memref sig .tc .vmem S512x1024 .bf16) (harg3 : arg3.IsWhole) (arg4 : Memref sig .tc .vmem S1024x512 .bf16) (harg4 : arg4.IsWhole) (arg5 : Memref sig .tc .vmem S512x512 .f32) (harg5 : arg5.IsWhole) (arg6 : Memref sig .tc .vmem S512x512 .f32) (harg6 : arg6.IsWhole)
    (hc0 : cond0_0 i) (hc1 : ¬cond0_1 i)
    (a : Vec F S512x1024 .bf16) (b : Vec F S1024x512 .bf16) (o : Vec F S512x512 .f32) (E : Set ℕ) (K : PUnit → sProp 𝕄) :
    iprop(owns (c : Thread nD τ) arg3 fullShare a ∗ owns (c : Thread nD τ) arg4 fullShare b ∗ owns (c : Thread nD τ) arg5 fullShare o ∗ (∃ d, owns (c : Thread nD τ) arg6 fullShare d)
        ∗ (iprop(owns (c : Thread nD τ) arg3 fullShare a ∗ owns (c : Thread nD τ) arg4 fullShare b ∗ owns (c : Thread nD τ) arg5 fullShare o
            ∗ owns (c : Thread nD τ) arg6 fullShare (k0_pay2 (k0_pay1 (F := F)) a b)) -∗ K ⟨⟩))
      ⊢ wp frame (wpE (defs₀ (F := F)) Variants.none c none) E (cc0__matmul_bf16_kernel i arg3 harg3 arg4 harg4 arg5 harg5 arg6 harg6) K := by
  simp only [cc0__matmul_bf16_kernel_eq_skeleton]; unfold cc0__matmul_bf16_kernel_skel
  unfold owns
  iintro ⟨⟨%f0, %hf0, H0⟩, ⟨%f1, %hf1, H1⟩, ⟨%f2, %hf2, H2⟩, ⟨%ds0, %fs0, -, HS0⟩, Hk⟩
  obtain rfl := harg3.eq_unread hf0; obtain rfl := harg4.eq_unread hf1; obtain rfl := harg5.eq_unread hf2
  sl_exec (disch := first | exact hc0 | exact hc1)
  sl_step
  sl_unfold_run_names
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS0
  ipureintro
  rw [View.read_writes_eq_canon _ _ _ (fun y => ⟨_, List.mem_cons_self, View.mem_set_unit_zero hz2 inb_S512x512_S512x512_0_0 y⟩),
    View.canon_cons_unit_zero hz2, View.readCov_unit_zero _ hz2]
  simp only [View.readAt_eq_ld, harg3.read_unread, harg4.read_unread, View.ld_unit_zero (S := S512x1024) hz2, View.ld_unit_zero (S := S1024x512) hz2]

set_option maxHeartbeats 1000000 in
/-- The body at k = 1: the accumulator, at what k = 0 left (acc), ends at acc + a·b, and so does the output block,
    whatever it held. -/
theorem run0_last (c : Dev nD) (i : grid0.Coords) (arg3 : Memref sig .tc .vmem S512x1024 .bf16) (harg3 : arg3.IsWhole) (arg4 : Memref sig .tc .vmem S1024x512 .bf16) (harg4 : arg4.IsWhole) (arg5 : Memref sig .tc .vmem S512x512 .f32) (harg5 : arg5.IsWhole) (arg6 : Memref sig .tc .vmem S512x512 .f32) (harg6 : arg6.IsWhole)
    (hc0 : ¬cond0_0 i) (hc1 : cond0_1 i)
    (a : Vec F S512x1024 .bf16) (b : Vec F S1024x512 .bf16) (acc : Vec F S512x512 .f32) (E : Set ℕ) (K : PUnit → sProp 𝕄) :
    iprop(owns (c : Thread nD τ) arg3 fullShare a ∗ owns (c : Thread nD τ) arg4 fullShare b ∗ (∃ d, owns (c : Thread nD τ) arg5 fullShare d) ∗ owns (c : Thread nD τ) arg6 fullShare acc
        ∗ (iprop(owns (c : Thread nD τ) arg3 fullShare a ∗ owns (c : Thread nD τ) arg4 fullShare b ∗ owns (c : Thread nD τ) arg5 fullShare (k0_pay2 acc a b)
            ∗ owns (c : Thread nD τ) arg6 fullShare (k0_pay2 acc a b)) -∗ K ⟨⟩))
      ⊢ wp frame (wpE (defs₀ (F := F)) Variants.none c none) E (cc0__matmul_bf16_kernel i arg3 harg3 arg4 harg4 arg5 harg5 arg6 harg6) K := by
  simp only [cc0__matmul_bf16_kernel_eq_skeleton]; unfold cc0__matmul_bf16_kernel_skel
  unfold owns
  iintro ⟨⟨%f0, %hf0, H0⟩, ⟨%f1, %hf1, H1⟩, ⟨%d2, %f2, -, H2⟩, ⟨%fs0, %hfs0, HS0⟩, Hk⟩
  obtain rfl := harg3.eq_unread hf0; obtain rfl := harg4.eq_unread hf1; obtain rfl := harg6.eq_unread hfs0
  sl_exec (disch := first | exact hc0 | exact hc1)
  sl_step
  sl_unfold_run_names
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    rw [View.read_writes_eq_canon _ _ _ (fun y => ⟨_, List.mem_cons_self, View.mem_set_unit_zero hz2 inb_S512x512_S512x512_0_0 y⟩),
      View.canon_unit_zero hz2, View.readCov_unit_zero _ hz2]
    simp only [View.readAt_eq_ld, harg3.read_unread, harg4.read_unread, harg6.read_unread, View.ld_unit_zero (S := S512x1024) hz2, View.ld_unit_zero (S := S1024x512) hz2, View.ld_unit_zero (S := S512x512) hz2]
  iexists _; isplitr
  swap; · iexact HS0
  ipureintro
  rw [View.read_writes_eq_canon _ _ _ (fun y => ⟨_, List.mem_cons_self, View.mem_set_unit_zero hz2 inb_S512x512_S512x512_0_0 y⟩),
    View.canon_unit_zero hz2]
  simp only [View.readAt_eq_ld, harg3.read_unread, harg4.read_unread, harg6.read_unread, View.ld_unit_zero (S := S512x1024) hz2, View.ld_unit_zero (S := S1024x512) hz2, View.ld_unit_zero (S := S512x512) hz2]

end Cert.Kernel.Hand
end
-- ==== Proof.K.Reg0.lean ====
import proofs.«141637_j39676907881857_2_alg».proof.Proof.K.Run0

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

-- the TensorCore's buffer contents when the region is entered
variable (V : (c : Dev nD) → (b : Ref sig .tc) → Buf (Elt F) ((c : Thread nD τ).loc b))

/-! ## Region 0's proof data: what every staging buffer and the accumulator hold after each grid point -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after the body at position n: at an even position (k = 0) the zero fill plus the product of the
    point's two operand blocks, at an odd one (k = 1) what the position before left plus the product of the point's. -/
def acc0 (c : Dev nD) : (n : ℕ) → n < cfg0.N → Vec F S512x512 .f32
  | 0, h => k0_pay2 (k0_pay1 (F := F)) (iblk0 V c 0 ⟨0, h⟩) (iblk0 V c 1 ⟨0, h⟩)
  | n + 1, h =>
    if (n + 1) % 2 = 0 then k0_pay2 (k0_pay1 (F := F)) (iblk0 V c 0 ⟨n + 1, h⟩) (iblk0 V c 1 ⟨n + 1, h⟩)
    else k0_pay2 (acc0 c n (Nat.lt_of_succ_lt h)) (iblk0 V c 0 ⟨n + 1, h⟩) (iblk0 V c 1 ⟨n + 1, h⟩)

theorem acc0_even (c : Dev nD) (t : Fin cfg0.N) (h : t.val % 2 = 0) :
    acc0 V c t.val t.isLt = k0_pay2 (k0_pay1 (F := F)) (iblk0 V c 0 t) (iblk0 V c 1 t) := by
  obtain ⟨n, hn⟩ := t
  cases n with
  | zero => rfl
  | succ n => exact if_pos h

theorem acc0_odd (c : Dev nD) (t : Fin cfg0.N) (h : t.val % 2 = 1) :
    acc0 V c t.val t.isLt = k0_pay2 (acc0 V c (t.val - 1) (Nat.lt_of_le_of_lt (Nat.sub_le _ _) t.isLt)) (iblk0 V c 0 t) (iblk0 V c 1 t) := by
  obtain ⟨n, hn⟩ := t
  cases n with
  | zero => exact absurd h (by dsimp only; omega)
  | succ n => exact if_neg (by dsimp only at h; omega)

/-- The kernel's accumulator: a whole scoped buffer of its own. -/
abbrev scM0 : Memref sig .tc .vmem S512x512 .f32 := Memref.whole cc0_scratch0

/-- The region's invariant before position n: at the start the scoped rest at anything and the generator register;
    afterwards the same with the accumulator at what the position before left. -/
def Phi0 (c : Dev nD) : (n : ℕ) → n ≤ cfg0.N → sProp 𝕄
  | 0, _ => Pipeline.ΦA spec0 c
  | n + 1, hn => iprop(iprop(owns (c : Thread nD τ) scM0 fullShare (acc0 V c n hn)
      ∗ Pipeline.scopedRestBut (Ix := Unit) (Name := ℕ) (U := UR sig nD τ) (Lvl := ℕ) (Val := Elt F) spec0 c [cc0_scratch0]) ∗ (∃ r, prngReg c r))

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop(iprop(owns (c : Thread nD τ) scM0 fullShare (acc0 V c n hn)
      ∗ Pipeline.scopedRestBut (Ix := Unit) (Name := ℕ) (U := UR sig nD τ) (Lvl := ℕ) (Val := Elt F) spec0 c [cc0_scratch0]) ∗ (∃ r, prngReg c r)) := rfl

theorem Phi0_pos (c : Dev nD) (n : ℕ) (h : n ≤ cfg0.N) (hz : n ≠ 0) :
    Phi0 V c n h = iprop(iprop(owns (c : Thread nD τ) scM0 fullShare (acc0 V c (n - 1) (by omega))
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-- The class invariant with the accumulator split out of the scoped rest, owned at some contents. -/
theorem PhiA0_eq (c : Dev nD) :
    (Pipeline.ΦA spec0 c : sProp 𝕄)
      = iprop(iprop((∃ d, owns (c : Thread nD τ) scM0 fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; rfl

/-- The proof data of pipeline 0 on core c: the arrays as the region finds them; after the body at point t each
    operand's buffer at its block and the output's at the accumulator (a placeholder at the even points, where the
    output is idle); the invariant Phi0; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]

/-- Each operand's current staging buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- At the even points (k = 0) the output window is idle and not written back. -/
theorem idleAt0_2 : ∀ t : Fin cfg0.N, t.val % 2 = 0 → cfg0.idle 2 (grid0.coords t) = true := by decide +kernel
theorem noFlush0_2 : ∀ t : Fin cfg0.N, t.val % 2 = 0 → (cfg0.win 2).flush t = false := by decide +kernel
/-- At the odd points (k = 1) it is live. -/
theorem liveAt0_2 : ∀ t : Fin cfg0.N, t.val % 2 = 1 → cfg0.idle 2 (grid0.coords t) = false := by decide +kernel

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 2000000 in
/-- The body at any point: the operands' memrefs hold their blocks; at an even point the first run applies (the
    accumulator handed over at anything or at what the point before left, forgotten), at an odd point the second (the
    accumulator at what the even point before left); the invariant takes the accumulator back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  have hN : t.val < 32 := lt_of_lt_of_eq t.isLt (show cfg0.N = 32 from N_0)
  by_cases h0 : t.val % 2 = 0
  · have h1 : ¬ t.val % 2 = 1 := by omega
    rw [Dat.leavesExact_idle (dat0 V c) 2 t (idleAt0_2 t h0) (noFlush0_2 t h0)]
    rw [acc0_even V c t h0]
    by_cases hz : t.val = 0
    · rw [Phi0_castSucc V c t, Phi0_zero V c _ _ hz, PhiA0_eq]
      iintro ⟨⟨⟨HS, HB⟩, Hg⟩, Ho, ⟨%d0, H0⟩, ⟨%d1, H1⟩, ⟨%d2, H2⟩⟩
      iapply (run0_first c (grid0.coords t) _ _ _ _ _ _ _ _ ((hcond0_0 t).mpr h0) (fun h => h1 ((hcond0_1 t).mp h)) (iblk0 V c 0 t) (iblk0 V c 1 t) _ Set.univ _)
      isplitl [H0]; · iexact H0
      isplitl [H1]; · iexact H1
      isplitl [H2]; · iexact H2
      isplitl [HS]; · iexact HS
      iintro ⟨H0, H1, H2, HS⟩
      isplitl [HS HB Hg]
      · isplitl [HS HB]
        · isplitl [HS]; · iexact HS
          iexact HB
        iexact Hg
      isplitl [Ho]; · iexact Ho
      isplitl [H0]; · iexact H0
      isplitl [H1]; · iexact H1
      iexists _; iexact H2
    · rw [Phi0_castSucc V c t, Phi0_pos V c _ _ hz]
      iintro ⟨⟨⟨HS, HB⟩, Hg⟩, Ho, ⟨%d0, H0⟩, ⟨%d1, H1⟩, ⟨%d2, H2⟩⟩
      iapply (run0_first c (grid0.coords t) _ _ _ _ _ _ _ _ ((hcond0_0 t).mpr h0) (fun h => h1 ((hcond0_1 t).mp h)) (iblk0 V c 0 t) (iblk0 V c 1 t) _ Set.univ _)
      isplitl [H0]; · iexact H0
      isplitl [H1]; · iexact H1
      isplitl [H2]; · iexact H2
      isplitl [HS]; · iexists _; iexact HS
      iintro ⟨H0, H1, H2, HS⟩
      isplitl [HS HB Hg]
      · isplitl [HS HB]
        · isplitl [HS]; · iexact HS
          iexact HB
        iexact Hg
      isplitl [Ho]; · iexact Ho
      isplitl [H0]; · iexact H0
      isplitl [H1]; · iexact H1
      iexists _; iexact H2
  · have h1 : t.val % 2 = 1 := by omega
    have hz : t.val ≠ 0 := by omega
    rw [show (dat0 V c).leavesExact 2 t = owns (c : Thread nD τ) (st0_2 t) fullShare ((dat0 V c).after 2 t) from by
      unfold Dat.leavesExact; rw [liveAt0_2 t h1], after0_2]
    rw [acc0_odd V c t h1]
    rw [Phi0_castSucc V c t, Phi0_pos V c _ _ hz]
    iintro ⟨⟨⟨HS, HB⟩, Hg⟩, Ho, ⟨%d0, H0⟩, ⟨%d1, H1⟩, ⟨%d2, H2⟩⟩
    iapply (run0_last c (grid0.coords t) _ _ _ _ _ _ _ _ (fun h => h0 ((hcond0_0 t).mp h)) ((hcond0_1 t).mpr h1) (iblk0 V c 0 t) (iblk0 V c 1 t) _ Set.univ _)
    isplitl [H0]; · iexact H0
    isplitl [H1]; · iexact H1
    isplitl [H2]; · iexists _; iexact H2
    isplitl [HS]; · iexact HS
    iintro ⟨H0, H1, H2, HS⟩
    isplitl [HS HB Hg]
    · isplitl [HS HB]
      · isplitl [HS]; · iexact HS
        iexact HB
      iexact Hg
    isplitl [Ho]; · iexact Ho
    isplitl [H0]; · iexact H0
    isplitl [H1]; · iexact H1
    iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _

/-- After the last point the invariant gives the class invariant back: the accumulator's contents are forgotten. -/
theorem hout0 (c : Dev nD) : (dat0 V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 32 := N_0; omega), PhiA0_eq]
  iintro ⟨⟨HS, HB⟩, Hg⟩
  isplitl [HS HB]
  · isplitl [HS]; · iexists _; iexact HS
    iexact HB
  iexact Hg

end Region0

end Cert.Kernel.Hand
end
-- ==== Proof.K.Run1.lean ====
import proofs.«141637_j39676907881857_2_alg».proof.Proof.K.Base

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 1: the second matrix product (x w2), the same body as region 0's. The grid is 4 × 4 × 2: the last coordinate k runs over the two halves of the
    contracted axis. At k = 0 the body zeroes its accumulator and adds the first half's product; at k = 1 it adds the
    second half's and copies the accumulator to the output block. -/

/-- The body's first branch: k = 0. -/
abbrev cond1_0 (i : grid1.Coords) : Prop := (Scalar.cmpi .ne (Scalar.extui (Scalar.cmpi .eq (BitVec.ofNat 32 (i 2).val) 0#32)) 0#32) = 1#1
/-- The body's second branch: k = 1, the last. -/
abbrev cond1_1 (i : grid1.Coords) : Prop := k1_cond2 i = 1#1

theorem hcond1_0 : ∀ t : Fin cfg1.N, cond1_0 (grid1.coords t) ↔ t.val % 2 = 0 :=
  (by decide +kernel : ∀ t : Fin grid1.N, cond1_0 (grid1.coords t) ↔ t.val % 2 = 0)
theorem hcond1_1 : ∀ t : Fin cfg1.N, cond1_1 (grid1.coords t) ↔ t.val % 2 = 1 :=
  (by decide +kernel : ∀ t : Fin grid1.N, cond1_1 (grid1.coords t) ↔ t.val % 2 = 1)

set_option maxHeartbeats 1000000 in
/-- The body at k = 0 on whole memrefs: the operand blocks a, b are kept, the output block is not touched, and the
    accumulator, whatever it held, ends at 0 + a·b (the payload of the zero fill put through the accumulation's). -/
theorem run1_first (c : Dev nD) (i : grid1.Coords) (arg3 : Memref sig .tc .vmem S512x1024 .bf16) (harg3 : arg3.IsWhole) (arg4 : Memref sig .tc .vmem S1024x512 .bf16) (harg4 : arg4.IsWhole) (arg5 : Memref sig .tc .vmem S512x512 .f32) (harg5 : arg5.IsWhole) (arg6 : Memref sig .tc .vmem S512x512 .f32) (harg6 : arg6.IsWhole)
    (hc0 : cond1_0 i) (hc1 : ¬cond1_1 i)
    (a : Vec F S512x1024 .bf16) (b : Vec F S1024x512 .bf16) (o : Vec F S512x512 .f32) (E : Set ℕ) (K : PUnit → sProp 𝕄) :
    iprop(owns (c : Thread nD τ) arg3 fullShare a ∗ owns (c : Thread nD τ) arg4 fullShare b ∗ owns (c : Thread nD τ) arg5 fullShare o ∗ (∃ d, owns (c : Thread nD τ) arg6 fullShare d)
        ∗ (iprop(owns (c : Thread nD τ) arg3 fullShare a ∗ owns (c : Thread nD τ) arg4 fullShare b ∗ owns (c : Thread nD τ) arg5 fullShare o
            ∗ owns (c : Thread nD τ) arg6 fullShare (k1_pay2 (k1_pay1 (F := F)) a b)) -∗ K ⟨⟩))
      ⊢ wp frame (wpE (defs₀ (F := F)) Variants.none c none) E (cc1__matmul_bf16_kernel i arg3 harg3 arg4 harg4 arg5 harg5 arg6 harg6) K := by
  simp only [cc1__matmul_bf16_kernel_eq_skeleton]; unfold cc1__matmul_bf16_kernel_skel
  unfold owns
  iintro ⟨⟨%f0, %hf0, H0⟩, ⟨%f1, %hf1, H1⟩, ⟨%f2, %hf2, H2⟩, ⟨%ds0, %fs0, -, HS0⟩, Hk⟩
  obtain rfl := harg3.eq_unread hf0; obtain rfl := harg4.eq_unread hf1; obtain rfl := harg5.eq_unread hf2
  sl_exec (disch := first | exact hc0 | exact hc1)
  sl_step
  sl_unfold_run_names
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS0
  ipureintro
  rw [View.read_writes_eq_canon _ _ _ (fun y => ⟨_, List.mem_cons_self, View.mem_set_unit_zero hz2 inb_S512x512_S512x512_0_0 y⟩),
    View.canon_cons_unit_zero hz2, View.readCov_unit_zero _ hz2]
  simp only [View.readAt_eq_ld, harg3.read_unread, harg4.read_unread, View.ld_unit_zero (S := S512x1024) hz2, View.ld_unit_zero (S := S1024x512) hz2]

set_option maxHeartbeats 1000000 in
/-- The body at k = 1: the accumulator, at what k = 0 left (acc), ends at acc + a·b, and so does the output block,
    whatever it held. -/
theorem run1_last (c : Dev nD) (i : grid1.Coords) (arg3 : Memref sig .tc .vmem S512x1024 .bf16) (harg3 : arg3.IsWhole) (arg4 : Memref sig .tc .vmem S1024x512 .bf16) (harg4 : arg4.IsWhole) (arg5 : Memref sig .tc .vmem S512x512 .f32) (harg5 : arg5.IsWhole) (arg6 : Memref sig .tc .vmem S512x512 .f32) (harg6 : arg6.IsWhole)
    (hc0 : ¬cond1_0 i) (hc1 : cond1_1 i)
    (a : Vec F S512x1024 .bf16) (b : Vec F S1024x512 .bf16) (acc : Vec F S512x512 .f32) (E : Set ℕ) (K : PUnit → sProp 𝕄) :
    iprop(owns (c : Thread nD τ) arg3 fullShare a ∗ owns (c : Thread nD τ) arg4 fullShare b ∗ (∃ d, owns (c : Thread nD τ) arg5 fullShare d) ∗ owns (c : Thread nD τ) arg6 fullShare acc
        ∗ (iprop(owns (c : Thread nD τ) arg3 fullShare a ∗ owns (c : Thread nD τ) arg4 fullShare b ∗ owns (c : Thread nD τ) arg5 fullShare (k1_pay2 acc a b)
            ∗ owns (c : Thread nD τ) arg6 fullShare (k1_pay2 acc a b)) -∗ K ⟨⟩))
      ⊢ wp frame (wpE (defs₀ (F := F)) Variants.none c none) E (cc1__matmul_bf16_kernel i arg3 harg3 arg4 harg4 arg5 harg5 arg6 harg6) K := by
  simp only [cc1__matmul_bf16_kernel_eq_skeleton]; unfold cc1__matmul_bf16_kernel_skel
  unfold owns
  iintro ⟨⟨%f0, %hf0, H0⟩, ⟨%f1, %hf1, H1⟩, ⟨%d2, %f2, -, H2⟩, ⟨%fs0, %hfs0, HS0⟩, Hk⟩
  obtain rfl := harg3.eq_unread hf0; obtain rfl := harg4.eq_unread hf1; obtain rfl := harg6.eq_unread hfs0
  sl_exec (disch := first | exact hc0 | exact hc1)
  sl_step
  sl_unfold_run_names
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    rw [View.read_writes_eq_canon _ _ _ (fun y => ⟨_, List.mem_cons_self, View.mem_set_unit_zero hz2 inb_S512x512_S512x512_0_0 y⟩),
      View.canon_unit_zero hz2, View.readCov_unit_zero _ hz2]
    simp only [View.readAt_eq_ld, harg3.read_unread, harg4.read_unread, harg6.read_unread, View.ld_unit_zero (S := S512x1024) hz2, View.ld_unit_zero (S := S1024x512) hz2, View.ld_unit_zero (S := S512x512) hz2]
  iexists _; isplitr
  swap; · iexact HS0
  ipureintro
  rw [View.read_writes_eq_canon _ _ _ (fun y => ⟨_, List.mem_cons_self, View.mem_set_unit_zero hz2 inb_S512x512_S512x512_0_0 y⟩),
    View.canon_unit_zero hz2]
  simp only [View.readAt_eq_ld, harg3.read_unread, harg4.read_unread, harg6.read_unread, View.ld_unit_zero (S := S512x1024) hz2, View.ld_unit_zero (S := S1024x512) hz2, View.ld_unit_zero (S := S512x512) hz2]

end Cert.Kernel.Hand
end
-- ==== Proof.K.Reg1.lean ====
import proofs.«141637_j39676907881857_2_alg».proof.Proof.K.Run1

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

-- the TensorCore's buffer contents when the region is entered
variable (V : (c : Dev nD) → (b : Ref sig .tc) → Buf (Elt F) ((c : Thread nD τ).loc b))

/-! ## Region 1's proof data: what every staging buffer and the accumulator hold after each grid point -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after the body at position n: at an even position (k = 0) the zero fill plus the product of the
    point's two operand blocks, at an odd one (k = 1) what the position before left plus the product of the point's. -/
def acc1 (c : Dev nD) : (n : ℕ) → n < cfg1.N → Vec F S512x512 .f32
  | 0, h => k1_pay2 (k1_pay1 (F := F)) (iblk1 V c 0 ⟨0, h⟩) (iblk1 V c 1 ⟨0, h⟩)
  | n + 1, h =>
    if (n + 1) % 2 = 0 then k1_pay2 (k1_pay1 (F := F)) (iblk1 V c 0 ⟨n + 1, h⟩) (iblk1 V c 1 ⟨n + 1, h⟩)
    else k1_pay2 (acc1 c n (Nat.lt_of_succ_lt h)) (iblk1 V c 0 ⟨n + 1, h⟩) (iblk1 V c 1 ⟨n + 1, h⟩)

theorem acc1_even (c : Dev nD) (t : Fin cfg1.N) (h : t.val % 2 = 0) :
    acc1 V c t.val t.isLt = k1_pay2 (k1_pay1 (F := F)) (iblk1 V c 0 t) (iblk1 V c 1 t) := by
  obtain ⟨n, hn⟩ := t
  cases n with
  | zero => rfl
  | succ n => exact if_pos h

theorem acc1_odd (c : Dev nD) (t : Fin cfg1.N) (h : t.val % 2 = 1) :
    acc1 V c t.val t.isLt = k1_pay2 (acc1 V c (t.val - 1) (Nat.lt_of_le_of_lt (Nat.sub_le _ _) t.isLt)) (iblk1 V c 0 t) (iblk1 V c 1 t) := by
  obtain ⟨n, hn⟩ := t
  cases n with
  | zero => exact absurd h (by dsimp only; omega)
  | succ n => exact if_neg (by dsimp only at h; omega)

/-- The kernel's accumulator: a whole scoped buffer of its own. -/
abbrev scM1 : Memref sig .tc .vmem S512x512 .f32 := Memref.whole cc1_scratch0

/-- The region's invariant before position n: at the start the scoped rest at anything and the generator register;
    afterwards the same with the accumulator at what the position before left. -/
def Phi1 (c : Dev nD) : (n : ℕ) → n ≤ cfg1.N → sProp 𝕄
  | 0, _ => Pipeline.ΦA spec1 c
  | n + 1, hn => iprop(iprop(owns (c : Thread nD τ) scM1 fullShare (acc1 V c n hn)
      ∗ Pipeline.scopedRestBut (Ix := Unit) (Name := ℕ) (U := UR sig nD τ) (Lvl := ℕ) (Val := Elt F) spec1 c [cc1_scratch0]) ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(iprop(owns (c : Thread nD τ) scM1 fullShare (acc1 V c n hn)
      ∗ Pipeline.scopedRestBut (Ix := Unit) (Name := ℕ) (U := UR sig nD τ) (Lvl := ℕ) (Val := Elt F) spec1 c [cc1_scratch0]) ∗ (∃ r, prngReg c r)) := rfl

theorem Phi1_pos (c : Dev nD) (n : ℕ) (h : n ≤ cfg1.N) (hz : n ≠ 0) :
    Phi1 V c n h = iprop(iprop(owns (c : Thread nD τ) scM1 fullShare (acc1 V c (n - 1) (by omega))
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-- The class invariant with the accumulator split out of the scoped rest, owned at some contents. -/
theorem PhiA1_eq (c : Dev nD) :
    (Pipeline.ΦA spec1 c : sProp 𝕄)
      = iprop(iprop((∃ d, owns (c : Thread nD τ) scM1 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; rfl

/-- The proof data of pipeline 1 on core c: the arrays as the region finds them; after the body at point t each
    operand's buffer at its block and the output's at the accumulator (a placeholder at the even points, where the
    output is idle); the invariant Phi1; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

/-- Each operand's current staging buffer holds its block at every point. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- At the even points (k = 0) the output window is idle and not written back. -/
theorem idleAt1_2 : ∀ t : Fin cfg1.N, t.val % 2 = 0 → cfg1.idle 2 (grid1.coords t) = true := by decide +kernel
theorem noFlush1_2 : ∀ t : Fin cfg1.N, t.val % 2 = 0 → (cfg1.win 2).flush t = false := by decide +kernel
/-- At the odd points (k = 1) it is live. -/
theorem liveAt1_2 : ∀ t : Fin cfg1.N, t.val % 2 = 1 → cfg1.idle 2 (grid1.coords t) = false := by decide +kernel

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 2000000 in
/-- The body at any point: the operands' memrefs hold their blocks; at an even point the first run applies (the
    accumulator handed over at anything or at what the point before left, forgotten), at an odd point the second (the
    accumulator at what the even point before left); the invariant takes the accumulator back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  have hN : t.val < 32 := lt_of_lt_of_eq t.isLt (show cfg1.N = 32 from N_1)
  by_cases h0 : t.val % 2 = 0
  · have h1 : ¬ t.val % 2 = 1 := by omega
    rw [Dat.leavesExact_idle (dat1 V c) 2 t (idleAt1_2 t h0) (noFlush1_2 t h0)]
    rw [acc1_even V c t h0]
    by_cases hz : t.val = 0
    · rw [Phi1_castSucc V c t, Phi1_zero V c _ _ hz, PhiA1_eq]
      iintro ⟨⟨⟨HS, HB⟩, Hg⟩, Ho, ⟨%d0, H0⟩, ⟨%d1, H1⟩, ⟨%d2, H2⟩⟩
      iapply (run1_first c (grid1.coords t) _ _ _ _ _ _ _ _ ((hcond1_0 t).mpr h0) (fun h => h1 ((hcond1_1 t).mp h)) (iblk1 V c 0 t) (iblk1 V c 1 t) _ Set.univ _)
      isplitl [H0]; · iexact H0
      isplitl [H1]; · iexact H1
      isplitl [H2]; · iexact H2
      isplitl [HS]; · iexact HS
      iintro ⟨H0, H1, H2, HS⟩
      isplitl [HS HB Hg]
      · isplitl [HS HB]
        · isplitl [HS]; · iexact HS
          iexact HB
        iexact Hg
      isplitl [Ho]; · iexact Ho
      isplitl [H0]; · iexact H0
      isplitl [H1]; · iexact H1
      iexists _; iexact H2
    · rw [Phi1_castSucc V c t, Phi1_pos V c _ _ hz]
      iintro ⟨⟨⟨HS, HB⟩, Hg⟩, Ho, ⟨%d0, H0⟩, ⟨%d1, H1⟩, ⟨%d2, H2⟩⟩
      iapply (run1_first c (grid1.coords t) _ _ _ _ _ _ _ _ ((hcond1_0 t).mpr h0) (fun h => h1 ((hcond1_1 t).mp h)) (iblk1 V c 0 t) (iblk1 V c 1 t) _ Set.univ _)
      isplitl [H0]; · iexact H0
      isplitl [H1]; · iexact H1
      isplitl [H2]; · iexact H2
      isplitl [HS]; · iexists _; iexact HS
      iintro ⟨H0, H1, H2, HS⟩
      isplitl [HS HB Hg]
      · isplitl [HS HB]
        · isplitl [HS]; · iexact HS
          iexact HB
        iexact Hg
      isplitl [Ho]; · iexact Ho
      isplitl [H0]; · iexact H0
      isplitl [H1]; · iexact H1
      iexists _; iexact H2
  · have h1 : t.val % 2 = 1 := by omega
    have hz : t.val ≠ 0 := by omega
    rw [show (dat1 V c).leavesExact 2 t = owns (c : Thread nD τ) (st1_2 t) fullShare ((dat1 V c).after 2 t) from by
      unfold Dat.leavesExact; rw [liveAt1_2 t h1], after1_2]
    rw [acc1_odd V c t h1]
    rw [Phi1_castSucc V c t, Phi1_pos V c _ _ hz]
    iintro ⟨⟨⟨HS, HB⟩, Hg⟩, Ho, ⟨%d0, H0⟩, ⟨%d1, H1⟩, ⟨%d2, H2⟩⟩
    iapply (run1_last c (grid1.coords t) _ _ _ _ _ _ _ _ (fun h => h0 ((hcond1_0 t).mp h)) ((hcond1_1 t).mpr h1) (iblk1 V c 0 t) (iblk1 V c 1 t) _ Set.univ _)
    isplitl [H0]; · iexact H0
    isplitl [H1]; · iexact H1
    isplitl [H2]; · iexists _; iexact H2
    isplitl [HS]; · iexact HS
    iintro ⟨H0, H1, H2, HS⟩
    isplitl [HS HB Hg]
    · isplitl [HS HB]
      · isplitl [HS]; · iexact HS
        iexact HB
      iexact Hg
    isplitl [Ho]; · iexact Ho
    isplitl [H0]; · iexact H0
    isplitl [H1]; · iexact H1
    iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- After the last point the invariant gives the class invariant back: the accumulator's contents are forgotten. -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 32 := N_1; omega), PhiA1_eq]
  iintro ⟨⟨HS, HB⟩, Hg⟩
  isplitl [HS HB]
  · isplitl [HS]; · iexists _; iexact HS
    iexact HB
  iexact Hg

end Region1

end Cert.Kernel.Hand
end
-- ==== Proof.K.Run2.lean ====
import proofs.«141637_j39676907881857_2_alg».proof.Proof.K.Base

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 2: the third matrix product (w3 w3), the same body as region 0's; both operand windows are blocks of ONE array. The grid is 4 × 4 × 2: the last coordinate k runs over the two halves of the
    contracted axis. At k = 0 the body zeroes its accumulator and adds the first half's product; at k = 1 it adds the
    second half's and copies the accumulator to the output block. -/

/-- The body's first branch: k = 0. -/
abbrev cond2_0 (i : grid2.Coords) : Prop := (Scalar.cmpi .ne (Scalar.extui (Scalar.cmpi .eq (BitVec.ofNat 32 (i 2).val) 0#32)) 0#32) = 1#1
/-- The body's second branch: k = 1, the last. -/
abbrev cond2_1 (i : grid2.Coords) : Prop := k2_cond2 i = 1#1

theorem hcond2_0 : ∀ t : Fin cfg2.N, cond2_0 (grid2.coords t) ↔ t.val % 2 = 0 :=
  (by decide +kernel : ∀ t : Fin grid2.N, cond2_0 (grid2.coords t) ↔ t.val % 2 = 0)
theorem hcond2_1 : ∀ t : Fin cfg2.N, cond2_1 (grid2.coords t) ↔ t.val % 2 = 1 :=
  (by decide +kernel : ∀ t : Fin grid2.N, cond2_1 (grid2.coords t) ↔ t.val % 2 = 1)

set_option maxHeartbeats 1000000 in
/-- The body at k = 0 on whole memrefs: the operand blocks a, b are kept, the output block is not touched, and the
    accumulator, whatever it held, ends at 0 + a·b (the payload of the zero fill put through the accumulation's). -/
theorem run2_first (c : Dev nD) (i : grid2.Coords) (arg3 : Memref sig .tc .vmem S512x1024 .bf16) (harg3 : arg3.IsWhole) (arg4 : Memref sig .tc .vmem S1024x512 .bf16) (harg4 : arg4.IsWhole) (arg5 : Memref sig .tc .vmem S512x512 .f32) (harg5 : arg5.IsWhole) (arg6 : Memref sig .tc .vmem S512x512 .f32) (harg6 : arg6.IsWhole)
    (hc0 : cond2_0 i) (hc1 : ¬cond2_1 i)
    (a : Vec F S512x1024 .bf16) (b : Vec F S1024x512 .bf16) (o : Vec F S512x512 .f32) (E : Set ℕ) (K : PUnit → sProp 𝕄) :
    iprop(owns (c : Thread nD τ) arg3 fullShare a ∗ owns (c : Thread nD τ) arg4 fullShare b ∗ owns (c : Thread nD τ) arg5 fullShare o ∗ (∃ d, owns (c : Thread nD τ) arg6 fullShare d)
        ∗ (iprop(owns (c : Thread nD τ) arg3 fullShare a ∗ owns (c : Thread nD τ) arg4 fullShare b ∗ owns (c : Thread nD τ) arg5 fullShare o
            ∗ owns (c : Thread nD τ) arg6 fullShare (k2_pay2 (k2_pay1 (F := F)) a b)) -∗ K ⟨⟩))
      ⊢ wp frame (wpE (defs₀ (F := F)) Variants.none c none) E (cc2__matmul_bf16_kernel i arg3 harg3 arg4 harg4 arg5 harg5 arg6 harg6) K := by
  simp only [cc2__matmul_bf16_kernel_eq_skeleton]; unfold cc2__matmul_bf16_kernel_skel
  unfold owns
  iintro ⟨⟨%f0, %hf0, H0⟩, ⟨%f1, %hf1, H1⟩, ⟨%f2, %hf2, H2⟩, ⟨%ds0, %fs0, -, HS0⟩, Hk⟩
  obtain rfl := harg3.eq_unread hf0; obtain rfl := harg4.eq_unread hf1; obtain rfl := harg5.eq_unread hf2
  sl_exec (disch := first | exact hc0 | exact hc1)
  sl_step
  sl_unfold_run_names
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS0
  ipureintro
  rw [View.read_writes_eq_canon _ _ _ (fun y => ⟨_, List.mem_cons_self, View.mem_set_unit_zero hz2 inb_S512x512_S512x512_0_0 y⟩),
    View.canon_cons_unit_zero hz2, View.readCov_unit_zero _ hz2]
  simp only [View.readAt_eq_ld, harg3.read_unread, harg4.read_unread, View.ld_unit_zero (S := S512x1024) hz2, View.ld_unit_zero (S := S1024x512) hz2]

set_option maxHeartbeats 1000000 in
/-- The body at k = 1: the accumulator, at what k = 0 left (acc), ends at acc + a·b, and so does the output block,
    whatever it held. -/
theorem run2_last (c : Dev nD) (i : grid2.Coords) (arg3 : Memref sig .tc .vmem S512x1024 .bf16) (harg3 : arg3.IsWhole) (arg4 : Memref sig .tc .vmem S1024x512 .bf16) (harg4 : arg4.IsWhole) (arg5 : Memref sig .tc .vmem S512x512 .f32) (harg5 : arg5.IsWhole) (arg6 : Memref sig .tc .vmem S512x512 .f32) (harg6 : arg6.IsWhole)
    (hc0 : ¬cond2_0 i) (hc1 : cond2_1 i)
    (a : Vec F S512x1024 .bf16) (b : Vec F S1024x512 .bf16) (acc : Vec F S512x512 .f32) (E : Set ℕ) (K : PUnit → sProp 𝕄) :
    iprop(owns (c : Thread nD τ) arg3 fullShare a ∗ owns (c : Thread nD τ) arg4 fullShare b ∗ (∃ d, owns (c : Thread nD τ) arg5 fullShare d) ∗ owns (c : Thread nD τ) arg6 fullShare acc
        ∗ (iprop(owns (c : Thread nD τ) arg3 fullShare a ∗ owns (c : Thread nD τ) arg4 fullShare b ∗ owns (c : Thread nD τ) arg5 fullShare (k2_pay2 acc a b)
            ∗ owns (c : Thread nD τ) arg6 fullShare (k2_pay2 acc a b)) -∗ K ⟨⟩))
      ⊢ wp frame (wpE (defs₀ (F := F)) Variants.none c none) E (cc2__matmul_bf16_kernel i arg3 harg3 arg4 harg4 arg5 harg5 arg6 harg6) K := by
  simp only [cc2__matmul_bf16_kernel_eq_skeleton]; unfold cc2__matmul_bf16_kernel_skel
  unfold owns
  iintro ⟨⟨%f0, %hf0, H0⟩, ⟨%f1, %hf1, H1⟩, ⟨%d2, %f2, -, H2⟩, ⟨%fs0, %hfs0, HS0⟩, Hk⟩
  obtain rfl := harg3.eq_unread hf0; obtain rfl := harg4.eq_unread hf1; obtain rfl := harg6.eq_unread hfs0
  sl_exec (disch := first | exact hc0 | exact hc1)
  sl_step
  sl_unfold_run_names
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    rw [View.read_writes_eq_canon _ _ _ (fun y => ⟨_, List.mem_cons_self, View.mem_set_unit_zero hz2 inb_S512x512_S512x512_0_0 y⟩),
      View.canon_unit_zero hz2, View.readCov_unit_zero _ hz2]
    simp only [View.readAt_eq_ld, harg3.read_unread, harg4.read_unread, harg6.read_unread, View.ld_unit_zero (S := S512x1024) hz2, View.ld_unit_zero (S := S1024x512) hz2, View.ld_unit_zero (S := S512x512) hz2]
  iexists _; isplitr
  swap; · iexact HS0
  ipureintro
  rw [View.read_writes_eq_canon _ _ _ (fun y => ⟨_, List.mem_cons_self, View.mem_set_unit_zero hz2 inb_S512x512_S512x512_0_0 y⟩),
    View.canon_unit_zero hz2]
  simp only [View.readAt_eq_ld, harg3.read_unread, harg4.read_unread, harg6.read_unread, View.ld_unit_zero (S := S512x1024) hz2, View.ld_unit_zero (S := S1024x512) hz2, View.ld_unit_zero (S := S512x512) hz2]

end Cert.Kernel.Hand
end
-- ==== Proof.K.Reg2.lean ====
import proofs.«141637_j39676907881857_2_alg».proof.Proof.K.Run2

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

-- the TensorCore's buffer contents when the region is entered
variable (V : (c : Dev nD) → (b : Ref sig .tc) → Buf (Elt F) ((c : Thread nD τ).loc b))

/-! ## Region 2's proof data: what every staging buffer and the accumulator hold after each grid point -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator after the body at position n: at an even position (k = 0) the zero fill plus the product of the
    point's two operand blocks, at an odd one (k = 1) what the position before left plus the product of the point's. -/
def acc2 (c : Dev nD) : (n : ℕ) → n < cfg2.N → Vec F S512x512 .f32
  | 0, h => k2_pay2 (k2_pay1 (F := F)) (iblk2 V c 0 ⟨0, h⟩) (iblk2 V c 1 ⟨0, h⟩)
  | n + 1, h =>
    if (n + 1) % 2 = 0 then k2_pay2 (k2_pay1 (F := F)) (iblk2 V c 0 ⟨n + 1, h⟩) (iblk2 V c 1 ⟨n + 1, h⟩)
    else k2_pay2 (acc2 c n (Nat.lt_of_succ_lt h)) (iblk2 V c 0 ⟨n + 1, h⟩) (iblk2 V c 1 ⟨n + 1, h⟩)

theorem acc2_even (c : Dev nD) (t : Fin cfg2.N) (h : t.val % 2 = 0) :
    acc2 V c t.val t.isLt = k2_pay2 (k2_pay1 (F := F)) (iblk2 V c 0 t) (iblk2 V c 1 t) := by
  obtain ⟨n, hn⟩ := t
  cases n with
  | zero => rfl
  | succ n => exact if_pos h

theorem acc2_odd (c : Dev nD) (t : Fin cfg2.N) (h : t.val % 2 = 1) :
    acc2 V c t.val t.isLt = k2_pay2 (acc2 V c (t.val - 1) (Nat.lt_of_le_of_lt (Nat.sub_le _ _) t.isLt)) (iblk2 V c 0 t) (iblk2 V c 1 t) := by
  obtain ⟨n, hn⟩ := t
  cases n with
  | zero => exact absurd h (by dsimp only; omega)
  | succ n => exact if_neg (by dsimp only at h; omega)

/-- The kernel's accumulator: a whole scoped buffer of its own. -/
abbrev scM2 : Memref sig .tc .vmem S512x512 .f32 := Memref.whole cc2_scratch0

/-- The region's invariant before position n: at the start the scoped rest at anything and the generator register;
    afterwards the same with the accumulator at what the position before left. -/
def Phi2 (c : Dev nD) : (n : ℕ) → n ≤ cfg2.N → sProp 𝕄
  | 0, _ => Pipeline.ΦA spec2 c
  | n + 1, hn => iprop(iprop(owns (c : Thread nD τ) scM2 fullShare (acc2 V c n hn)
      ∗ Pipeline.scopedRestBut (Ix := Unit) (Name := ℕ) (U := UR sig nD τ) (Lvl := ℕ) (Val := Elt F) spec2 c [cc2_scratch0]) ∗ (∃ r, prngReg c r))

theorem Phi2_zero (c : Dev nD) (n : ℕ) (h : n ≤ cfg2.N) (hz : n = 0) : Phi2 V c n h = Pipeline.ΦA spec2 c := by
  subst hz; rfl

theorem Phi2_succ (c : Dev nD) (n : ℕ) (hn : n < cfg2.N) :
    Phi2 V c (n + 1) hn = iprop(iprop(owns (c : Thread nD τ) scM2 fullShare (acc2 V c n hn)
      ∗ Pipeline.scopedRestBut (Ix := Unit) (Name := ℕ) (U := UR sig nD τ) (Lvl := ℕ) (Val := Elt F) spec2 c [cc2_scratch0]) ∗ (∃ r, prngReg c r)) := rfl

theorem Phi2_pos (c : Dev nD) (n : ℕ) (h : n ≤ cfg2.N) (hz : n ≠ 0) :
    Phi2 V c n h = iprop(iprop(owns (c : Thread nD τ) scM2 fullShare (acc2 V c (n - 1) (by omega))
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-- The class invariant with the accumulator split out of the scoped rest, owned at some contents. -/
theorem PhiA2_eq (c : Dev nD) :
    (Pipeline.ΦA spec2 c : sProp 𝕄)
      = iprop(iprop((∃ d, owns (c : Thread nD τ) scM2 fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; rfl

/-- The proof data of pipeline 2 on core c: the arrays as the region finds them; after the body at point t each
    operand's buffer at its block and the output's at the accumulator (a placeholder at the even points, where the
    output is idle); the invariant Phi2; nothing owed; the two operand windows, which read ONE array, hold a half of it each. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t.val t.isLt
  Φ t := Phi2 V c t.val (Nat.le_of_lt_succ t.isLt)
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]

theorem Phi2_castSucc (c : Dev nD) (t : Fin cfg2.N) :
    (dat2 V c).Φ t.castSucc = Phi2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = acc2 V c t.val t.isLt := by dsimp only [dat2]

/-- Each operand's current staging buffer holds its block at every point. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
/-- At the even points (k = 0) the output window is idle and not written back. -/
theorem idleAt2_2 : ∀ t : Fin cfg2.N, t.val % 2 = 0 → cfg2.idle 2 (grid2.coords t) = true := by decide +kernel
theorem noFlush2_2 : ∀ t : Fin cfg2.N, t.val % 2 = 0 → (cfg2.win 2).flush t = false := by decide +kernel
/-- At the odd points (k = 1) it is live. -/
theorem liveAt2_2 : ∀ t : Fin cfg2.N, t.val % 2 = 1 → cfg2.idle 2 (grid2.coords t) = false := by decide +kernel

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 2000000 in
/-- The body at any point: the operands' memrefs hold their blocks; at an even point the first run applies (the
    accumulator handed over at anything or at what the point before left, forgotten), at an odd point the second (the
    accumulator at what the even point before left); the invariant takes the accumulator back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = Phi2 V c (t.val + 1) t.isLt from rfl, Phi2_succ]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  have hN : t.val < 32 := lt_of_lt_of_eq t.isLt (show cfg2.N = 32 from N_2)
  by_cases h0 : t.val % 2 = 0
  · have h1 : ¬ t.val % 2 = 1 := by omega
    rw [Dat.leavesExact_idle (dat2 V c) 2 t (idleAt2_2 t h0) (noFlush2_2 t h0)]
    rw [acc2_even V c t h0]
    by_cases hz : t.val = 0
    · rw [Phi2_castSucc V c t, Phi2_zero V c _ _ hz, PhiA2_eq]
      iintro ⟨⟨⟨HS, HB⟩, Hg⟩, Ho, ⟨%d0, H0⟩, ⟨%d1, H1⟩, ⟨%d2, H2⟩⟩
      iapply (run2_first c (grid2.coords t) _ _ _ _ _ _ _ _ ((hcond2_0 t).mpr h0) (fun h => h1 ((hcond2_1 t).mp h)) (iblk2 V c 0 t) (iblk2 V c 1 t) _ Set.univ _)
      isplitl [H0]; · iexact H0
      isplitl [H1]; · iexact H1
      isplitl [H2]; · iexact H2
      isplitl [HS]; · iexact HS
      iintro ⟨H0, H1, H2, HS⟩
      isplitl [HS HB Hg]
      · isplitl [HS HB]
        · isplitl [HS]; · iexact HS
          iexact HB
        iexact Hg
      isplitl [Ho]; · iexact Ho
      isplitl [H0]; · iexact H0
      isplitl [H1]; · iexact H1
      iexists _; iexact H2
    · rw [Phi2_castSucc V c t, Phi2_pos V c _ _ hz]
      iintro ⟨⟨⟨HS, HB⟩, Hg⟩, Ho, ⟨%d0, H0⟩, ⟨%d1, H1⟩, ⟨%d2, H2⟩⟩
      iapply (run2_first c (grid2.coords t) _ _ _ _ _ _ _ _ ((hcond2_0 t).mpr h0) (fun h => h1 ((hcond2_1 t).mp h)) (iblk2 V c 0 t) (iblk2 V c 1 t) _ Set.univ _)
      isplitl [H0]; · iexact H0
      isplitl [H1]; · iexact H1
      isplitl [H2]; · iexact H2
      isplitl [HS]; · iexists _; iexact HS
      iintro ⟨H0, H1, H2, HS⟩
      isplitl [HS HB Hg]
      · isplitl [HS HB]
        · isplitl [HS]; · iexact HS
          iexact HB
        iexact Hg
      isplitl [Ho]; · iexact Ho
      isplitl [H0]; · iexact H0
      isplitl [H1]; · iexact H1
      iexists _; iexact H2
  · have h1 : t.val % 2 = 1 := by omega
    have hz : t.val ≠ 0 := by omega
    rw [show (dat2 V c).leavesExact 2 t = owns (c : Thread nD τ) (st2_2 t) fullShare ((dat2 V c).after 2 t) from by
      unfold Dat.leavesExact; rw [liveAt2_2 t h1], after2_2]
    rw [acc2_odd V c t h1]
    rw [Phi2_castSucc V c t, Phi2_pos V c _ _ hz]
    iintro ⟨⟨⟨HS, HB⟩, Hg⟩, Ho, ⟨%d0, H0⟩, ⟨%d1, H1⟩, ⟨%d2, H2⟩⟩
    iapply (run2_last c (grid2.coords t) _ _ _ _ _ _ _ _ (fun h => h0 ((hcond2_0 t).mp h)) ((hcond2_1 t).mpr h1) (iblk2 V c 0 t) (iblk2 V c 1 t) _ Set.univ _)
    isplitl [H0]; · iexact H0
    isplitl [H1]; · iexact H1
    isplitl [H2]; · iexists _; iexact H2
    isplitl [HS]; · iexact HS
    iintro ⟨H0, H1, H2, HS⟩
    isplitl [HS HB Hg]
    · isplitl [HS HB]
      · isplitl [HS]; · iexact HS
        iexact HB
      iexact Hg
    isplitl [Ho]; · iexact Ho
    isplitl [H0]; · iexact H0
    isplitl [H1]; · iexact H1
    iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = Phi2 V c 0 (Nat.zero_le _) from rfl, Phi2_zero V c 0 _ rfl]
  try exact Idealize.SL.BI.Entails.refl _

/-- After the last point the invariant gives the class invariant back: the accumulator's contents are forgotten. -/
theorem hout2 (c : Dev nD) : (dat2 V c).Φ (Fin.last cfg2.N) ⊢ Pipeline.ΦA spec2 c := by
  rw [show (dat2 V c).Φ (Fin.last cfg2.N) = Phi2 V c (Fin.last cfg2.N).val (Nat.le_of_lt_succ (Fin.last cfg2.N).isLt) from rfl,
    Phi2_pos V c _ _ (by rw [Fin.val_last]; have : cfg2.N = 32 := N_2; omega), PhiA2_eq]
  iintro ⟨⟨HS, HB⟩, Hg⟩
  isplitl [HS HB]
  · isplitl [HS]; · iexists _; iexact HS
    iexact HB
  iexact Hg

end Region2

end Cert.Kernel.Hand
end
-- ==== Proof.K.ChainA.lean ====
import proofs.«141637_j39676907881857_2_alg».proof.Proof.K.Reg0
import proofs.«141637_j39676907881857_2_alg».proof.Proof.K.Reg1
import proofs.«141637_j39676907881857_2_alg».proof.Proof.K.Reg2

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between the items of the program: a fold from the launch memory.
    Each region changes ONE buffer, its output array, to what its write-backs leave there. -/

/-- Core c's buffers at launch. -/
abbrev W0 (c : Dev nD) : Valuation τ sig (Elt F) := fun b => m (c, b)
/-- After the four casts to bf16 (region 0's entry). -/
abbrev W1 (c : Dev nD) : Valuation τ sig (Elt F) := StableHlo.after hostOps0 (W0 m c)
/-- The same read at the TensorCore's references. -/
abbrev U1 (c : Dev nD) (b : Ref sig .tc) : Buf (Elt F) ((c : Thread nD τ).loc b) := W1 m c b

/-- After region 0: t1 = x w1 in main_v4. -/
def W2 (c : Dev nD) : Valuation τ sig (Elt F) := Function.update (W1 m c) main_v4 ((dat0 (U1 m) c).arrAt 2 cfg0.N)
abbrev U2 (c : Dev nD) (b : Ref sig .tc) : Buf (Elt F) ((c : Thread nD τ).loc b) := W2 m c b
theorem W2_out (c : Dev nD) : W2 m c (Proc.devRef .tc main_v4) = (dat0 (U1 m) c).arrAt 2 cfg0.N := by
  unfold W2; exact Function.update_self ..
theorem W2_of_ne (c : Dev nD) (r : Ref sig .tc) (h : r ≠ main_v4) : W2 m c (Proc.devRef .tc r) = W1 m c (Proc.devRef .tc r) := by
  unfold W2; exact Function.update_of_ne (StableHlo.devRef_ne_of_ne h) ..

/-- After region 1: t2 = x w2 in main_v5. -/
def W3 (c : Dev nD) : Valuation τ sig (Elt F) := Function.update (W2 m c) main_v5 ((dat1 (U2 m) c).arrAt 2 cfg1.N)
abbrev U3 (c : Dev nD) (b : Ref sig .tc) : Buf (Elt F) ((c : Thread nD τ).loc b) := W3 m c b
theorem W3_out (c : Dev nD) : W3 m c (Proc.devRef .tc main_v5) = (dat1 (U2 m) c).arrAt 2 cfg1.N := by
  unfold W3; exact Function.update_self ..
theorem W3_of_ne (c : Dev nD) (r : Ref sig .tc) (h : r ≠ main_v5) : W3 m c (Proc.devRef .tc r) = W2 m c (Proc.devRef .tc r) := by
  unfold W3; exact Function.update_of_ne (StableHlo.devRef_ne_of_ne h) ..

/-- After region 2: t3 = w3 w3 in main_v6. -/
def W4 (c : Dev nD) : Valuation τ sig (Elt F) := Function.update (W3 m c) main_v6 ((dat2 (U3 m) c).arrAt 2 cfg2.N)
abbrev U4 (c : Dev nD) (b : Ref sig .tc) : Buf (Elt F) ((c : Thread nD τ).loc b) := W4 m c b
theorem W4_out (c : Dev nD) : W4 m c (Proc.devRef .tc main_v6) = (dat2 (U3 m) c).arrAt 2 cfg2.N := by
  unfold W4; exact Function.update_self ..
theorem W4_of_ne (c : Dev nD) (r : Ref sig .tc) (h : r ≠ main_v6) : W4 m c (Proc.devRef .tc r) = W3 m c (Proc.devRef .tc r) := by
  unfold W4; exact Function.update_of_ne (StableHlo.devRef_ne_of_ne h) ..

/-- What rides beside the buffers through every item: the core's generator register at some state, and its owing
    nothing. -/
abbrev R (c : Dev nD) : sProp 𝕄 := iprop((∃ r, prngReg c r) ∗ ∃ W, owes (c : Thread nD τ) (0 : CellTallies nD τ sig Unit) W)

abbrev 𝒱₀ : Variants := Variants.none
/-- No core owes another anything: no level is assigned. -/
abbrev L : GSem nD τ sig → Finset Unit := fun _ => ∅
abbrev lv : GSem nD τ sig → Unit → ℕ := fun _ _ => 0

end Cert.Kernel.Hand
end
-- ==== Proof.K.Run3.lean ====
import proofs.«141637_j39676907881857_2_alg».proof.Proof.K.Base

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 3: t6 = ((t1 ∘ w1) x) ∘ w1. The grid is 4 × 4 × 2: the last coordinate k runs over the two halves of the
    contracted axis. At k = 0 the body zeroes its accumulator and adds the first half's product (t1 ∘ w1) x; at k = 1 it
    adds the second half's and writes the accumulator times the w1 block to the output block. -/

/-- The body's first branch: k = 0. -/
abbrev cond3_0 (i : grid3.Coords) : Prop := (Scalar.cmpi .ne (Scalar.extui (Scalar.cmpi .eq (BitVec.ofNat 32 (i 2).val) 0#32)) 0#32) = 1#1
/-- The body's second branch: k = 1, the last. -/
abbrev cond3_1 (i : grid3.Coords) : Prop := k3_cond2 i = 1#1

theorem hcond3_0 : ∀ t : Fin cfg3.N, cond3_0 (grid3.coords t) ↔ t.val % 2 = 0 :=
  (by decide +kernel : ∀ t : Fin grid3.N, cond3_0 (grid3.coords t) ↔ t.val % 2 = 0)
theorem hcond3_1 : ∀ t : Fin cfg3.N, cond3_1 (grid3.coords t) ↔ t.val % 2 = 1 :=
  (by decide +kernel : ∀ t : Fin grid3.N, cond3_1 (grid3.coords t) ↔ t.val % 2 = 1)

set_option maxHeartbeats 1000000 in
/-- The body at k = 0 on whole memrefs: the operand blocks t1, w1, x and the closing step's w1 block are kept, the
    output block is not touched, and the accumulator, whatever it held, ends at 0 + (t1 ∘ w1)·x (the payload of the
    zero fill put through the accumulation's). -/
theorem run3_first (c : Dev nD) (i : grid3.Coords) (arg3 : Memref sig .tc .vmem S512x1024 .f32) (harg3 : arg3.IsWhole) (arg4 : Memref sig .tc .vmem S512x1024 .f32) (harg4 : arg4.IsWhole) (arg5 : Memref sig .tc .vmem S1024x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole)
    (hc0 : cond3_0 i) (hc1 : ¬cond3_1 i)
    (t1 w1 : Vec F S512x1024 .f32) (xin : Vec F S1024x512 .bf16) (we o : Vec F S512x512 .f32) (E : Set ℕ) (K : PUnit → sProp 𝕄) :
    iprop(owns (c : Thread nD τ) arg3 fullShare t1 ∗ owns (c : Thread nD τ) arg4 fullShare w1 ∗ owns (c : Thread nD τ) arg5 fullShare xin ∗ owns (c : Thread nD τ) arg6 fullShare we ∗ owns (c : Thread nD τ) arg7 fullShare o ∗ (∃ d, owns (c : Thread nD τ) arg8 fullShare d)
        ∗ (iprop(owns (c : Thread nD τ) arg3 fullShare t1 ∗ owns (c : Thread nD τ) arg4 fullShare w1 ∗ owns (c : Thread nD τ) arg5 fullShare xin ∗ owns (c : Thread nD τ) arg6 fullShare we ∗ owns (c : Thread nD τ) arg7 fullShare o
            ∗ owns (c : Thread nD τ) arg8 fullShare (k3_pay2 t1 w1 (k3_pay1 (F := F)) xin)) -∗ K ⟨⟩))
      ⊢ wp frame (wpE (defs₀ (F := F)) Variants.none c none) E (cc3__t6_kernel i arg3 harg3 arg4 harg4 arg5 harg5 arg6 harg6 arg7 harg7 arg8 harg8) K := by
  simp only [cc3__t6_kernel_eq_skeleton]; unfold cc3__t6_kernel_skel
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
  obtain rfl := harg3.eq_unread hf0; obtain rfl := harg4.eq_unread hf1; obtain rfl := harg5.eq_unread hf2
  obtain rfl := harg6.eq_unread hf3; obtain rfl := harg7.eq_unread hf4
  sl_exec (disch := first | exact hc0 | exact hc1)
  sl_step
  sl_unfold_run_names
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  iexists _; isplitr
  swap; · iexact HS0
  ipureintro
  rw [View.read_writes_eq_canon _ _ _ (fun y => ⟨_, List.mem_cons_self, View.mem_set_unit_zero hz2 inb_S512x512_S512x512_0_0 y⟩),
    View.canon_cons_unit_zero hz2, View.readCov_unit_zero _ hz2]
  simp only [View.readAt_eq_ld, harg3.read_unread, harg4.read_unread, harg5.read_unread, View.ld_unit_zero (S := S512x1024) hz2, View.ld_unit_zero (S := S1024x512) hz2]

set_option maxHeartbeats 1000000 in
/-- The body at k = 1: the accumulator, at what k = 0 left (acc), ends at acc + (t1 ∘ w1)·x, and the output block,
    whatever it held, ends at that sum times the w1 block. -/
theorem run3_last (c : Dev nD) (i : grid3.Coords) (arg3 : Memref sig .tc .vmem S512x1024 .f32) (harg3 : arg3.IsWhole) (arg4 : Memref sig .tc .vmem S512x1024 .f32) (harg4 : arg4.IsWhole) (arg5 : Memref sig .tc .vmem S1024x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole)
    (hc0 : ¬cond3_0 i) (hc1 : cond3_1 i)
    (t1 w1 : Vec F S512x1024 .f32) (xin : Vec F S1024x512 .bf16) (we acc : Vec F S512x512 .f32) (E : Set ℕ) (K : PUnit → sProp 𝕄) :
    iprop(owns (c : Thread nD τ) arg3 fullShare t1 ∗ owns (c : Thread nD τ) arg4 fullShare w1 ∗ owns (c : Thread nD τ) arg5 fullShare xin ∗ owns (c : Thread nD τ) arg6 fullShare we ∗ (∃ d, owns (c : Thread nD τ) arg7 fullShare d) ∗ owns (c : Thread nD τ) arg8 fullShare acc
        ∗ (iprop(owns (c : Thread nD τ) arg3 fullShare t1 ∗ owns (c : Thread nD τ) arg4 fullShare w1 ∗ owns (c : Thread nD τ) arg5 fullShare xin ∗ owns (c : Thread nD τ) arg6 fullShare we
            ∗ owns (c : Thread nD τ) arg7 fullShare (k3_pay3 (k3_pay2 t1 w1 acc xin) we)
            ∗ owns (c : Thread nD τ) arg8 fullShare (k3_pay2 t1 w1 acc xin)) -∗ K ⟨⟩))
      ⊢ wp frame (wpE (defs₀ (F := F)) Variants.none c none) E (cc3__t6_kernel i arg3 harg3 arg4 harg4 arg5 harg5 arg6 harg6 arg7 harg7 arg8 harg8) K := by
  simp only [cc3__t6_kernel_eq_skeleton]; unfold cc3__t6_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
  obtain rfl := harg3.eq_unread hf0; obtain rfl := harg4.eq_unread hf1; obtain rfl := harg5.eq_unread hf2
  obtain rfl := harg6.eq_unread hf3; obtain rfl := harg8.eq_unread hfs0
  sl_exec (disch := first | exact hc0 | exact hc1)
  sl_step
  sl_unfold_run_names
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro
    rw [View.read_writes_eq_canon _ _ _ (fun y => ⟨_, List.mem_cons_self, View.mem_set_unit_zero hz2 inb_S512x512_S512x512_0_0 y⟩),
      View.canon_unit_zero hz2, View.readCov_unit_zero _ hz2]
    simp only [View.readAt_eq_ld, harg3.read_unread, harg4.read_unread, harg5.read_unread, harg6.read_unread, harg8.read_unread, View.ld_unit_zero (S := S512x1024) hz2, View.ld_unit_zero (S := S1024x512) hz2, View.ld_unit_zero (S := S512x512) hz2]
  iexists _; isplitr
  swap; · iexact HS0
  ipureintro
  rw [View.read_writes_eq_canon _ _ _ (fun y => ⟨_, List.mem_cons_self, View.mem_set_unit_zero hz2 inb_S512x512_S512x512_0_0 y⟩),
    View.canon_unit_zero hz2]
  simp only [View.readAt_eq_ld, harg3.read_unread, harg4.read_unread, harg5.read_unread, harg8.read_unread, View.ld_unit_zero (S := S512x1024) hz2, View.ld_unit_zero (S := S1024x512) hz2, View.ld_unit_zero (S := S512x512) hz2]

end Cert.Kernel.Hand
end
-- ==== Proof.K.Reg3.lean ====
import proofs.«141637_j39676907881857_2_alg».proof.Proof.K.Run3

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3

-- the TensorCore's buffer contents when the region is entered
variable (V : (c : Dev nD) → (b : Ref sig .tc) → Buf (Elt F) ((c : Thread nD τ).loc b))

/-! ## Region 3's proof data: what every staging buffer and the accumulator hold after each grid point -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The accumulator after the body at position n: at an even position (k = 0) the zero fill plus the product of the
    point's blocks (t1 ∘ w1) x, at an odd one (k = 1) what the position before left plus the product of the point's. -/
def acc3 (c : Dev nD) : (n : ℕ) → n < cfg3.N → Vec F S512x512 .f32
  | 0, h => k3_pay2 (iblk3 V c 0 ⟨0, h⟩) (iblk3 V c 1 ⟨0, h⟩) (k3_pay1 (F := F)) (iblk3 V c 2 ⟨0, h⟩)
  | n + 1, h =>
    if (n + 1) % 2 = 0 then k3_pay2 (iblk3 V c 0 ⟨n + 1, h⟩) (iblk3 V c 1 ⟨n + 1, h⟩) (k3_pay1 (F := F)) (iblk3 V c 2 ⟨n + 1, h⟩)
    else k3_pay2 (iblk3 V c 0 ⟨n + 1, h⟩) (iblk3 V c 1 ⟨n + 1, h⟩) (acc3 c n (Nat.lt_of_succ_lt h)) (iblk3 V c 2 ⟨n + 1, h⟩)

theorem acc3_even (c : Dev nD) (t : Fin cfg3.N) (h : t.val % 2 = 0) :
    acc3 V c t.val t.isLt = k3_pay2 (iblk3 V c 0 t) (iblk3 V c 1 t) (k3_pay1 (F := F)) (iblk3 V c 2 t) := by
  obtain ⟨n, hn⟩ := t
  cases n with
  | zero => rfl
  | succ n => exact if_pos h

theorem acc3_odd (c : Dev nD) (t : Fin cfg3.N) (h : t.val % 2 = 1) :
    acc3 V c t.val t.isLt = k3_pay2 (iblk3 V c 0 t) (iblk3 V c 1 t) (acc3 V c (t.val - 1) (Nat.lt_of_le_of_lt (Nat.sub_le _ _) t.isLt)) (iblk3 V c 2 t) := by
  obtain ⟨n, hn⟩ := t
  cases n with
  | zero => exact absurd h (by dsimp only; omega)
  | succ n => exact if_neg (by dsimp only at h; omega)

/-- The kernel's accumulator: a whole scoped buffer of its own. -/
abbrev scM3 : Memref sig .tc .vmem S512x512 .f32 := Memref.whole cc3_scratch0

/-- The region's invariant before position n: at the start the scoped rest at anything and the generator register;
    afterwards the same with the accumulator at what the position before left. -/
def Phi3 (c : Dev nD) : (n : ℕ) → n ≤ cfg3.N → sProp 𝕄
  | 0, _ => Pipeline.ΦA spec3 c
  | n + 1, hn => iprop(iprop(owns (c : Thread nD τ) scM3 fullShare (acc3 V c n hn)
      ∗ Pipeline.scopedRestBut (Ix := Unit) (Name := ℕ) (U := UR sig nD τ) (Lvl := ℕ) (Val := Elt F) spec3 c [cc3_scratch0]) ∗ (∃ r, prngReg c r))

theorem Phi3_zero (c : Dev nD) (n : ℕ) (h : n ≤ cfg3.N) (hz : n = 0) : Phi3 V c n h = Pipeline.ΦA spec3 c := by
  subst hz; rfl

theorem Phi3_succ (c : Dev nD) (n : ℕ) (hn : n < cfg3.N) :
    Phi3 V c (n + 1) hn = iprop(iprop(owns (c : Thread nD τ) scM3 fullShare (acc3 V c n hn)
      ∗ Pipeline.scopedRestBut (Ix := Unit) (Name := ℕ) (U := UR sig nD τ) (Lvl := ℕ) (Val := Elt F) spec3 c [cc3_scratch0]) ∗ (∃ r, prngReg c r)) := rfl

theorem Phi3_pos (c : Dev nD) (n : ℕ) (h : n ≤ cfg3.N) (hz : n ≠ 0) :
    Phi3 V c n h = iprop(iprop(owns (c : Thread nD τ) scM3 fullShare (acc3 V c (n - 1) (by omega))
      ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-- The class invariant with the accumulator split out of the scoped rest, owned at some contents. -/
theorem PhiA3_eq (c : Dev nD) :
    (Pipeline.ΦA spec3 c : sProp 𝕄)
      = iprop(iprop((∃ d, owns (c : Thread nD τ) scM3 fullShare d)
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; rfl

/-- The proof data of pipeline 3 on core c: the arrays as the region finds them; after the body at point t each
    input's buffer at its block and the output's at the accumulator times the closing step's w1 block (a placeholder at
    the even points, where the output is idle); the invariant Phi3; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => k3_pay3 (acc3 V c t.val t.isLt) (iblk3 V c 3 t)
  Φ t := Phi3 V c t.val (Nat.le_of_lt_succ t.isLt)
  q w := match w with
    | ⟨0, _⟩ => fullShare
    | ⟨1, _⟩ => fullShare.left
    | ⟨2, _⟩ => fullShare
    | ⟨3, _⟩ => fullShare.right
    | ⟨4, _⟩ => fullShare
  owed _ := 0

theorem A_eq3 (c : Dev nD) (w : Fin cfg3.W) : (dat3 V c).A w = V c (Pipeline.arrRef spec3 w) := by
  dsimp only [dat3]

theorem Phi3_castSucc (c : Dev nD) (t : Fin cfg3.N) :
    (dat3 V c).Φ t.castSucc = Phi3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = k3_pay3 (acc3 V c t.val t.isLt) (iblk3 V c 3 t) := by dsimp only [dat3]

/-- Each input's current staging buffer holds its block at every point, fetched there or not. -/
theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A_eq3]; try rfl) t d).trans
    (by unfold Dat.fetched Dat.blockOf iblk3; rw [A_eq3]; try rfl)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
/-- At the even points (k = 0) the output window is idle and not written back. -/
theorem idleAt3_4 : ∀ t : Fin cfg3.N, t.val % 2 = 0 → cfg3.idle 4 (grid3.coords t) = true := by decide +kernel
theorem noFlush3_4 : ∀ t : Fin cfg3.N, t.val % 2 = 0 → (cfg3.win 4).flush t = false := by decide +kernel
/-- At the odd points (k = 1) it is live. -/
theorem liveAt3_4 : ∀ t : Fin cfg3.N, t.val % 2 = 1 → cfg3.idle 4 (grid3.coords t) = false := by decide +kernel

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 4000000 in
/-- The body at any point: the inputs' memrefs hold their blocks; at an even point the first run applies (the
    accumulator handed over at anything or at what the point before left, forgotten), at an odd point the second (the
    accumulator at what the even point before left); the invariant takes the accumulator back at this point's contents. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = Phi3 V c (t.val + 1) t.isLt from rfl, Phi3_succ]
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  rw [show (dat3 V c).leavesExact 2 t = owns (c : Thread nD τ) (st3_2 t) fullShare ((dat3 V c).after 2 t) from by
    unfold Dat.leavesExact; rw [liveAt3_2 t], after3_2]
  rw [show (dat3 V c).leavesExact 3 t = owns (c : Thread nD τ) (st3_3 t) fullShare ((dat3 V c).after 3 t) from by
    unfold Dat.leavesExact; rw [liveAt3_3 t], after3_3]
  have hN : t.val < 32 := lt_of_lt_of_eq t.isLt (show cfg3.N = 32 from N_3)
  by_cases h0 : t.val % 2 = 0
  · have h1 : ¬ t.val % 2 = 1 := by omega
    rw [Dat.leavesExact_idle (dat3 V c) 4 t (idleAt3_4 t h0) (noFlush3_4 t h0)]
    rw [acc3_even V c t h0]
    by_cases hz : t.val = 0
    · rw [Phi3_castSucc V c t, Phi3_zero V c _ _ hz, PhiA3_eq]
      iintro ⟨⟨⟨HS, HB⟩, Hg⟩, Ho, ⟨%d0, H0⟩, ⟨%d1, H1⟩, ⟨%d2, H2⟩, ⟨%d3, H3⟩, ⟨%d4, H4⟩⟩
      iapply (run3_first c (grid3.coords t) _ _ _ _ _ _ _ _ _ _ _ _ ((hcond3_0 t).mpr h0) (fun h => h1 ((hcond3_1 t).mp h)) (iblk3 V c 0 t) (iblk3 V c 1 t) (iblk3 V c 2 t) (iblk3 V c 3 t) _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HB Hg]
      · isplitl [HS HB]
        · isplitl [HS]; · iexact HS
          iexact HB
        iexact Hg
      isplitl [Ho]; · iexact Ho
      isplitl [H0]; · iexact H0
      isplitl [H1]; · iexact H1
      isplitl [H2]; · iexact H2
      isplitl [H3]; · iexact H3
      iexists _; iexact H4
    · rw [Phi3_castSucc V c t, Phi3_pos V c _ _ hz]
      iintro ⟨⟨⟨HS, HB⟩, Hg⟩, Ho, ⟨%d0, H0⟩, ⟨%d1, H1⟩, ⟨%d2, H2⟩, ⟨%d3, H3⟩, ⟨%d4, H4⟩⟩
      iapply (run3_first c (grid3.coords t) _ _ _ _ _ _ _ _ _ _ _ _ ((hcond3_0 t).mpr h0) (fun h => h1 ((hcond3_1 t).mp h)) (iblk3 V c 0 t) (iblk3 V c 1 t) (iblk3 V c 2 t) (iblk3 V c 3 t) _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS HB Hg]
      · isplitl [HS HB]
        · isplitl [HS]; · iexact HS
          iexact HB
        iexact Hg
      isplitl [Ho]; · iexact Ho
      isplitl [H0]; · iexact H0
      isplitl [H1]; · iexact H1
      isplitl [H2]; · iexact H2
      isplitl [H3]; · iexact H3
      iexists _; iexact H4
  · have h1 : t.val % 2 = 1 := by omega
    have hz : t.val ≠ 0 := by omega
    rw [show (dat3 V c).leavesExact 4 t = owns (c : Thread nD τ) (st3_4 t) fullShare ((dat3 V c).after 4 t) from by
      unfold Dat.leavesExact; rw [liveAt3_4 t h1], after3_4]
    rw [acc3_odd V c t h1]
    rw [Phi3_castSucc V c t, Phi3_pos V c _ _ hz]
    iintro ⟨⟨⟨HS, HB⟩, Hg⟩, Ho, ⟨%d0, H0⟩, ⟨%d1, H1⟩, ⟨%d2, H2⟩, ⟨%d3, H3⟩, ⟨%d4, H4⟩⟩
    iapply (run3_last c (grid3.coords t) _ _ _ _ _ _ _ _ _ _ _ _ (fun h => h0 ((hcond3_0 t).mp h)) ((hcond3_1 t).mpr h1) (iblk3 V c 0 t) (iblk3 V c 1 t) (iblk3 V c 2 t) (iblk3 V c 3 t) _ Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS HB Hg]
    · isplitl [HS HB]
      · isplitl [HS]; · iexact HS
        iexact HB
      iexact Hg
    isplitl [Ho]; · iexact Ho
    isplitl [H0]; · iexact H0
    isplitl [H1]; · iexact H1
    isplitl [H2]; · iexact H2
    isplitl [H3]; · iexact H3
    iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = Phi3 V c 0 (Nat.zero_le _) from rfl, Phi3_zero V c 0 _ rfl]
  try exact Idealize.SL.BI.Entails.refl _

/-- After the last point the invariant gives the class invariant back: the accumulator's contents are forgotten. -/
theorem hout3 (c : Dev nD) : (dat3 V c).Φ (Fin.last cfg3.N) ⊢ Pipeline.ΦA spec3 c := by
  rw [show (dat3 V c).Φ (Fin.last cfg3.N) = Phi3 V c (Fin.last cfg3.N).val (Nat.le_of_lt_succ (Fin.last cfg3.N).isLt) from rfl,
    Phi3_pos V c _ _ (by rw [Fin.val_last]; have : cfg3.N = 32 := N_3; omega), PhiA3_eq]
  iintro ⟨⟨HS, HB⟩, Hg⟩
  isplitl [HS HB]
  · isplitl [HS]; · iexists _; iexact HS
    iexact HB
  iexact Hg

end Region3

end Cert.Kernel.Hand
end
-- ==== Proof.K.Run4.lean ====
import proofs.«141637_j39676907881857_2_alg».proof.Proof.K.Base

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 4: the product t1 x and the combination. The grid is 4 × 4 × 2: the last coordinate k runs over the two
    halves of the contracted axis. At k = 0 the body zeroes its accumulator and adds the first half's product t1 x; at
    k = 1 it adds the second half's and writes the combination of the accumulator (t1x) with the four blocks t1, t2, t3,
    t6 to the output block. -/

/-- The body's first branch: k = 0. -/
abbrev cond4_0 (i : grid4.Coords) : Prop := (Scalar.cmpi .ne (Scalar.extui (Scalar.cmpi .eq (BitVec.ofNat 32 (i 2).val) 0#32)) 0#32) = 1#1
/-- The body's second branch: k = 1, the last. -/
abbrev cond4_1 (i : grid4.Coords) : Prop := k4_cond2 i = 1#1

theorem hcond4_0 : ∀ t : Fin cfg4.N, cond4_0 (grid4.coords t) ↔ t.val % 2 = 0 :=
  (by decide +kernel : ∀ t : Fin grid4.N, cond4_0 (grid4.coords t) ↔ t.val % 2 = 0)
theorem hcond4_1 : ∀ t : Fin cfg4.N, cond4_1 (grid4.coords t) ↔ t.val % 2 = 1 :=
  (by decide +kernel : ∀ t : Fin grid4.N, cond4_1 (grid4.coords t) ↔ t.val % 2 = 1)

set_option maxHeartbeats 1000000 in
/-- The body at k = 0 on whole memrefs: the operand blocks t1 (as the product's left factor), x and the four blocks of
    the combination are kept, the output block is not touched, and the accumulator, whatever it held, ends at
    0 + t1·x (the payload of the zero fill put through the accumulation's). -/
theorem run4_first (c : Dev nD) (i : grid4.Coords) (arg3 : Memref sig .tc .vmem S512x1024 .f32) (harg3 : arg3.IsWhole) (arg4 : Memref sig .tc .vmem S1024x512 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole)
    (hc0 : cond4_0 i) (hc1 : ¬cond4_1 i)
    (t1a : Vec F S512x1024 .f32) (xin : Vec F S1024x512 .bf16) (t1e t2 t3 t6 o : Vec F S512x512 .f32) (E : Set ℕ) (K : PUnit → sProp 𝕄) :
    iprop(owns (c : Thread nD τ) arg3 fullShare t1a ∗ owns (c : Thread nD τ) arg4 fullShare xin ∗ owns (c : Thread nD τ) arg5 fullShare t1e ∗ owns (c : Thread nD τ) arg6 fullShare t2 ∗ owns (c : Thread nD τ) arg7 fullShare t3 ∗ owns (c : Thread nD τ) arg8 fullShare t6 ∗ owns (c : Thread nD τ) arg9 fullShare o ∗ (∃ d, owns (c : Thread nD τ) arg10 fullShare d)
        ∗ (iprop(owns (c : Thread nD τ) arg3 fullShare t1a ∗ owns (c : Thread nD τ) arg4 fullShare xin ∗ owns (c : Thread nD τ) arg5 fullShare t1e ∗ owns (c : Thread nD τ) arg6 fullShare t2 ∗ owns (c : Thread nD τ) arg7 fullShare t3 ∗ owns (c : Thread nD τ) arg8 fullShare t6 ∗ owns (c : Thread nD τ) arg9 fullShare o
            ∗ owns (c : Thread nD τ) arg10 fullShare (k4_pay2 t1a (k4_pay1 (F := F)) xin)) -∗ K ⟨⟩))
      ⊢ wp frame (wpE (defs₀ (F := F)) Variants.none c none) E (cc4__combine_kernel i arg3 harg3 arg4 harg4 arg5 harg5 arg6 harg6 arg7 harg7 arg8 harg8 arg9 harg9 arg10 harg10) K := by
  simp only [cc4__combine_kernel_eq_skeleton]; unfold cc4__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  obtain rfl := harg9.eq_unread hf6
  sl_exec (disch := first | exact hc0 | exact hc1)
  sl_step
  sl_unfold_run_names
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  iexists _; isplitr
  swap; · iexact HS0
  ipureintro
  rw [View.read_writes_eq_canon _ _ _ (fun y => ⟨_, List.mem_cons_self, View.mem_set_unit_zero hz2 inb_S512x512_S512x512_0_0 y⟩),
    View.canon_cons_unit_zero hz2, View.readCov_unit_zero _ hz2]
  simp only [View.readAt_eq_ld, harg3.read_unread, harg4.read_unread, View.ld_unit_zero (S := S512x1024) hz2, View.ld_unit_zero (S := S1024x512) hz2]

set_option maxHeartbeats 1000000 in
/-- The body at k = 1: the accumulator, at what k = 0 left (acc), ends at acc + t1·x, and the output block, whatever it
    held, ends at the combination of that sum with the blocks t1, t2, t3, t6. -/
theorem run4_last (c : Dev nD) (i : grid4.Coords) (arg3 : Memref sig .tc .vmem S512x1024 .f32) (harg3 : arg3.IsWhole) (arg4 : Memref sig .tc .vmem S1024x512 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole)
    (hc0 : ¬cond4_0 i) (hc1 : cond4_1 i)
    (t1a : Vec F S512x1024 .f32) (xin : Vec F S1024x512 .bf16) (t1e t2 t3 t6 acc : Vec F S512x512 .f32) (E : Set ℕ) (K : PUnit → sProp 𝕄) :
    iprop(owns (c : Thread nD τ) arg3 fullShare t1a ∗ owns (c : Thread nD τ) arg4 fullShare xin ∗ owns (c : Thread nD τ) arg5 fullShare t1e ∗ owns (c : Thread nD τ) arg6 fullShare t2 ∗ owns (c : Thread nD τ) arg7 fullShare t3 ∗ owns (c : Thread nD τ) arg8 fullShare t6 ∗ (∃ d, owns (c : Thread nD τ) arg9 fullShare d) ∗ owns (c : Thread nD τ) arg10 fullShare acc
        ∗ (iprop(owns (c : Thread nD τ) arg3 fullShare t1a ∗ owns (c : Thread nD τ) arg4 fullShare xin ∗ owns (c : Thread nD τ) arg5 fullShare t1e ∗ owns (c : Thread nD τ) arg6 fullShare t2 ∗ owns (c : Thread nD τ) arg7 fullShare t3 ∗ owns (c : Thread nD τ) arg8 fullShare t6
            ∗ owns (c : Thread nD τ) arg9 fullShare (k4_pay3 (k4_pay2 t1a acc xin) t1e t2 t3 t6)
            ∗ owns (c : Thread nD τ) arg10 fullShare (k4_pay2 t1a acc xin)) -∗ K ⟨⟩))
      ⊢ wp frame (wpE (defs₀ (F := F)) Variants.none c none) E (cc4__combine_kernel i arg3 harg3 arg4 harg4 arg5 harg5 arg6 harg6 arg7 harg7 arg8 harg8 arg9 harg9 arg10 harg10) K := by
  simp only [cc4__combine_kernel_eq_skeleton]; unfold cc4__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  obtain rfl := harg10.eq_unread hfs0
  sl_exec (disch := first | exact hc0 | exact hc1)
  sl_step
  sl_unfold_run_names
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr
    swap; · iexact H6
    ipureintro
    rw [View.read_writes_eq_canon _ _ _ (fun y => ⟨_, List.mem_cons_self, View.mem_set_unit_zero hz2 inb_S512x512_S512x512_0_0 y⟩),
      View.canon_unit_zero hz2, View.readCov_unit_zero _ hz2]
    simp only [View.readAt_eq_ld, harg3.read_unread, harg4.read_unread, harg5.read_unread, harg6.read_unread, harg7.read_unread, harg8.read_unread, harg10.read_unread, View.ld_unit_zero (S := S512x1024) hz2, View.ld_unit_zero (S := S1024x512) hz2, View.ld_unit_zero (S := S512x512) hz2]
  iexists _; isplitr
  swap; · iexact HS0
  ipureintro
  rw [View.read_writes_eq_canon _ _ _ (fun y => ⟨_, List.mem_cons_self, View.mem_set_unit_zero hz2 inb_S512x512_S512x512_0_0 y⟩),
    View.canon_unit_zero hz2]
  simp only [View.readAt_eq_ld, harg3.read_unread, harg4.read_unread, harg10.read_unread, View.ld_unit_zero (S := S512x1024) hz2, View.ld_unit_zero (S := S1024x512) hz2, View.ld_unit_zero (S := S512x512) hz2]

end Cert.Kernel.Hand
end
-- ==== Proof.K.Reg4.lean ====
import proofs.«141637_j39676907881857_2_alg».proof.Proof.K.Run4

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4

-- the TensorCore's buffer contents when the region is entered
variable (V : (c : Dev nD) → (b : Ref sig .tc) → Buf (Elt F) ((c : Thread nD τ).loc b))

/-! ## Region 4's proof data: what every staging buffer and the accumulator hold after each grid point -/

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The accumulator after the body at position n: at an even position (k = 0) the zero fill plus the product t1 x of
    the point's blocks, at an odd one (k = 1) what the position before left plus the product of the point's. -/
def acc4 (c : Dev nD) : (n : ℕ) → n < cfg4.N → Vec F S512x512 .f32
  | 0, h => k4_pay2 (iblk4 V c 0 ⟨0, h⟩) (k4_pay1 (F := F)) (iblk4 V c 1 ⟨0, h⟩)
  | n + 1, h =>
    if (n + 1) % 2 = 0 then k4_pay2 (iblk4 V c 0 ⟨n + 1, h⟩) (k4_pay1 (F := F)) (iblk4 V c 1 ⟨n + 1, h⟩)
    else k4_pay2 (iblk4 V c 0 ⟨n + 1, h⟩) (acc4 c n (Nat.lt_of_succ_lt h)) (iblk4 V c 1 ⟨n + 1, h⟩)

theorem acc4_even (c : Dev nD) (t : Fin cfg4.N) (h : t.val % 2 = 0) :
    acc4 V c t.val t.isLt = k4_pay2 (iblk4 V c 0 t) (k4_pay1 (F := F)) (iblk4 V c 1 t) := by
  obtain ⟨n, hn⟩ := t
  cases n with
  | zero => rfl
  | succ n => exact if_pos h

theorem acc4_odd (c : Dev nD) (t : Fin cfg4.N) (h : t.val % 2 = 1) :
    acc4 V c t.val t.isLt = k4_pay2 (iblk4 V c 0 t) (acc4 V c (t.val - 1) (Nat.lt_of_le_of_lt (Nat.sub_le _ _) t.isLt)) (iblk4 V c 1 t) := by
  obtain ⟨n, hn⟩ := t
  cases n with
  | zero => exact absurd h (by dsimp only; omega)
  | succ n => exact if_neg (by dsimp only at h; omega)

/-- The kernel's accumulator: a whole scoped buffer of its own. -/
abbrev scM4 : Memref sig .tc .vmem S512x512 .f32 := Memref.whole cc4_scratch0

/-- The region's invariant before position n: at the start the scoped rest at anything and the generator register;
    afterwards the same with the accumulator at what the position before left. -/
def Phi4 (c : Dev nD) : (n : ℕ) → n ≤ cfg4.N → sProp 𝕄
  | 0, _ => Pipeline.ΦA spec4 c
  | n + 1, hn => iprop(iprop(owns (c : Thread nD τ) scM4 fullShare (acc4 V c n hn)
      ∗ Pipeline.scopedRestBut (Ix := Unit) (Name := ℕ) (U := UR sig nD τ) (Lvl := ℕ) (Val := Elt F) spec4 c [cc4_scratch0]) ∗ (∃ r, prngReg c r))

theorem Phi4_zero (c : Dev nD) (n : ℕ) (h : n ≤ cfg4.N) (hz : n = 0) : Phi4 V c n h = Pipeline.ΦA spec4 c := by
  subst hz; rfl

theorem Phi4_succ (c : Dev nD) (n : ℕ) (hn : n < cfg4.N) :
    Phi4 V c (n + 1) hn = iprop(iprop(owns (c : Thread nD τ) scM4 fullShare (acc4 V c n hn)
      ∗ Pipeline.scopedRestBut (Ix := Unit) (Name := ℕ) (U := UR sig nD τ) (Lvl := ℕ) (Val := Elt F) spec4 c [cc4_scratch0]) ∗ (∃ r, prngReg c r)) := rfl

theorem Phi4_pos (c : Dev nD) (n : ℕ) (h : n ≤ cfg4.N) (hz : n ≠ 0) :
    Phi4 V c n h = iprop(iprop(owns (c : Thread nD τ) scM4 fullShare (acc4 V c (n - 1) (by omega))
      ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-- The class invariant with the accumulator split out of the scoped rest, owned at some contents. -/
theorem PhiA4_eq (c : Dev nD) :
    (Pipeline.ΦA spec4 c : sProp 𝕄)
      = iprop(iprop((∃ d, owns (c : Thread nD τ) scM4 fullShare d)
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; rfl

/-- The proof data of pipeline 4 on core c: the arrays as the region finds them; after the body at point t each
    input's buffer at its block and the output's at the combination of the accumulator with the blocks t1, t2, t3, t6
    (a placeholder at the even points, where the output is idle); the invariant Phi4; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => k4_pay3 (acc4 V c t.val t.isLt) (iblk4 V c 2 t) (iblk4 V c 3 t) (iblk4 V c 4 t) (iblk4 V c 5 t)
  Φ t := Phi4 V c t.val (Nat.le_of_lt_succ t.isLt)
  q w := match w with
    | ⟨0, _⟩ => fullShare.left
    | ⟨1, _⟩ => fullShare
    | ⟨2, _⟩ => fullShare.right
    | ⟨3, _⟩ => fullShare
    | ⟨4, _⟩ => fullShare
    | ⟨5, _⟩ => fullShare
    | ⟨6, _⟩ => fullShare
  owed _ := 0

theorem A_eq4 (c : Dev nD) (w : Fin cfg4.W) : (dat4 V c).A w = V c (Pipeline.arrRef spec4 w) := by
  dsimp only [dat4]

theorem Phi4_castSucc (c : Dev nD) (t : Fin cfg4.N) :
    (dat4 V c).Φ t.castSucc = Phi4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = k4_pay3 (acc4 V c t.val t.isLt) (iblk4 V c 2 t) (iblk4 V c 3 t) (iblk4 V c 4 t) (iblk4 V c 5 t) := by dsimp only [dat4]

/-- Each input's current staging buffer holds its block at every point, fetched there or not. -/
theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl) (fun t => by rw [after4_2]; unfold Dat.blockOf iblk4; rw [A_eq4]; try rfl) t d).trans
    (by unfold Dat.fetched Dat.blockOf iblk4; rw [A_eq4]; try rfl)
theorem before4_3 (c : Dev nD) (t : Fin cfg4.N) (d) : (dat4 V c).before 3 t d = iblk4 V c 3 t :=
  ((dat4 V c).before_in_eq_fetched 3 rfl (fun _ => rfl) (fun _ _ _ => rfl) (fun t => by rw [after4_3]; unfold Dat.blockOf iblk4; rw [A_eq4]; try rfl) t d).trans
    (by unfold Dat.fetched Dat.blockOf iblk4; rw [A_eq4]; try rfl)
theorem before4_4 (c : Dev nD) (t : Fin cfg4.N) (d) : (dat4 V c).before 4 t d = iblk4 V c 4 t :=
  ((dat4 V c).before_in_eq_fetched 4 rfl (fun _ => rfl) (fun _ _ _ => rfl) (fun t => by rw [after4_4]; unfold Dat.blockOf iblk4; rw [A_eq4]; try rfl) t d).trans
    (by unfold Dat.fetched Dat.blockOf iblk4; rw [A_eq4]; try rfl)
theorem before4_5 (c : Dev nD) (t : Fin cfg4.N) (d) : (dat4 V c).before 5 t d = iblk4 V c 5 t :=
  ((dat4 V c).before_in_eq_fetched 5 rfl (fun _ => rfl) (fun _ _ _ => rfl) (fun t => by rw [after4_5]; unfold Dat.blockOf iblk4; rw [A_eq4]; try rfl) t d).trans
    (by unfold Dat.fetched Dat.blockOf iblk4; rw [A_eq4]; try rfl)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cfg4.idle 4 (grid4.coords t) = false := by decide +kernel
theorem liveAt4_5 : ∀ t : Fin cfg4.N, cfg4.idle 5 (grid4.coords t) = false := by decide +kernel
/-- At the even points (k = 0) the output window is idle and not written back. -/
theorem idleAt4_6 : ∀ t : Fin cfg4.N, t.val % 2 = 0 → cfg4.idle 6 (grid4.coords t) = true := by decide +kernel
theorem noFlush4_6 : ∀ t : Fin cfg4.N, t.val % 2 = 0 → (cfg4.win 6).flush t = false := by decide +kernel
/-- At the odd points (k = 1) it is live. -/
theorem liveAt4_6 : ∀ t : Fin cfg4.N, t.val % 2 = 1 → cfg4.idle 6 (grid4.coords t) = false := by decide +kernel

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t)

set_option maxHeartbeats 4000000 in
/-- The body at any point: the inputs' memrefs hold their blocks; at an even point the first run applies (the
    accumulator handed over at anything or at what the point before left, forgotten), at an odd point the second (the
    accumulator at what the even point before left); the invariant takes the accumulator back at this point's contents. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).owesAt () t.succ = (dat4 V c).owesAt () t.castSucc from rfl]
  rw [show (dat4 V c).Φ t.succ = Phi4 V c (t.val + 1) t.isLt from rfl, Phi4_succ]
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  rw [show (dat4 V c).leavesExact 2 t = owns (c : Thread nD τ) (st4_2 t) fullShare ((dat4 V c).after 2 t) from by
    unfold Dat.leavesExact; rw [liveAt4_2 t], after4_2]
  rw [show (dat4 V c).leavesExact 3 t = owns (c : Thread nD τ) (st4_3 t) fullShare ((dat4 V c).after 3 t) from by
    unfold Dat.leavesExact; rw [liveAt4_3 t], after4_3]
  rw [show (dat4 V c).leavesExact 4 t = owns (c : Thread nD τ) (st4_4 t) fullShare ((dat4 V c).after 4 t) from by
    unfold Dat.leavesExact; rw [liveAt4_4 t], after4_4]
  rw [show (dat4 V c).leavesExact 5 t = owns (c : Thread nD τ) (st4_5 t) fullShare ((dat4 V c).after 5 t) from by
    unfold Dat.leavesExact; rw [liveAt4_5 t], after4_5]
  have hN : t.val < 32 := lt_of_lt_of_eq t.isLt (show cfg4.N = 32 from N_4)
  by_cases h0 : t.val % 2 = 0
  · have h1 : ¬ t.val % 2 = 1 := by omega
    rw [Dat.leavesExact_idle (dat4 V c) 6 t (idleAt4_6 t h0) (noFlush4_6 t h0)]
    rw [acc4_even V c t h0]
    by_cases hz : t.val = 0
    · rw [Phi4_castSucc V c t, Phi4_zero V c _ _ hz, PhiA4_eq]
      iintro ⟨⟨⟨HS, HB⟩, Hg⟩, Ho, ⟨%d0, H0⟩, ⟨%d1, H1⟩, ⟨%d2, H2⟩, ⟨%d3, H3⟩, ⟨%d4, H4⟩, ⟨%d5, H5⟩, ⟨%d6, H6⟩⟩
      iapply (run4_first c (grid4.coords t) _ _ _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t) (iblk4 V c 5 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS HB Hg]
      · isplitl [HS HB]
        · isplitl [HS]; · iexact HS
          iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [Phi4_castSucc V c t, Phi4_pos V c _ _ hz]
      iintro ⟨⟨⟨HS, HB⟩, Hg⟩, Ho, ⟨%d0, H0⟩, ⟨%d1, H1⟩, ⟨%d2, H2⟩, ⟨%d3, H3⟩, ⟨%d4, H4⟩, ⟨%d5, H5⟩, ⟨%d6, H6⟩⟩
      iapply (run4_first c (grid4.coords t) _ _ _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t) (iblk4 V c 5 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexists _; iexact HS
      iintro ⟨H0, H1, H2, H3, H4, H5, H6, HS⟩
      isplitl [HS HB Hg]
      · isplitl [HS HB]
        · isplitl [HS]; · iexact HS
          iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have h1 : t.val % 2 = 1 := by omega
    have hz : t.val ≠ 0 := by omega
    rw [show (dat4 V c).leavesExact 6 t = owns (c : Thread nD τ) (st4_6 t) fullShare ((dat4 V c).after 6 t) from by
      unfold Dat.leavesExact; rw [liveAt4_6 t h1], after4_6]
    rw [acc4_odd V c t h1]
    rw [Phi4_castSucc V c t, Phi4_pos V c _ _ hz]
    iintro ⟨⟨⟨HS, HB⟩, Hg⟩, Ho, ⟨%d0, H0⟩, ⟨%d1, H1⟩, ⟨%d2, H2⟩, ⟨%d3, H3⟩, ⟨%d4, H4⟩, ⟨%d5, H5⟩, ⟨%d6, H6⟩⟩
    iapply (run4_last c (grid4.coords t) _ _ _ _ _ _ _ _ _ _ _ _ _ _ _ _ (fun h => h0 ((hcond4_0 t).mp h)) ((hcond4_1 t).mpr h1) (iblk4 V c 0 t) (iblk4 V c 1 t) (iblk4 V c 2 t) (iblk4 V c 3 t) (iblk4 V c 4 t) (iblk4 V c 5 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [HS HB Hg]
    · isplitl [HS HB]
      · isplitl [HS]; · iexact HS
        iexact HB
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = Phi4 V c 0 (Nat.zero_le _) from rfl, Phi4_zero V c 0 _ rfl]
  try exact Idealize.SL.BI.Entails.refl _

/-- After the last point the invariant gives the class invariant back: the accumulator's contents are forgotten. -/
theorem hout4 (c : Dev nD) : (dat4 V c).Φ (Fin.last cfg4.N) ⊢ Pipeline.ΦA spec4 c := by
  rw [show (dat4 V c).Φ (Fin.last cfg4.N) = Phi4 V c (Fin.last cfg4.N).val (Nat.le_of_lt_succ (Fin.last cfg4.N).isLt) from rfl,
    Phi4_pos V c _ _ (by rw [Fin.val_last]; have : cfg4.N = 32 := N_4; omega), PhiA4_eq]
  iintro ⟨⟨HS, HB⟩, Hg⟩
  isplitl [HS HB]
  · isplitl [HS]; · iexists _; iexact HS
    iexact HB
  iexact Hg

end Region4

end Cert.Kernel.Hand
end
-- ==== Proof.K.ChainB.lean ====
import proofs.«141637_j39676907881857_2_alg».proof.Proof.K.ChainA
import proofs.«141637_j39676907881857_2_alg».proof.Proof.K.Reg3
import proofs.«141637_j39676907881857_2_alg».proof.Proof.K.Reg4

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- After region 3: t6 in main_v7. -/
def W5 (c : Dev nD) : Valuation τ sig (Elt F) := Function.update (W4 m c) main_v7 ((dat3 (U4 m) c).arrAt 4 cfg3.N)
abbrev U5 (c : Dev nD) (b : Ref sig .tc) : Buf (Elt F) ((c : Thread nD τ).loc b) := W5 m c b
theorem W5_out (c : Dev nD) : W5 m c (Proc.devRef .tc main_v7) = (dat3 (U4 m) c).arrAt 4 cfg3.N := by
  unfold W5; exact Function.update_self ..
theorem W5_of_ne (c : Dev nD) (r : Ref sig .tc) (h : r ≠ main_v7) : W5 m c (Proc.devRef .tc r) = W4 m c (Proc.devRef .tc r) := by
  unfold W5; exact Function.update_of_ne (StableHlo.devRef_ne_of_ne h) ..

/-- After region 4: the result in main_v8. -/
def W6 (c : Dev nD) : Valuation τ sig (Elt F) := Function.update (W5 m c) main_v8 ((dat4 (U5 m) c).arrAt 6 cfg4.N)
abbrev U6 (c : Dev nD) (b : Ref sig .tc) : Buf (Elt F) ((c : Thread nD τ).loc b) := W6 m c b
theorem W6_out (c : Dev nD) : W6 m c (Proc.devRef .tc main_v8) = (dat4 (U5 m) c).arrAt 6 cfg4.N := by
  unfold W6; exact Function.update_self ..
theorem W6_of_ne (c : Dev nD) (r : Ref sig .tc) (h : r ≠ main_v8) : W6 m c (Proc.devRef .tc r) = W5 m c (Proc.devRef .tc r) := by
  unfold W6; exact Function.update_of_ne (StableHlo.devRef_ne_of_ne h) ..

/-- Every pipeline's proof data, each at its region's entry contents. -/
def pdats : (p : Fin 5) → (c : Dev nD) → Dat τ (Elt F) Unit ℕ (UR sig nD τ) ℕ (cfgs p) c
  | ⟨0, _⟩ => fun c => dat0 (U1 m) c
  | ⟨1, _⟩ => fun c => dat1 (U2 m) c
  | ⟨2, _⟩ => fun c => dat2 (U3 m) c
  | ⟨3, _⟩ => fun c => dat3 (U4 m) c
  | ⟨4, _⟩ => fun c => dat4 (U5 m) c

end Cert.Kernel.Hand
end
-- ==== Proof.K.Rec0.lean ====
import proofs.«141637_j39676907881857_2_alg».proof.Proof.K.ChainA

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

-- unification with the pinned configuration unfolds plain definitions in a metavariable's type
set_option backward.isDefEq.respectTransparency.types false in
/-- REGION 0 as an item of the program, over the thread state "every unscoped buffer at the boundary's contents, the
    generator register, nothing owed": entered at W1, left at W2. Its three arrays are split out of the unscoped
    buffers and put back with the output array at what the write-backs left; the scoped rest and the generator register
    go into the region's invariant and come back. -/
def reg0 (pdats : (p : Fin 5) → (c : Dev nD) → Dat τ (Elt F) Unit ℕ (UR sig nD τ) ℕ (cfgs p) c)
    (h0 : ∀ c, pdats 0 c = dat0 (U1 m) c) : RegionSeg (pcfgs (F := F)) adm pdats () defs₀ 𝒱₀ L lv 0 where
  win := launch0.win.to₀
  block_pos := launch0.block_pos
  stage_whole := launch0.stage_whole
  K := PEmpty
  osem k := k.elim
  ho := Pipeline.OwnSemFacts.none _
  hbody c := by rw [h0 c]; exact (body_obligation0 (U1 m) c).loose
  hwaits := Pipeline.hwaits_of_owed_zero _ _ _ _ L lv 0 fun c _ => by rw [h0 c]; rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm pdats launch0.win launch0.arr_whole c
      (by rw [h0 c]; exact (dat0 (U1 m) c).share_full fun _ => rfl) (U1 m c) (fun w => by rw [h0 c]; rfl)
    rw [Pipeline.unscopedBufs_held] at hsplit
    rw [h0 c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [h0 c]
    exact (show iprop((∃ r, prngReg c r) ∗ Pipeline.prefHeld (pcfgs (F := F) 0).pre c (fun _ => fullShare) (adm (F := F) 0).1
        ∗ Pipeline.scopedRest (Pipeline.pin (pcfgs (F := F)) adm 0).spec c) ⊢ (Pipeline.ΦA spec0 c : sProp 𝕄) from by
      unfold Pipeline.ΦA
      iintro ⟨Hp, -, Hr⟩
      isplitl [Hr]; · iexact Hr
      iexact Hp).trans (hin0 (U1 m) c)
  hout c := by
    rw [Pipeline.ownSems0_none, h0 c]
    refine (hout0 (U1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c pdats (by rw [h0 c]; exact (dat0 (U1 m) c).share_full fun _ => rfl)
      (U1 m c) (U2 m c) ((pdats 0 c).arrAt · cfg0.N)
      (fun w => by
        rw [h0 c]
        match w with
        | ⟨0, _⟩ => exact ((dat0 (U1 m) c).arrAt_in 0 rfl _).trans ((A_eq0 (U1 m) c 0).trans (W2_of_ne m c main_v0 (by decide)).symm)
        | ⟨1, _⟩ => exact ((dat0 (U1 m) c).arrAt_in 1 rfl _).trans ((A_eq0 (U1 m) c 1).trans (W2_of_ne m c main_v1 (by decide)).symm)
        | ⟨2, _⟩ => exact (W2_out m c).symm)
      (fun b hb => W2_of_ne m c b fun e => hb (Finset.mem_image.mpr ⟨2, Finset.mem_univ _, e.symm⟩))
    rw [Pipeline.unscopedBufs_held] at hjoin
    rw [h0 c] at hjoin ⊢
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand
end
-- ==== Proof.K.Rec1.lean ====
import proofs.«141637_j39676907881857_2_alg».proof.Proof.K.ChainA

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

-- unification with the pinned configuration unfolds plain definitions in a metavariable's type
set_option backward.isDefEq.respectTransparency.types false in
/-- REGION 1 as an item of the program, over the thread state "every unscoped buffer at the boundary's contents, the
    generator register, nothing owed": entered at W2, left at W3. Its three arrays are split out of the unscoped
    buffers and put back with the output array at what the write-backs left; the scoped rest and the generator register
    go into the region's invariant and come back. -/
def reg1 (pdats : (p : Fin 5) → (c : Dev nD) → Dat τ (Elt F) Unit ℕ (UR sig nD τ) ℕ (cfgs p) c)
    (h1 : ∀ c, pdats 1 c = dat1 (U2 m) c) : RegionSeg (pcfgs (F := F)) adm pdats () defs₀ 𝒱₀ L lv 1 where
  win := launch1.win.to₀
  block_pos := launch1.block_pos
  stage_whole := launch1.stage_whole
  K := PEmpty
  osem k := k.elim
  ho := Pipeline.OwnSemFacts.none _
  hbody c := by rw [h1 c]; exact (body_obligation1 (U2 m) c).loose
  hwaits := Pipeline.hwaits_of_owed_zero _ _ _ _ L lv 1 fun c _ => by rw [h1 c]; rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hsplit := Pipeline.arrays_of_unscopedBufs (p := 1) (pcfgs (F := F)) adm pdats launch1.win launch1.arr_whole c
      (by rw [h1 c]; exact (dat1 (U2 m) c).share_full fun _ => rfl) (U2 m c) (fun w => by rw [h1 c]; rfl)
    rw [Pipeline.unscopedBufs_held] at hsplit
    rw [h1 c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [h1 c]
    exact (show iprop((∃ r, prngReg c r) ∗ Pipeline.prefHeld (pcfgs (F := F) 1).pre c (fun _ => fullShare) (adm (F := F) 1).1
        ∗ Pipeline.scopedRest (Pipeline.pin (pcfgs (F := F)) adm 1).spec c) ⊢ (Pipeline.ΦA spec1 c : sProp 𝕄) from by
      unfold Pipeline.ΦA
      iintro ⟨Hp, -, Hr⟩
      isplitl [Hr]; · iexact Hr
      iexact Hp).trans (hin1 (U2 m) c)
  hout c := by
    rw [Pipeline.ownSems0_none, h1 c]
    refine (hout1 (U2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c pdats (by rw [h1 c]; exact (dat1 (U2 m) c).share_full fun _ => rfl)
      (U2 m c) (U3 m c) ((pdats 1 c).arrAt · cfg1.N)
      (fun w => by
        rw [h1 c]
        match w with
        | ⟨0, _⟩ => exact ((dat1 (U2 m) c).arrAt_in 0 rfl _).trans ((A_eq1 (U2 m) c 0).trans (W3_of_ne m c main_v0 (by decide)).symm)
        | ⟨1, _⟩ => exact ((dat1 (U2 m) c).arrAt_in 1 rfl _).trans ((A_eq1 (U2 m) c 1).trans (W3_of_ne m c main_v2 (by decide)).symm)
        | ⟨2, _⟩ => exact (W3_out m c).symm)
      (fun b hb => W3_of_ne m c b fun e => hb (Finset.mem_image.mpr ⟨2, Finset.mem_univ _, e.symm⟩))
    rw [Pipeline.unscopedBufs_held] at hjoin
    rw [h1 c] at hjoin ⊢
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand
end
-- ==== Proof.K.Rec2.lean ====
import proofs.«141637_j39676907881857_2_alg».proof.Proof.K.ChainA

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

/-! ## Region 2's arrays: both operand windows are blocks of ONE array (w3 as bf16, main_v3), each holding a half of it -/

section Shares

omit [FloatOps F] in
/-- A buffer held whole splits into its two halves, -/
theorem split_half {ℓ : Loc nD τ sig} (f : Buf (Elt F) ℓ) :
    (ℓ ↦{fullShare} f : sProp 𝕄) ⊢ iprop((ℓ ↦{fullShare.left} f) ∗ ℓ ↦{fullShare.right} f) :=
  (pointsTo_share (PosShare.mem_left_op_right fullShare)).1
omit [FloatOps F] in
/-- and the halves make it whole again. -/
theorem join_half {ℓ : Loc nD τ sig} (f : Buf (Elt F) ℓ) :
    iprop((ℓ ↦{fullShare.left} f) ∗ ℓ ↦{fullShare.right} f) ⊢ (ℓ ↦{fullShare} f : sProp 𝕄) :=
  (pointsTo_share (PosShare.mem_left_op_right fullShare)).2

variable (V V' : (c : Dev nD) → (b : Ref sig .tc) → Buf (Elt F) ((c : Thread nD τ).loc b))

theorem sh2_0 (c : Dev nD) : (dat2 V c).share 0 = fullShare.left := by unfold Pipeline.Dat.share; rfl
theorem sh2_1 (c : Dev nD) : (dat2 V c).share 1 = fullShare.right := by unfold Pipeline.Dat.share; rfl
theorem sh2_2 (c : Dev nD) : (dat2 V c).share 2 = fullShare := by unfold Pipeline.Dat.share; rfl

/-- ENTRY: the two distinct buffers behind the three windows' arrays, held whole, are the pipeline's arrays at the
    entry contents: main_v3 split in halves between the operand windows, main_v6 whole for the output. -/
theorem hsplit2 (c : Dev nD) : (Pipeline.arrBufs (Ix := Unit) (Name := ℕ) (U := UR sig nD τ) (Lvl := ℕ) spec2 c (V c) : sProp 𝕄) ⊢ (dat2 V c).arrays ((dat2 V c).arrAt · 0) := by
  unfold Pipeline.arrBufs Pipeline.Dat.arrays
  rw [bigSep_W2, show (Finset.univ.image (Pipeline.arrRef spec2)) = {main_v3, main_v6} from by decide]
  rw [bigSep_insert (by decide), bigSep_singleton, sh2_0, sh2_1, sh2_2, (arr_whole2 0).set_eq_univ, (arr_whole2 2).set_eq_univ]
  show (iprop((((c : Thread nD τ).loc main_v3) ↦{fullShare} V c main_v3) ∗ (((c : Thread nD τ).loc main_v6) ↦{fullShare} V c main_v6)) : sProp 𝕄)
    ⊢ (iprop((((c : Thread nD τ).loc main_v3) ↦{fullShare.left} V c main_v3) ∗ (((c : Thread nD τ).loc main_v3) ↦{fullShare.right} V c main_v3)
    ∗ (((c : Thread nD τ).loc main_v6) ↦{fullShare} V c main_v6)) : sProp 𝕄)
  iintro ⟨H3, H6⟩
  ihave H3 := (split_half (V c main_v3)) $$ H3
  icases H3 with ⟨H3l, H3r⟩
  isplitl [H3l]; · iexact H3l
  isplitl [H3r]; · iexact H3r
  iexact H6

/-- EXIT: the arrays at their final contents — the operand array as entered, the output array at what the
    write-backs left — are the two buffers held whole at any contents V' that has them so. -/
theorem hjoin2 (c : Dev nD) (h3 : V' c main_v3 = V c main_v3) (h6 : V' c main_v6 = (dat2 V c).arrAt 2 cfg2.N) :
    (dat2 V c).arrays ((dat2 V c).arrAt · cfg2.N) ⊢ (Pipeline.arrBufs (Ix := Unit) (Name := ℕ) (U := UR sig nD τ) (Lvl := ℕ) spec2 c (V' c) : sProp 𝕄) := by
  unfold Pipeline.arrBufs Pipeline.Dat.arrays
  rw [bigSep_W2, show (Finset.univ.image (Pipeline.arrRef spec2)) = {main_v3, main_v6} from by decide]
  rw [bigSep_insert (by decide), bigSep_singleton, sh2_0, sh2_1, sh2_2, (arr_whole2 0).set_eq_univ, (arr_whole2 2).set_eq_univ, h3, h6]
  have e0 : (dat2 V c).arrAt 0 cfg2.N = V c main_v3 := ((dat2 V c).arrAt_in 0 rfl _).trans (A_eq2 V c 0)
  have e1 : (dat2 V c).arrAt 1 cfg2.N = V c main_v3 := ((dat2 V c).arrAt_in 1 rfl _).trans (A_eq2 V c 1)
  show (iprop((((c : Thread nD τ).loc main_v3) ↦{fullShare.left} (dat2 V c).arrAt 0 cfg2.N) ∗ (((c : Thread nD τ).loc main_v3) ↦{fullShare.right} (dat2 V c).arrAt 1 cfg2.N)
      ∗ (((c : Thread nD τ).loc main_v6) ↦{fullShare} (dat2 V c).arrAt 2 cfg2.N)) : sProp 𝕄)
    ⊢ (iprop((((c : Thread nD τ).loc main_v3) ↦{fullShare} V c main_v3) ∗ (((c : Thread nD τ).loc main_v6) ↦{fullShare} (dat2 V c).arrAt 2 cfg2.N)) : sProp 𝕄)
  rw [e0, e1]
  iintro ⟨H3l, H3r, H6⟩
  isplitl [H3l H3r]
  · iapply (join_half (V c main_v3)); isplitl [H3l] <;> iassumption
  iexact H6

end Shares

variable (m : (ℓ : Loc nD τ sig) → Buf (Elt F) ℓ)

-- unification with the pinned configuration unfolds plain definitions in a metavariable's type
set_option backward.isDefEq.respectTransparency.types false in
/-- REGION 2 as an item of the program: entered at W3, left at W4. -/
def reg2 (pdats : (p : Fin 5) → (c : Dev nD) → Dat τ (Elt F) Unit ℕ (UR sig nD τ) ℕ (cfgs p) c)
    (h2 : ∀ c, pdats 2 c = dat2 (U3 m) c) : RegionSeg (pcfgs (F := F)) adm pdats () defs₀ 𝒱₀ L lv 2 where
  win := winFacts₀2
  block_pos := block_pos2
  stage_whole := stage_whole2
  K := PEmpty
  osem k := k.elim
  ho := Pipeline.OwnSemFacts.none _
  hbody c := by rw [h2 c]; exact (body_obligation2 (U3 m) c).loose
  hwaits := Pipeline.hwaits_of_owed_zero _ _ _ _ L lv 2 fun c _ => by rw [h2 c]; rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (U3 m c)
  hentry c := by
    rw [Pipeline.ownSems0_none]
    have hsplit : (unscopedBufs (Ix := Unit) (Name := ℕ) (U := UR sig nD τ) (Lvl := ℕ) c (U3 m c) : sProp 𝕄)
        ⊢ iprop((dat2 (U3 m) c).arrays ((dat2 (U3 m) c).arrAt · 0) ∗ Pipeline.unscopedRest spec2 c (U3 m c)) := by
      rw [Pipeline.unscopedBufs_split₀ cfgs 2 winFacts₀2.arr_unscoped c (U3 m c)]
      exact sep_mono (hsplit2 (U3 m) c) .rfl
    rw [Pipeline.unscopedBufs_held] at hsplit
    rw [h2 c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [h2 c]
    exact (show iprop((∃ r, prngReg c r) ∗ Pipeline.prefHeld (pcfgs (F := F) 2).pre c (fun _ => fullShare) (adm (F := F) 2).1
        ∗ Pipeline.scopedRest (Pipeline.pin (pcfgs (F := F)) adm 2).spec c) ⊢ (Pipeline.ΦA spec2 c : sProp 𝕄) from by
      unfold Pipeline.ΦA
      iintro ⟨Hp, -, Hr⟩
      isplitl [Hr]; · iexact Hr
      iexact Hp).trans (hin2 (U3 m) c)
  hout c := by
    rw [Pipeline.ownSems0_none, h2 c]
    refine (hout2 (U3 m) c).trans ?_
    unfold Pipeline.ΦA
    iintro ⟨Hr, Hp⟩
    isplitl [Hp]; · iexact Hp
    isplitr; · iempintro
    iexact Hr
  hexit c := by
    have hjoin : iprop((dat2 (U3 m) c).arrays ((dat2 (U3 m) c).arrAt · cfg2.N) ∗ Pipeline.unscopedRest spec2 c (U3 m c))
        ⊢ (unscopedBufs (Ix := Unit) (Name := ℕ) (U := UR sig nD τ) (Lvl := ℕ) c (U4 m c) : sProp 𝕄) := by
      rw [Pipeline.unscopedBufs_split₀ cfgs 2 winFacts₀2.arr_unscoped c (U4 m c)]
      refine sep_mono (hjoin2 (U3 m) (U4 m) c (W4_of_ne m c main_v3 (by decide)) (W4_out m c)) (Entails.of_eq ?_)
      unfold Pipeline.unscopedRest
      exact bigSep_congr fun b hb => by
        rw [show U4 m c b = U3 m c b from W4_of_ne m c b fun e => (Finset.mem_sdiff.mp hb).2 (Finset.mem_image.mpr ⟨2, Finset.mem_univ _, e.symm⟩)]
    rw [Pipeline.unscopedBufs_held] at hjoin
    rw [h2 c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand
end
-- ==== Proof.K.Rec3.lean ====
import proofs.«141637_j39676907881857_2_alg».proof.Proof.K.ChainB

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

/-! ## Region 3's arrays: the second input window (the w1 blocks of the product's left factor) and the fourth (the closing step's w1 block) are
    blocks of ONE array (w1, main_arg1), each holding a half of it -/

section Shares

omit [FloatOps F] in
/-- A buffer held whole splits into its two halves, -/
theorem split_half3 {ℓ : Loc nD τ sig} (f : Buf (Elt F) ℓ) :
    (ℓ ↦{fullShare} f : sProp 𝕄) ⊢ iprop((ℓ ↦{fullShare.left} f) ∗ ℓ ↦{fullShare.right} f) :=
  (pointsTo_share (PosShare.mem_left_op_right fullShare)).1
omit [FloatOps F] in
/-- and the halves make it whole again. -/
theorem join_half3 {ℓ : Loc nD τ sig} (f : Buf (Elt F) ℓ) :
    iprop((ℓ ↦{fullShare.left} f) ∗ ℓ ↦{fullShare.right} f) ⊢ (ℓ ↦{fullShare} f : sProp 𝕄) :=
  (pointsTo_share (PosShare.mem_left_op_right fullShare)).2

variable (V V' : (c : Dev nD) → (b : Ref sig .tc) → Buf (Elt F) ((c : Thread nD τ).loc b))

theorem sh3_0 (c : Dev nD) : (dat3 V c).share 0 = fullShare := by unfold Pipeline.Dat.share; rfl
theorem sh3_1 (c : Dev nD) : (dat3 V c).share 1 = fullShare.left := by unfold Pipeline.Dat.share; rfl
theorem sh3_2 (c : Dev nD) : (dat3 V c).share 2 = fullShare := by unfold Pipeline.Dat.share; rfl
theorem sh3_3 (c : Dev nD) : (dat3 V c).share 3 = fullShare.right := by unfold Pipeline.Dat.share; rfl
theorem sh3_4 (c : Dev nD) : (dat3 V c).share 4 = fullShare := by unfold Pipeline.Dat.share; rfl

/-- ENTRY: the 4 distinct buffers behind the 5 windows' arrays, held whole, are the pipeline's arrays at the
    entry contents: main_arg1 split in halves between the two windows that read it, every other buffer whole. -/
theorem hsplit3 (c : Dev nD) : (Pipeline.arrBufs (Ix := Unit) (Name := ℕ) (U := UR sig nD τ) (Lvl := ℕ) spec3 c (V c) : sProp 𝕄) ⊢ (dat3 V c).arrays ((dat3 V c).arrAt · 0) := by
  unfold Pipeline.arrBufs Pipeline.Dat.arrays
  rw [bigSep_W3, show (Finset.univ.image (Pipeline.arrRef spec3)) = {main_v4, main_arg1, main_v0, main_v7} from by decide]
  rw [bigSep_insert (by decide), bigSep_insert (by decide), bigSep_insert (by decide), bigSep_singleton, sh3_0, sh3_1, sh3_2, sh3_3, sh3_4, (arr_whole3 0).set_eq_univ, (arr_whole3 1).set_eq_univ, (arr_whole3 2).set_eq_univ, (arr_whole3 4).set_eq_univ]
  show (iprop((((c : Thread nD τ).loc main_v4) ↦{fullShare} V c main_v4) ∗ (((c : Thread nD τ).loc main_arg1) ↦{fullShare} V c main_arg1) ∗ (((c : Thread nD τ).loc main_v0) ↦{fullShare} V c main_v0) ∗ (((c : Thread nD τ).loc main_v7) ↦{fullShare} V c main_v7)) : sProp 𝕄)
    ⊢ (iprop((((c : Thread nD τ).loc main_v4) ↦{fullShare} V c main_v4)
      ∗ (((c : Thread nD τ).loc main_arg1) ↦{fullShare.left} V c main_arg1)
      ∗ (((c : Thread nD τ).loc main_v0) ↦{fullShare} V c main_v0)
      ∗ (((c : Thread nD τ).loc main_arg1) ↦{fullShare.right} V c main_arg1)
      ∗ (((c : Thread nD τ).loc main_v7) ↦{fullShare} V c main_v7)) : sProp 𝕄)
  iintro ⟨Hv4, Harg1, Hv0, Hv7⟩
  ihave Harg1 := (split_half3 (V c main_arg1)) $$ Harg1
  icases Harg1 with ⟨Harg1l, Harg1r⟩
  isplitl [Hv4]; · iexact Hv4
  isplitl [Harg1l]; · iexact Harg1l
  isplitl [Hv0]; · iexact Hv0
  isplitl [Harg1r]; · iexact Harg1r
  iexact Hv7

/-- EXIT: the arrays at their final contents — the input arrays as entered, the output array at what the
    write-backs left — are the 4 buffers held whole at any contents V' that has them so. -/
theorem hjoin3 (c : Dev nD) (hv4 : V' c main_v4 = V c main_v4) (harg1 : V' c main_arg1 = V c main_arg1) (hv0 : V' c main_v0 = V c main_v0) (hv7 : V' c main_v7 = (dat3 V c).arrAt 4 cfg3.N) :
    (dat3 V c).arrays ((dat3 V c).arrAt · cfg3.N) ⊢ (Pipeline.arrBufs (Ix := Unit) (Name := ℕ) (U := UR sig nD τ) (Lvl := ℕ) spec3 c (V' c) : sProp 𝕄) := by
  unfold Pipeline.arrBufs Pipeline.Dat.arrays
  rw [bigSep_W3, show (Finset.univ.image (Pipeline.arrRef spec3)) = {main_v4, main_arg1, main_v0, main_v7} from by decide]
  rw [bigSep_insert (by decide), bigSep_insert (by decide), bigSep_insert (by decide), bigSep_singleton, sh3_0, sh3_1, sh3_2, sh3_3, sh3_4, (arr_whole3 0).set_eq_univ, (arr_whole3 1).set_eq_univ, (arr_whole3 2).set_eq_univ, (arr_whole3 4).set_eq_univ, hv4, harg1, hv0, hv7]
  have e0 : (dat3 V c).arrAt 0 cfg3.N = V c main_v4 := ((dat3 V c).arrAt_in 0 rfl _).trans (A_eq3 V c 0)
  have e1 : (dat3 V c).arrAt 1 cfg3.N = V c main_arg1 := ((dat3 V c).arrAt_in 1 rfl _).trans (A_eq3 V c 1)
  have e2 : (dat3 V c).arrAt 2 cfg3.N = V c main_v0 := ((dat3 V c).arrAt_in 2 rfl _).trans (A_eq3 V c 2)
  have e3 : (dat3 V c).arrAt 3 cfg3.N = V c main_arg1 := ((dat3 V c).arrAt_in 3 rfl _).trans (A_eq3 V c 3)
  show (iprop((((c : Thread nD τ).loc main_v4) ↦{fullShare} (dat3 V c).arrAt 0 cfg3.N)
      ∗ (((c : Thread nD τ).loc main_arg1) ↦{fullShare.left} (dat3 V c).arrAt 1 cfg3.N)
      ∗ (((c : Thread nD τ).loc main_v0) ↦{fullShare} (dat3 V c).arrAt 2 cfg3.N)
      ∗ (((c : Thread nD τ).loc main_arg1) ↦{fullShare.right} (dat3 V c).arrAt 3 cfg3.N)
      ∗ (((c : Thread nD τ).loc main_v7) ↦{fullShare} (dat3 V c).arrAt 4 cfg3.N)) : sProp 𝕄)
    ⊢ (iprop((((c : Thread nD τ).loc main_v4) ↦{fullShare} V c main_v4) ∗ (((c : Thread nD τ).loc main_arg1) ↦{fullShare} V c main_arg1) ∗ (((c : Thread nD τ).loc main_v0) ↦{fullShare} V c main_v0) ∗ (((c : Thread nD τ).loc main_v7) ↦{fullShare} (dat3 V c).arrAt 4 cfg3.N)) : sProp 𝕄)
  simp only [e0, e1, e2, e3]
  iintro ⟨Hv4, Harg1l, Hv0, Harg1r, Hv7⟩
  isplitl [Hv4]; · iexact Hv4
  isplitl [Harg1l Harg1r]
  · iapply (join_half3 (V c main_arg1)); isplitl [Harg1l] <;> iassumption
  isplitl [Hv0]; · iexact Hv0
  iexact Hv7

end Shares

variable (m : (ℓ : Loc nD τ sig) → Buf (Elt F) ℓ)

-- unification with the pinned configuration unfolds plain definitions in a metavariable's type
set_option backward.isDefEq.respectTransparency.types false in
/-- REGION 3 as an item of the program: entered at W4, left at W5. -/
def reg3 (pdats : (p : Fin 5) → (c : Dev nD) → Dat τ (Elt F) Unit ℕ (UR sig nD τ) ℕ (cfgs p) c)
    (h3 : ∀ c, pdats 3 c = dat3 (U4 m) c) : RegionSeg (pcfgs (F := F)) adm pdats () defs₀ 𝒱₀ L lv 3 where
  win := winFacts₀3
  block_pos := block_pos3
  stage_whole := stage_whole3
  K := PEmpty
  osem k := k.elim
  ho := Pipeline.OwnSemFacts.none _
  hbody c := by rw [h3 c]; exact (body_obligation3 (U4 m) c).loose
  hwaits := Pipeline.hwaits_of_owed_zero _ _ _ _ L lv 3 fun c _ => by rw [h3 c]; rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec3 c (U4 m c)
  hentry c := by
    rw [Pipeline.ownSems0_none]
    have hsplit : (unscopedBufs (Ix := Unit) (Name := ℕ) (U := UR sig nD τ) (Lvl := ℕ) c (U4 m c) : sProp 𝕄)
        ⊢ iprop((dat3 (U4 m) c).arrays ((dat3 (U4 m) c).arrAt · 0) ∗ Pipeline.unscopedRest spec3 c (U4 m c)) := by
      rw [Pipeline.unscopedBufs_split₀ cfgs 3 winFacts₀3.arr_unscoped c (U4 m c)]
      exact sep_mono (hsplit3 (U4 m) c) .rfl
    rw [Pipeline.unscopedBufs_held] at hsplit
    rw [h3 c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [h3 c]
    exact (show iprop((∃ r, prngReg c r) ∗ Pipeline.prefHeld (pcfgs (F := F) 3).pre c (fun _ => fullShare) (adm (F := F) 3).1
        ∗ Pipeline.scopedRest (Pipeline.pin (pcfgs (F := F)) adm 3).spec c) ⊢ (Pipeline.ΦA spec3 c : sProp 𝕄) from by
      unfold Pipeline.ΦA
      iintro ⟨Hp, -, Hr⟩
      isplitl [Hr]; · iexact Hr
      iexact Hp).trans (hin3 (U4 m) c)
  hout c := by
    rw [Pipeline.ownSems0_none, h3 c]
    refine (hout3 (U4 m) c).trans ?_
    unfold Pipeline.ΦA
    iintro ⟨Hr, Hp⟩
    isplitl [Hp]; · iexact Hp
    isplitr; · iempintro
    iexact Hr
  hexit c := by
    have hjoin : iprop((dat3 (U4 m) c).arrays ((dat3 (U4 m) c).arrAt · cfg3.N) ∗ Pipeline.unscopedRest spec3 c (U4 m c))
        ⊢ (unscopedBufs (Ix := Unit) (Name := ℕ) (U := UR sig nD τ) (Lvl := ℕ) c (U5 m c) : sProp 𝕄) := by
      rw [Pipeline.unscopedBufs_split₀ cfgs 3 winFacts₀3.arr_unscoped c (U5 m c)]
      refine sep_mono (hjoin3 (U4 m) (U5 m) c (W5_of_ne m c main_v4 (by decide)) (W5_of_ne m c main_arg1 (by decide)) (W5_of_ne m c main_v0 (by decide)) (W5_out m c)) (Entails.of_eq ?_)
      unfold Pipeline.unscopedRest
      exact bigSep_congr fun b hb => by
        rw [show U5 m c b = U4 m c b from W5_of_ne m c b fun e => (Finset.mem_sdiff.mp hb).2 (Finset.mem_image.mpr ⟨4, Finset.mem_univ _, e.symm⟩)]
    rw [Pipeline.unscopedBufs_held] at hjoin
    rw [h3 c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand
end
-- ==== Proof.K.Rec4.lean ====
import proofs.«141637_j39676907881857_2_alg».proof.Proof.K.ChainB

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

/-! ## Region 4's arrays: the first input window (t1 as the product's left factor) and the third (t1 in the combination) are blocks of ONE
    array (t1, main_v4), each holding a half of it -/

section Shares

omit [FloatOps F] in
/-- A buffer held whole splits into its two halves, -/
theorem split_half4 {ℓ : Loc nD τ sig} (f : Buf (Elt F) ℓ) :
    (ℓ ↦{fullShare} f : sProp 𝕄) ⊢ iprop((ℓ ↦{fullShare.left} f) ∗ ℓ ↦{fullShare.right} f) :=
  (pointsTo_share (PosShare.mem_left_op_right fullShare)).1
omit [FloatOps F] in
/-- and the halves make it whole again. -/
theorem join_half4 {ℓ : Loc nD τ sig} (f : Buf (Elt F) ℓ) :
    iprop((ℓ ↦{fullShare.left} f) ∗ ℓ ↦{fullShare.right} f) ⊢ (ℓ ↦{fullShare} f : sProp 𝕄) :=
  (pointsTo_share (PosShare.mem_left_op_right fullShare)).2

variable (V V' : (c : Dev nD) → (b : Ref sig .tc) → Buf (Elt F) ((c : Thread nD τ).loc b))

theorem sh4_0 (c : Dev nD) : (dat4 V c).share 0 = fullShare.left := by unfold Pipeline.Dat.share; rfl
theorem sh4_1 (c : Dev nD) : (dat4 V c).share 1 = fullShare := by unfold Pipeline.Dat.share; rfl
theorem sh4_2 (c : Dev nD) : (dat4 V c).share 2 = fullShare.right := by unfold Pipeline.Dat.share; rfl
theorem sh4_3 (c : Dev nD) : (dat4 V c).share 3 = fullShare := by unfold Pipeline.Dat.share; rfl
theorem sh4_4 (c : Dev nD) : (dat4 V c).share 4 = fullShare := by unfold Pipeline.Dat.share; rfl
theorem sh4_5 (c : Dev nD) : (dat4 V c).share 5 = fullShare := by unfold Pipeline.Dat.share; rfl
theorem sh4_6 (c : Dev nD) : (dat4 V c).share 6 = fullShare := by unfold Pipeline.Dat.share; rfl

/-- ENTRY: the 6 distinct buffers behind the 7 windows' arrays, held whole, are the pipeline's arrays at the
    entry contents: main_v4 split in halves between the two windows that read it, every other buffer whole. -/
theorem hsplit4 (c : Dev nD) : (Pipeline.arrBufs (Ix := Unit) (Name := ℕ) (U := UR sig nD τ) (Lvl := ℕ) spec4 c (V c) : sProp 𝕄) ⊢ (dat4 V c).arrays ((dat4 V c).arrAt · 0) := by
  unfold Pipeline.arrBufs Pipeline.Dat.arrays
  rw [bigSep_W4, show (Finset.univ.image (Pipeline.arrRef spec4)) = {main_v4, main_v0, main_v5, main_v6, main_v7, main_v8} from by decide]
  rw [bigSep_insert (by decide), bigSep_insert (by decide), bigSep_insert (by decide), bigSep_insert (by decide), bigSep_insert (by decide), bigSep_singleton, sh4_0, sh4_1, sh4_2, sh4_3, sh4_4, sh4_5, sh4_6, (arr_whole4 0).set_eq_univ, (arr_whole4 1).set_eq_univ, (arr_whole4 3).set_eq_univ, (arr_whole4 4).set_eq_univ, (arr_whole4 5).set_eq_univ, (arr_whole4 6).set_eq_univ]
  show (iprop((((c : Thread nD τ).loc main_v4) ↦{fullShare} V c main_v4) ∗ (((c : Thread nD τ).loc main_v0) ↦{fullShare} V c main_v0) ∗ (((c : Thread nD τ).loc main_v5) ↦{fullShare} V c main_v5) ∗ (((c : Thread nD τ).loc main_v6) ↦{fullShare} V c main_v6) ∗ (((c : Thread nD τ).loc main_v7) ↦{fullShare} V c main_v7) ∗ (((c : Thread nD τ).loc main_v8) ↦{fullShare} V c main_v8)) : sProp 𝕄)
    ⊢ (iprop((((c : Thread nD τ).loc main_v4) ↦{fullShare.left} V c main_v4)
      ∗ (((c : Thread nD τ).loc main_v0) ↦{fullShare} V c main_v0)
      ∗ (((c : Thread nD τ).loc main_v4) ↦{fullShare.right} V c main_v4)
      ∗ (((c : Thread nD τ).loc main_v5) ↦{fullShare} V c main_v5)
      ∗ (((c : Thread nD τ).loc main_v6) ↦{fullShare} V c main_v6)
      ∗ (((c : Thread nD τ).loc main_v7) ↦{fullShare} V c main_v7)
      ∗ (((c : Thread nD τ).loc main_v8) ↦{fullShare} V c main_v8)) : sProp 𝕄)
  iintro ⟨Hv4, Hv0, Hv5, Hv6, Hv7, Hv8⟩
  ihave Hv4 := (split_half4 (V c main_v4)) $$ Hv4
  icases Hv4 with ⟨Hv4l, Hv4r⟩
  isplitl [Hv4l]; · iexact Hv4l
  isplitl [Hv0]; · iexact Hv0
  isplitl [Hv4r]; · iexact Hv4r
  isplitl [Hv5]; · iexact Hv5
  isplitl [Hv6]; · iexact Hv6
  isplitl [Hv7]; · iexact Hv7
  iexact Hv8

/-- EXIT: the arrays at their final contents — the input arrays as entered, the output array at what the
    write-backs left — are the 6 buffers held whole at any contents V' that has them so. -/
theorem hjoin4 (c : Dev nD) (hv4 : V' c main_v4 = V c main_v4) (hv0 : V' c main_v0 = V c main_v0) (hv5 : V' c main_v5 = V c main_v5) (hv6 : V' c main_v6 = V c main_v6) (hv7 : V' c main_v7 = V c main_v7) (hv8 : V' c main_v8 = (dat4 V c).arrAt 6 cfg4.N) :
    (dat4 V c).arrays ((dat4 V c).arrAt · cfg4.N) ⊢ (Pipeline.arrBufs (Ix := Unit) (Name := ℕ) (U := UR sig nD τ) (Lvl := ℕ) spec4 c (V' c) : sProp 𝕄) := by
  unfold Pipeline.arrBufs Pipeline.Dat.arrays
  rw [bigSep_W4, show (Finset.univ.image (Pipeline.arrRef spec4)) = {main_v4, main_v0, main_v5, main_v6, main_v7, main_v8} from by decide]
  rw [bigSep_insert (by decide), bigSep_insert (by decide), bigSep_insert (by decide), bigSep_insert (by decide), bigSep_insert (by decide), bigSep_singleton, sh4_0, sh4_1, sh4_2, sh4_3, sh4_4, sh4_5, sh4_6, (arr_whole4 0).set_eq_univ, (arr_whole4 1).set_eq_univ, (arr_whole4 3).set_eq_univ, (arr_whole4 4).set_eq_univ, (arr_whole4 5).set_eq_univ, (arr_whole4 6).set_eq_univ, hv4, hv0, hv5, hv6, hv7, hv8]
  have e0 : (dat4 V c).arrAt 0 cfg4.N = V c main_v4 := ((dat4 V c).arrAt_in 0 rfl _).trans (A_eq4 V c 0)
  have e1 : (dat4 V c).arrAt 1 cfg4.N = V c main_v0 := ((dat4 V c).arrAt_in 1 rfl _).trans (A_eq4 V c 1)
  have e2 : (dat4 V c).arrAt 2 cfg4.N = V c main_v4 := ((dat4 V c).arrAt_in 2 rfl _).trans (A_eq4 V c 2)
  have e3 : (dat4 V c).arrAt 3 cfg4.N = V c main_v5 := ((dat4 V c).arrAt_in 3 rfl _).trans (A_eq4 V c 3)
  have e4 : (dat4 V c).arrAt 4 cfg4.N = V c main_v6 := ((dat4 V c).arrAt_in 4 rfl _).trans (A_eq4 V c 4)
  have e5 : (dat4 V c).arrAt 5 cfg4.N = V c main_v7 := ((dat4 V c).arrAt_in 5 rfl _).trans (A_eq4 V c 5)
  show (iprop((((c : Thread nD τ).loc main_v4) ↦{fullShare.left} (dat4 V c).arrAt 0 cfg4.N)
      ∗ (((c : Thread nD τ).loc main_v0) ↦{fullShare} (dat4 V c).arrAt 1 cfg4.N)
      ∗ (((c : Thread nD τ).loc main_v4) ↦{fullShare.right} (dat4 V c).arrAt 2 cfg4.N)
      ∗ (((c : Thread nD τ).loc main_v5) ↦{fullShare} (dat4 V c).arrAt 3 cfg4.N)
      ∗ (((c : Thread nD τ).loc main_v6) ↦{fullShare} (dat4 V c).arrAt 4 cfg4.N)
      ∗ (((c : Thread nD τ).loc main_v7) ↦{fullShare} (dat4 V c).arrAt 5 cfg4.N)
      ∗ (((c : Thread nD τ).loc main_v8) ↦{fullShare} (dat4 V c).arrAt 6 cfg4.N)) : sProp 𝕄)
    ⊢ (iprop((((c : Thread nD τ).loc main_v4) ↦{fullShare} V c main_v4) ∗ (((c : Thread nD τ).loc main_v0) ↦{fullShare} V c main_v0) ∗ (((c : Thread nD τ).loc main_v5) ↦{fullShare} V c main_v5) ∗ (((c : Thread nD τ).loc main_v6) ↦{fullShare} V c main_v6) ∗ (((c : Thread nD τ).loc main_v7) ↦{fullShare} V c main_v7) ∗ (((c : Thread nD τ).loc main_v8) ↦{fullShare} (dat4 V c).arrAt 6 cfg4.N)) : sProp 𝕄)
  simp only [e0, e1, e2, e3, e4, e5]
  iintro ⟨Hv4l, Hv0, Hv4r, Hv5, Hv6, Hv7, Hv8⟩
  isplitl [Hv4l Hv4r]
  · iapply (join_half4 (V c main_v4)); isplitl [Hv4l] <;> iassumption
  isplitl [Hv0]; · iexact Hv0
  isplitl [Hv5]; · iexact Hv5
  isplitl [Hv6]; · iexact Hv6
  isplitl [Hv7]; · iexact Hv7
  iexact Hv8

end Shares

variable (m : (ℓ : Loc nD τ sig) → Buf (Elt F) ℓ)

-- unification with the pinned configuration unfolds plain definitions in a metavariable's type
set_option backward.isDefEq.respectTransparency.types false in
/-- REGION 4 as an item of the program: entered at W5, left at W6. -/
def reg4 (pdats : (p : Fin 5) → (c : Dev nD) → Dat τ (Elt F) Unit ℕ (UR sig nD τ) ℕ (cfgs p) c)
    (h4 : ∀ c, pdats 4 c = dat4 (U5 m) c) : RegionSeg (pcfgs (F := F)) adm pdats () defs₀ 𝒱₀ L lv 4 where
  win := winFacts₀4
  block_pos := block_pos4
  stage_whole := stage_whole4
  K := PEmpty
  osem k := k.elim
  ho := Pipeline.OwnSemFacts.none _
  hbody c := by rw [h4 c]; exact (body_obligation4 (U5 m) c).loose
  hwaits := Pipeline.hwaits_of_owed_zero _ _ _ _ L lv 4 fun c _ => by rw [h4 c]; rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec4 c (U5 m c)
  hentry c := by
    rw [Pipeline.ownSems0_none]
    have hsplit : (unscopedBufs (Ix := Unit) (Name := ℕ) (U := UR sig nD τ) (Lvl := ℕ) c (U5 m c) : sProp 𝕄)
        ⊢ iprop((dat4 (U5 m) c).arrays ((dat4 (U5 m) c).arrAt · 0) ∗ Pipeline.unscopedRest spec4 c (U5 m c)) := by
      rw [Pipeline.unscopedBufs_split₀ cfgs 4 winFacts₀4.arr_unscoped c (U5 m c)]
      exact sep_mono (hsplit4 (U5 m) c) .rfl
    rw [Pipeline.unscopedBufs_held] at hsplit
    rw [h4 c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [h4 c]
    exact (show iprop((∃ r, prngReg c r) ∗ Pipeline.prefHeld (pcfgs (F := F) 4).pre c (fun _ => fullShare) (adm (F := F) 4).1
        ∗ Pipeline.scopedRest (Pipeline.pin (pcfgs (F := F)) adm 4).spec c) ⊢ (Pipeline.ΦA spec4 c : sProp 𝕄) from by
      unfold Pipeline.ΦA
      iintro ⟨Hp, -, Hr⟩
      isplitl [Hr]; · iexact Hr
      iexact Hp).trans (hin4 (U5 m) c)
  hout c := by
    rw [Pipeline.ownSems0_none, h4 c]
    refine (hout4 (U5 m) c).trans ?_
    unfold Pipeline.ΦA
    iintro ⟨Hr, Hp⟩
    isplitl [Hp]; · iexact Hp
    isplitr; · iempintro
    iexact Hr
  hexit c := by
    have hjoin : iprop((dat4 (U5 m) c).arrays ((dat4 (U5 m) c).arrAt · cfg4.N) ∗ Pipeline.unscopedRest spec4 c (U5 m c))
        ⊢ (unscopedBufs (Ix := Unit) (Name := ℕ) (U := UR sig nD τ) (Lvl := ℕ) c (U6 m c) : sProp 𝕄) := by
      rw [Pipeline.unscopedBufs_split₀ cfgs 4 winFacts₀4.arr_unscoped c (U6 m c)]
      refine sep_mono (hjoin4 (U5 m) (U6 m) c (W6_of_ne m c main_v4 (by decide)) (W6_of_ne m c main_v0 (by decide)) (W6_of_ne m c main_v5 (by decide)) (W6_of_ne m c main_v6 (by decide)) (W6_of_ne m c main_v7 (by decide)) (W6_out m c)) (Entails.of_eq ?_)
      unfold Pipeline.unscopedRest
      exact bigSep_congr fun b hb => by
        rw [show U6 m c b = U5 m c b from W6_of_ne m c b fun e => (Finset.mem_sdiff.mp hb).2 (Finset.mem_image.mpr ⟨6, Finset.mem_univ _, e.symm⟩)]
    rw [Pipeline.unscopedBufs_held] at hjoin
    rw [h4 c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand
end
-- ==== Proof.K.Main.lean ====
import proofs.«141637_j39676907881857_2_alg».proof.Proof.K.ChainB
import proofs.«141637_j39676907881857_2_alg».proof.Proof.K.Rec0
import proofs.«141637_j39676907881857_2_alg».proof.Proof.K.Rec1
import proofs.«141637_j39676907881857_2_alg».proof.Proof.K.Rec2
import proofs.«141637_j39676907881857_2_alg».proof.Proof.K.Rec3
import proofs.«141637_j39676907881857_2_alg».proof.Proof.K.Rec4

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The program as its six items: the four casts, then the five regions -/

/-- The casts to bf16 as an item: every unscoped buffer from its launch contents, the rest riding along. -/
abbrev hseg0 : HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R

abbrev segs : List (Seg (pcfgs (F := F)) adm (pdats m) () defs₀ 𝒱₀ L lv) :=
  [ .host (hseg0 m),
    .region (reg0 m (pdats m) (fun _ => rfl)),
    .region (reg1 m (pdats m) (fun _ => rfl)),
    .region (reg2 m (pdats m) (fun _ => rfl)),
    .region (reg3 m (pdats m) (fun _ => rfl)),
    .region (reg4 m (pdats m) (fun _ => rfl)) ]

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the launch theorem's implicit arguments are found by unifying its conclusion with this one, which takes unfolding
-- plain definitions in a metavariable's type
set_option backward.isDefEq.respectTransparency.types false in
set_option maxHeartbeats 2000000 in
/-- THE RUN. From any memory with zero counters every weakly fair execution of the program on the TensorCores
    terminates, nothing faulting, and every final memory holds each unscoped buffer at the last valuation of the
    fold: the arguments as launched, each region's output at what its write-backs left. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by
      rewrite [main_chain c, Seg.run_eq_chain,
        show (segs m).map Seg.prog = [
          StableHlo.seq hostOps0,
          Prog.lift (.customCall (Pipeline.entry 0) ()),
          Prog.lift (.customCall (Pipeline.entry 1) ()),
          Prog.lift (.customCall (Pipeline.entry 2) ()),
          Prog.lift (.customCall (Pipeline.entry 3) ()),
          Prog.lift (.customCall (Pipeline.entry 4) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W6 m c) ∗ ∃ r, prngReg c r))
    (hch := ⟨fun _ => .rfl, fun _ => .rfl, fun _ => .rfl, fun _ => .rfl, fun _ => .rfl, fun _ => .rfl, fun c =>
      (show iprop(StableHlo.held (c : Thread nD τ) (Pipeline.ucRefs τ sig) (W6 m c) ∗ R c)
          ⊢ (iprop(iprop(StableHlo.held (c : Thread nD τ) (Pipeline.ucRefs τ sig) (W6 m c) ∗ ∃ r, prngReg c r)
              ∗ ∃ W, owes (c : Thread nD τ) (0 : CellTallies nD τ sig Unit) W) : sProp 𝕄) from by
        iintro ⟨Hh, Hp, HO⟩
        isplitl [Hh Hp]
        · isplitl [Hh] <;> iassumption
        iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-! ## The frame: no item writes an argument -/

/-- An argument's buffer walks back through the fold to the launch memory: no region's output is an argument, and the
    casts write only their own results. -/
theorem W6_main_arg0 (c : Dev nD) : W6 m c (Proc.devRef .tc main_arg0) = m ((c : Thread nD τ).loc main_arg0) :=
  (W6_of_ne m c main_arg0 (by decide)).trans <| (W5_of_ne m c main_arg0 (by decide)).trans <| (W4_of_ne m c main_arg0 (by decide)).trans <|
    (W3_of_ne m c main_arg0 (by decide)).trans <| (W2_of_ne m c main_arg0 (by decide)).trans <| (V1_of m c main_arg0 (by decide)).trans rfl
theorem W6_main_arg1 (c : Dev nD) : W6 m c (Proc.devRef .tc main_arg1) = m ((c : Thread nD τ).loc main_arg1) :=
  (W6_of_ne m c main_arg1 (by decide)).trans <| (W5_of_ne m c main_arg1 (by decide)).trans <| (W4_of_ne m c main_arg1 (by decide)).trans <|
    (W3_of_ne m c main_arg1 (by decide)).trans <| (W2_of_ne m c main_arg1 (by decide)).trans <| (V1_of m c main_arg1 (by decide)).trans rfl
theorem W6_main_arg2 (c : Dev nD) : W6 m c (Proc.devRef .tc main_arg2) = m ((c : Thread nD τ).loc main_arg2) :=
  (W6_of_ne m c main_arg2 (by decide)).trans <| (W5_of_ne m c main_arg2 (by decide)).trans <| (W4_of_ne m c main_arg2 (by decide)).trans <|
    (W3_of_ne m c main_arg2 (by decide)).trans <| (W2_of_ne m c main_arg2 (by decide)).trans <| (V1_of m c main_arg2 (by decide)).trans rfl
theorem W6_main_arg3 (c : Dev nD) : W6 m c (Proc.devRef .tc main_arg3) = m ((c : Thread nD τ).loc main_arg3) :=
  (W6_of_ne m c main_arg3 (by decide)).trans <| (W5_of_ne m c main_arg3 (by decide)).trans <| (W4_of_ne m c main_arg3 (by decide)).trans <|
    (W3_of_ne m c main_arg3 (by decide)).trans <| (W2_of_ne m c main_arg3 (by decide)).trans <| (V1_of m c main_arg3 (by decide)).trans rfl

/-- THE FRAME, at any instance: every weakly fair execution terminates, nothing faulting, the argument arrays as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W6_main_arg0 m c),
      (h c _ (mem_uc main_arg1 (by decide))).trans (W6_main_arg1 m c),
      (h c _ (mem_uc main_arg2 (by decide))).trans (W6_main_arg2 m c),
      (h c _ (mem_uc main_arg3 (by decide))).trans (W6_main_arg3 m c)⟩) (run_all m ρ)

end Cert.Kernel.Hand
end
-- ==== Proof.KI.Base.lean ====
import proofs.«141637_j39676907881857_2_alg».proof.Proof.Gen.KernelIdeal.Launch
import proofs.«141637_j39676907881857_2_alg».proof.Proof.Gen.KernelIdeal.Skeleton
import proofs.«141637_j39676907881857_2_alg».proof.Proof.Gen.KernelIdeal.Points
import proofs.«141637_j39676907881857_2_alg».proof.Proof.Gen.KernelIdeal.Regions
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-block access, however spelt. -/
theorem hz2 : (![0, 0] : Fin 2 → Nat) = fun _ => 0 := by funext a; fin_cases a <;> rfl

end Cert.KernelIdeal.Hand
end
-- ==== Proof.KI.Run0.lean ====
import proofs.«141637_j39676907881857_2_alg».proof.Proof.KI.Base

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 0: the first matrix product. The grid is 4 × 4 × 2: the last coordinate k runs over the two halves of the
    contracted axis. At k = 0 the body zeroes its accumulator and adds the first half's product; at k = 1 it adds the
    second half's and copies the accumulator to the output block. -/

/-- The body's first branch: k = 0. -/
abbrev cond0_0 (i : grid0.Coords) : Prop := (Scalar.cmpi .ne (Scalar.extui (Scalar.cmpi .eq (BitVec.ofNat 32 (i 2).val) 0#32)) 0#32) = 1#1
/-- The body's second branch: k = 1, the last. -/
abbrev cond0_1 (i : grid0.Coords) : Prop := k0_cond2 i = 1#1

theorem hcond0_0 : ∀ t : Fin cfg0.N, cond0_0 (grid0.coords t) ↔ t.val % 2 = 0 :=
  (by decide +kernel : ∀ t : Fin grid0.N, cond0_0 (grid0.coords t) ↔ t.val % 2 = 0)
theorem hcond0_1 : ∀ t : Fin cfg0.N, cond0_1 (grid0.coords t) ↔ t.val % 2 = 1 :=
  (by decide +kernel : ∀ t : Fin grid0.N, cond0_1 (grid0.coords t) ↔ t.val % 2 = 1)

set_option maxHeartbeats 1000000 in
/-- The body at k = 0 on whole memrefs: the operand blocks a, b are kept, the output block is not touched, and the
    accumulator, whatever it held, ends at 0 + a·b (the payload of the zero fill put through the accumulation's). -/
theorem run0_first (c : Dev nD) (i : grid0.Coords) (arg3 : Memref sig .tc .vmem S512x1024 .bf16) (harg3 : arg3.IsWhole) (arg4 : Memref sig .tc .vmem S1024x512 .bf16) (harg4 : arg4.IsWhole) (arg5 : Memref sig .tc .vmem S512x512 .f32) (harg5 : arg5.IsWhole) (arg6 : Memref sig .tc .vmem S512x512 .f32) (harg6 : arg6.IsWhole)
    (hc0 : cond0_0 i) (hc1 : ¬cond0_1 i)
    (a : Vec F S512x1024 .bf16) (b : Vec F S1024x512 .bf16) (o : Vec F S512x512 .f32) (E : Set ℕ) (K : PUnit → sProp 𝕄) :
    iprop(owns (c : Thread nD τ) arg3 fullShare a ∗ owns (c : Thread nD τ) arg4 fullShare b ∗ owns (c : Thread nD τ) arg5 fullShare o ∗ (∃ d, owns (c : Thread nD τ) arg6 fullShare d)
        ∗ (iprop(owns (c : Thread nD τ) arg3 fullShare a ∗ owns (c : Thread nD τ) arg4 fullShare b ∗ owns (c : Thread nD τ) arg5 fullShare o
            ∗ owns (c : Thread nD τ) arg6 fullShare (k0_pay2 (k0_pay1 (F := F)) a b)) -∗ K ⟨⟩))
      ⊢ wp frame (wpE (defs₀ (F := F)) Variants.none c none) E (cc0__matmul_bf16_kernel i arg3 harg3 arg4 harg4 arg5 harg5 arg6 harg6) K := by
  simp only [cc0__matmul_bf16_kernel_eq_skeleton]; unfold cc0__matmul_bf16_kernel_skel
  unfold owns
  iintro ⟨⟨%f0, %hf0, H0⟩, ⟨%f1, %hf1, H1⟩, ⟨%f2, %hf2, H2⟩, ⟨%ds0, %fs0, -, HS0⟩, Hk⟩
  obtain rfl := harg3.eq_unread hf0; obtain rfl := harg4.eq_unread hf1; obtain rfl := harg5.eq_unread hf2
  sl_exec (disch := first | exact hc0 | exact hc1)
  sl_step
  sl_unfold_run_names
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS0
  ipureintro
  rw [View.read_writes_eq_canon _ _ _ (fun y => ⟨_, List.mem_cons_self, View.mem_set_unit_zero hz2 inb_S512x512_S512x512_0_0 y⟩),
    View.canon_cons_unit_zero hz2, View.readCov_unit_zero _ hz2]
  simp only [View.readAt_eq_ld, harg3.read_unread, harg4.read_unread, View.ld_unit_zero (S := S512x1024) hz2, View.ld_unit_zero (S := S1024x512) hz2]

set_option maxHeartbeats 1000000 in
/-- The body at k = 1: the accumulator, at what k = 0 left (acc), ends at acc + a·b, and so does the output block,
    whatever it held. -/
theorem run0_last (c : Dev nD) (i : grid0.Coords) (arg3 : Memref sig .tc .vmem S512x1024 .bf16) (harg3 : arg3.IsWhole) (arg4 : Memref sig .tc .vmem S1024x512 .bf16) (harg4 : arg4.IsWhole) (arg5 : Memref sig .tc .vmem S512x512 .f32) (harg5 : arg5.IsWhole) (arg6 : Memref sig .tc .vmem S512x512 .f32) (harg6 : arg6.IsWhole)
    (hc0 : ¬cond0_0 i) (hc1 : cond0_1 i)
    (a : Vec F S512x1024 .bf16) (b : Vec F S1024x512 .bf16) (acc : Vec F S512x512 .f32) (E : Set ℕ) (K : PUnit → sProp 𝕄) :
    iprop(owns (c : Thread nD τ) arg3 fullShare a ∗ owns (c : Thread nD τ) arg4 fullShare b ∗ (∃ d, owns (c : Thread nD τ) arg5 fullShare d) ∗ owns (c : Thread nD τ) arg6 fullShare acc
        ∗ (iprop(owns (c : Thread nD τ) arg3 fullShare a ∗ owns (c : Thread nD τ) arg4 fullShare b ∗ owns (c : Thread nD τ) arg5 fullShare (k0_pay2 acc a b)
            ∗ owns (c : Thread nD τ) arg6 fullShare (k0_pay2 acc a b)) -∗ K ⟨⟩))
      ⊢ wp frame (wpE (defs₀ (F := F)) Variants.none c none) E (cc0__matmul_bf16_kernel i arg3 harg3 arg4 harg4 arg5 harg5 arg6 harg6) K := by
  simp only [cc0__matmul_bf16_kernel_eq_skeleton]; unfold cc0__matmul_bf16_kernel_skel
  unfold owns
  iintro ⟨⟨%f0, %hf0, H0⟩, ⟨%f1, %hf1, H1⟩, ⟨%d2, %f2, -, H2⟩, ⟨%fs0, %hfs0, HS0⟩, Hk⟩
  obtain rfl := harg3.eq_unread hf0; obtain rfl := harg4.eq_unread hf1; obtain rfl := harg6.eq_unread hfs0
  sl_exec (disch := first | exact hc0 | exact hc1)
  sl_step
  sl_unfold_run_names
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    rw [View.read_writes_eq_canon _ _ _ (fun y => ⟨_, List.mem_cons_self, View.mem_set_unit_zero hz2 inb_S512x512_S512x512_0_0 y⟩),
      View.canon_unit_zero hz2, View.readCov_unit_zero _ hz2]
    simp only [View.readAt_eq_ld, harg3.read_unread, harg4.read_unread, harg6.read_unread, View.ld_unit_zero (S := S512x1024) hz2, View.ld_unit_zero (S := S1024x512) hz2, View.ld_unit_zero (S := S512x512) hz2]
  iexists _; isplitr
  swap; · iexact HS0
  ipureintro
  rw [View.read_writes_eq_canon _ _ _ (fun y => ⟨_, List.mem_cons_self, View.mem_set_unit_zero hz2 inb_S512x512_S512x512_0_0 y⟩),
    View.canon_unit_zero hz2]
  simp only [View.readAt_eq_ld, harg3.read_unread, harg4.read_unread, harg6.read_unread, View.ld_unit_zero (S := S512x1024) hz2, View.ld_unit_zero (S := S1024x512) hz2, View.ld_unit_zero (S := S512x512) hz2]

end Cert.KernelIdeal.Hand
end
-- ==== Proof.KI.Reg0.lean ====
import proofs.«141637_j39676907881857_2_alg».proof.Proof.KI.Run0

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

-- the TensorCore's buffer contents when the region is entered
variable (V : (c : Dev nD) → (b : Ref sig .tc) → Buf (Elt F) ((c : Thread nD τ).loc b))

/-! ## Region 0's proof data: what every staging buffer and the accumulator hold after each grid point -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after the body at position n: at an even position (k = 0) the zero fill plus the product of the
    point's two operand blocks, at an odd one (k = 1) what the position before left plus the product of the point's. -/
def acc0 (c : Dev nD) : (n : ℕ) → n < cfg0.N → Vec F S512x512 .f32
  | 0, h => k0_pay2 (k0_pay1 (F := F)) (iblk0 V c 0 ⟨0, h⟩) (iblk0 V c 1 ⟨0, h⟩)
  | n + 1, h =>
    if (n + 1) % 2 = 0 then k0_pay2 (k0_pay1 (F := F)) (iblk0 V c 0 ⟨n + 1, h⟩) (iblk0 V c 1 ⟨n + 1, h⟩)
    else k0_pay2 (acc0 c n (Nat.lt_of_succ_lt h)) (iblk0 V c 0 ⟨n + 1, h⟩) (iblk0 V c 1 ⟨n + 1, h⟩)

theorem acc0_even (c : Dev nD) (t : Fin cfg0.N) (h : t.val % 2 = 0) :
    acc0 V c t.val t.isLt = k0_pay2 (k0_pay1 (F := F)) (iblk0 V c 0 t) (iblk0 V c 1 t) := by
  obtain ⟨n, hn⟩ := t
  cases n with
  | zero => rfl
  | succ n => exact if_pos h

theorem acc0_odd (c : Dev nD) (t : Fin cfg0.N) (h : t.val % 2 = 1) :
    acc0 V c t.val t.isLt = k0_pay2 (acc0 V c (t.val - 1) (Nat.lt_of_le_of_lt (Nat.sub_le _ _) t.isLt)) (iblk0 V c 0 t) (iblk0 V c 1 t) := by
  obtain ⟨n, hn⟩ := t
  cases n with
  | zero => exact absurd h (by dsimp only; omega)
  | succ n => exact if_neg (by dsimp only at h; omega)

/-- The kernel's accumulator: a whole scoped buffer of its own. -/
abbrev scM0 : Memref sig .tc .vmem S512x512 .f32 := Memref.whole cc0_scratch0

/-- The region's invariant before position n: at the start the scoped rest at anything and the generator register;
    afterwards the same with the accumulator at what the position before left. -/
def Phi0 (c : Dev nD) : (n : ℕ) → n ≤ cfg0.N → sProp 𝕄
  | 0, _ => Pipeline.ΦA spec0 c
  | n + 1, hn => iprop(iprop(owns (c : Thread nD τ) scM0 fullShare (acc0 V c n hn)
      ∗ Pipeline.scopedRestBut (Ix := Unit) (Name := ℕ) (U := UR sig nD τ) (Lvl := ℕ) (Val := Elt F) spec0 c [cc0_scratch0]) ∗ (∃ r, prngReg c r))

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop(iprop(owns (c : Thread nD τ) scM0 fullShare (acc0 V c n hn)
      ∗ Pipeline.scopedRestBut (Ix := Unit) (Name := ℕ) (U := UR sig nD τ) (Lvl := ℕ) (Val := Elt F) spec0 c [cc0_scratch0]) ∗ (∃ r, prngReg c r)) := rfl

theorem Phi0_pos (c : Dev nD) (n : ℕ) (h : n ≤ cfg0.N) (hz : n ≠ 0) :
    Phi0 V c n h = iprop(iprop(owns (c : Thread nD τ) scM0 fullShare (acc0 V c (n - 1) (by omega))
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-- The class invariant with the accumulator split out of the scoped rest, owned at some contents. -/
theorem PhiA0_eq (c : Dev nD) :
    (Pipeline.ΦA spec0 c : sProp 𝕄)
      = iprop(iprop((∃ d, owns (c : Thread nD τ) scM0 fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; rfl

/-- The proof data of pipeline 0 on core c: the arrays as the region finds them; after the body at point t each
    operand's buffer at its block and the output's at the accumulator (a placeholder at the even points, where the
    output is idle); the invariant Phi0; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]

/-- Each operand's current staging buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- At the even points (k = 0) the output window is idle and not written back. -/
theorem idleAt0_2 : ∀ t : Fin cfg0.N, t.val % 2 = 0 → cfg0.idle 2 (grid0.coords t) = true := by decide +kernel
theorem noFlush0_2 : ∀ t : Fin cfg0.N, t.val % 2 = 0 → (cfg0.win 2).flush t = false := by decide +kernel
/-- At the odd points (k = 1) it is live. -/
theorem liveAt0_2 : ∀ t : Fin cfg0.N, t.val % 2 = 1 → cfg0.idle 2 (grid0.coords t) = false := by decide +kernel

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 2000000 in
/-- The body at any point: the operands' memrefs hold their blocks; at an even point the first run applies (the
    accumulator handed over at anything or at what the point before left, forgotten), at an odd point the second (the
    accumulator at what the even point before left); the invariant takes the accumulator back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  have hN : t.val < 32 := lt_of_lt_of_eq t.isLt (show cfg0.N = 32 from N_0)
  by_cases h0 : t.val % 2 = 0
  · have h1 : ¬ t.val % 2 = 1 := by omega
    rw [Dat.leavesExact_idle (dat0 V c) 2 t (idleAt0_2 t h0) (noFlush0_2 t h0)]
    rw [acc0_even V c t h0]
    by_cases hz : t.val = 0
    · rw [Phi0_castSucc V c t, Phi0_zero V c _ _ hz, PhiA0_eq]
      iintro ⟨⟨⟨HS, HB⟩, Hg⟩, Ho, ⟨%d0, H0⟩, ⟨%d1, H1⟩, ⟨%d2, H2⟩⟩
      iapply (run0_first c (grid0.coords t) _ _ _ _ _ _ _ _ ((hcond0_0 t).mpr h0) (fun h => h1 ((hcond0_1 t).mp h)) (iblk0 V c 0 t) (iblk0 V c 1 t) _ Set.univ _)
      isplitl [H0]; · iexact H0
      isplitl [H1]; · iexact H1
      isplitl [H2]; · iexact H2
      isplitl [HS]; · iexact HS
      iintro ⟨H0, H1, H2, HS⟩
      isplitl [HS HB Hg]
      · isplitl [HS HB]
        · isplitl [HS]; · iexact HS
          iexact HB
        iexact Hg
      isplitl [Ho]; · iexact Ho
      isplitl [H0]; · iexact H0
      isplitl [H1]; · iexact H1
      iexists _; iexact H2
    · rw [Phi0_castSucc V c t, Phi0_pos V c _ _ hz]
      iintro ⟨⟨⟨HS, HB⟩, Hg⟩, Ho, ⟨%d0, H0⟩, ⟨%d1, H1⟩, ⟨%d2, H2⟩⟩
      iapply (run0_first c (grid0.coords t) _ _ _ _ _ _ _ _ ((hcond0_0 t).mpr h0) (fun h => h1 ((hcond0_1 t).mp h)) (iblk0 V c 0 t) (iblk0 V c 1 t) _ Set.univ _)
      isplitl [H0]; · iexact H0
      isplitl [H1]; · iexact H1
      isplitl [H2]; · iexact H2
      isplitl [HS]; · iexists _; iexact HS
      iintro ⟨H0, H1, H2, HS⟩
      isplitl [HS HB Hg]
      · isplitl [HS HB]
        · isplitl [HS]; · iexact HS
          iexact HB
        iexact Hg
      isplitl [Ho]; · iexact Ho
      isplitl [H0]; · iexact H0
      isplitl [H1]; · iexact H1
      iexists _; iexact H2
  · have h1 : t.val % 2 = 1 := by omega
    have hz : t.val ≠ 0 := by omega
    rw [show (dat0 V c).leavesExact 2 t = owns (c : Thread nD τ) (st0_2 t) fullShare ((dat0 V c).after 2 t) from by
      unfold Dat.leavesExact; rw [liveAt0_2 t h1], after0_2]
    rw [acc0_odd V c t h1]
    rw [Phi0_castSucc V c t, Phi0_pos V c _ _ hz]
    iintro ⟨⟨⟨HS, HB⟩, Hg⟩, Ho, ⟨%d0, H0⟩, ⟨%d1, H1⟩, ⟨%d2, H2⟩⟩
    iapply (run0_last c (grid0.coords t) _ _ _ _ _ _ _ _ (fun h => h0 ((hcond0_0 t).mp h)) ((hcond0_1 t).mpr h1) (iblk0 V c 0 t) (iblk0 V c 1 t) _ Set.univ _)
    isplitl [H0]; · iexact H0
    isplitl [H1]; · iexact H1
    isplitl [H2]; · iexists _; iexact H2
    isplitl [HS]; · iexact HS
    iintro ⟨H0, H1, H2, HS⟩
    isplitl [HS HB Hg]
    · isplitl [HS HB]
      · isplitl [HS]; · iexact HS
        iexact HB
      iexact Hg
    isplitl [Ho]; · iexact Ho
    isplitl [H0]; · iexact H0
    isplitl [H1]; · iexact H1
    iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _

/-- After the last point the invariant gives the class invariant back: the accumulator's contents are forgotten. -/
theorem hout0 (c : Dev nD) : (dat0 V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 32 := N_0; omega), PhiA0_eq]
  iintro ⟨⟨HS, HB⟩, Hg⟩
  isplitl [HS HB]
  · isplitl [HS]; · iexists _; iexact HS
    iexact HB
  iexact Hg

end Region0

end Cert.KernelIdeal.Hand
end
-- ==== Proof.KI.Run1.lean ====
import proofs.«141637_j39676907881857_2_alg».proof.Proof.KI.Base

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 1: the second matrix product (x w2), the same body as region 0's. The grid is 4 × 4 × 2: the last coordinate k runs over the two halves of the
    contracted axis. At k = 0 the body zeroes its accumulator and adds the first half's product; at k = 1 it adds the
    second half's and copies the accumulator to the output block. -/

/-- The body's first branch: k = 0. -/
abbrev cond1_0 (i : grid1.Coords) : Prop := (Scalar.cmpi .ne (Scalar.extui (Scalar.cmpi .eq (BitVec.ofNat 32 (i 2).val) 0#32)) 0#32) = 1#1
/-- The body's second branch: k = 1, the last. -/
abbrev cond1_1 (i : grid1.Coords) : Prop := k1_cond2 i = 1#1

theorem hcond1_0 : ∀ t : Fin cfg1.N, cond1_0 (grid1.coords t) ↔ t.val % 2 = 0 :=
  (by decide +kernel : ∀ t : Fin grid1.N, cond1_0 (grid1.coords t) ↔ t.val % 2 = 0)
theorem hcond1_1 : ∀ t : Fin cfg1.N, cond1_1 (grid1.coords t) ↔ t.val % 2 = 1 :=
  (by decide +kernel : ∀ t : Fin grid1.N, cond1_1 (grid1.coords t) ↔ t.val % 2 = 1)

set_option maxHeartbeats 1000000 in
/-- The body at k = 0 on whole memrefs: the operand blocks a, b are kept, the output block is not touched, and the
    accumulator, whatever it held, ends at 0 + a·b (the payload of the zero fill put through the accumulation's). -/
theorem run1_first (c : Dev nD) (i : grid1.Coords) (arg3 : Memref sig .tc .vmem S512x1024 .bf16) (harg3 : arg3.IsWhole) (arg4 : Memref sig .tc .vmem S1024x512 .bf16) (harg4 : arg4.IsWhole) (arg5 : Memref sig .tc .vmem S512x512 .f32) (harg5 : arg5.IsWhole) (arg6 : Memref sig .tc .vmem S512x512 .f32) (harg6 : arg6.IsWhole)
    (hc0 : cond1_0 i) (hc1 : ¬cond1_1 i)
    (a : Vec F S512x1024 .bf16) (b : Vec F S1024x512 .bf16) (o : Vec F S512x512 .f32) (E : Set ℕ) (K : PUnit → sProp 𝕄) :
    iprop(owns (c : Thread nD τ) arg3 fullShare a ∗ owns (c : Thread nD τ) arg4 fullShare b ∗ owns (c : Thread nD τ) arg5 fullShare o ∗ (∃ d, owns (c : Thread nD τ) arg6 fullShare d)
        ∗ (iprop(owns (c : Thread nD τ) arg3 fullShare a ∗ owns (c : Thread nD τ) arg4 fullShare b ∗ owns (c : Thread nD τ) arg5 fullShare o
            ∗ owns (c : Thread nD τ) arg6 fullShare (k1_pay2 (k1_pay1 (F := F)) a b)) -∗ K ⟨⟩))
      ⊢ wp frame (wpE (defs₀ (F := F)) Variants.none c none) E (cc1__matmul_bf16_kernel i arg3 harg3 arg4 harg4 arg5 harg5 arg6 harg6) K := by
  simp only [cc1__matmul_bf16_kernel_eq_skeleton]; unfold cc1__matmul_bf16_kernel_skel
  unfold owns
  iintro ⟨⟨%f0, %hf0, H0⟩, ⟨%f1, %hf1, H1⟩, ⟨%f2, %hf2, H2⟩, ⟨%ds0, %fs0, -, HS0⟩, Hk⟩
  obtain rfl := harg3.eq_unread hf0; obtain rfl := harg4.eq_unread hf1; obtain rfl := harg5.eq_unread hf2
  sl_exec (disch := first | exact hc0 | exact hc1)
  sl_step
  sl_unfold_run_names
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS0
  ipureintro
  rw [View.read_writes_eq_canon _ _ _ (fun y => ⟨_, List.mem_cons_self, View.mem_set_unit_zero hz2 inb_S512x512_S512x512_0_0 y⟩),
    View.canon_cons_unit_zero hz2, View.readCov_unit_zero _ hz2]
  simp only [View.readAt_eq_ld, harg3.read_unread, harg4.read_unread, View.ld_unit_zero (S := S512x1024) hz2, View.ld_unit_zero (S := S1024x512) hz2]

set_option maxHeartbeats 1000000 in
/-- The body at k = 1: the accumulator, at what k = 0 left (acc), ends at acc + a·b, and so does the output block,
    whatever it held. -/
theorem run1_last (c : Dev nD) (i : grid1.Coords) (arg3 : Memref sig .tc .vmem S512x1024 .bf16) (harg3 : arg3.IsWhole) (arg4 : Memref sig .tc .vmem S1024x512 .bf16) (harg4 : arg4.IsWhole) (arg5 : Memref sig .tc .vmem S512x512 .f32) (harg5 : arg5.IsWhole) (arg6 : Memref sig .tc .vmem S512x512 .f32) (harg6 : arg6.IsWhole)
    (hc0 : ¬cond1_0 i) (hc1 : cond1_1 i)
    (a : Vec F S512x1024 .bf16) (b : Vec F S1024x512 .bf16) (acc : Vec F S512x512 .f32) (E : Set ℕ) (K : PUnit → sProp 𝕄) :
    iprop(owns (c : Thread nD τ) arg3 fullShare a ∗ owns (c : Thread nD τ) arg4 fullShare b ∗ (∃ d, owns (c : Thread nD τ) arg5 fullShare d) ∗ owns (c : Thread nD τ) arg6 fullShare acc
        ∗ (iprop(owns (c : Thread nD τ) arg3 fullShare a ∗ owns (c : Thread nD τ) arg4 fullShare b ∗ owns (c : Thread nD τ) arg5 fullShare (k1_pay2 acc a b)
            ∗ owns (c : Thread nD τ) arg6 fullShare (k1_pay2 acc a b)) -∗ K ⟨⟩))
      ⊢ wp frame (wpE (defs₀ (F := F)) Variants.none c none) E (cc1__matmul_bf16_kernel i arg3 harg3 arg4 harg4 arg5 harg5 arg6 harg6) K := by
  simp only [cc1__matmul_bf16_kernel_eq_skeleton]; unfold cc1__matmul_bf16_kernel_skel
  unfold owns
  iintro ⟨⟨%f0, %hf0, H0⟩, ⟨%f1, %hf1, H1⟩, ⟨%d2, %f2, -, H2⟩, ⟨%fs0, %hfs0, HS0⟩, Hk⟩
  obtain rfl := harg3.eq_unread hf0; obtain rfl := harg4.eq_unread hf1; obtain rfl := harg6.eq_unread hfs0
  sl_exec (disch := first | exact hc0 | exact hc1)
  sl_step
  sl_unfold_run_names
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    rw [View.read_writes_eq_canon _ _ _ (fun y => ⟨_, List.mem_cons_self, View.mem_set_unit_zero hz2 inb_S512x512_S512x512_0_0 y⟩),
      View.canon_unit_zero hz2, View.readCov_unit_zero _ hz2]
    simp only [View.readAt_eq_ld, harg3.read_unread, harg4.read_unread, harg6.read_unread, View.ld_unit_zero (S := S512x1024) hz2, View.ld_unit_zero (S := S1024x512) hz2, View.ld_unit_zero (S := S512x512) hz2]
  iexists _; isplitr
  swap; · iexact HS0
  ipureintro
  rw [View.read_writes_eq_canon _ _ _ (fun y => ⟨_, List.mem_cons_self, View.mem_set_unit_zero hz2 inb_S512x512_S512x512_0_0 y⟩),
    View.canon_unit_zero hz2]
  simp only [View.readAt_eq_ld, harg3.read_unread, harg4.read_unread, harg6.read_unread, View.ld_unit_zero (S := S512x1024) hz2, View.ld_unit_zero (S := S1024x512) hz2, View.ld_unit_zero (S := S512x512) hz2]

end Cert.KernelIdeal.Hand
end
-- ==== Proof.KI.Reg1.lean ====
import proofs.«141637_j39676907881857_2_alg».proof.Proof.KI.Run1

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

-- the TensorCore's buffer contents when the region is entered
variable (V : (c : Dev nD) → (b : Ref sig .tc) → Buf (Elt F) ((c : Thread nD τ).loc b))

/-! ## Region 1's proof data: what every staging buffer and the accumulator hold after each grid point -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after the body at position n: at an even position (k = 0) the zero fill plus the product of the
    point's two operand blocks, at an odd one (k = 1) what the position before left plus the product of the point's. -/
def acc1 (c : Dev nD) : (n : ℕ) → n < cfg1.N → Vec F S512x512 .f32
  | 0, h => k1_pay2 (k1_pay1 (F := F)) (iblk1 V c 0 ⟨0, h⟩) (iblk1 V c 1 ⟨0, h⟩)
  | n + 1, h =>
    if (n + 1) % 2 = 0 then k1_pay2 (k1_pay1 (F := F)) (iblk1 V c 0 ⟨n + 1, h⟩) (iblk1 V c 1 ⟨n + 1, h⟩)
    else k1_pay2 (acc1 c n (Nat.lt_of_succ_lt h)) (iblk1 V c 0 ⟨n + 1, h⟩) (iblk1 V c 1 ⟨n + 1, h⟩)

theorem acc1_even (c : Dev nD) (t : Fin cfg1.N) (h : t.val % 2 = 0) :
    acc1 V c t.val t.isLt = k1_pay2 (k1_pay1 (F := F)) (iblk1 V c 0 t) (iblk1 V c 1 t) := by
  obtain ⟨n, hn⟩ := t
  cases n with
  | zero => rfl
  | succ n => exact if_pos h

theorem acc1_odd (c : Dev nD) (t : Fin cfg1.N) (h : t.val % 2 = 1) :
    acc1 V c t.val t.isLt = k1_pay2 (acc1 V c (t.val - 1) (Nat.lt_of_le_of_lt (Nat.sub_le _ _) t.isLt)) (iblk1 V c 0 t) (iblk1 V c 1 t) := by
  obtain ⟨n, hn⟩ := t
  cases n with
  | zero => exact absurd h (by dsimp only; omega)
  | succ n => exact if_neg (by dsimp only at h; omega)

/-- The kernel's accumulator: a whole scoped buffer of its own. -/
abbrev scM1 : Memref sig .tc .vmem S512x512 .f32 := Memref.whole cc1_scratch0

/-- The region's invariant before position n: at the start the scoped rest at anything and the generator register;
    afterwards the same with the accumulator at what the position before left. -/
def Phi1 (c : Dev nD) : (n : ℕ) → n ≤ cfg1.N → sProp 𝕄
  | 0, _ => Pipeline.ΦA spec1 c
  | n + 1, hn => iprop(iprop(owns (c : Thread nD τ) scM1 fullShare (acc1 V c n hn)
      ∗ Pipeline.scopedRestBut (Ix := Unit) (Name := ℕ) (U := UR sig nD τ) (Lvl := ℕ) (Val := Elt F) spec1 c [cc1_scratch0]) ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(iprop(owns (c : Thread nD τ) scM1 fullShare (acc1 V c n hn)
      ∗ Pipeline.scopedRestBut (Ix := Unit) (Name := ℕ) (U := UR sig nD τ) (Lvl := ℕ) (Val := Elt F) spec1 c [cc1_scratch0]) ∗ (∃ r, prngReg c r)) := rfl

theorem Phi1_pos (c : Dev nD) (n : ℕ) (h : n ≤ cfg1.N) (hz : n ≠ 0) :
    Phi1 V c n h = iprop(iprop(owns (c : Thread nD τ) scM1 fullShare (acc1 V c (n - 1) (by omega))
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-- The class invariant with the accumulator split out of the scoped rest, owned at some contents. -/
theorem PhiA1_eq (c : Dev nD) :
    (Pipeline.ΦA spec1 c : sProp 𝕄)
      = iprop(iprop((∃ d, owns (c : Thread nD τ) scM1 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; rfl

/-- The proof data of pipeline 1 on core c: the arrays as the region finds them; after the body at point t each
    operand's buffer at its block and the output's at the accumulator (a placeholder at the even points, where the
    output is idle); the invariant Phi1; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

/-- Each operand's current staging buffer holds its block at every point. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- At the even points (k = 0) the output window is idle and not written back. -/
theorem idleAt1_2 : ∀ t : Fin cfg1.N, t.val % 2 = 0 → cfg1.idle 2 (grid1.coords t) = true := by decide +kernel
theorem noFlush1_2 : ∀ t : Fin cfg1.N, t.val % 2 = 0 → (cfg1.win 2).flush t = false := by decide +kernel
/-- At the odd points (k = 1) it is live. -/
theorem liveAt1_2 : ∀ t : Fin cfg1.N, t.val % 2 = 1 → cfg1.idle 2 (grid1.coords t) = false := by decide +kernel

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 2000000 in
/-- The body at any point: the operands' memrefs hold their blocks; at an even point the first run applies (the
    accumulator handed over at anything or at what the point before left, forgotten), at an odd point the second (the
    accumulator at what the even point before left); the invariant takes the accumulator back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  have hN : t.val < 32 := lt_of_lt_of_eq t.isLt (show cfg1.N = 32 from N_1)
  by_cases h0 : t.val % 2 = 0
  · have h1 : ¬ t.val % 2 = 1 := by omega
    rw [Dat.leavesExact_idle (dat1 V c) 2 t (idleAt1_2 t h0) (noFlush1_2 t h0)]
    rw [acc1_even V c t h0]
    by_cases hz : t.val = 0
    · rw [Phi1_castSucc V c t, Phi1_zero V c _ _ hz, PhiA1_eq]
      iintro ⟨⟨⟨HS, HB⟩, Hg⟩, Ho, ⟨%d0, H0⟩, ⟨%d1, H1⟩, ⟨%d2, H2⟩⟩
      iapply (run1_first c (grid1.coords t) _ _ _ _ _ _ _ _ ((hcond1_0 t).mpr h0) (fun h => h1 ((hcond1_1 t).mp h)) (iblk1 V c 0 t) (iblk1 V c 1 t) _ Set.univ _)
      isplitl [H0]; · iexact H0
      isplitl [H1]; · iexact H1
      isplitl [H2]; · iexact H2
      isplitl [HS]; · iexact HS
      iintro ⟨H0, H1, H2, HS⟩
      isplitl [HS HB Hg]
      · isplitl [HS HB]
        · isplitl [HS]; · iexact HS
          iexact HB
        iexact Hg
      isplitl [Ho]; · iexact Ho
      isplitl [H0]; · iexact H0
      isplitl [H1]; · iexact H1
      iexists _; iexact H2
    · rw [Phi1_castSucc V c t, Phi1_pos V c _ _ hz]
      iintro ⟨⟨⟨HS, HB⟩, Hg⟩, Ho, ⟨%d0, H0⟩, ⟨%d1, H1⟩, ⟨%d2, H2⟩⟩
      iapply (run1_first c (grid1.coords t) _ _ _ _ _ _ _ _ ((hcond1_0 t).mpr h0) (fun h => h1 ((hcond1_1 t).mp h)) (iblk1 V c 0 t) (iblk1 V c 1 t) _ Set.univ _)
      isplitl [H0]; · iexact H0
      isplitl [H1]; · iexact H1
      isplitl [H2]; · iexact H2
      isplitl [HS]; · iexists _; iexact HS
      iintro ⟨H0, H1, H2, HS⟩
      isplitl [HS HB Hg]
      · isplitl [HS HB]
        · isplitl [HS]; · iexact HS
          iexact HB
        iexact Hg
      isplitl [Ho]; · iexact Ho
      isplitl [H0]; · iexact H0
      isplitl [H1]; · iexact H1
      iexists _; iexact H2
  · have h1 : t.val % 2 = 1 := by omega
    have hz : t.val ≠ 0 := by omega
    rw [show (dat1 V c).leavesExact 2 t = owns (c : Thread nD τ) (st1_2 t) fullShare ((dat1 V c).after 2 t) from by
      unfold Dat.leavesExact; rw [liveAt1_2 t h1], after1_2]
    rw [acc1_odd V c t h1]
    rw [Phi1_castSucc V c t, Phi1_pos V c _ _ hz]
    iintro ⟨⟨⟨HS, HB⟩, Hg⟩, Ho, ⟨%d0, H0⟩, ⟨%d1, H1⟩, ⟨%d2, H2⟩⟩
    iapply (run1_last c (grid1.coords t) _ _ _ _ _ _ _ _ (fun h => h0 ((hcond1_0 t).mp h)) ((hcond1_1 t).mpr h1) (iblk1 V c 0 t) (iblk1 V c 1 t) _ Set.univ _)
    isplitl [H0]; · iexact H0
    isplitl [H1]; · iexact H1
    isplitl [H2]; · iexists _; iexact H2
    isplitl [HS]; · iexact HS
    iintro ⟨H0, H1, H2, HS⟩
    isplitl [HS HB Hg]
    · isplitl [HS HB]
      · isplitl [HS]; · iexact HS
        iexact HB
      iexact Hg
    isplitl [Ho]; · iexact Ho
    isplitl [H0]; · iexact H0
    isplitl [H1]; · iexact H1
    iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- After the last point the invariant gives the class invariant back: the accumulator's contents are forgotten. -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 32 := N_1; omega), PhiA1_eq]
  iintro ⟨⟨HS, HB⟩, Hg⟩
  isplitl [HS HB]
  · isplitl [HS]; · iexists _; iexact HS
    iexact HB
  iexact Hg

end Region1

end Cert.KernelIdeal.Hand
end
-- ==== Proof.KI.Run2.lean ====
import proofs.«141637_j39676907881857_2_alg».proof.Proof.KI.Base

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 2: the third matrix product (w3 w3), the same body as region 0's; both operand windows are blocks of ONE array. The grid is 4 × 4 × 2: the last coordinate k runs over the two halves of the
    contracted axis. At k = 0 the body zeroes its accumulator and adds the first half's product; at k = 1 it adds the
    second half's and copies the accumulator to the output block. -/

/-- The body's first branch: k = 0. -/
abbrev cond2_0 (i : grid2.Coords) : Prop := (Scalar.cmpi .ne (Scalar.extui (Scalar.cmpi .eq (BitVec.ofNat 32 (i 2).val) 0#32)) 0#32) = 1#1
/-- The body's second branch: k = 1, the last. -/
abbrev cond2_1 (i : grid2.Coords) : Prop := k2_cond2 i = 1#1

theorem hcond2_0 : ∀ t : Fin cfg2.N, cond2_0 (grid2.coords t) ↔ t.val % 2 = 0 :=
  (by decide +kernel : ∀ t : Fin grid2.N, cond2_0 (grid2.coords t) ↔ t.val % 2 = 0)
theorem hcond2_1 : ∀ t : Fin cfg2.N, cond2_1 (grid2.coords t) ↔ t.val % 2 = 1 :=
  (by decide +kernel : ∀ t : Fin grid2.N, cond2_1 (grid2.coords t) ↔ t.val % 2 = 1)

set_option maxHeartbeats 1000000 in
/-- The body at k = 0 on whole memrefs: the operand blocks a, b are kept, the output block is not touched, and the
    accumulator, whatever it held, ends at 0 + a·b (the payload of the zero fill put through the accumulation's). -/
theorem run2_first (c : Dev nD) (i : grid2.Coords) (arg3 : Memref sig .tc .vmem S512x1024 .bf16) (harg3 : arg3.IsWhole) (arg4 : Memref sig .tc .vmem S1024x512 .bf16) (harg4 : arg4.IsWhole) (arg5 : Memref sig .tc .vmem S512x512 .f32) (harg5 : arg5.IsWhole) (arg6 : Memref sig .tc .vmem S512x512 .f32) (harg6 : arg6.IsWhole)
    (hc0 : cond2_0 i) (hc1 : ¬cond2_1 i)
    (a : Vec F S512x1024 .bf16) (b : Vec F S1024x512 .bf16) (o : Vec F S512x512 .f32) (E : Set ℕ) (K : PUnit → sProp 𝕄) :
    iprop(owns (c : Thread nD τ) arg3 fullShare a ∗ owns (c : Thread nD τ) arg4 fullShare b ∗ owns (c : Thread nD τ) arg5 fullShare o ∗ (∃ d, owns (c : Thread nD τ) arg6 fullShare d)
        ∗ (iprop(owns (c : Thread nD τ) arg3 fullShare a ∗ owns (c : Thread nD τ) arg4 fullShare b ∗ owns (c : Thread nD τ) arg5 fullShare o
            ∗ owns (c : Thread nD τ) arg6 fullShare (k2_pay2 (k2_pay1 (F := F)) a b)) -∗ K ⟨⟩))
      ⊢ wp frame (wpE (defs₀ (F := F)) Variants.none c none) E (cc2__matmul_bf16_kernel i arg3 harg3 arg4 harg4 arg5 harg5 arg6 harg6) K := by
  simp only [cc2__matmul_bf16_kernel_eq_skeleton]; unfold cc2__matmul_bf16_kernel_skel
  unfold owns
  iintro ⟨⟨%f0, %hf0, H0⟩, ⟨%f1, %hf1, H1⟩, ⟨%f2, %hf2, H2⟩, ⟨%ds0, %fs0, -, HS0⟩, Hk⟩
  obtain rfl := harg3.eq_unread hf0; obtain rfl := harg4.eq_unread hf1; obtain rfl := harg5.eq_unread hf2
  sl_exec (disch := first | exact hc0 | exact hc1)
  sl_step
  sl_unfold_run_names
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS0
  ipureintro
  rw [View.read_writes_eq_canon _ _ _ (fun y => ⟨_, List.mem_cons_self, View.mem_set_unit_zero hz2 inb_S512x512_S512x512_0_0 y⟩),
    View.canon_cons_unit_zero hz2, View.readCov_unit_zero _ hz2]
  simp only [View.readAt_eq_ld, harg3.read_unread, harg4.read_unread, View.ld_unit_zero (S := S512x1024) hz2, View.ld_unit_zero (S := S1024x512) hz2]

set_option maxHeartbeats 1000000 in
/-- The body at k = 1: the accumulator, at what k = 0 left (acc), ends at acc + a·b, and so does the output block,
    whatever it held. -/
theorem run2_last (c : Dev nD) (i : grid2.Coords) (arg3 : Memref sig .tc .vmem S512x1024 .bf16) (harg3 : arg3.IsWhole) (arg4 : Memref sig .tc .vmem S1024x512 .bf16) (harg4 : arg4.IsWhole) (arg5 : Memref sig .tc .vmem S512x512 .f32) (harg5 : arg5.IsWhole) (arg6 : Memref sig .tc .vmem S512x512 .f32) (harg6 : arg6.IsWhole)
    (hc0 : ¬cond2_0 i) (hc1 : cond2_1 i)
    (a : Vec F S512x1024 .bf16) (b : Vec F S1024x512 .bf16) (acc : Vec F S512x512 .f32) (E : Set ℕ) (K : PUnit → sProp 𝕄) :
    iprop(owns (c : Thread nD τ) arg3 fullShare a ∗ owns (c : Thread nD τ) arg4 fullShare b ∗ (∃ d, owns (c : Thread nD τ) arg5 fullShare d) ∗ owns (c : Thread nD τ) arg6 fullShare acc
        ∗ (iprop(owns (c : Thread nD τ) arg3 fullShare a ∗ owns (c : Thread nD τ) arg4 fullShare b ∗ owns (c : Thread nD τ) arg5 fullShare (k2_pay2 acc a b)
            ∗ owns (c : Thread nD τ) arg6 fullShare (k2_pay2 acc a b)) -∗ K ⟨⟩))
      ⊢ wp frame (wpE (defs₀ (F := F)) Variants.none c none) E (cc2__matmul_bf16_kernel i arg3 harg3 arg4 harg4 arg5 harg5 arg6 harg6) K := by
  simp only [cc2__matmul_bf16_kernel_eq_skeleton]; unfold cc2__matmul_bf16_kernel_skel
  unfold owns
  iintro ⟨⟨%f0, %hf0, H0⟩, ⟨%f1, %hf1, H1⟩, ⟨%d2, %f2, -, H2⟩, ⟨%fs0, %hfs0, HS0⟩, Hk⟩
  obtain rfl := harg3.eq_unread hf0; obtain rfl := harg4.eq_unread hf1; obtain rfl := harg6.eq_unread hfs0
  sl_exec (disch := first | exact hc0 | exact hc1)
  sl_step
  sl_unfold_run_names
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    rw [View.read_writes_eq_canon _ _ _ (fun y => ⟨_, List.mem_cons_self, View.mem_set_unit_zero hz2 inb_S512x512_S512x512_0_0 y⟩),
      View.canon_unit_zero hz2, View.readCov_unit_zero _ hz2]
    simp only [View.readAt_eq_ld, harg3.read_unread, harg4.read_unread, harg6.read_unread, View.ld_unit_zero (S := S512x1024) hz2, View.ld_unit_zero (S := S1024x512) hz2, View.ld_unit_zero (S := S512x512) hz2]
  iexists _; isplitr
  swap; · iexact HS0
  ipureintro
  rw [View.read_writes_eq_canon _ _ _ (fun y => ⟨_, List.mem_cons_self, View.mem_set_unit_zero hz2 inb_S512x512_S512x512_0_0 y⟩),
    View.canon_unit_zero hz2]
  simp only [View.readAt_eq_ld, harg3.read_unread, harg4.read_unread, harg6.read_unread, View.ld_unit_zero (S := S512x1024) hz2, View.ld_unit_zero (S := S1024x512) hz2, View.ld_unit_zero (S := S512x512) hz2]

end Cert.KernelIdeal.Hand
end
-- ==== Proof.KI.Reg2.lean ====
import proofs.«141637_j39676907881857_2_alg».proof.Proof.KI.Run2

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

-- the TensorCore's buffer contents when the region is entered
variable (V : (c : Dev nD) → (b : Ref sig .tc) → Buf (Elt F) ((c : Thread nD τ).loc b))

/-! ## Region 2's proof data: what every staging buffer and the accumulator hold after each grid point -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator after the body at position n: at an even position (k = 0) the zero fill plus the product of the
    point's two operand blocks, at an odd one (k = 1) what the position before left plus the product of the point's. -/
def acc2 (c : Dev nD) : (n : ℕ) → n < cfg2.N → Vec F S512x512 .f32
  | 0, h => k2_pay2 (k2_pay1 (F := F)) (iblk2 V c 0 ⟨0, h⟩) (iblk2 V c 1 ⟨0, h⟩)
  | n + 1, h =>
    if (n + 1) % 2 = 0 then k2_pay2 (k2_pay1 (F := F)) (iblk2 V c 0 ⟨n + 1, h⟩) (iblk2 V c 1 ⟨n + 1, h⟩)
    else k2_pay2 (acc2 c n (Nat.lt_of_succ_lt h)) (iblk2 V c 0 ⟨n + 1, h⟩) (iblk2 V c 1 ⟨n + 1, h⟩)

theorem acc2_even (c : Dev nD) (t : Fin cfg2.N) (h : t.val % 2 = 0) :
    acc2 V c t.val t.isLt = k2_pay2 (k2_pay1 (F := F)) (iblk2 V c 0 t) (iblk2 V c 1 t) := by
  obtain ⟨n, hn⟩ := t
  cases n with
  | zero => rfl
  | succ n => exact if_pos h

theorem acc2_odd (c : Dev nD) (t : Fin cfg2.N) (h : t.val % 2 = 1) :
    acc2 V c t.val t.isLt = k2_pay2 (acc2 V c (t.val - 1) (Nat.lt_of_le_of_lt (Nat.sub_le _ _) t.isLt)) (iblk2 V c 0 t) (iblk2 V c 1 t) := by
  obtain ⟨n, hn⟩ := t
  cases n with
  | zero => exact absurd h (by dsimp only; omega)
  | succ n => exact if_neg (by dsimp only at h; omega)

/-- The kernel's accumulator: a whole scoped buffer of its own. -/
abbrev scM2 : Memref sig .tc .vmem S512x512 .f32 := Memref.whole cc2_scratch0

/-- The region's invariant before position n: at the start the scoped rest at anything and the generator register;
    afterwards the same with the accumulator at what the position before left. -/
def Phi2 (c : Dev nD) : (n : ℕ) → n ≤ cfg2.N → sProp 𝕄
  | 0, _ => Pipeline.ΦA spec2 c
  | n + 1, hn => iprop(iprop(owns (c : Thread nD τ) scM2 fullShare (acc2 V c n hn)
      ∗ Pipeline.scopedRestBut (Ix := Unit) (Name := ℕ) (U := UR sig nD τ) (Lvl := ℕ) (Val := Elt F) spec2 c [cc2_scratch0]) ∗ (∃ r, prngReg c r))

theorem Phi2_zero (c : Dev nD) (n : ℕ) (h : n ≤ cfg2.N) (hz : n = 0) : Phi2 V c n h = Pipeline.ΦA spec2 c := by
  subst hz; rfl

theorem Phi2_succ (c : Dev nD) (n : ℕ) (hn : n < cfg2.N) :
    Phi2 V c (n + 1) hn = iprop(iprop(owns (c : Thread nD τ) scM2 fullShare (acc2 V c n hn)
      ∗ Pipeline.scopedRestBut (Ix := Unit) (Name := ℕ) (U := UR sig nD τ) (Lvl := ℕ) (Val := Elt F) spec2 c [cc2_scratch0]) ∗ (∃ r, prngReg c r)) := rfl

theorem Phi2_pos (c : Dev nD) (n : ℕ) (h : n ≤ cfg2.N) (hz : n ≠ 0) :
    Phi2 V c n h = iprop(iprop(owns (c : Thread nD τ) scM2 fullShare (acc2 V c (n - 1) (by omega))
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-- The class invariant with the accumulator split out of the scoped rest, owned at some contents. -/
theorem PhiA2_eq (c : Dev nD) :
    (Pipeline.ΦA spec2 c : sProp 𝕄)
      = iprop(iprop((∃ d, owns (c : Thread nD τ) scM2 fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; rfl

/-- The proof data of pipeline 2 on core c: the arrays as the region finds them; after the body at point t each
    operand's buffer at its block and the output's at the accumulator (a placeholder at the even points, where the
    output is idle); the invariant Phi2; nothing owed; the two operand windows, which read ONE array, hold a half of it each. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t.val t.isLt
  Φ t := Phi2 V c t.val (Nat.le_of_lt_succ t.isLt)
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]

theorem Phi2_castSucc (c : Dev nD) (t : Fin cfg2.N) :
    (dat2 V c).Φ t.castSucc = Phi2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = acc2 V c t.val t.isLt := by dsimp only [dat2]

/-- Each operand's current staging buffer holds its block at every point. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
/-- At the even points (k = 0) the output window is idle and not written back. -/
theorem idleAt2_2 : ∀ t : Fin cfg2.N, t.val % 2 = 0 → cfg2.idle 2 (grid2.coords t) = true := by decide +kernel
theorem noFlush2_2 : ∀ t : Fin cfg2.N, t.val % 2 = 0 → (cfg2.win 2).flush t = false := by decide +kernel
/-- At the odd points (k = 1) it is live. -/
theorem liveAt2_2 : ∀ t : Fin cfg2.N, t.val % 2 = 1 → cfg2.idle 2 (grid2.coords t) = false := by decide +kernel

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 2000000 in
/-- The body at any point: the operands' memrefs hold their blocks; at an even point the first run applies (the
    accumulator handed over at anything or at what the point before left, forgotten), at an odd point the second (the
    accumulator at what the even point before left); the invariant takes the accumulator back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = Phi2 V c (t.val + 1) t.isLt from rfl, Phi2_succ]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  have hN : t.val < 32 := lt_of_lt_of_eq t.isLt (show cfg2.N = 32 from N_2)
  by_cases h0 : t.val % 2 = 0
  · have h1 : ¬ t.val % 2 = 1 := by omega
    rw [Dat.leavesExact_idle (dat2 V c) 2 t (idleAt2_2 t h0) (noFlush2_2 t h0)]
    rw [acc2_even V c t h0]
    by_cases hz : t.val = 0
    · rw [Phi2_castSucc V c t, Phi2_zero V c _ _ hz, PhiA2_eq]
      iintro ⟨⟨⟨HS, HB⟩, Hg⟩, Ho, ⟨%d0, H0⟩, ⟨%d1, H1⟩, ⟨%d2, H2⟩⟩
      iapply (run2_first c (grid2.coords t) _ _ _ _ _ _ _ _ ((hcond2_0 t).mpr h0) (fun h => h1 ((hcond2_1 t).mp h)) (iblk2 V c 0 t) (iblk2 V c 1 t) _ Set.univ _)
      isplitl [H0]; · iexact H0
      isplitl [H1]; · iexact H1
      isplitl [H2]; · iexact H2
      isplitl [HS]; · iexact HS
      iintro ⟨H0, H1, H2, HS⟩
      isplitl [HS HB Hg]
      · isplitl [HS HB]
        · isplitl [HS]; · iexact HS
          iexact HB
        iexact Hg
      isplitl [Ho]; · iexact Ho
      isplitl [H0]; · iexact H0
      isplitl [H1]; · iexact H1
      iexists _; iexact H2
    · rw [Phi2_castSucc V c t, Phi2_pos V c _ _ hz]
      iintro ⟨⟨⟨HS, HB⟩, Hg⟩, Ho, ⟨%d0, H0⟩, ⟨%d1, H1⟩, ⟨%d2, H2⟩⟩
      iapply (run2_first c (grid2.coords t) _ _ _ _ _ _ _ _ ((hcond2_0 t).mpr h0) (fun h => h1 ((hcond2_1 t).mp h)) (iblk2 V c 0 t) (iblk2 V c 1 t) _ Set.univ _)
      isplitl [H0]; · iexact H0
      isplitl [H1]; · iexact H1
      isplitl [H2]; · iexact H2
      isplitl [HS]; · iexists _; iexact HS
      iintro ⟨H0, H1, H2, HS⟩
      isplitl [HS HB Hg]
      · isplitl [HS HB]
        · isplitl [HS]; · iexact HS
          iexact HB
        iexact Hg
      isplitl [Ho]; · iexact Ho
      isplitl [H0]; · iexact H0
      isplitl [H1]; · iexact H1
      iexists _; iexact H2
  · have h1 : t.val % 2 = 1 := by omega
    have hz : t.val ≠ 0 := by omega
    rw [show (dat2 V c).leavesExact 2 t = owns (c : Thread nD τ) (st2_2 t) fullShare ((dat2 V c).after 2 t) from by
      unfold Dat.leavesExact; rw [liveAt2_2 t h1], after2_2]
    rw [acc2_odd V c t h1]
    rw [Phi2_castSucc V c t, Phi2_pos V c _ _ hz]
    iintro ⟨⟨⟨HS, HB⟩, Hg⟩, Ho, ⟨%d0, H0⟩, ⟨%d1, H1⟩, ⟨%d2, H2⟩⟩
    iapply (run2_last c (grid2.coords t) _ _ _ _ _ _ _ _ (fun h => h0 ((hcond2_0 t).mp h)) ((hcond2_1 t).mpr h1) (iblk2 V c 0 t) (iblk2 V c 1 t) _ Set.univ _)
    isplitl [H0]; · iexact H0
    isplitl [H1]; · iexact H1
    isplitl [H2]; · iexists _; iexact H2
    isplitl [HS]; · iexact HS
    iintro ⟨H0, H1, H2, HS⟩
    isplitl [HS HB Hg]
    · isplitl [HS HB]
      · isplitl [HS]; · iexact HS
        iexact HB
      iexact Hg
    isplitl [Ho]; · iexact Ho
    isplitl [H0]; · iexact H0
    isplitl [H1]; · iexact H1
    iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = Phi2 V c 0 (Nat.zero_le _) from rfl, Phi2_zero V c 0 _ rfl]
  try exact Idealize.SL.BI.Entails.refl _

/-- After the last point the invariant gives the class invariant back: the accumulator's contents are forgotten. -/
theorem hout2 (c : Dev nD) : (dat2 V c).Φ (Fin.last cfg2.N) ⊢ Pipeline.ΦA spec2 c := by
  rw [show (dat2 V c).Φ (Fin.last cfg2.N) = Phi2 V c (Fin.last cfg2.N).val (Nat.le_of_lt_succ (Fin.last cfg2.N).isLt) from rfl,
    Phi2_pos V c _ _ (by rw [Fin.val_last]; have : cfg2.N = 32 := N_2; omega), PhiA2_eq]
  iintro ⟨⟨HS, HB⟩, Hg⟩
  isplitl [HS HB]
  · isplitl [HS]; · iexists _; iexact HS
    iexact HB
  iexact Hg

end Region2

end Cert.KernelIdeal.Hand
end
-- ==== Proof.KI.ChainA.lean ====
import proofs.«141637_j39676907881857_2_alg».proof.Proof.KI.Reg0
import proofs.«141637_j39676907881857_2_alg».proof.Proof.KI.Reg1
import proofs.«141637_j39676907881857_2_alg».proof.Proof.KI.Reg2

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between the items of the program: a fold from the launch memory.
    Each region changes ONE buffer, its output array, to what its write-backs leave there. -/

/-- Core c's buffers at launch. -/
abbrev W0 (c : Dev nD) : Valuation τ sig (Elt F) := fun b => m (c, b)
/-- After the four casts to bf16 (region 0's entry). -/
abbrev W1 (c : Dev nD) : Valuation τ sig (Elt F) := StableHlo.after hostOps0 (W0 m c)
/-- The same read at the TensorCore's references. -/
abbrev U1 (c : Dev nD) (b : Ref sig .tc) : Buf (Elt F) ((c : Thread nD τ).loc b) := W1 m c b

/-- After region 0: t1 = x w1 in main_v4. -/
def W2 (c : Dev nD) : Valuation τ sig (Elt F) := Function.update (W1 m c) main_v4 ((dat0 (U1 m) c).arrAt 2 cfg0.N)
abbrev U2 (c : Dev nD) (b : Ref sig .tc) : Buf (Elt F) ((c : Thread nD τ).loc b) := W2 m c b
theorem W2_out (c : Dev nD) : W2 m c (Proc.devRef .tc main_v4) = (dat0 (U1 m) c).arrAt 2 cfg0.N := by
  unfold W2; exact Function.update_self ..
theorem W2_of_ne (c : Dev nD) (r : Ref sig .tc) (h : r ≠ main_v4) : W2 m c (Proc.devRef .tc r) = W1 m c (Proc.devRef .tc r) := by
  unfold W2; exact Function.update_of_ne (StableHlo.devRef_ne_of_ne h) ..

/-- After region 1: t2 = x w2 in main_v5. -/
def W3 (c : Dev nD) : Valuation τ sig (Elt F) := Function.update (W2 m c) main_v5 ((dat1 (U2 m) c).arrAt 2 cfg1.N)
abbrev U3 (c : Dev nD) (b : Ref sig .tc) : Buf (Elt F) ((c : Thread nD τ).loc b) := W3 m c b
theorem W3_out (c : Dev nD) : W3 m c (Proc.devRef .tc main_v5) = (dat1 (U2 m) c).arrAt 2 cfg1.N := by
  unfold W3; exact Function.update_self ..
theorem W3_of_ne (c : Dev nD) (r : Ref sig .tc) (h : r ≠ main_v5) : W3 m c (Proc.devRef .tc r) = W2 m c (Proc.devRef .tc r) := by
  unfold W3; exact Function.update_of_ne (StableHlo.devRef_ne_of_ne h) ..

/-- After region 2: t3 = w3 w3 in main_v6. -/
def W4 (c : Dev nD) : Valuation τ sig (Elt F) := Function.update (W3 m c) main_v6 ((dat2 (U3 m) c).arrAt 2 cfg2.N)
abbrev U4 (c : Dev nD) (b : Ref sig .tc) : Buf (Elt F) ((c : Thread nD τ).loc b) := W4 m c b
theorem W4_out (c : Dev nD) : W4 m c (Proc.devRef .tc main_v6) = (dat2 (U3 m) c).arrAt 2 cfg2.N := by
  unfold W4; exact Function.update_self ..
theorem W4_of_ne (c : Dev nD) (r : Ref sig .tc) (h : r ≠ main_v6) : W4 m c (Proc.devRef .tc r) = W3 m c (Proc.devRef .tc r) := by
  unfold W4; exact Function.update_of_ne (StableHlo.devRef_ne_of_ne h) ..

/-- What rides beside the buffers through every item: the core's generator register at some state, and its owing
    nothing. -/
abbrev R (c : Dev nD) : sProp 𝕄 := iprop((∃ r, prngReg c r) ∗ ∃ W, owes (c : Thread nD τ) (0 : CellTallies nD τ sig Unit) W)

abbrev 𝒱₀ : Variants := Variants.none
/-- No core owes another anything: no level is assigned. -/
abbrev L : GSem nD τ sig → Finset Unit := fun _ => ∅
abbrev lv : GSem nD τ sig → Unit → ℕ := fun _ _ => 0

end Cert.KernelIdeal.Hand
end
-- ==== Proof.KI.Run3.lean ====
import proofs.«141637_j39676907881857_2_alg».proof.Proof.KI.Base

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 3: t6 = ((t1 ∘ w1) x) ∘ w1. The grid is 4 × 4 × 2: the last coordinate k runs over the two halves of the
    contracted axis. At k = 0 the body zeroes its accumulator and adds the first half's product (t1 ∘ w1) x; at k = 1 it
    adds the second half's and writes the accumulator times the w1 block to the output block. -/

/-- The body's first branch: k = 0. -/
abbrev cond3_0 (i : grid3.Coords) : Prop := (Scalar.cmpi .ne (Scalar.extui (Scalar.cmpi .eq (BitVec.ofNat 32 (i 2).val) 0#32)) 0#32) = 1#1
/-- The body's second branch: k = 1, the last. -/
abbrev cond3_1 (i : grid3.Coords) : Prop := k3_cond2 i = 1#1

theorem hcond3_0 : ∀ t : Fin cfg3.N, cond3_0 (grid3.coords t) ↔ t.val % 2 = 0 :=
  (by decide +kernel : ∀ t : Fin grid3.N, cond3_0 (grid3.coords t) ↔ t.val % 2 = 0)
theorem hcond3_1 : ∀ t : Fin cfg3.N, cond3_1 (grid3.coords t) ↔ t.val % 2 = 1 :=
  (by decide +kernel : ∀ t : Fin grid3.N, cond3_1 (grid3.coords t) ↔ t.val % 2 = 1)

set_option maxHeartbeats 1000000 in
/-- The body at k = 0 on whole memrefs: the operand blocks t1, w1, x and the closing step's w1 block are kept, the
    output block is not touched, and the accumulator, whatever it held, ends at 0 + (t1 ∘ w1)·x (the payload of the
    zero fill put through the accumulation's). -/
theorem run3_first (c : Dev nD) (i : grid3.Coords) (arg3 : Memref sig .tc .vmem S512x1024 .f32) (harg3 : arg3.IsWhole) (arg4 : Memref sig .tc .vmem S512x1024 .f32) (harg4 : arg4.IsWhole) (arg5 : Memref sig .tc .vmem S1024x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole)
    (hc0 : cond3_0 i) (hc1 : ¬cond3_1 i)
    (t1 w1 : Vec F S512x1024 .f32) (xin : Vec F S1024x512 .bf16) (we o : Vec F S512x512 .f32) (E : Set ℕ) (K : PUnit → sProp 𝕄) :
    iprop(owns (c : Thread nD τ) arg3 fullShare t1 ∗ owns (c : Thread nD τ) arg4 fullShare w1 ∗ owns (c : Thread nD τ) arg5 fullShare xin ∗ owns (c : Thread nD τ) arg6 fullShare we ∗ owns (c : Thread nD τ) arg7 fullShare o ∗ (∃ d, owns (c : Thread nD τ) arg8 fullShare d)
        ∗ (iprop(owns (c : Thread nD τ) arg3 fullShare t1 ∗ owns (c : Thread nD τ) arg4 fullShare w1 ∗ owns (c : Thread nD τ) arg5 fullShare xin ∗ owns (c : Thread nD τ) arg6 fullShare we ∗ owns (c : Thread nD τ) arg7 fullShare o
            ∗ owns (c : Thread nD τ) arg8 fullShare (k3_pay2 t1 w1 (k3_pay1 (F := F)) xin)) -∗ K ⟨⟩))
      ⊢ wp frame (wpE (defs₀ (F := F)) Variants.none c none) E (cc3__t6_kernel i arg3 harg3 arg4 harg4 arg5 harg5 arg6 harg6 arg7 harg7 arg8 harg8) K := by
  simp only [cc3__t6_kernel_eq_skeleton]; unfold cc3__t6_kernel_skel
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
  obtain rfl := harg3.eq_unread hf0; obtain rfl := harg4.eq_unread hf1; obtain rfl := harg5.eq_unread hf2
  obtain rfl := harg6.eq_unread hf3; obtain rfl := harg7.eq_unread hf4
  sl_exec (disch := first | exact hc0 | exact hc1)
  sl_step
  sl_unfold_run_names
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  iexists _; isplitr
  swap; · iexact HS0
  ipureintro
  rw [View.read_writes_eq_canon _ _ _ (fun y => ⟨_, List.mem_cons_self, View.mem_set_unit_zero hz2 inb_S512x512_S512x512_0_0 y⟩),
    View.canon_cons_unit_zero hz2, View.readCov_unit_zero _ hz2]
  simp only [View.readAt_eq_ld, harg3.read_unread, harg4.read_unread, harg5.read_unread, View.ld_unit_zero (S := S512x1024) hz2, View.ld_unit_zero (S := S1024x512) hz2]

set_option maxHeartbeats 1000000 in
/-- The body at k = 1: the accumulator, at what k = 0 left (acc), ends at acc + (t1 ∘ w1)·x, and the output block,
    whatever it held, ends at that sum times the w1 block. -/
theorem run3_last (c : Dev nD) (i : grid3.Coords) (arg3 : Memref sig .tc .vmem S512x1024 .f32) (harg3 : arg3.IsWhole) (arg4 : Memref sig .tc .vmem S512x1024 .f32) (harg4 : arg4.IsWhole) (arg5 : Memref sig .tc .vmem S1024x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole)
    (hc0 : ¬cond3_0 i) (hc1 : cond3_1 i)
    (t1 w1 : Vec F S512x1024 .f32) (xin : Vec F S1024x512 .bf16) (we acc : Vec F S512x512 .f32) (E : Set ℕ) (K : PUnit → sProp 𝕄) :
    iprop(owns (c : Thread nD τ) arg3 fullShare t1 ∗ owns (c : Thread nD τ) arg4 fullShare w1 ∗ owns (c : Thread nD τ) arg5 fullShare xin ∗ owns (c : Thread nD τ) arg6 fullShare we ∗ (∃ d, owns (c : Thread nD τ) arg7 fullShare d) ∗ owns (c : Thread nD τ) arg8 fullShare acc
        ∗ (iprop(owns (c : Thread nD τ) arg3 fullShare t1 ∗ owns (c : Thread nD τ) arg4 fullShare w1 ∗ owns (c : Thread nD τ) arg5 fullShare xin ∗ owns (c : Thread nD τ) arg6 fullShare we
            ∗ owns (c : Thread nD τ) arg7 fullShare (k3_pay3 (k3_pay2 t1 w1 acc xin) we)
            ∗ owns (c : Thread nD τ) arg8 fullShare (k3_pay2 t1 w1 acc xin)) -∗ K ⟨⟩))
      ⊢ wp frame (wpE (defs₀ (F := F)) Variants.none c none) E (cc3__t6_kernel i arg3 harg3 arg4 harg4 arg5 harg5 arg6 harg6 arg7 harg7 arg8 harg8) K := by
  simp only [cc3__t6_kernel_eq_skeleton]; unfold cc3__t6_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
  obtain rfl := harg3.eq_unread hf0; obtain rfl := harg4.eq_unread hf1; obtain rfl := harg5.eq_unread hf2
  obtain rfl := harg6.eq_unread hf3; obtain rfl := harg8.eq_unread hfs0
  sl_exec (disch := first | exact hc0 | exact hc1)
  sl_step
  sl_unfold_run_names
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro
    rw [View.read_writes_eq_canon _ _ _ (fun y => ⟨_, List.mem_cons_self, View.mem_set_unit_zero hz2 inb_S512x512_S512x512_0_0 y⟩),
      View.canon_unit_zero hz2, View.readCov_unit_zero _ hz2]
    simp only [View.readAt_eq_ld, harg3.read_unread, harg4.read_unread, harg5.read_unread, harg6.read_unread, harg8.read_unread, View.ld_unit_zero (S := S512x1024) hz2, View.ld_unit_zero (S := S1024x512) hz2, View.ld_unit_zero (S := S512x512) hz2]
  iexists _; isplitr
  swap; · iexact HS0
  ipureintro
  rw [View.read_writes_eq_canon _ _ _ (fun y => ⟨_, List.mem_cons_self, View.mem_set_unit_zero hz2 inb_S512x512_S512x512_0_0 y⟩),
    View.canon_unit_zero hz2]
  simp only [View.readAt_eq_ld, harg3.read_unread, harg4.read_unread, harg5.read_unread, harg8.read_unread, View.ld_unit_zero (S := S512x1024) hz2, View.ld_unit_zero (S := S1024x512) hz2, View.ld_unit_zero (S := S512x512) hz2]

end Cert.KernelIdeal.Hand
end
-- ==== Proof.KI.Reg3.lean ====
import proofs.«141637_j39676907881857_2_alg».proof.Proof.KI.Run3

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3

-- the TensorCore's buffer contents when the region is entered
variable (V : (c : Dev nD) → (b : Ref sig .tc) → Buf (Elt F) ((c : Thread nD τ).loc b))

/-! ## Region 3's proof data: what every staging buffer and the accumulator hold after each grid point -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The accumulator after the body at position n: at an even position (k = 0) the zero fill plus the product of the
    point's blocks (t1 ∘ w1) x, at an odd one (k = 1) what the position before left plus the product of the point's. -/
def acc3 (c : Dev nD) : (n : ℕ) → n < cfg3.N → Vec F S512x512 .f32
  | 0, h => k3_pay2 (iblk3 V c 0 ⟨0, h⟩) (iblk3 V c 1 ⟨0, h⟩) (k3_pay1 (F := F)) (iblk3 V c 2 ⟨0, h⟩)
  | n + 1, h =>
    if (n + 1) % 2 = 0 then k3_pay2 (iblk3 V c 0 ⟨n + 1, h⟩) (iblk3 V c 1 ⟨n + 1, h⟩) (k3_pay1 (F := F)) (iblk3 V c 2 ⟨n + 1, h⟩)
    else k3_pay2 (iblk3 V c 0 ⟨n + 1, h⟩) (iblk3 V c 1 ⟨n + 1, h⟩) (acc3 c n (Nat.lt_of_succ_lt h)) (iblk3 V c 2 ⟨n + 1, h⟩)

theorem acc3_even (c : Dev nD) (t : Fin cfg3.N) (h : t.val % 2 = 0) :
    acc3 V c t.val t.isLt = k3_pay2 (iblk3 V c 0 t) (iblk3 V c 1 t) (k3_pay1 (F := F)) (iblk3 V c 2 t) := by
  obtain ⟨n, hn⟩ := t
  cases n with
  | zero => rfl
  | succ n => exact if_pos h

theorem acc3_odd (c : Dev nD) (t : Fin cfg3.N) (h : t.val % 2 = 1) :
    acc3 V c t.val t.isLt = k3_pay2 (iblk3 V c 0 t) (iblk3 V c 1 t) (acc3 V c (t.val - 1) (Nat.lt_of_le_of_lt (Nat.sub_le _ _) t.isLt)) (iblk3 V c 2 t) := by
  obtain ⟨n, hn⟩ := t
  cases n with
  | zero => exact absurd h (by dsimp only; omega)
  | succ n => exact if_neg (by dsimp only at h; omega)

/-- The kernel's accumulator: a whole scoped buffer of its own. -/
abbrev scM3 : Memref sig .tc .vmem S512x512 .f32 := Memref.whole cc3_scratch0

/-- The region's invariant before position n: at the start the scoped rest at anything and the generator register;
    afterwards the same with the accumulator at what the position before left. -/
def Phi3 (c : Dev nD) : (n : ℕ) → n ≤ cfg3.N → sProp 𝕄
  | 0, _ => Pipeline.ΦA spec3 c
  | n + 1, hn => iprop(iprop(owns (c : Thread nD τ) scM3 fullShare (acc3 V c n hn)
      ∗ Pipeline.scopedRestBut (Ix := Unit) (Name := ℕ) (U := UR sig nD τ) (Lvl := ℕ) (Val := Elt F) spec3 c [cc3_scratch0]) ∗ (∃ r, prngReg c r))

theorem Phi3_zero (c : Dev nD) (n : ℕ) (h : n ≤ cfg3.N) (hz : n = 0) : Phi3 V c n h = Pipeline.ΦA spec3 c := by
  subst hz; rfl

theorem Phi3_succ (c : Dev nD) (n : ℕ) (hn : n < cfg3.N) :
    Phi3 V c (n + 1) hn = iprop(iprop(owns (c : Thread nD τ) scM3 fullShare (acc3 V c n hn)
      ∗ Pipeline.scopedRestBut (Ix := Unit) (Name := ℕ) (U := UR sig nD τ) (Lvl := ℕ) (Val := Elt F) spec3 c [cc3_scratch0]) ∗ (∃ r, prngReg c r)) := rfl

theorem Phi3_pos (c : Dev nD) (n : ℕ) (h : n ≤ cfg3.N) (hz : n ≠ 0) :
    Phi3 V c n h = iprop(iprop(owns (c : Thread nD τ) scM3 fullShare (acc3 V c (n - 1) (by omega))
      ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-- The class invariant with the accumulator split out of the scoped rest, owned at some contents. -/
theorem PhiA3_eq (c : Dev nD) :
    (Pipeline.ΦA spec3 c : sProp 𝕄)
      = iprop(iprop((∃ d, owns (c : Thread nD τ) scM3 fullShare d)
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; rfl

/-- The proof data of pipeline 3 on core c: the arrays as the region finds them; after the body at point t each
    input's buffer at its block and the output's at the accumulator times the closing step's w1 block (a placeholder at
    the even points, where the output is idle); the invariant Phi3; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => k3_pay3 (acc3 V c t.val t.isLt) (iblk3 V c 3 t)
  Φ t := Phi3 V c t.val (Nat.le_of_lt_succ t.isLt)
  q w := match w with
    | ⟨0, _⟩ => fullShare
    | ⟨1, _⟩ => fullShare.left
    | ⟨2, _⟩ => fullShare
    | ⟨3, _⟩ => fullShare.right
    | ⟨4, _⟩ => fullShare
  owed _ := 0

theorem A_eq3 (c : Dev nD) (w : Fin cfg3.W) : (dat3 V c).A w = V c (Pipeline.arrRef spec3 w) := by
  dsimp only [dat3]

theorem Phi3_castSucc (c : Dev nD) (t : Fin cfg3.N) :
    (dat3 V c).Φ t.castSucc = Phi3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = k3_pay3 (acc3 V c t.val t.isLt) (iblk3 V c 3 t) := by dsimp only [dat3]

/-- Each input's current staging buffer holds its block at every point, fetched there or not. -/
theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A_eq3]; try rfl) t d).trans
    (by unfold Dat.fetched Dat.blockOf iblk3; rw [A_eq3]; try rfl)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
/-- At the even points (k = 0) the output window is idle and not written back. -/
theorem idleAt3_4 : ∀ t : Fin cfg3.N, t.val % 2 = 0 → cfg3.idle 4 (grid3.coords t) = true := by decide +kernel
theorem noFlush3_4 : ∀ t : Fin cfg3.N, t.val % 2 = 0 → (cfg3.win 4).flush t = false := by decide +kernel
/-- At the odd points (k = 1) it is live. -/
theorem liveAt3_4 : ∀ t : Fin cfg3.N, t.val % 2 = 1 → cfg3.idle 4 (grid3.coords t) = false := by decide +kernel

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 4000000 in
/-- The body at any point: the inputs' memrefs hold their blocks; at an even point the first run applies (the
    accumulator handed over at anything or at what the point before left, forgotten), at an odd point the second (the
    accumulator at what the even point before left); the invariant takes the accumulator back at this point's contents. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = Phi3 V c (t.val + 1) t.isLt from rfl, Phi3_succ]
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  rw [show (dat3 V c).leavesExact 2 t = owns (c : Thread nD τ) (st3_2 t) fullShare ((dat3 V c).after 2 t) from by
    unfold Dat.leavesExact; rw [liveAt3_2 t], after3_2]
  rw [show (dat3 V c).leavesExact 3 t = owns (c : Thread nD τ) (st3_3 t) fullShare ((dat3 V c).after 3 t) from by
    unfold Dat.leavesExact; rw [liveAt3_3 t], after3_3]
  have hN : t.val < 32 := lt_of_lt_of_eq t.isLt (show cfg3.N = 32 from N_3)
  by_cases h0 : t.val % 2 = 0
  · have h1 : ¬ t.val % 2 = 1 := by omega
    rw [Dat.leavesExact_idle (dat3 V c) 4 t (idleAt3_4 t h0) (noFlush3_4 t h0)]
    rw [acc3_even V c t h0]
    by_cases hz : t.val = 0
    · rw [Phi3_castSucc V c t, Phi3_zero V c _ _ hz, PhiA3_eq]
      iintro ⟨⟨⟨HS, HB⟩, Hg⟩, Ho, ⟨%d0, H0⟩, ⟨%d1, H1⟩, ⟨%d2, H2⟩, ⟨%d3, H3⟩, ⟨%d4, H4⟩⟩
      iapply (run3_first c (grid3.coords t) _ _ _ _ _ _ _ _ _ _ _ _ ((hcond3_0 t).mpr h0) (fun h => h1 ((hcond3_1 t).mp h)) (iblk3 V c 0 t) (iblk3 V c 1 t) (iblk3 V c 2 t) (iblk3 V c 3 t) _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HB Hg]
      · isplitl [HS HB]
        · isplitl [HS]; · iexact HS
          iexact HB
        iexact Hg
      isplitl [Ho]; · iexact Ho
      isplitl [H0]; · iexact H0
      isplitl [H1]; · iexact H1
      isplitl [H2]; · iexact H2
      isplitl [H3]; · iexact H3
      iexists _; iexact H4
    · rw [Phi3_castSucc V c t, Phi3_pos V c _ _ hz]
      iintro ⟨⟨⟨HS, HB⟩, Hg⟩, Ho, ⟨%d0, H0⟩, ⟨%d1, H1⟩, ⟨%d2, H2⟩, ⟨%d3, H3⟩, ⟨%d4, H4⟩⟩
      iapply (run3_first c (grid3.coords t) _ _ _ _ _ _ _ _ _ _ _ _ ((hcond3_0 t).mpr h0) (fun h => h1 ((hcond3_1 t).mp h)) (iblk3 V c 0 t) (iblk3 V c 1 t) (iblk3 V c 2 t) (iblk3 V c 3 t) _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS HB Hg]
      · isplitl [HS HB]
        · isplitl [HS]; · iexact HS
          iexact HB
        iexact Hg
      isplitl [Ho]; · iexact Ho
      isplitl [H0]; · iexact H0
      isplitl [H1]; · iexact H1
      isplitl [H2]; · iexact H2
      isplitl [H3]; · iexact H3
      iexists _; iexact H4
  · have h1 : t.val % 2 = 1 := by omega
    have hz : t.val ≠ 0 := by omega
    rw [show (dat3 V c).leavesExact 4 t = owns (c : Thread nD τ) (st3_4 t) fullShare ((dat3 V c).after 4 t) from by
      unfold Dat.leavesExact; rw [liveAt3_4 t h1], after3_4]
    rw [acc3_odd V c t h1]
    rw [Phi3_castSucc V c t, Phi3_pos V c _ _ hz]
    iintro ⟨⟨⟨HS, HB⟩, Hg⟩, Ho, ⟨%d0, H0⟩, ⟨%d1, H1⟩, ⟨%d2, H2⟩, ⟨%d3, H3⟩, ⟨%d4, H4⟩⟩
    iapply (run3_last c (grid3.coords t) _ _ _ _ _ _ _ _ _ _ _ _ (fun h => h0 ((hcond3_0 t).mp h)) ((hcond3_1 t).mpr h1) (iblk3 V c 0 t) (iblk3 V c 1 t) (iblk3 V c 2 t) (iblk3 V c 3 t) _ Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS HB Hg]
    · isplitl [HS HB]
      · isplitl [HS]; · iexact HS
        iexact HB
      iexact Hg
    isplitl [Ho]; · iexact Ho
    isplitl [H0]; · iexact H0
    isplitl [H1]; · iexact H1
    isplitl [H2]; · iexact H2
    isplitl [H3]; · iexact H3
    iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = Phi3 V c 0 (Nat.zero_le _) from rfl, Phi3_zero V c 0 _ rfl]
  try exact Idealize.SL.BI.Entails.refl _

/-- After the last point the invariant gives the class invariant back: the accumulator's contents are forgotten. -/
theorem hout3 (c : Dev nD) : (dat3 V c).Φ (Fin.last cfg3.N) ⊢ Pipeline.ΦA spec3 c := by
  rw [show (dat3 V c).Φ (Fin.last cfg3.N) = Phi3 V c (Fin.last cfg3.N).val (Nat.le_of_lt_succ (Fin.last cfg3.N).isLt) from rfl,
    Phi3_pos V c _ _ (by rw [Fin.val_last]; have : cfg3.N = 32 := N_3; omega), PhiA3_eq]
  iintro ⟨⟨HS, HB⟩, Hg⟩
  isplitl [HS HB]
  · isplitl [HS]; · iexists _; iexact HS
    iexact HB
  iexact Hg

end Region3

end Cert.KernelIdeal.Hand
end
-- ==== Proof.KI.Run4.lean ====
import proofs.«141637_j39676907881857_2_alg».proof.Proof.KI.Base

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 4: the product t1 x and the combination. The grid is 4 × 4 × 2: the last coordinate k runs over the two
    halves of the contracted axis. At k = 0 the body zeroes its accumulator and adds the first half's product t1 x; at
    k = 1 it adds the second half's and writes the combination of the accumulator (t1x) with the four blocks t1, t2, t3,
    t6 to the output block. -/

/-- The body's first branch: k = 0. -/
abbrev cond4_0 (i : grid4.Coords) : Prop := (Scalar.cmpi .ne (Scalar.extui (Scalar.cmpi .eq (BitVec.ofNat 32 (i 2).val) 0#32)) 0#32) = 1#1
/-- The body's second branch: k = 1, the last. -/
abbrev cond4_1 (i : grid4.Coords) : Prop := k4_cond2 i = 1#1

theorem hcond4_0 : ∀ t : Fin cfg4.N, cond4_0 (grid4.coords t) ↔ t.val % 2 = 0 :=
  (by decide +kernel : ∀ t : Fin grid4.N, cond4_0 (grid4.coords t) ↔ t.val % 2 = 0)
theorem hcond4_1 : ∀ t : Fin cfg4.N, cond4_1 (grid4.coords t) ↔ t.val % 2 = 1 :=
  (by decide +kernel : ∀ t : Fin grid4.N, cond4_1 (grid4.coords t) ↔ t.val % 2 = 1)

set_option maxHeartbeats 1000000 in
/-- The body at k = 0 on whole memrefs: the operand blocks t1 (as the product's left factor), x and the four blocks of
    the combination are kept, the output block is not touched, and the accumulator, whatever it held, ends at
    0 + t1·x (the payload of the zero fill put through the accumulation's). -/
theorem run4_first (c : Dev nD) (i : grid4.Coords) (arg3 : Memref sig .tc .vmem S512x1024 .f32) (harg3 : arg3.IsWhole) (arg4 : Memref sig .tc .vmem S1024x512 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole)
    (hc0 : cond4_0 i) (hc1 : ¬cond4_1 i)
    (t1a : Vec F S512x1024 .f32) (xin : Vec F S1024x512 .bf16) (t1e t2 t3 t6 o : Vec F S512x512 .f32) (E : Set ℕ) (K : PUnit → sProp 𝕄) :
    iprop(owns (c : Thread nD τ) arg3 fullShare t1a ∗ owns (c : Thread nD τ) arg4 fullShare xin ∗ owns (c : Thread nD τ) arg5 fullShare t1e ∗ owns (c : Thread nD τ) arg6 fullShare t2 ∗ owns (c : Thread nD τ) arg7 fullShare t3 ∗ owns (c : Thread nD τ) arg8 fullShare t6 ∗ owns (c : Thread nD τ) arg9 fullShare o ∗ (∃ d, owns (c : Thread nD τ) arg10 fullShare d)
        ∗ (iprop(owns (c : Thread nD τ) arg3 fullShare t1a ∗ owns (c : Thread nD τ) arg4 fullShare xin ∗ owns (c : Thread nD τ) arg5 fullShare t1e ∗ owns (c : Thread nD τ) arg6 fullShare t2 ∗ owns (c : Thread nD τ) arg7 fullShare t3 ∗ owns (c : Thread nD τ) arg8 fullShare t6 ∗ owns (c : Thread nD τ) arg9 fullShare o
            ∗ owns (c : Thread nD τ) arg10 fullShare (k4_pay2 t1a (k4_pay1 (F := F)) xin)) -∗ K ⟨⟩))
      ⊢ wp frame (wpE (defs₀ (F := F)) Variants.none c none) E (cc4__combine_kernel i arg3 harg3 arg4 harg4 arg5 harg5 arg6 harg6 arg7 harg7 arg8 harg8 arg9 harg9 arg10 harg10) K := by
  simp only [cc4__combine_kernel_eq_skeleton]; unfold cc4__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  obtain rfl := harg9.eq_unread hf6
  sl_exec (disch := first | exact hc0 | exact hc1)
  sl_step
  sl_unfold_run_names
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  iexists _; isplitr
  swap; · iexact HS0
  ipureintro
  rw [View.read_writes_eq_canon _ _ _ (fun y => ⟨_, List.mem_cons_self, View.mem_set_unit_zero hz2 inb_S512x512_S512x512_0_0 y⟩),
    View.canon_cons_unit_zero hz2, View.readCov_unit_zero _ hz2]
  simp only [View.readAt_eq_ld, harg3.read_unread, harg4.read_unread, View.ld_unit_zero (S := S512x1024) hz2, View.ld_unit_zero (S := S1024x512) hz2]

set_option maxHeartbeats 1000000 in
/-- The body at k = 1: the accumulator, at what k = 0 left (acc), ends at acc + t1·x, and the output block, whatever it
    held, ends at the combination of that sum with the blocks t1, t2, t3, t6. -/
theorem run4_last (c : Dev nD) (i : grid4.Coords) (arg3 : Memref sig .tc .vmem S512x1024 .f32) (harg3 : arg3.IsWhole) (arg4 : Memref sig .tc .vmem S1024x512 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole)
    (hc0 : ¬cond4_0 i) (hc1 : cond4_1 i)
    (t1a : Vec F S512x1024 .f32) (xin : Vec F S1024x512 .bf16) (t1e t2 t3 t6 acc : Vec F S512x512 .f32) (E : Set ℕ) (K : PUnit → sProp 𝕄) :
    iprop(owns (c : Thread nD τ) arg3 fullShare t1a ∗ owns (c : Thread nD τ) arg4 fullShare xin ∗ owns (c : Thread nD τ) arg5 fullShare t1e ∗ owns (c : Thread nD τ) arg6 fullShare t2 ∗ owns (c : Thread nD τ) arg7 fullShare t3 ∗ owns (c : Thread nD τ) arg8 fullShare t6 ∗ (∃ d, owns (c : Thread nD τ) arg9 fullShare d) ∗ owns (c : Thread nD τ) arg10 fullShare acc
        ∗ (iprop(owns (c : Thread nD τ) arg3 fullShare t1a ∗ owns (c : Thread nD τ) arg4 fullShare xin ∗ owns (c : Thread nD τ) arg5 fullShare t1e ∗ owns (c : Thread nD τ) arg6 fullShare t2 ∗ owns (c : Thread nD τ) arg7 fullShare t3 ∗ owns (c : Thread nD τ) arg8 fullShare t6
            ∗ owns (c : Thread nD τ) arg9 fullShare (k4_pay3 (k4_pay2 t1a acc xin) t1e t2 t3 t6)
            ∗ owns (c : Thread nD τ) arg10 fullShare (k4_pay2 t1a acc xin)) -∗ K ⟨⟩))
      ⊢ wp frame (wpE (defs₀ (F := F)) Variants.none c none) E (cc4__combine_kernel i arg3 harg3 arg4 harg4 arg5 harg5 arg6 harg6 arg7 harg7 arg8 harg8 arg9 harg9 arg10 harg10) K := by
  simp only [cc4__combine_kernel_eq_skeleton]; unfold cc4__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  obtain rfl := harg10.eq_unread hfs0
  sl_exec (disch := first | exact hc0 | exact hc1)
  sl_step
  sl_unfold_run_names
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr
    swap; · iexact H6
    ipureintro
    rw [View.read_writes_eq_canon _ _ _ (fun y => ⟨_, List.mem_cons_self, View.mem_set_unit_zero hz2 inb_S512x512_S512x512_0_0 y⟩),
      View.canon_unit_zero hz2, View.readCov_unit_zero _ hz2]
    simp only [View.readAt_eq_ld, harg3.read_unread, harg4.read_unread, harg5.read_unread, harg6.read_unread, harg7.read_unread, harg8.read_unread, harg10.read_unread, View.ld_unit_zero (S := S512x1024) hz2, View.ld_unit_zero (S := S1024x512) hz2, View.ld_unit_zero (S := S512x512) hz2]
  iexists _; isplitr
  swap; · iexact HS0
  ipureintro
  rw [View.read_writes_eq_canon _ _ _ (fun y => ⟨_, List.mem_cons_self, View.mem_set_unit_zero hz2 inb_S512x512_S512x512_0_0 y⟩),
    View.canon_unit_zero hz2]
  simp only [View.readAt_eq_ld, harg3.read_unread, harg4.read_unread, harg10.read_unread, View.ld_unit_zero (S := S512x1024) hz2, View.ld_unit_zero (S := S1024x512) hz2, View.ld_unit_zero (S := S512x512) hz2]

end Cert.KernelIdeal.Hand
end
-- ==== Proof.KI.Reg4.lean ====
import proofs.«141637_j39676907881857_2_alg».proof.Proof.KI.Run4

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4

-- the TensorCore's buffer contents when the region is entered
variable (V : (c : Dev nD) → (b : Ref sig .tc) → Buf (Elt F) ((c : Thread nD τ).loc b))

/-! ## Region 4's proof data: what every staging buffer and the accumulator hold after each grid point -/

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The accumulator after the body at position n: at an even position (k = 0) the zero fill plus the product t1 x of
    the point's blocks, at an odd one (k = 1) what the position before left plus the product of the point's. -/
def acc4 (c : Dev nD) : (n : ℕ) → n < cfg4.N → Vec F S512x512 .f32
  | 0, h => k4_pay2 (iblk4 V c 0 ⟨0, h⟩) (k4_pay1 (F := F)) (iblk4 V c 1 ⟨0, h⟩)
  | n + 1, h =>
    if (n + 1) % 2 = 0 then k4_pay2 (iblk4 V c 0 ⟨n + 1, h⟩) (k4_pay1 (F := F)) (iblk4 V c 1 ⟨n + 1, h⟩)
    else k4_pay2 (iblk4 V c 0 ⟨n + 1, h⟩) (acc4 c n (Nat.lt_of_succ_lt h)) (iblk4 V c 1 ⟨n + 1, h⟩)

theorem acc4_even (c : Dev nD) (t : Fin cfg4.N) (h : t.val % 2 = 0) :
    acc4 V c t.val t.isLt = k4_pay2 (iblk4 V c 0 t) (k4_pay1 (F := F)) (iblk4 V c 1 t) := by
  obtain ⟨n, hn⟩ := t
  cases n with
  | zero => rfl
  | succ n => exact if_pos h

theorem acc4_odd (c : Dev nD) (t : Fin cfg4.N) (h : t.val % 2 = 1) :
    acc4 V c t.val t.isLt = k4_pay2 (iblk4 V c 0 t) (acc4 V c (t.val - 1) (Nat.lt_of_le_of_lt (Nat.sub_le _ _) t.isLt)) (iblk4 V c 1 t) := by
  obtain ⟨n, hn⟩ := t
  cases n with
  | zero => exact absurd h (by dsimp only; omega)
  | succ n => exact if_neg (by dsimp only at h; omega)

/-- The kernel's accumulator: a whole scoped buffer of its own. -/
abbrev scM4 : Memref sig .tc .vmem S512x512 .f32 := Memref.whole cc4_scratch0

/-- The region's invariant before position n: at the start the scoped rest at anything and the generator register;
    afterwards the same with the accumulator at what the position before left. -/
def Phi4 (c : Dev nD) : (n : ℕ) → n ≤ cfg4.N → sProp 𝕄
  | 0, _ => Pipeline.ΦA spec4 c
  | n + 1, hn => iprop(iprop(owns (c : Thread nD τ) scM4 fullShare (acc4 V c n hn)
      ∗ Pipeline.scopedRestBut (Ix := Unit) (Name := ℕ) (U := UR sig nD τ) (Lvl := ℕ) (Val := Elt F) spec4 c [cc4_scratch0]) ∗ (∃ r, prngReg c r))

theorem Phi4_zero (c : Dev nD) (n : ℕ) (h : n ≤ cfg4.N) (hz : n = 0) : Phi4 V c n h = Pipeline.ΦA spec4 c := by
  subst hz; rfl

theorem Phi4_succ (c : Dev nD) (n : ℕ) (hn : n < cfg4.N) :
    Phi4 V c (n + 1) hn = iprop(iprop(owns (c : Thread nD τ) scM4 fullShare (acc4 V c n hn)
      ∗ Pipeline.scopedRestBut (Ix := Unit) (Name := ℕ) (U := UR sig nD τ) (Lvl := ℕ) (Val := Elt F) spec4 c [cc4_scratch0]) ∗ (∃ r, prngReg c r)) := rfl

theorem Phi4_pos (c : Dev nD) (n : ℕ) (h : n ≤ cfg4.N) (hz : n ≠ 0) :
    Phi4 V c n h = iprop(iprop(owns (c : Thread nD τ) scM4 fullShare (acc4 V c (n - 1) (by omega))
      ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-- The class invariant with the accumulator split out of the scoped rest, owned at some contents. -/
theorem PhiA4_eq (c : Dev nD) :
    (Pipeline.ΦA spec4 c : sProp 𝕄)
      = iprop(iprop((∃ d, owns (c : Thread nD τ) scM4 fullShare d)
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; rfl

/-- The proof data of pipeline 4 on core c: the arrays as the region finds them; after the body at point t each
    input's buffer at its block and the output's at the combination of the accumulator with the blocks t1, t2, t3, t6
    (a placeholder at the even points, where the output is idle); the invariant Phi4; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => k4_pay3 (acc4 V c t.val t.isLt) (iblk4 V c 2 t) (iblk4 V c 3 t) (iblk4 V c 4 t) (iblk4 V c 5 t)
  Φ t := Phi4 V c t.val (Nat.le_of_lt_succ t.isLt)
  q w := match w with
    | ⟨0, _⟩ => fullShare.left
    | ⟨1, _⟩ => fullShare
    | ⟨2, _⟩ => fullShare.right
    | ⟨3, _⟩ => fullShare
    | ⟨4, _⟩ => fullShare
    | ⟨5, _⟩ => fullShare
    | ⟨6, _⟩ => fullShare
  owed _ := 0

theorem A_eq4 (c : Dev nD) (w : Fin cfg4.W) : (dat4 V c).A w = V c (Pipeline.arrRef spec4 w) := by
  dsimp only [dat4]

theorem Phi4_castSucc (c : Dev nD) (t : Fin cfg4.N) :
    (dat4 V c).Φ t.castSucc = Phi4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = k4_pay3 (acc4 V c t.val t.isLt) (iblk4 V c 2 t) (iblk4 V c 3 t) (iblk4 V c 4 t) (iblk4 V c 5 t) := by dsimp only [dat4]

/-- Each input's current staging buffer holds its block at every point, fetched there or not. -/
theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl) (fun t => by rw [after4_2]; unfold Dat.blockOf iblk4; rw [A_eq4]; try rfl) t d).trans
    (by unfold Dat.fetched Dat.blockOf iblk4; rw [A_eq4]; try rfl)
theorem before4_3 (c : Dev nD) (t : Fin cfg4.N) (d) : (dat4 V c).before 3 t d = iblk4 V c 3 t :=
  ((dat4 V c).before_in_eq_fetched 3 rfl (fun _ => rfl) (fun _ _ _ => rfl) (fun t => by rw [after4_3]; unfold Dat.blockOf iblk4; rw [A_eq4]; try rfl) t d).trans
    (by unfold Dat.fetched Dat.blockOf iblk4; rw [A_eq4]; try rfl)
theorem before4_4 (c : Dev nD) (t : Fin cfg4.N) (d) : (dat4 V c).before 4 t d = iblk4 V c 4 t :=
  ((dat4 V c).before_in_eq_fetched 4 rfl (fun _ => rfl) (fun _ _ _ => rfl) (fun t => by rw [after4_4]; unfold Dat.blockOf iblk4; rw [A_eq4]; try rfl) t d).trans
    (by unfold Dat.fetched Dat.blockOf iblk4; rw [A_eq4]; try rfl)
theorem before4_5 (c : Dev nD) (t : Fin cfg4.N) (d) : (dat4 V c).before 5 t d = iblk4 V c 5 t :=
  ((dat4 V c).before_in_eq_fetched 5 rfl (fun _ => rfl) (fun _ _ _ => rfl) (fun t => by rw [after4_5]; unfold Dat.blockOf iblk4; rw [A_eq4]; try rfl) t d).trans
    (by unfold Dat.fetched Dat.blockOf iblk4; rw [A_eq4]; try rfl)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cfg4.idle 4 (grid4.coords t) = false := by decide +kernel
theorem liveAt4_5 : ∀ t : Fin cfg4.N, cfg4.idle 5 (grid4.coords t) = false := by decide +kernel
/-- At the even points (k = 0) the output window is idle and not written back. -/
theorem idleAt4_6 : ∀ t : Fin cfg4.N, t.val % 2 = 0 → cfg4.idle 6 (grid4.coords t) = true := by decide +kernel
theorem noFlush4_6 : ∀ t : Fin cfg4.N, t.val % 2 = 0 → (cfg4.win 6).flush t = false := by decide +kernel
/-- At the odd points (k = 1) it is live. -/
theorem liveAt4_6 : ∀ t : Fin cfg4.N, t.val % 2 = 1 → cfg4.idle 6 (grid4.coords t) = false := by decide +kernel

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t)

set_option maxHeartbeats 4000000 in
/-- The body at any point: the inputs' memrefs hold their blocks; at an even point the first run applies (the
    accumulator handed over at anything or at what the point before left, forgotten), at an odd point the second (the
    accumulator at what the even point before left); the invariant takes the accumulator back at this point's contents. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).owesAt () t.succ = (dat4 V c).owesAt () t.castSucc from rfl]
  rw [show (dat4 V c).Φ t.succ = Phi4 V c (t.val + 1) t.isLt from rfl, Phi4_succ]
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  rw [show (dat4 V c).leavesExact 2 t = owns (c : Thread nD τ) (st4_2 t) fullShare ((dat4 V c).after 2 t) from by
    unfold Dat.leavesExact; rw [liveAt4_2 t], after4_2]
  rw [show (dat4 V c).leavesExact 3 t = owns (c : Thread nD τ) (st4_3 t) fullShare ((dat4 V c).after 3 t) from by
    unfold Dat.leavesExact; rw [liveAt4_3 t], after4_3]
  rw [show (dat4 V c).leavesExact 4 t = owns (c : Thread nD τ) (st4_4 t) fullShare ((dat4 V c).after 4 t) from by
    unfold Dat.leavesExact; rw [liveAt4_4 t], after4_4]
  rw [show (dat4 V c).leavesExact 5 t = owns (c : Thread nD τ) (st4_5 t) fullShare ((dat4 V c).after 5 t) from by
    unfold Dat.leavesExact; rw [liveAt4_5 t], after4_5]
  have hN : t.val < 32 := lt_of_lt_of_eq t.isLt (show cfg4.N = 32 from N_4)
  by_cases h0 : t.val % 2 = 0
  · have h1 : ¬ t.val % 2 = 1 := by omega
    rw [Dat.leavesExact_idle (dat4 V c) 6 t (idleAt4_6 t h0) (noFlush4_6 t h0)]
    rw [acc4_even V c t h0]
    by_cases hz : t.val = 0
    · rw [Phi4_castSucc V c t, Phi4_zero V c _ _ hz, PhiA4_eq]
      iintro ⟨⟨⟨HS, HB⟩, Hg⟩, Ho, ⟨%d0, H0⟩, ⟨%d1, H1⟩, ⟨%d2, H2⟩, ⟨%d3, H3⟩, ⟨%d4, H4⟩, ⟨%d5, H5⟩, ⟨%d6, H6⟩⟩
      iapply (run4_first c (grid4.coords t) _ _ _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t) (iblk4 V c 5 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS HB Hg]
      · isplitl [HS HB]
        · isplitl [HS]; · iexact HS
          iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [Phi4_castSucc V c t, Phi4_pos V c _ _ hz]
      iintro ⟨⟨⟨HS, HB⟩, Hg⟩, Ho, ⟨%d0, H0⟩, ⟨%d1, H1⟩, ⟨%d2, H2⟩, ⟨%d3, H3⟩, ⟨%d4, H4⟩, ⟨%d5, H5⟩, ⟨%d6, H6⟩⟩
      iapply (run4_first c (grid4.coords t) _ _ _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t) (iblk4 V c 5 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexists _; iexact HS
      iintro ⟨H0, H1, H2, H3, H4, H5, H6, HS⟩
      isplitl [HS HB Hg]
      · isplitl [HS HB]
        · isplitl [HS]; · iexact HS
          iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have h1 : t.val % 2 = 1 := by omega
    have hz : t.val ≠ 0 := by omega
    rw [show (dat4 V c).leavesExact 6 t = owns (c : Thread nD τ) (st4_6 t) fullShare ((dat4 V c).after 6 t) from by
      unfold Dat.leavesExact; rw [liveAt4_6 t h1], after4_6]
    rw [acc4_odd V c t h1]
    rw [Phi4_castSucc V c t, Phi4_pos V c _ _ hz]
    iintro ⟨⟨⟨HS, HB⟩, Hg⟩, Ho, ⟨%d0, H0⟩, ⟨%d1, H1⟩, ⟨%d2, H2⟩, ⟨%d3, H3⟩, ⟨%d4, H4⟩, ⟨%d5, H5⟩, ⟨%d6, H6⟩⟩
    iapply (run4_last c (grid4.coords t) _ _ _ _ _ _ _ _ _ _ _ _ _ _ _ _ (fun h => h0 ((hcond4_0 t).mp h)) ((hcond4_1 t).mpr h1) (iblk4 V c 0 t) (iblk4 V c 1 t) (iblk4 V c 2 t) (iblk4 V c 3 t) (iblk4 V c 4 t) (iblk4 V c 5 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [HS HB Hg]
    · isplitl [HS HB]
      · isplitl [HS]; · iexact HS
        iexact HB
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = Phi4 V c 0 (Nat.zero_le _) from rfl, Phi4_zero V c 0 _ rfl]
  try exact Idealize.SL.BI.Entails.refl _

/-- After the last point the invariant gives the class invariant back: the accumulator's contents are forgotten. -/
theorem hout4 (c : Dev nD) : (dat4 V c).Φ (Fin.last cfg4.N) ⊢ Pipeline.ΦA spec4 c := by
  rw [show (dat4 V c).Φ (Fin.last cfg4.N) = Phi4 V c (Fin.last cfg4.N).val (Nat.le_of_lt_succ (Fin.last cfg4.N).isLt) from rfl,
    Phi4_pos V c _ _ (by rw [Fin.val_last]; have : cfg4.N = 32 := N_4; omega), PhiA4_eq]
  iintro ⟨⟨HS, HB⟩, Hg⟩
  isplitl [HS HB]
  · isplitl [HS]; · iexists _; iexact HS
    iexact HB
  iexact Hg

end Region4

end Cert.KernelIdeal.Hand
end
-- ==== Proof.KI.ChainB.lean ====
import proofs.«141637_j39676907881857_2_alg».proof.Proof.KI.ChainA
import proofs.«141637_j39676907881857_2_alg».proof.Proof.KI.Reg3
import proofs.«141637_j39676907881857_2_alg».proof.Proof.KI.Reg4

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- After region 3: t6 in main_v7. -/
def W5 (c : Dev nD) : Valuation τ sig (Elt F) := Function.update (W4 m c) main_v7 ((dat3 (U4 m) c).arrAt 4 cfg3.N)
abbrev U5 (c : Dev nD) (b : Ref sig .tc) : Buf (Elt F) ((c : Thread nD τ).loc b) := W5 m c b
theorem W5_out (c : Dev nD) : W5 m c (Proc.devRef .tc main_v7) = (dat3 (U4 m) c).arrAt 4 cfg3.N := by
  unfold W5; exact Function.update_self ..
theorem W5_of_ne (c : Dev nD) (r : Ref sig .tc) (h : r ≠ main_v7) : W5 m c (Proc.devRef .tc r) = W4 m c (Proc.devRef .tc r) := by
  unfold W5; exact Function.update_of_ne (StableHlo.devRef_ne_of_ne h) ..

/-- After region 4: the result in main_v8. -/
def W6 (c : Dev nD) : Valuation τ sig (Elt F) := Function.update (W5 m c) main_v8 ((dat4 (U5 m) c).arrAt 6 cfg4.N)
abbrev U6 (c : Dev nD) (b : Ref sig .tc) : Buf (Elt F) ((c : Thread nD τ).loc b) := W6 m c b
theorem W6_out (c : Dev nD) : W6 m c (Proc.devRef .tc main_v8) = (dat4 (U5 m) c).arrAt 6 cfg4.N := by
  unfold W6; exact Function.update_self ..
theorem W6_of_ne (c : Dev nD) (r : Ref sig .tc) (h : r ≠ main_v8) : W6 m c (Proc.devRef .tc r) = W5 m c (Proc.devRef .tc r) := by
  unfold W6; exact Function.update_of_ne (StableHlo.devRef_ne_of_ne h) ..

/-- Every pipeline's proof data, each at its region's entry contents. -/
def pdats : (p : Fin 5) → (c : Dev nD) → Dat τ (Elt F) Unit ℕ (UR sig nD τ) ℕ (cfgs p) c
  | ⟨0, _⟩ => fun c => dat0 (U1 m) c
  | ⟨1, _⟩ => fun c => dat1 (U2 m) c
  | ⟨2, _⟩ => fun c => dat2 (U3 m) c
  | ⟨3, _⟩ => fun c => dat3 (U4 m) c
  | ⟨4, _⟩ => fun c => dat4 (U5 m) c

end Cert.KernelIdeal.Hand
end
-- ==== Proof.KI.Rec0.lean ====
import proofs.«141637_j39676907881857_2_alg».proof.Proof.KI.ChainA

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

-- unification with the pinned configuration unfolds plain definitions in a metavariable's type
set_option backward.isDefEq.respectTransparency.types false in
/-- REGION 0 as an item of the program, over the thread state "every unscoped buffer at the boundary's contents, the
    generator register, nothing owed": entered at W1, left at W2. Its three arrays are split out of the unscoped
    buffers and put back with the output array at what the write-backs left; the scoped rest and the generator register
    go into the region's invariant and come back. -/
def reg0 (pdats : (p : Fin 5) → (c : Dev nD) → Dat τ (Elt F) Unit ℕ (UR sig nD τ) ℕ (cfgs p) c)
    (h0 : ∀ c, pdats 0 c = dat0 (U1 m) c) : RegionSeg (pcfgs (F := F)) adm pdats () defs₀ 𝒱₀ L lv 0 where
  win := launch0.win.to₀
  block_pos := launch0.block_pos
  stage_whole := launch0.stage_whole
  K := PEmpty
  osem k := k.elim
  ho := Pipeline.OwnSemFacts.none _
  hbody c := by rw [h0 c]; exact (body_obligation0 (U1 m) c).loose
  hwaits := Pipeline.hwaits_of_owed_zero _ _ _ _ L lv 0 fun c _ => by rw [h0 c]; rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm pdats launch0.win launch0.arr_whole c
      (by rw [h0 c]; exact (dat0 (U1 m) c).share_full fun _ => rfl) (U1 m c) (fun w => by rw [h0 c]; rfl)
    rw [Pipeline.unscopedBufs_held] at hsplit
    rw [h0 c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [h0 c]
    exact (show iprop((∃ r, prngReg c r) ∗ Pipeline.prefHeld (pcfgs (F := F) 0).pre c (fun _ => fullShare) (adm (F := F) 0).1
        ∗ Pipeline.scopedRest (Pipeline.pin (pcfgs (F := F)) adm 0).spec c) ⊢ (Pipeline.ΦA spec0 c : sProp 𝕄) from by
      unfold Pipeline.ΦA
      iintro ⟨Hp, -, Hr⟩
      isplitl [Hr]; · iexact Hr
      iexact Hp).trans (hin0 (U1 m) c)
  hout c := by
    rw [Pipeline.ownSems0_none, h0 c]
    refine (hout0 (U1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c pdats (by rw [h0 c]; exact (dat0 (U1 m) c).share_full fun _ => rfl)
      (U1 m c) (U2 m c) ((pdats 0 c).arrAt · cfg0.N)
      (fun w => by
        rw [h0 c]
        match w with
        | ⟨0, _⟩ => exact ((dat0 (U1 m) c).arrAt_in 0 rfl _).trans ((A_eq0 (U1 m) c 0).trans (W2_of_ne m c main_v0 (by decide)).symm)
        | ⟨1, _⟩ => exact ((dat0 (U1 m) c).arrAt_in 1 rfl _).trans ((A_eq0 (U1 m) c 1).trans (W2_of_ne m c main_v1 (by decide)).symm)
        | ⟨2, _⟩ => exact (W2_out m c).symm)
      (fun b hb => W2_of_ne m c b fun e => hb (Finset.mem_image.mpr ⟨2, Finset.mem_univ _, e.symm⟩))
    rw [Pipeline.unscopedBufs_held] at hjoin
    rw [h0 c] at hjoin ⊢
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand
end
-- ==== Proof.KI.Rec1.lean ====
import proofs.«141637_j39676907881857_2_alg».proof.Proof.KI.ChainA

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

-- unification with the pinned configuration unfolds plain definitions in a metavariable's type
set_option backward.isDefEq.respectTransparency.types false in
/-- REGION 1 as an item of the program, over the thread state "every unscoped buffer at the boundary's contents, the
    generator register, nothing owed": entered at W2, left at W3. Its three arrays are split out of the unscoped
    buffers and put back with the output array at what the write-backs left; the scoped rest and the generator register
    go into the region's invariant and come back. -/
def reg1 (pdats : (p : Fin 5) → (c : Dev nD) → Dat τ (Elt F) Unit ℕ (UR sig nD τ) ℕ (cfgs p) c)
    (h1 : ∀ c, pdats 1 c = dat1 (U2 m) c) : RegionSeg (pcfgs (F := F)) adm pdats () defs₀ 𝒱₀ L lv 1 where
  win := launch1.win.to₀
  block_pos := launch1.block_pos
  stage_whole := launch1.stage_whole
  K := PEmpty
  osem k := k.elim
  ho := Pipeline.OwnSemFacts.none _
  hbody c := by rw [h1 c]; exact (body_obligation1 (U2 m) c).loose
  hwaits := Pipeline.hwaits_of_owed_zero _ _ _ _ L lv 1 fun c _ => by rw [h1 c]; rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hsplit := Pipeline.arrays_of_unscopedBufs (p := 1) (pcfgs (F := F)) adm pdats launch1.win launch1.arr_whole c
      (by rw [h1 c]; exact (dat1 (U2 m) c).share_full fun _ => rfl) (U2 m c) (fun w => by rw [h1 c]; rfl)
    rw [Pipeline.unscopedBufs_held] at hsplit
    rw [h1 c] at hsplit ⊢
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [h1 c]
    exact (show iprop((∃ r, prngReg c r) ∗ Pipeline.prefHeld (pcfgs (F := F) 1).pre c (fun _ => fullShare) (adm (F := F) 1).1
        ∗ Pipeline.scopedRest (Pipeline.pin (pcfgs (F := F)) adm 1).spec c) ⊢ (Pipeline.ΦA spec1 c : sProp 𝕄) from by
      unfold Pipeline.ΦA
      iintro ⟨Hp, -, Hr⟩
      isplitl [Hr]; · iexact Hr
      iexact Hp).trans (hin1 (U2 m) c)
  hout c := by
    rw [Pipeline.ownSems0_none, h1 c]
    refine (hout1 (U2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c pdats (by rw [h1 c]; exact (dat1 (U2 m) c).share_full fun _ => rfl)
      (U2 m c) (U3 m c) ((pdats 1 c).arrAt · cfg1.N)
      (fun w => by
        rw [h1 c]
        match w with
        | ⟨0, _⟩ => exact ((dat1 (U2 m) c).arrAt_in 0 rfl _).trans ((A_eq1 (U2 m) c 0).trans (W3_of_ne m c main_v0 (by decide)).symm)
        | ⟨1, _⟩ => exact ((dat1 (U2 m) c).arrAt_in 1 rfl _).trans ((A_eq1 (U2 m) c 1).trans (W3_of_ne m c main_v2 (by decide)).symm)
        | ⟨2, _⟩ => exact (W3_out m c).symm)
      (fun b hb => W3_of_ne m c b fun e => hb (Finset.mem_image.mpr ⟨2, Finset.mem_univ _, e.symm⟩))
    rw [Pipeline.unscopedBufs_held] at hjoin
    rw [h1 c] at hjoin ⊢
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand
end
-- ==== Proof.KI.Rec2.lean ====
import proofs.«141637_j39676907881857_2_alg».proof.Proof.KI.ChainA

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

/-! ## Region 2's arrays: both operand windows are blocks of ONE array (w3 as bf16, main_v3), each holding a half of it -/

section Shares

omit [FloatOps F] in
/-- A buffer held whole splits into its two halves, -/
theorem split_half {ℓ : Loc nD τ sig} (f : Buf (Elt F) ℓ) :
    (ℓ ↦{fullShare} f : sProp 𝕄) ⊢ iprop((ℓ ↦{fullShare.left} f) ∗ ℓ ↦{fullShare.right} f) :=
  (pointsTo_share (PosShare.mem_left_op_right fullShare)).1
omit [FloatOps F] in
/-- and the halves make it whole again. -/
theorem join_half {ℓ : Loc nD τ sig} (f : Buf (Elt F) ℓ) :
    iprop((ℓ ↦{fullShare.left} f) ∗ ℓ ↦{fullShare.right} f) ⊢ (ℓ ↦{fullShare} f : sProp 𝕄) :=
  (pointsTo_share (PosShare.mem_left_op_right fullShare)).2

variable (V V' : (c : Dev nD) → (b : Ref sig .tc) → Buf (Elt F) ((c : Thread nD τ).loc b))

theorem sh2_0 (c : Dev nD) : (dat2 V c).share 0 = fullShare.left := by unfold Pipeline.Dat.share; rfl
theorem sh2_1 (c : Dev nD) : (dat2 V c).share 1 = fullShare.right := by unfold Pipeline.Dat.share; rfl
theorem sh2_2 (c : Dev nD) : (dat2 V c).share 2 = fullShare := by unfold Pipeline.Dat.share; rfl

/-- ENTRY: the two distinct buffers behind the three windows' arrays, held whole, are the pipeline's arrays at the
    entry contents: main_v3 split in halves between the operand windows, main_v6 whole for the output. -/
theorem hsplit2 (c : Dev nD) : (Pipeline.arrBufs (Ix := Unit) (Name := ℕ) (U := UR sig nD τ) (Lvl := ℕ) spec2 c (V c) : sProp 𝕄) ⊢ (dat2 V c).arrays ((dat2 V c).arrAt · 0) := by
  unfold Pipeline.arrBufs Pipeline.Dat.arrays
  rw [bigSep_W2, show (Finset.univ.image (Pipeline.arrRef spec2)) = {main_v3, main_v6} from by decide]
  rw [bigSep_insert (by decide), bigSep_singleton, sh2_0, sh2_1, sh2_2, (arr_whole2 0).set_eq_univ, (arr_whole2 2).set_eq_univ]
  show (iprop((((c : Thread nD τ).loc main_v3) ↦{fullShare} V c main_v3) ∗ (((c : Thread nD τ).loc main_v6) ↦{fullShare} V c main_v6)) : sProp 𝕄)
    ⊢ (iprop((((c : Thread nD τ).loc main_v3) ↦{fullShare.left} V c main_v3) ∗ (((c : Thread nD τ).loc main_v3) ↦{fullShare.right} V c main_v3)
    ∗ (((c : Thread nD τ).loc main_v6) ↦{fullShare} V c main_v6)) : sProp 𝕄)
  iintro ⟨H3, H6⟩
  ihave H3 := (split_half (V c main_v3)) $$ H3
  icases H3 with ⟨H3l, H3r⟩
  isplitl [H3l]; · iexact H3l
  isplitl [H3r]; · iexact H3r
  iexact H6

/-- EXIT: the arrays at their final contents — the operand array as entered, the output array at what the
    write-backs left — are the two buffers held whole at any contents V' that has them so. -/
theorem hjoin2 (c : Dev nD) (h3 : V' c main_v3 = V c main_v3) (h6 : V' c main_v6 = (dat2 V c).arrAt 2 cfg2.N) :
    (dat2 V c).arrays ((dat2 V c).arrAt · cfg2.N) ⊢ (Pipeline.arrBufs (Ix := Unit) (Name := ℕ) (U := UR sig nD τ) (Lvl := ℕ) spec2 c (V' c) : sProp 𝕄) := by
  unfold Pipeline.arrBufs Pipeline.Dat.arrays
  rw [bigSep_W2, show (Finset.univ.image (Pipeline.arrRef spec2)) = {main_v3, main_v6} from by decide]
  rw [bigSep_insert (by decide), bigSep_singleton, sh2_0, sh2_1, sh2_2, (arr_whole2 0).set_eq_univ, (arr_whole2 2).set_eq_univ, h3, h6]
  have e0 : (dat2 V c).arrAt 0 cfg2.N = V c main_v3 := ((dat2 V c).arrAt_in 0 rfl _).trans (A_eq2 V c 0)
  have e1 : (dat2 V c).arrAt 1 cfg2.N = V c main_v3 := ((dat2 V c).arrAt_in 1 rfl _).trans (A_eq2 V c 1)
  show (iprop((((c : Thread nD τ).loc main_v3) ↦{fullShare.left} (dat2 V c).arrAt 0 cfg2.N) ∗ (((c : Thread nD τ).loc main_v3) ↦{fullShare.right} (dat2 V c).arrAt 1 cfg2.N)
      ∗ (((c : Thread nD τ).loc main_v6) ↦{fullShare} (dat2 V c).arrAt 2 cfg2.N)) : sProp 𝕄)
    ⊢ (iprop((((c : Thread nD τ).loc main_v3) ↦{fullShare} V c main_v3) ∗ (((c : Thread nD τ).loc main_v6) ↦{fullShare} (dat2 V c).arrAt 2 cfg2.N)) : sProp 𝕄)
  rw [e0, e1]
  iintro ⟨H3l, H3r, H6⟩
  isplitl [H3l H3r]
  · iapply (join_half (V c main_v3)); isplitl [H3l] <;> iassumption
  iexact H6

end Shares

variable (m : (ℓ : Loc nD τ sig) → Buf (Elt F) ℓ)

-- unification with the pinned configuration unfolds plain definitions in a metavariable's type
set_option backward.isDefEq.respectTransparency.types false in
/-- REGION 2 as an item of the program: entered at W3, left at W4. -/
def reg2 (pdats : (p : Fin 5) → (c : Dev nD) → Dat τ (Elt F) Unit ℕ (UR sig nD τ) ℕ (cfgs p) c)
    (h2 : ∀ c, pdats 2 c = dat2 (U3 m) c) : RegionSeg (pcfgs (F := F)) adm pdats () defs₀ 𝒱₀ L lv 2 where
  win := winFacts₀2
  block_pos := block_pos2
  stage_whole := stage_whole2
  K := PEmpty
  osem k := k.elim
  ho := Pipeline.OwnSemFacts.none _
  hbody c := by rw [h2 c]; exact (body_obligation2 (U3 m) c).loose
  hwaits := Pipeline.hwaits_of_owed_zero _ _ _ _ L lv 2 fun c _ => by rw [h2 c]; rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (U3 m c)
  hentry c := by
    rw [Pipeline.ownSems0_none]
    have hsplit : (unscopedBufs (Ix := Unit) (Name := ℕ) (U := UR sig nD τ) (Lvl := ℕ) c (U3 m c) : sProp 𝕄)
        ⊢ iprop((dat2 (U3 m) c).arrays ((dat2 (U3 m) c).arrAt · 0) ∗ Pipeline.unscopedRest spec2 c (U3 m c)) := by
      rw [Pipeline.unscopedBufs_split₀ cfgs 2 winFacts₀2.arr_unscoped c (U3 m c)]
      exact sep_mono (hsplit2 (U3 m) c) .rfl
    rw [Pipeline.unscopedBufs_held] at hsplit
    rw [h2 c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [h2 c]
    exact (show iprop((∃ r, prngReg c r) ∗ Pipeline.prefHeld (pcfgs (F := F) 2).pre c (fun _ => fullShare) (adm (F := F) 2).1
        ∗ Pipeline.scopedRest (Pipeline.pin (pcfgs (F := F)) adm 2).spec c) ⊢ (Pipeline.ΦA spec2 c : sProp 𝕄) from by
      unfold Pipeline.ΦA
      iintro ⟨Hp, -, Hr⟩
      isplitl [Hr]; · iexact Hr
      iexact Hp).trans (hin2 (U3 m) c)
  hout c := by
    rw [Pipeline.ownSems0_none, h2 c]
    refine (hout2 (U3 m) c).trans ?_
    unfold Pipeline.ΦA
    iintro ⟨Hr, Hp⟩
    isplitl [Hp]; · iexact Hp
    isplitr; · iempintro
    iexact Hr
  hexit c := by
    have hjoin : iprop((dat2 (U3 m) c).arrays ((dat2 (U3 m) c).arrAt · cfg2.N) ∗ Pipeline.unscopedRest spec2 c (U3 m c))
        ⊢ (unscopedBufs (Ix := Unit) (Name := ℕ) (U := UR sig nD τ) (Lvl := ℕ) c (U4 m c) : sProp 𝕄) := by
      rw [Pipeline.unscopedBufs_split₀ cfgs 2 winFacts₀2.arr_unscoped c (U4 m c)]
      refine sep_mono (hjoin2 (U3 m) (U4 m) c (W4_of_ne m c main_v3 (by decide)) (W4_out m c)) (Entails.of_eq ?_)
      unfold Pipeline.unscopedRest
      exact bigSep_congr fun b hb => by
        rw [show U4 m c b = U3 m c b from W4_of_ne m c b fun e => (Finset.mem_sdiff.mp hb).2 (Finset.mem_image.mpr ⟨2, Finset.mem_univ _, e.symm⟩)]
    rw [Pipeline.unscopedBufs_held] at hjoin
    rw [h2 c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand
end
-- ==== Proof.KI.Rec3.lean ====
import proofs.«141637_j39676907881857_2_alg».proof.Proof.KI.ChainB

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

/-! ## Region 3's arrays: the second input window (the w1 blocks of the product's left factor) and the fourth (the closing step's w1 block) are
    blocks of ONE array (w1, main_arg1), each holding a half of it -/

section Shares

omit [FloatOps F] in
/-- A buffer held whole splits into its two halves, -/
theorem split_half3 {ℓ : Loc nD τ sig} (f : Buf (Elt F) ℓ) :
    (ℓ ↦{fullShare} f : sProp 𝕄) ⊢ iprop((ℓ ↦{fullShare.left} f) ∗ ℓ ↦{fullShare.right} f) :=
  (pointsTo_share (PosShare.mem_left_op_right fullShare)).1
omit [FloatOps F] in
/-- and the halves make it whole again. -/
theorem join_half3 {ℓ : Loc nD τ sig} (f : Buf (Elt F) ℓ) :
    iprop((ℓ ↦{fullShare.left} f) ∗ ℓ ↦{fullShare.right} f) ⊢ (ℓ ↦{fullShare} f : sProp 𝕄) :=
  (pointsTo_share (PosShare.mem_left_op_right fullShare)).2

variable (V V' : (c : Dev nD) → (b : Ref sig .tc) → Buf (Elt F) ((c : Thread nD τ).loc b))

theorem sh3_0 (c : Dev nD) : (dat3 V c).share 0 = fullShare := by unfold Pipeline.Dat.share; rfl
theorem sh3_1 (c : Dev nD) : (dat3 V c).share 1 = fullShare.left := by unfold Pipeline.Dat.share; rfl
theorem sh3_2 (c : Dev nD) : (dat3 V c).share 2 = fullShare := by unfold Pipeline.Dat.share; rfl
theorem sh3_3 (c : Dev nD) : (dat3 V c).share 3 = fullShare.right := by unfold Pipeline.Dat.share; rfl
theorem sh3_4 (c : Dev nD) : (dat3 V c).share 4 = fullShare := by unfold Pipeline.Dat.share; rfl

/-- ENTRY: the 4 distinct buffers behind the 5 windows' arrays, held whole, are the pipeline's arrays at the
    entry contents: main_arg1 split in halves between the two windows that read it, every other buffer whole. -/
theorem hsplit3 (c : Dev nD) : (Pipeline.arrBufs (Ix := Unit) (Name := ℕ) (U := UR sig nD τ) (Lvl := ℕ) spec3 c (V c) : sProp 𝕄) ⊢ (dat3 V c).arrays ((dat3 V c).arrAt · 0) := by
  unfold Pipeline.arrBufs Pipeline.Dat.arrays
  rw [bigSep_W3, show (Finset.univ.image (Pipeline.arrRef spec3)) = {main_v4, main_arg1, main_v0, main_v7} from by decide]
  rw [bigSep_insert (by decide), bigSep_insert (by decide), bigSep_insert (by decide), bigSep_singleton, sh3_0, sh3_1, sh3_2, sh3_3, sh3_4, (arr_whole3 0).set_eq_univ, (arr_whole3 1).set_eq_univ, (arr_whole3 2).set_eq_univ, (arr_whole3 4).set_eq_univ]
  show (iprop((((c : Thread nD τ).loc main_v4) ↦{fullShare} V c main_v4) ∗ (((c : Thread nD τ).loc main_arg1) ↦{fullShare} V c main_arg1) ∗ (((c : Thread nD τ).loc main_v0) ↦{fullShare} V c main_v0) ∗ (((c : Thread nD τ).loc main_v7) ↦{fullShare} V c main_v7)) : sProp 𝕄)
    ⊢ (iprop((((c : Thread nD τ).loc main_v4) ↦{fullShare} V c main_v4)
      ∗ (((c : Thread nD τ).loc main_arg1) ↦{fullShare.left} V c main_arg1)
      ∗ (((c : Thread nD τ).loc main_v0) ↦{fullShare} V c main_v0)
      ∗ (((c : Thread nD τ).loc main_arg1) ↦{fullShare.right} V c main_arg1)
      ∗ (((c : Thread nD τ).loc main_v7) ↦{fullShare} V c main_v7)) : sProp 𝕄)
  iintro ⟨Hv4, Harg1, Hv0, Hv7⟩
  ihave Harg1 := (split_half3 (V c main_arg1)) $$ Harg1
  icases Harg1 with ⟨Harg1l, Harg1r⟩
  isplitl [Hv4]; · iexact Hv4
  isplitl [Harg1l]; · iexact Harg1l
  isplitl [Hv0]; · iexact Hv0
  isplitl [Harg1r]; · iexact Harg1r
  iexact Hv7

/-- EXIT: the arrays at their final contents — the input arrays as entered, the output array at what the
    write-backs left — are the 4 buffers held whole at any contents V' that has them so. -/
theorem hjoin3 (c : Dev nD) (hv4 : V' c main_v4 = V c main_v4) (harg1 : V' c main_arg1 = V c main_arg1) (hv0 : V' c main_v0 = V c main_v0) (hv7 : V' c main_v7 = (dat3 V c).arrAt 4 cfg3.N) :
    (dat3 V c).arrays ((dat3 V c).arrAt · cfg3.N) ⊢ (Pipeline.arrBufs (Ix := Unit) (Name := ℕ) (U := UR sig nD τ) (Lvl := ℕ) spec3 c (V' c) : sProp 𝕄) := by
  unfold Pipeline.arrBufs Pipeline.Dat.arrays
  rw [bigSep_W3, show (Finset.univ.image (Pipeline.arrRef spec3)) = {main_v4, main_arg1, main_v0, main_v7} from by decide]
  rw [bigSep_insert (by decide), bigSep_insert (by decide), bigSep_insert (by decide), bigSep_singleton, sh3_0, sh3_1, sh3_2, sh3_3, sh3_4, (arr_whole3 0).set_eq_univ, (arr_whole3 1).set_eq_univ, (arr_whole3 2).set_eq_univ, (arr_whole3 4).set_eq_univ, hv4, harg1, hv0, hv7]
  have e0 : (dat3 V c).arrAt 0 cfg3.N = V c main_v4 := ((dat3 V c).arrAt_in 0 rfl _).trans (A_eq3 V c 0)
  have e1 : (dat3 V c).arrAt 1 cfg3.N = V c main_arg1 := ((dat3 V c).arrAt_in 1 rfl _).trans (A_eq3 V c 1)
  have e2 : (dat3 V c).arrAt 2 cfg3.N = V c main_v0 := ((dat3 V c).arrAt_in 2 rfl _).trans (A_eq3 V c 2)
  have e3 : (dat3 V c).arrAt 3 cfg3.N = V c main_arg1 := ((dat3 V c).arrAt_in 3 rfl _).trans (A_eq3 V c 3)
  show (iprop((((c : Thread nD τ).loc main_v4) ↦{fullShare} (dat3 V c).arrAt 0 cfg3.N)
      ∗ (((c : Thread nD τ).loc main_arg1) ↦{fullShare.left} (dat3 V c).arrAt 1 cfg3.N)
      ∗ (((c : Thread nD τ).loc main_v0) ↦{fullShare} (dat3 V c).arrAt 2 cfg3.N)
      ∗ (((c : Thread nD τ).loc main_arg1) ↦{fullShare.right} (dat3 V c).arrAt 3 cfg3.N)
      ∗ (((c : Thread nD τ).loc main_v7) ↦{fullShare} (dat3 V c).arrAt 4 cfg3.N)) : sProp 𝕄)
    ⊢ (iprop((((c : Thread nD τ).loc main_v4) ↦{fullShare} V c main_v4) ∗ (((c : Thread nD τ).loc main_arg1) ↦{fullShare} V c main_arg1) ∗ (((c : Thread nD τ).loc main_v0) ↦{fullShare} V c main_v0) ∗ (((c : Thread nD τ).loc main_v7) ↦{fullShare} (dat3 V c).arrAt 4 cfg3.N)) : sProp 𝕄)
  simp only [e0, e1, e2, e3]
  iintro ⟨Hv4, Harg1l, Hv0, Harg1r, Hv7⟩
  isplitl [Hv4]; · iexact Hv4
  isplitl [Harg1l Harg1r]
  · iapply (join_half3 (V c main_arg1)); isplitl [Harg1l] <;> iassumption
  isplitl [Hv0]; · iexact Hv0
  iexact Hv7

end Shares

variable (m : (ℓ : Loc nD τ sig) → Buf (Elt F) ℓ)

-- unification with the pinned configuration unfolds plain definitions in a metavariable's type
set_option backward.isDefEq.respectTransparency.types false in
/-- REGION 3 as an item of the program: entered at W4, left at W5. -/
def reg3 (pdats : (p : Fin 5) → (c : Dev nD) → Dat τ (Elt F) Unit ℕ (UR sig nD τ) ℕ (cfgs p) c)
    (h3 : ∀ c, pdats 3 c = dat3 (U4 m) c) : RegionSeg (pcfgs (F := F)) adm pdats () defs₀ 𝒱₀ L lv 3 where
  win := winFacts₀3
  block_pos := block_pos3
  stage_whole := stage_whole3
  K := PEmpty
  osem k := k.elim
  ho := Pipeline.OwnSemFacts.none _
  hbody c := by rw [h3 c]; exact (body_obligation3 (U4 m) c).loose
  hwaits := Pipeline.hwaits_of_owed_zero _ _ _ _ L lv 3 fun c _ => by rw [h3 c]; rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec3 c (U4 m c)
  hentry c := by
    rw [Pipeline.ownSems0_none]
    have hsplit : (unscopedBufs (Ix := Unit) (Name := ℕ) (U := UR sig nD τ) (Lvl := ℕ) c (U4 m c) : sProp 𝕄)
        ⊢ iprop((dat3 (U4 m) c).arrays ((dat3 (U4 m) c).arrAt · 0) ∗ Pipeline.unscopedRest spec3 c (U4 m c)) := by
      rw [Pipeline.unscopedBufs_split₀ cfgs 3 winFacts₀3.arr_unscoped c (U4 m c)]
      exact sep_mono (hsplit3 (U4 m) c) .rfl
    rw [Pipeline.unscopedBufs_held] at hsplit
    rw [h3 c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [h3 c]
    exact (show iprop((∃ r, prngReg c r) ∗ Pipeline.prefHeld (pcfgs (F := F) 3).pre c (fun _ => fullShare) (adm (F := F) 3).1
        ∗ Pipeline.scopedRest (Pipeline.pin (pcfgs (F := F)) adm 3).spec c) ⊢ (Pipeline.ΦA spec3 c : sProp 𝕄) from by
      unfold Pipeline.ΦA
      iintro ⟨Hp, -, Hr⟩
      isplitl [Hr]; · iexact Hr
      iexact Hp).trans (hin3 (U4 m) c)
  hout c := by
    rw [Pipeline.ownSems0_none, h3 c]
    refine (hout3 (U4 m) c).trans ?_
    unfold Pipeline.ΦA
    iintro ⟨Hr, Hp⟩
    isplitl [Hp]; · iexact Hp
    isplitr; · iempintro
    iexact Hr
  hexit c := by
    have hjoin : iprop((dat3 (U4 m) c).arrays ((dat3 (U4 m) c).arrAt · cfg3.N) ∗ Pipeline.unscopedRest spec3 c (U4 m c))
        ⊢ (unscopedBufs (Ix := Unit) (Name := ℕ) (U := UR sig nD τ) (Lvl := ℕ) c (U5 m c) : sProp 𝕄) := by
      rw [Pipeline.unscopedBufs_split₀ cfgs 3 winFacts₀3.arr_unscoped c (U5 m c)]
      refine sep_mono (hjoin3 (U4 m) (U5 m) c (W5_of_ne m c main_v4 (by decide)) (W5_of_ne m c main_arg1 (by decide)) (W5_of_ne m c main_v0 (by decide)) (W5_out m c)) (Entails.of_eq ?_)
      unfold Pipeline.unscopedRest
      exact bigSep_congr fun b hb => by
        rw [show U5 m c b = U4 m c b from W5_of_ne m c b fun e => (Finset.mem_sdiff.mp hb).2 (Finset.mem_image.mpr ⟨4, Finset.mem_univ _, e.symm⟩)]
    rw [Pipeline.unscopedBufs_held] at hjoin
    rw [h3 c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand
end
-- ==== Proof.KI.Rec4.lean ====
import proofs.«141637_j39676907881857_2_alg».proof.Proof.KI.ChainB

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

/-! ## Region 4's arrays: the first input window (t1 as the product's left factor) and the third (t1 in the combination) are blocks of ONE
    array (t1, main_v4), each holding a half of it -/

section Shares

omit [FloatOps F] in
/-- A buffer held whole splits into its two halves, -/
theorem split_half4 {ℓ : Loc nD τ sig} (f : Buf (Elt F) ℓ) :
    (ℓ ↦{fullShare} f : sProp 𝕄) ⊢ iprop((ℓ ↦{fullShare.left} f) ∗ ℓ ↦{fullShare.right} f) :=
  (pointsTo_share (PosShare.mem_left_op_right fullShare)).1
omit [FloatOps F] in
/-- and the halves make it whole again. -/
theorem join_half4 {ℓ : Loc nD τ sig} (f : Buf (Elt F) ℓ) :
    iprop((ℓ ↦{fullShare.left} f) ∗ ℓ ↦{fullShare.right} f) ⊢ (ℓ ↦{fullShare} f : sProp 𝕄) :=
  (pointsTo_share (PosShare.mem_left_op_right fullShare)).2

variable (V V' : (c : Dev nD) → (b : Ref sig .tc) → Buf (Elt F) ((c : Thread nD τ).loc b))

theorem sh4_0 (c : Dev nD) : (dat4 V c).share 0 = fullShare.left := by unfold Pipeline.Dat.share; rfl
theorem sh4_1 (c : Dev nD) : (dat4 V c).share 1 = fullShare := by unfold Pipeline.Dat.share; rfl
theorem sh4_2 (c : Dev nD) : (dat4 V c).share 2 = fullShare.right := by unfold Pipeline.Dat.share; rfl
theorem sh4_3 (c : Dev nD) : (dat4 V c).share 3 = fullShare := by unfold Pipeline.Dat.share; rfl
theorem sh4_4 (c : Dev nD) : (dat4 V c).share 4 = fullShare := by unfold Pipeline.Dat.share; rfl
theorem sh4_5 (c : Dev nD) : (dat4 V c).share 5 = fullShare := by unfold Pipeline.Dat.share; rfl
theorem sh4_6 (c : Dev nD) : (dat4 V c).share 6 = fullShare := by unfold Pipeline.Dat.share; rfl

/-- ENTRY: the 6 distinct buffers behind the 7 windows' arrays, held whole, are the pipeline's arrays at the
    entry contents: main_v4 split in halves between the two windows that read it, every other buffer whole. -/
theorem hsplit4 (c : Dev nD) : (Pipeline.arrBufs (Ix := Unit) (Name := ℕ) (U := UR sig nD τ) (Lvl := ℕ) spec4 c (V c) : sProp 𝕄) ⊢ (dat4 V c).arrays ((dat4 V c).arrAt · 0) := by
  unfold Pipeline.arrBufs Pipeline.Dat.arrays
  rw [bigSep_W4, show (Finset.univ.image (Pipeline.arrRef spec4)) = {main_v4, main_v0, main_v5, main_v6, main_v7, main_v8} from by decide]
  rw [bigSep_insert (by decide), bigSep_insert (by decide), bigSep_insert (by decide), bigSep_insert (by decide), bigSep_insert (by decide), bigSep_singleton, sh4_0, sh4_1, sh4_2, sh4_3, sh4_4, sh4_5, sh4_6, (arr_whole4 0).set_eq_univ, (arr_whole4 1).set_eq_univ, (arr_whole4 3).set_eq_univ, (arr_whole4 4).set_eq_univ, (arr_whole4 5).set_eq_univ, (arr_whole4 6).set_eq_univ]
  show (iprop((((c : Thread nD τ).loc main_v4) ↦{fullShare} V c main_v4) ∗ (((c : Thread nD τ).loc main_v0) ↦{fullShare} V c main_v0) ∗ (((c : Thread nD τ).loc main_v5) ↦{fullShare} V c main_v5) ∗ (((c : Thread nD τ).loc main_v6) ↦{fullShare} V c main_v6) ∗ (((c : Thread nD τ).loc main_v7) ↦{fullShare} V c main_v7) ∗ (((c : Thread nD τ).loc main_v8) ↦{fullShare} V c main_v8)) : sProp 𝕄)
    ⊢ (iprop((((c : Thread nD τ).loc main_v4) ↦{fullShare.left} V c main_v4)
      ∗ (((c : Thread nD τ).loc main_v0) ↦{fullShare} V c main_v0)
      ∗ (((c : Thread nD τ).loc main_v4) ↦{fullShare.right} V c main_v4)
      ∗ (((c : Thread nD τ).loc main_v5) ↦{fullShare} V c main_v5)
      ∗ (((c : Thread nD τ).loc main_v6) ↦{fullShare} V c main_v6)
      ∗ (((c : Thread nD τ).loc main_v7) ↦{fullShare} V c main_v7)
      ∗ (((c : Thread nD τ).loc main_v8) ↦{fullShare} V c main_v8)) : sProp 𝕄)
  iintro ⟨Hv4, Hv0, Hv5, Hv6, Hv7, Hv8⟩
  ihave Hv4 := (split_half4 (V c main_v4)) $$ Hv4
  icases Hv4 with ⟨Hv4l, Hv4r⟩
  isplitl [Hv4l]; · iexact Hv4l
  isplitl [Hv0]; · iexact Hv0
  isplitl [Hv4r]; · iexact Hv4r
  isplitl [Hv5]; · iexact Hv5
  isplitl [Hv6]; · iexact Hv6
  isplitl [Hv7]; · iexact Hv7
  iexact Hv8

/-- EXIT: the arrays at their final contents — the input arrays as entered, the output array at what the
    write-backs left — are the 6 buffers held whole at any contents V' that has them so. -/
theorem hjoin4 (c : Dev nD) (hv4 : V' c main_v4 = V c main_v4) (hv0 : V' c main_v0 = V c main_v0) (hv5 : V' c main_v5 = V c main_v5) (hv6 : V' c main_v6 = V c main_v6) (hv7 : V' c main_v7 = V c main_v7) (hv8 : V' c main_v8 = (dat4 V c).arrAt 6 cfg4.N) :
    (dat4 V c).arrays ((dat4 V c).arrAt · cfg4.N) ⊢ (Pipeline.arrBufs (Ix := Unit) (Name := ℕ) (U := UR sig nD τ) (Lvl := ℕ) spec4 c (V' c) : sProp 𝕄) := by
  unfold Pipeline.arrBufs Pipeline.Dat.arrays
  rw [bigSep_W4, show (Finset.univ.image (Pipeline.arrRef spec4)) = {main_v4, main_v0, main_v5, main_v6, main_v7, main_v8} from by decide]
  rw [bigSep_insert (by decide), bigSep_insert (by decide), bigSep_insert (by decide), bigSep_insert (by decide), bigSep_insert (by decide), bigSep_singleton, sh4_0, sh4_1, sh4_2, sh4_3, sh4_4, sh4_5, sh4_6, (arr_whole4 0).set_eq_univ, (arr_whole4 1).set_eq_univ, (arr_whole4 3).set_eq_univ, (arr_whole4 4).set_eq_univ, (arr_whole4 5).set_eq_univ, (arr_whole4 6).set_eq_univ, hv4, hv0, hv5, hv6, hv7, hv8]
  have e0 : (dat4 V c).arrAt 0 cfg4.N = V c main_v4 := ((dat4 V c).arrAt_in 0 rfl _).trans (A_eq4 V c 0)
  have e1 : (dat4 V c).arrAt 1 cfg4.N = V c main_v0 := ((dat4 V c).arrAt_in 1 rfl _).trans (A_eq4 V c 1)
  have e2 : (dat4 V c).arrAt 2 cfg4.N = V c main_v4 := ((dat4 V c).arrAt_in 2 rfl _).trans (A_eq4 V c 2)
  have e3 : (dat4 V c).arrAt 3 cfg4.N = V c main_v5 := ((dat4 V c).arrAt_in 3 rfl _).trans (A_eq4 V c 3)
  have e4 : (dat4 V c).arrAt 4 cfg4.N = V c main_v6 := ((dat4 V c).arrAt_in 4 rfl _).trans (A_eq4 V c 4)
  have e5 : (dat4 V c).arrAt 5 cfg4.N = V c main_v7 := ((dat4 V c).arrAt_in 5 rfl _).trans (A_eq4 V c 5)
  show (iprop((((c : Thread nD τ).loc main_v4) ↦{fullShare.left} (dat4 V c).arrAt 0 cfg4.N)
      ∗ (((c : Thread nD τ).loc main_v0) ↦{fullShare} (dat4 V c).arrAt 1 cfg4.N)
      ∗ (((c : Thread nD τ).loc main_v4) ↦{fullShare.right} (dat4 V c).arrAt 2 cfg4.N)
      ∗ (((c : Thread nD τ).loc main_v5) ↦{fullShare} (dat4 V c).arrAt 3 cfg4.N)
      ∗ (((c : Thread nD τ).loc main_v6) ↦{fullShare} (dat4 V c).arrAt 4 cfg4.N)
      ∗ (((c : Thread nD τ).loc main_v7) ↦{fullShare} (dat4 V c).arrAt 5 cfg4.N)
      ∗ (((c : Thread nD τ).loc main_v8) ↦{fullShare} (dat4 V c).arrAt 6 cfg4.N)) : sProp 𝕄)
    ⊢ (iprop((((c : Thread nD τ).loc main_v4) ↦{fullShare} V c main_v4) ∗ (((c : Thread nD τ).loc main_v0) ↦{fullShare} V c main_v0) ∗ (((c : Thread nD τ).loc main_v5) ↦{fullShare} V c main_v5) ∗ (((c : Thread nD τ).loc main_v6) ↦{fullShare} V c main_v6) ∗ (((c : Thread nD τ).loc main_v7) ↦{fullShare} V c main_v7) ∗ (((c : Thread nD τ).loc main_v8) ↦{fullShare} (dat4 V c).arrAt 6 cfg4.N)) : sProp 𝕄)
  simp only [e0, e1, e2, e3, e4, e5]
  iintro ⟨Hv4l, Hv0, Hv4r, Hv5, Hv6, Hv7, Hv8⟩
  isplitl [Hv4l Hv4r]
  · iapply (join_half4 (V c main_v4)); isplitl [Hv4l] <;> iassumption
  isplitl [Hv0]; · iexact Hv0
  isplitl [Hv5]; · iexact Hv5
  isplitl [Hv6]; · iexact Hv6
  isplitl [Hv7]; · iexact Hv7
  iexact Hv8

end Shares

variable (m : (ℓ : Loc nD τ sig) → Buf (Elt F) ℓ)

-- unification with the pinned configuration unfolds plain definitions in a metavariable's type
set_option backward.isDefEq.respectTransparency.types false in
/-- REGION 4 as an item of the program: entered at W5, left at W6. -/
def reg4 (pdats : (p : Fin 5) → (c : Dev nD) → Dat τ (Elt F) Unit ℕ (UR sig nD τ) ℕ (cfgs p) c)
    (h4 : ∀ c, pdats 4 c = dat4 (U5 m) c) : RegionSeg (pcfgs (F := F)) adm pdats () defs₀ 𝒱₀ L lv 4 where
  win := winFacts₀4
  block_pos := block_pos4
  stage_whole := stage_whole4
  K := PEmpty
  osem k := k.elim
  ho := Pipeline.OwnSemFacts.none _
  hbody c := by rw [h4 c]; exact (body_obligation4 (U5 m) c).loose
  hwaits := Pipeline.hwaits_of_owed_zero _ _ _ _ L lv 4 fun c _ => by rw [h4 c]; rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec4 c (U5 m c)
  hentry c := by
    rw [Pipeline.ownSems0_none]
    have hsplit : (unscopedBufs (Ix := Unit) (Name := ℕ) (U := UR sig nD τ) (Lvl := ℕ) c (U5 m c) : sProp 𝕄)
        ⊢ iprop((dat4 (U5 m) c).arrays ((dat4 (U5 m) c).arrAt · 0) ∗ Pipeline.unscopedRest spec4 c (U5 m c)) := by
      rw [Pipeline.unscopedBufs_split₀ cfgs 4 winFacts₀4.arr_unscoped c (U5 m c)]
      exact sep_mono (hsplit4 (U5 m) c) .rfl
    rw [Pipeline.unscopedBufs_held] at hsplit
    rw [h4 c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [h4 c]
    exact (show iprop((∃ r, prngReg c r) ∗ Pipeline.prefHeld (pcfgs (F := F) 4).pre c (fun _ => fullShare) (adm (F := F) 4).1
        ∗ Pipeline.scopedRest (Pipeline.pin (pcfgs (F := F)) adm 4).spec c) ⊢ (Pipeline.ΦA spec4 c : sProp 𝕄) from by
      unfold Pipeline.ΦA
      iintro ⟨Hp, -, Hr⟩
      isplitl [Hr]; · iexact Hr
      iexact Hp).trans (hin4 (U5 m) c)
  hout c := by
    rw [Pipeline.ownSems0_none, h4 c]
    refine (hout4 (U5 m) c).trans ?_
    unfold Pipeline.ΦA
    iintro ⟨Hr, Hp⟩
    isplitl [Hp]; · iexact Hp
    isplitr; · iempintro
    iexact Hr
  hexit c := by
    have hjoin : iprop((dat4 (U5 m) c).arrays ((dat4 (U5 m) c).arrAt · cfg4.N) ∗ Pipeline.unscopedRest spec4 c (U5 m c))
        ⊢ (unscopedBufs (Ix := Unit) (Name := ℕ) (U := UR sig nD τ) (Lvl := ℕ) c (U6 m c) : sProp 𝕄) := by
      rw [Pipeline.unscopedBufs_split₀ cfgs 4 winFacts₀4.arr_unscoped c (U6 m c)]
      refine sep_mono (hjoin4 (U5 m) (U6 m) c (W6_of_ne m c main_v4 (by decide)) (W6_of_ne m c main_v0 (by decide)) (W6_of_ne m c main_v5 (by decide)) (W6_of_ne m c main_v6 (by decide)) (W6_of_ne m c main_v7 (by decide)) (W6_out m c)) (Entails.of_eq ?_)
      unfold Pipeline.unscopedRest
      exact bigSep_congr fun b hb => by
        rw [show U6 m c b = U5 m c b from W6_of_ne m c b fun e => (Finset.mem_sdiff.mp hb).2 (Finset.mem_image.mpr ⟨6, Finset.mem_univ _, e.symm⟩)]
    rw [Pipeline.unscopedBufs_held] at hjoin
    rw [h4 c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand
end
-- ==== Proof.KI.Main.lean ====
import proofs.«141637_j39676907881857_2_alg».proof.Proof.KI.ChainB
import proofs.«141637_j39676907881857_2_alg».proof.Proof.KI.Rec0
import proofs.«141637_j39676907881857_2_alg».proof.Proof.KI.Rec1
import proofs.«141637_j39676907881857_2_alg».proof.Proof.KI.Rec2
import proofs.«141637_j39676907881857_2_alg».proof.Proof.KI.Rec3
import proofs.«141637_j39676907881857_2_alg».proof.Proof.KI.Rec4

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The program as its six items: the four casts, then the five regions -/

/-- The casts to bf16 as an item: every unscoped buffer from its launch contents, the rest riding along. -/
abbrev hseg0 : HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R

abbrev segs : List (Seg (pcfgs (F := F)) adm (pdats m) () defs₀ 𝒱₀ L lv) :=
  [ .host (hseg0 m),
    .region (reg0 m (pdats m) (fun _ => rfl)),
    .region (reg1 m (pdats m) (fun _ => rfl)),
    .region (reg2 m (pdats m) (fun _ => rfl)),
    .region (reg3 m (pdats m) (fun _ => rfl)),
    .region (reg4 m (pdats m) (fun _ => rfl)) ]

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the launch theorem's implicit arguments are found by unifying its conclusion with this one, which takes unfolding
-- plain definitions in a metavariable's type
set_option backward.isDefEq.respectTransparency.types false in
set_option maxHeartbeats 2000000 in
/-- THE RUN. From any memory with zero counters every weakly fair execution of the program on the TensorCores
    terminates, nothing faulting, and every final memory holds each unscoped buffer at the last valuation of the
    fold: the arguments as launched, each region's output at what its write-backs left. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by
      rewrite [main_chain c, Seg.run_eq_chain,
        show (segs m).map Seg.prog = [
          StableHlo.seq hostOps0,
          Prog.lift (.customCall (Pipeline.entry 0) ()),
          Prog.lift (.customCall (Pipeline.entry 1) ()),
          Prog.lift (.customCall (Pipeline.entry 2) ()),
          Prog.lift (.customCall (Pipeline.entry 3) ()),
          Prog.lift (.customCall (Pipeline.entry 4) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W6 m c) ∗ ∃ r, prngReg c r))
    (hch := ⟨fun _ => .rfl, fun _ => .rfl, fun _ => .rfl, fun _ => .rfl, fun _ => .rfl, fun _ => .rfl, fun c =>
      (show iprop(StableHlo.held (c : Thread nD τ) (Pipeline.ucRefs τ sig) (W6 m c) ∗ R c)
          ⊢ (iprop(iprop(StableHlo.held (c : Thread nD τ) (Pipeline.ucRefs τ sig) (W6 m c) ∗ ∃ r, prngReg c r)
              ∗ ∃ W, owes (c : Thread nD τ) (0 : CellTallies nD τ sig Unit) W) : sProp 𝕄) from by
        iintro ⟨Hh, Hp, HO⟩
        isplitl [Hh Hp]
        · isplitl [Hh] <;> iassumption
        iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-! ## The frame: no item writes an argument -/

/-- An argument's buffer walks back through the fold to the launch memory: no region's output is an argument, and the
    casts write only their own results. -/
theorem W6_main_arg0 (c : Dev nD) : W6 m c (Proc.devRef .tc main_arg0) = m ((c : Thread nD τ).loc main_arg0) :=
  (W6_of_ne m c main_arg0 (by decide)).trans <| (W5_of_ne m c main_arg0 (by decide)).trans <| (W4_of_ne m c main_arg0 (by decide)).trans <|
    (W3_of_ne m c main_arg0 (by decide)).trans <| (W2_of_ne m c main_arg0 (by decide)).trans <| (V1_of m c main_arg0 (by decide)).trans rfl
theorem W6_main_arg1 (c : Dev nD) : W6 m c (Proc.devRef .tc main_arg1) = m ((c : Thread nD τ).loc main_arg1) :=
  (W6_of_ne m c main_arg1 (by decide)).trans <| (W5_of_ne m c main_arg1 (by decide)).trans <| (W4_of_ne m c main_arg1 (by decide)).trans <|
    (W3_of_ne m c main_arg1 (by decide)).trans <| (W2_of_ne m c main_arg1 (by decide)).trans <| (V1_of m c main_arg1 (by decide)).trans rfl
theorem W6_main_arg2 (c : Dev nD) : W6 m c (Proc.devRef .tc main_arg2) = m ((c : Thread nD τ).loc main_arg2) :=
  (W6_of_ne m c main_arg2 (by decide)).trans <| (W5_of_ne m c main_arg2 (by decide)).trans <| (W4_of_ne m c main_arg2 (by decide)).trans <|
    (W3_of_ne m c main_arg2 (by decide)).trans <| (W2_of_ne m c main_arg2 (by decide)).trans <| (V1_of m c main_arg2 (by decide)).trans rfl
theorem W6_main_arg3 (c : Dev nD) : W6 m c (Proc.devRef .tc main_arg3) = m ((c : Thread nD τ).loc main_arg3) :=
  (W6_of_ne m c main_arg3 (by decide)).trans <| (W5_of_ne m c main_arg3 (by decide)).trans <| (W4_of_ne m c main_arg3 (by decide)).trans <|
    (W3_of_ne m c main_arg3 (by decide)).trans <| (W2_of_ne m c main_arg3 (by decide)).trans <| (V1_of m c main_arg3 (by decide)).trans rfl

/-- THE FRAME, at any instance: every weakly fair execution terminates, nothing faulting, the argument arrays as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W6_main_arg0 m c),
      (h c _ (mem_uc main_arg1 (by decide))).trans (W6_main_arg1 m c),
      (h c _ (mem_uc main_arg2 (by decide))).trans (W6_main_arg2 m c),
      (h c _ (mem_uc main_arg3 (by decide))).trans (W6_main_arg3 m c)⟩) (run_all m ρ)

end Cert.KernelIdeal.Hand
end
-- ==== Proof.PayValue.lean ====
/-
  The arithmetic of each kernel body at the extended reals, read entry by entry.

  Each body's arithmetic is a pure term over the blocks it has loaded.  At the extended reals a change of float
  format and a cast between equal shapes are the identity, a sum and a product of vectors are the entrywise sum and
  product, and a block product into the zero accumulator is, at output entry (p, q), the sum over the contraction
  coordinate k < 1024 of  a(p, k) · b(k, q).  So:

    * the initial store of each body is the zero block;
    * the accumulation step of a product body is   acc(p, q) + ∑ k, a(p, k) · b(k, q)
      (with a = t1 ∘ w1 entrywise for the fourth body, a = t1 for the fifth);
    * the closing step of the fourth body is   acc(p, q) · w1(p, q);
    * the closing step of the fifth body is
        ((t1 · t2 + t1 + t3) + (t3 · t6) · t3) + (t3 · t6) · t1x     at (p, q).
-/
import proofs.«141637_j39676907881857_2_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.PayValue

open Cert.KernelIdeal Cert.KernelIdeal.Gen Idealize.ShloMosaic Idealize.ShloMosaic.ValueIdx
open scoped BigOperators

/-! ## The block product at an entry -/

/-- The left operand's index at output entry j and contraction index c: row coordinate that of j. -/
theorem lhs_row (j : S512x512.Idx) (c : dot_S512x1024_S1024x512_S512x512_1_0_0_1_n_n.contr.Idx) :
    (dot_S512x1024_S1024x512_S512x512_1_0_0_1_n_n.lhsIdx j c 0).val = (j 0).val := by
  unfold DotDims.lhsIdx
  rw [dif_neg (show ¬(0 : Fin S512x1024.rank) ∈ dot_S512x1024_S1024x512_S512x512_1_0_0_1_n_n.lhsBatch by decide),
    dif_pos (show (0 : Fin S512x1024.rank) ∈ dot_S512x1024_S1024x512_S512x512_1_0_0_1_n_n.lhsNonContracting by decide)]
  rfl

/-- … column coordinate the contraction coordinate. -/
theorem lhs_col (j : S512x512.Idx) (c : dot_S512x1024_S1024x512_S512x512_1_0_0_1_n_n.contr.Idx) :
    (dot_S512x1024_S1024x512_S512x512_1_0_0_1_n_n.lhsIdx j c 1).val = (c ⟨0, by decide⟩).val :=
  dot_S512x1024_S1024x512_S512x512_1_0_0_1_n_n.lhsIdx_val_of_single rfl j c

/-- The right operand's index: row coordinate the contraction coordinate … -/
theorem rhs_row (j : S512x512.Idx) (c : dot_S512x1024_S1024x512_S512x512_1_0_0_1_n_n.contr.Idx) :
    (dot_S512x1024_S1024x512_S512x512_1_0_0_1_n_n.rhsIdx j c 0).val = (c ⟨0, by decide⟩).val :=
  dot_S512x1024_S1024x512_S512x512_1_0_0_1_n_n.rhsIdx_val_of_single rfl j c

/-- … column coordinate that of j. -/
theorem rhs_col (j : S512x512.Idx) (c : dot_S512x1024_S1024x512_S512x512_1_0_0_1_n_n.contr.Idx) :
    (dot_S512x1024_S1024x512_S512x512_1_0_0_1_n_n.rhsIdx j c 1).val = (j 1).val := by
  unfold DotDims.rhsIdx
  rw [dif_neg (show ¬(1 : Fin S1024x512.rank) ∈ dot_S512x1024_S1024x512_S512x512_1_0_0_1_n_n.rhsBatch by decide),
    dif_pos (show (1 : Fin S1024x512.rank) ∈ dot_S512x1024_S1024x512_S512x512_1_0_0_1_n_n.rhsNonContracting by decide)]
  rfl

/-- A 512 × 1024 block times a 1024 × 512 block, into the zero accumulator, at output entry (p, q):
    the sum over k < 1024 of a(p, k) · b(k, q). -/
theorem mm_apply {φ₁ φ₂ : FTy} (a : FVec Ideal S512x1024 φ₁) (b : FVec Ideal S1024x512 φ₂) (p q : Fin 512) :
    FloatOps.matmul dot_S512x1024_S1024x512_S512x512_1_0_0_1_n_n none a b (constant S512x512 .f32 0x00000000#32) (ix2 p q)
      = ∑ k : Fin 1024, a (ix2 p k) * b (ix2 k q) := by
  rw [Ideal.matmul_constant_zero_apply,
    ← Equiv.sum_comp (contrEquiv1 dot_S512x1024_S1024x512_S512x512_1_0_0_1_n_n 1024 rfl rfl).symm]
  refine Finset.sum_congr rfl fun k _ => ?_
  have hk := contrEquiv1_symm_val dot_S512x1024_S1024x512_S512x512_1_0_0_1_n_n 1024 rfl rfl k
  have el : dot_S512x1024_S1024x512_S512x512_1_0_0_1_n_n.lhsIdx (ix2 p q)
      ((contrEquiv1 dot_S512x1024_S1024x512_S512x512_1_0_0_1_n_n 1024 rfl rfl).symm k) = ix2 p k :=
    funext fun a => Fin.ext (by
      match a with
      | ⟨0, _⟩ => exact lhs_row _ _
      | ⟨1, _⟩ => exact (lhs_col _ _).trans hk)
  have er : dot_S512x1024_S1024x512_S512x512_1_0_0_1_n_n.rhsIdx (ix2 p q)
      ((contrEquiv1 dot_S512x1024_S1024x512_S512x512_1_0_0_1_n_n 1024 rfl rfl).symm k) = ix2 k q :=
    funext fun a => Fin.ext (by
      match a with
      | ⟨0, _⟩ => exact (rhs_row _ _).trans hk
      | ⟨1, _⟩ => exact rhs_col _ _)
  rw [el, er]

/-! ## The first three bodies: a plain product -/

/-- The accumulation step of the first body at entry (p, q). -/
theorem pay2_0 (acc : Vec Ideal S512x512 .f32) (a : Vec Ideal S512x1024 .bf16) (b : Vec Ideal S1024x512 .bf16)
    (p q : Fin 512) :
    k0_pay2 (F := Ideal) acc a b (ix2 p q) = acc (ix2 p q) + ∑ k : Fin 1024, a (ix2 p k) * b (ix2 k q) := by
  unfold k0_pay2
  rw [shapeCast_self, addf_apply, shapeCast_self, shapeCast_self]
  exact congrArg (acc (ix2 p q) + ·) (mm_apply a b p q)

/-- The accumulation step of the second body at entry (p, q). -/
theorem pay2_1 (acc : Vec Ideal S512x512 .f32) (a : Vec Ideal S512x1024 .bf16) (b : Vec Ideal S1024x512 .bf16)
    (p q : Fin 512) :
    k1_pay2 (F := Ideal) acc a b (ix2 p q) = acc (ix2 p q) + ∑ k : Fin 1024, a (ix2 p k) * b (ix2 k q) := by
  unfold k1_pay2
  rw [shapeCast_self, addf_apply, shapeCast_self, shapeCast_self]
  exact congrArg (acc (ix2 p q) + ·) (mm_apply a b p q)

/-- The accumulation step of the third body at entry (p, q). -/
theorem pay2_2 (acc : Vec Ideal S512x512 .f32) (a : Vec Ideal S512x1024 .bf16) (b : Vec Ideal S1024x512 .bf16)
    (p q : Fin 512) :
    k2_pay2 (F := Ideal) acc a b (ix2 p q) = acc (ix2 p q) + ∑ k : Fin 1024, a (ix2 p k) * b (ix2 k q) := by
  unfold k2_pay2
  rw [shapeCast_self, addf_apply, shapeCast_self, shapeCast_self]
  exact congrArg (acc (ix2 p q) + ·) (mm_apply a b p q)

/-! ## The initial store of every body: the zero block -/

/-- The first body's initial block is zero at every entry. -/
theorem pay1_0 (p q : Fin 512) : k0_pay1 (F := Ideal) (ix2 p q) = 0 := by
  unfold k0_pay1
  rw [shapeCast_self, broadcast_apply]
  exact Ideal.ofBits_zero_f32

/-- The second body's initial block is zero at every entry. -/
theorem pay1_1 (p q : Fin 512) : k1_pay1 (F := Ideal) (ix2 p q) = 0 := by
  unfold k1_pay1
  rw [shapeCast_self, broadcast_apply]
  exact Ideal.ofBits_zero_f32

/-- The third body's initial block is zero at every entry. -/
theorem pay1_2 (p q : Fin 512) : k2_pay1 (F := Ideal) (ix2 p q) = 0 := by
  unfold k2_pay1
  rw [shapeCast_self, broadcast_apply]
  exact Ideal.ofBits_zero_f32

/-- The fourth body's initial block is zero at every entry. -/
theorem pay1_3 (p q : Fin 512) : k3_pay1 (F := Ideal) (ix2 p q) = 0 := by
  unfold k3_pay1
  rw [shapeCast_self, broadcast_apply]
  exact Ideal.ofBits_zero_f32

/-- The fifth body's initial block is zero at every entry. -/
theorem pay1_4 (p q : Fin 512) : k4_pay1 (F := Ideal) (ix2 p q) = 0 := by
  unfold k4_pay1
  rw [shapeCast_self, broadcast_apply]
  exact Ideal.ofBits_zero_f32

/-! ## The fourth body: ((t1 ∘ w1) x) ∘ w1 -/

/-- Its accumulation step at entry (p, q): the left operand is the entrywise product t1 ∘ w1. -/
theorem pay2_3 (t1 w1 : Vec Ideal S512x1024 .f32) (acc : Vec Ideal S512x512 .f32) (xin : Vec Ideal S1024x512 .bf16)
    (p q : Fin 512) :
    k3_pay2 (F := Ideal) t1 w1 acc xin (ix2 p q)
      = acc (ix2 p q) + ∑ k : Fin 1024, (t1 (ix2 p k) * w1 (ix2 p k)) * xin (ix2 k q) := by
  unfold k3_pay2
  rw [shapeCast_self, addf_apply, shapeCast_self, shapeCast_self]
  refine (congrArg (acc (ix2 p q) + ·) (mm_apply _ xin p q)).trans ?_
  refine congrArg (acc (ix2 p q) + ·) (Finset.sum_congr rfl fun k _ => ?_)
  rw [truncf_apply, mulf_apply]

/-- Its closing step at entry (p, q): the accumulated product times w1. -/
theorem pay3_3 (acc w1 : Vec Ideal S512x512 .f32) (p q : Fin 512) :
    k3_pay3 (F := Ideal) acc w1 (ix2 p q) = acc (ix2 p q) * w1 (ix2 p q) := by
  unfold k3_pay3
  rw [mulf_apply]

/-! ## The fifth body: t1 x, then the combination -/

/-- Its accumulation step at entry (p, q). -/
theorem pay2_4 (t1 : Vec Ideal S512x1024 .f32) (acc : Vec Ideal S512x512 .f32) (xin : Vec Ideal S1024x512 .bf16)
    (p q : Fin 512) :
    k4_pay2 (F := Ideal) t1 acc xin (ix2 p q) = acc (ix2 p q) + ∑ k : Fin 1024, t1 (ix2 p k) * xin (ix2 k q) := by
  unfold k4_pay2
  rw [shapeCast_self, addf_apply, shapeCast_self, shapeCast_self]
  refine (congrArg (acc (ix2 p q) + ·) (mm_apply _ xin p q)).trans ?_
  refine congrArg (acc (ix2 p q) + ·) (Finset.sum_congr rfl fun k _ => ?_)
  rw [truncf_apply]

/-- Its closing step at entry (p, q): the five blocks combined, in the order the sums and products are taken. -/
theorem pay3_4 (t1x t1 t2 t3 t6 : Vec Ideal S512x512 .f32) (p q : Fin 512) :
    k4_pay3 (F := Ideal) t1x t1 t2 t3 t6 (ix2 p q)
      = ((t1 (ix2 p q) * t2 (ix2 p q) + t1 (ix2 p q) + t3 (ix2 p q))
          + (t3 (ix2 p q) * t6 (ix2 p q)) * t3 (ix2 p q))
        + (t3 (ix2 p q) * t6 (ix2 p q)) * t1x (ix2 p q) := by
  unfold k4_pay3
  simp only [shapeCast_self, addf_apply, mulf_apply]

end Cert.KernelIdeal.PayValue

end
-- ==== Proof.LibSplit.lean ====
/-
  A sum over the 2048 indices k splits into the sum over the first 1024 and the sum over the last 1024,
  in the extended reals (any additive commutative monoid would do).
-/
import Mathlib.Algebra.BigOperators.Fin
import Mathlib.Data.EReal.Basic

namespace Cert.LibSplit

open scoped BigOperators

/-- ∑_{k<2048} f k = ∑_{k<1024} f k + ∑_{k<1024} f (1024 + k). -/
theorem sum_two_halves (f : Fin 2048 → EReal) :
    ∑ k : Fin 2048, f k
      = (∑ k : Fin 1024, f ⟨k.val, by omega⟩) + ∑ k : Fin 1024, f ⟨1024 + k.val, by omega⟩ := by
  have h := Fin.sum_univ_add (M := EReal) (a := 1024) (b := 1024) f
  exact h

end Cert.LibSplit
-- ==== Proof.Spec.lean ====
/-
  The specification, index by index, on the extended reals: the four argument arrays are 2048 × 2048
  matrices x, w1, w2, w3, and the result is

      t15 = (t1 · t2 + t1 + t3) + (t3 · t6) · t3 + (t3 · t6) · t1x       (entrywise products)

  where  t1 = x w1,  t2 = x w2,  t3 = w3 w3  (matrix products),
         t6 = ((t1 ∘ w1) x) ∘ w1  (∘ the entrywise product),   t1x = t1 x.
  A matrix product's entry (p, q) is the sum over k < 2048 of a(p, k) · b(k, q).
-/
import Idealize.ShloMosaic.PureOps.Ideal
import Idealize.ShloMosaic.Lib.ValueIdx

noncomputable section

namespace Cert.Spec

open Idealize.ShloMosaic Idealize.ShloMosaic.ValueIdx
open scoped BigOperators

/-- A 2048 × 2048 array of extended reals. -/
abbrev Arr : Type := (⟨2, ![2048, 2048]⟩ : Shape).Idx → EReal

/-- Entry (p, q) of the matrix product a b. -/
def mmAt (a b : Arr) (p q : Fin 2048) : EReal := ∑ k : Fin 2048, a (ix2 p k) * b (ix2 k q)

/-- The matrix product a b. -/
def mm (a b : Arr) : Arr := fun i => mmAt a b ⟨(i 0).val, (i 0).isLt⟩ ⟨(i 1).val, (i 1).isLt⟩

/-- The entrywise product. -/
def had (a b : Arr) : Arr := fun i => a i * b i

/-- t6 = ((x w1 ∘ w1) x) ∘ w1. -/
def t6 (x w1 : Arr) : Arr := had (mm (had (mm x w1) w1) x) w1

/-- The combination of the five intermediate matrices, entrywise, in the order the sums and products are taken. -/
def combine (t1 t2 t3 t6 t1x : Arr) : Arr := fun i =>
  ((t1 i * t2 i + t1 i + t3 i) + (t3 i * t6 i) * t3 i) + (t3 i * t6 i) * t1x i

/-- The result as one function of the four argument arrays. -/
def out (x w1 w2 w3 : Arr) : Arr :=
  combine (mm x w1) (mm x w2) (mm w3 w3) (t6 x w1) (mm (mm x w1) x)

end Cert.Spec

end
-- ==== Proof.KI.Val0.lean ====
/-
  The first product's output array, entry by entry.

  The first region computes t1 = x w1 over a 4 × 4 × 2 grid of points t = (i · 4 + j) · 2 + k.  At point t it has the
  512 × 1024 block (i, k) of x, the 1024 × 512 block (k, j) of w1, and the 512 × 512 output block (i, j).  At k = 0 the
  accumulator is set to zero plus the product of the two blocks; at k = 1 the product of the two blocks is added, and the
  output block (i, j) is written back.  So the block written back at an odd point holds, at entry (p, q),

      0 + ∑_{k < 1024} x(512 i + p, k) · w1(k, 512 j + q) + ∑_{k < 1024} x(512 i + p, 1024 + k) · w1(1024 + k, 512 j + q),

  which is the sum over all 2048 contraction indices, that is entry (512 i + p, 512 j + q) of the matrix product.  Every
  entry (r, s) of the 2048 × 2048 output lies in the block (r / 512, s / 512), written back at the odd point of that block,
  so the whole array ends as the matrix product.
-/
import proofs.«141637_j39676907881857_2_alg».proof.Proof.KI.Reg0
import proofs.«141637_j39676907881857_2_alg».proof.Proof.PayValue
import proofs.«141637_j39676907881857_2_alg».proof.Proof.LibSplit
import proofs.«141637_j39676907881857_2_alg».proof.Proof.Spec

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

section Region0

-- the TensorCore's buffer contents when the region is entered
variable (V : (c : Dev nD) → (b : Ref sig .tc) → Buf (Elt Ideal) ((c : Thread nD τ).loc b))

/-! ## The block indices at a point -/

/-- At point t = (i · 4 + j) · 2 + k the three windows are at the blocks (i, k), (k, j), (i, j):
    i = t / 8, j = t / 2 mod 4, k = t mod 2. -/
theorem idx_facts0 : ∀ t : Fin cfg0.N,
    win0_0.index t (0 : Fin 2) = t.val / 8 ∧ win0_0.index t (1 : Fin 2) = t.val % 2
    ∧ win0_1.index t (0 : Fin 2) = t.val % 2 ∧ win0_1.index t (1 : Fin 2) = t.val / 2 % 4
    ∧ win0_2.index t (0 : Fin 2) = t.val / 8 ∧ win0_2.index t (1 : Fin 2) = t.val / 2 % 4 :=
  (by decide +kernel : ∀ t : Fin grid0.N, _)

/-! ## The operand blocks at an entry -/

/-- Entry (p, k) of the left operand's block at point t is x at row 512 (t / 8) + p, column 1024 (t mod 2) + k. -/
theorem blkA0 (c : Dev nD) (t : Fin cfg0.N) (p : Fin 512) (k : Fin 1024) (P K : Fin 2048)
    (hP : P.val = t.val / 8 * 512 + p.val) (hK : K.val = t.val % 2 * 1024 + k.val) :
    (iblk0 V c 0 t : Vec Ideal S512x1024 .bf16) (ix2 p k) = (V c main_v0 : S2048x2048.Idx → EReal) (ix2 P K) := by
  obtain ⟨e0, e1, -⟩ := idx_facts0 t
  unfold iblk0
  rw [View.read_apply]
  show V c main_v0 _ = V c main_v0 _
  refine congrArg (V c main_v0) (funext fun a => Fin.ext ?_)
  match a with
  | ⟨0, _⟩ => show win0_0.index t 0 * 512 + 1 * p.val = P.val; rw [e0, hP]; omega
  | ⟨1, _⟩ => show win0_0.index t 1 * 1024 + 1 * k.val = K.val; rw [e1, hK]; omega

/-- Entry (k, q) of the right operand's block at point t is w1 at row 1024 (t mod 2) + k, column 512 (t / 2 mod 4) + q. -/
theorem blkB0 (c : Dev nD) (t : Fin cfg0.N) (k : Fin 1024) (q : Fin 512) (K Q : Fin 2048)
    (hK : K.val = t.val % 2 * 1024 + k.val) (hQ : Q.val = t.val / 2 % 4 * 512 + q.val) :
    (iblk0 V c 1 t : Vec Ideal S1024x512 .bf16) (ix2 k q) = (V c main_v1 : S2048x2048.Idx → EReal) (ix2 K Q) := by
  obtain ⟨-, -, e2, e3, -⟩ := idx_facts0 t
  unfold iblk0
  rw [View.read_apply]
  show V c main_v1 _ = V c main_v1 _
  refine congrArg (V c main_v1) (funext fun a => Fin.ext ?_)
  match a with
  | ⟨0, _⟩ => show win0_1.index t 0 * 1024 + 1 * k.val = K.val; rw [e2, hK]; omega
  | ⟨1, _⟩ => show win0_1.index t 1 * 512 + 1 * q.val = Q.val; rw [e3, hQ]; omega

/-! ## The accumulator after the two steps of a block -/

/-- Zero, plus one block product, plus a second one, at entry (p, q): the two sums over k < 1024. -/
theorem two_steps0 (a0 a1 : Vec Ideal S512x1024 .bf16) (b0 b1 : Vec Ideal S1024x512 .bf16) (p q : Fin 512) :
    k0_pay2 (F := Ideal) (k0_pay2 (F := Ideal) (k0_pay1 (F := Ideal)) a0 b0) a1 b1 (ix2 p q)
      = (∑ k : Fin 1024, a0 (ix2 p k) * b0 (ix2 k q)) + ∑ k : Fin 1024, a1 (ix2 p k) * b1 (ix2 k q) := by
  rw [PayValue.pay2_0, PayValue.pay2_0, PayValue.pay1_0, zero_add]

/-- The accumulator after an odd point t, at entry (p, q), is entry (512 (t / 8) + p, 512 (t / 2 mod 4) + q) of x w1. -/
theorem acc0_odd_apply (c : Dev nD) (t : Fin cfg0.N) (h : t.val % 2 = 1) (p q : Fin 512) (P Q : Fin 2048)
    (hP : P.val = t.val / 8 * 512 + p.val) (hQ : Q.val = t.val / 2 % 4 * 512 + q.val) :
    acc0 V c t.val t.isLt (ix2 p q) = Cert.Spec.mmAt (V c main_v0) (V c main_v1) P Q := by
  have hN : cfg0.N = 32 := N_0
  have hlt : t.val - 1 < cfg0.N := Nat.lt_of_le_of_lt (Nat.sub_le _ _) t.isLt
  have hev : (⟨t.val - 1, hlt⟩ : Fin cfg0.N).val % 2 = 0 := by dsimp only; omega
  have e0 := acc0_even V c ⟨t.val - 1, hlt⟩ hev
  dsimp only at e0
  refine (congrFun (acc0_odd V c t h) (ix2 p q)).trans ?_
  rw [e0]
  refine (two_steps0 (iblk0 V c 0 ⟨t.val - 1, hlt⟩) (iblk0 V c 0 t) (iblk0 V c 1 ⟨t.val - 1, hlt⟩) (iblk0 V c 1 t) p q).trans ?_
  unfold Cert.Spec.mmAt
  rw [Cert.LibSplit.sum_two_halves]
  refine congrArg₂ (· + ·) (Finset.sum_congr rfl fun k _ => ?_) (Finset.sum_congr rfl fun k _ => ?_)
  · exact congrArg₂ (· * ·)
      (blkA0 V c ⟨t.val - 1, hlt⟩ p k P _ (by dsimp only; omega) (by dsimp only; omega))
      (blkB0 V c ⟨t.val - 1, hlt⟩ k q _ Q (by dsimp only; omega) (by dsimp only; omega))
  · exact congrArg₂ (· * ·)
      (blkA0 V c t p k P _ hP (by dsimp only; omega))
      (blkB0 V c t k q _ Q (by dsimp only; omega) hQ)

/-! ## What an odd point writes back -/

/-- The block written back at point t is block t of the matrix product x w1. -/
theorem flushed0_eq (c : Dev nD) (t : Fin cfg0.N) (hf : (cfg0.win 2).flush t = true) :
    (dat0 V c).flushed 2 t
      = ((cfg0.win 2).blk t).view.read (Elt Ideal) (Cert.Spec.mm (V c main_v0) (V c main_v1)) := by
  have hodd : t.val % 2 = 1 := (flush0_2 t).mp hf
  obtain ⟨-, -, -, -, e4, e5⟩ := idx_facts0 t
  show (cfg0.win 2).cut (grid0.coords t) ((dat0 V c).after 2 t) = _
  rw [after0_2]
  funext y
  obtain ⟨p, q, rfl⟩ : ∃ (p q : Fin 512), y = ix2 p q := ⟨y 0, y 1, eq_ix2 y⟩
  rw [View.read_apply]
  show acc0 V c t.val t.isLt (ix2 p q)
    = Cert.Spec.mm (V c main_v0) (V c main_v1) (((cfg0.win 2).blk t).view.emb (ix2 p q))
  unfold Cert.Spec.mm
  refine acc0_odd_apply V c t hodd p q _ _ ?_ ?_
  · show win0_2.index t 0 * 512 + 1 * p.val = t.val / 8 * 512 + p.val
    rw [e4]; omega
  · show win0_2.index t 1 * 512 + 1 * q.val = t.val / 2 % 4 * 512 + q.val
    rw [e5]; omega

/-! ## The blocks written back cover the array -/

/-- An entry of the array is in point t's output block iff each coordinate is in the block's range on its axis. -/
theorem mem_blk0 (t : Fin cfg0.N) (i : S2048x2048.Idx) :
    i ∈ ((cfg0.win 2).blk t).view.set
      ↔ ∀ a : Fin 2, win0_2.index t a * S512x512.size a ≤ (i a).val ∧ (i a).val < win0_2.index t a * S512x512.size a + S512x512.size a := by
  show i ∈ ((View.whole main_v4).slice (win0_2.rect t)).set ↔ _
  rw [View.set_slice_whole, Rect.mem_set_unit]
  exact Iff.rfl

/-- Entry (r, s) is in the block written back at the odd point of block (r / 512, s / 512). -/
theorem cover0 (i : S2048x2048.Idx) :
    ∃ t : Fin cfg0.N, (cfg0.win 2).flush t = true ∧ i ∈ ((cfg0.win 2).blk t).view.set := by
  have hN : cfg0.N = 32 := N_0
  have h0 : (i 0).val < 2048 := (i 0).isLt
  have h1 : (i 1).val < 2048 := (i 1).isLt
  let t : Fin cfg0.N := ⟨((i 0).val / 512 * 4 + (i 1).val / 512) * 2 + 1, by rw [hN]; omega⟩
  have ht : t.val = ((i 0).val / 512 * 4 + (i 1).val / 512) * 2 + 1 := rfl
  obtain ⟨-, -, -, -, e4, e5⟩ := idx_facts0 t
  refine ⟨t, (flush0_2 t).mpr (by rw [ht]; omega), ?_⟩
  rw [mem_blk0]
  intro a
  match a with
  | ⟨0, _⟩ =>
    show win0_2.index t 0 * 512 ≤ (i 0).val ∧ (i 0).val < win0_2.index t 0 * 512 + 512
    rw [e4, ht]; omega
  | ⟨1, _⟩ =>
    show win0_2.index t 1 * 512 ≤ (i 1).val ∧ (i 1).val < win0_2.index t 1 * 512 + 512
    rw [e5, ht]; omega

/-! ## The array after the region -/

/-- The first region's output array ends as the matrix product of its two operand arrays. -/
theorem final0 (c : Dev nD) :
    (dat0 (F := Ideal) V c).arrAt 2 cfg0.N = Cert.Spec.mm (V c main_v0) (V c main_v1) :=
  (dat0 V c).arrAt_eq_of_cover 2 (Cert.Spec.mm (V c main_v0) (V c main_v1)) (flushed0_eq V c) cover0

end Region0

end Cert.KernelIdeal.HandValue

end
-- ==== Proof.KI.Val1.lean ====
/-
  The second product's output array, entry by entry.

  The second region computes t2 = x w2 over a 4 × 4 × 2 grid of points t = (i · 4 + j) · 2 + k.  At point t it has the
  512 × 1024 block (i, k) of x, the 1024 × 512 block (k, j) of w2, and the 512 × 512 output block (i, j).  At k = 0 the
  accumulator is set to zero plus the product of the two blocks; at k = 1 the product of the two blocks is added, and the
  output block (i, j) is written back.  So the block written back at an odd point holds, at entry (p, q),

      0 + ∑_{k < 1024} x(512 i + p, k) · w2(k, 512 j + q) + ∑_{k < 1024} x(512 i + p, 1024 + k) · w2(1024 + k, 512 j + q),

  which is the sum over all 2048 contraction indices, that is entry (512 i + p, 512 j + q) of the matrix product.  Every
  entry (r, s) of the 2048 × 2048 output lies in the block (r / 512, s / 512), written back at the odd point of that block,
  so the whole array ends as the matrix product.
-/
import proofs.«141637_j39676907881857_2_alg».proof.Proof.KI.Reg1
import proofs.«141637_j39676907881857_2_alg».proof.Proof.PayValue
import proofs.«141637_j39676907881857_2_alg».proof.Proof.LibSplit
import proofs.«141637_j39676907881857_2_alg».proof.Proof.Spec

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

section Region1

-- the TensorCore's buffer contents when the region is entered
variable (V : (c : Dev nD) → (b : Ref sig .tc) → Buf (Elt Ideal) ((c : Thread nD τ).loc b))

/-! ## The block indices at a point -/

/-- At point t = (i · 4 + j) · 2 + k the three windows are at the blocks (i, k), (k, j), (i, j):
    i = t / 8, j = t / 2 mod 4, k = t mod 2. -/
theorem idx_facts1 : ∀ t : Fin cfg1.N,
    win1_0.index t (0 : Fin 2) = t.val / 8 ∧ win1_0.index t (1 : Fin 2) = t.val % 2
    ∧ win1_1.index t (0 : Fin 2) = t.val % 2 ∧ win1_1.index t (1 : Fin 2) = t.val / 2 % 4
    ∧ win1_2.index t (0 : Fin 2) = t.val / 8 ∧ win1_2.index t (1 : Fin 2) = t.val / 2 % 4 :=
  (by decide +kernel : ∀ t : Fin grid1.N, _)

/-! ## The operand blocks at an entry -/

/-- Entry (p, k) of the left operand's block at point t is x at row 512 (t / 8) + p, column 1024 (t mod 2) + k. -/
theorem blkA1 (c : Dev nD) (t : Fin cfg1.N) (p : Fin 512) (k : Fin 1024) (P K : Fin 2048)
    (hP : P.val = t.val / 8 * 512 + p.val) (hK : K.val = t.val % 2 * 1024 + k.val) :
    (iblk1 V c 0 t : Vec Ideal S512x1024 .bf16) (ix2 p k) = (V c main_v0 : S2048x2048.Idx → EReal) (ix2 P K) := by
  obtain ⟨e0, e1, -⟩ := idx_facts1 t
  unfold iblk1
  rw [View.read_apply]
  show V c main_v0 _ = V c main_v0 _
  refine congrArg (V c main_v0) (funext fun a => Fin.ext ?_)
  match a with
  | ⟨0, _⟩ => show win1_0.index t 0 * 512 + 1 * p.val = P.val; rw [e0, hP]; omega
  | ⟨1, _⟩ => show win1_0.index t 1 * 1024 + 1 * k.val = K.val; rw [e1, hK]; omega

/-- Entry (k, q) of the right operand's block at point t is w2 at row 1024 (t mod 2) + k, column 512 (t / 2 mod 4) + q. -/
theorem blkB1 (c : Dev nD) (t : Fin cfg1.N) (k : Fin 1024) (q : Fin 512) (K Q : Fin 2048)
    (hK : K.val = t.val % 2 * 1024 + k.val) (hQ : Q.val = t.val / 2 % 4 * 512 + q.val) :
    (iblk1 V c 1 t : Vec Ideal S1024x512 .bf16) (ix2 k q) = (V c main_v2 : S2048x2048.Idx → EReal) (ix2 K Q) := by
  obtain ⟨-, -, e2, e3, -⟩ := idx_facts1 t
  unfold iblk1
  rw [View.read_apply]
  show V c main_v2 _ = V c main_v2 _
  refine congrArg (V c main_v2) (funext fun a => Fin.ext ?_)
  match a with
  | ⟨0, _⟩ => show win1_1.index t 0 * 1024 + 1 * k.val = K.val; rw [e2, hK]; omega
  | ⟨1, _⟩ => show win1_1.index t 1 * 512 + 1 * q.val = Q.val; rw [e3, hQ]; omega

/-! ## The accumulator after the two steps of a block -/

/-- Zero, plus one block product, plus a second one, at entry (p, q): the two sums over k < 1024. -/
theorem two_steps1 (a0 a1 : Vec Ideal S512x1024 .bf16) (b0 b1 : Vec Ideal S1024x512 .bf16) (p q : Fin 512) :
    k1_pay2 (F := Ideal) (k1_pay2 (F := Ideal) (k1_pay1 (F := Ideal)) a0 b0) a1 b1 (ix2 p q)
      = (∑ k : Fin 1024, a0 (ix2 p k) * b0 (ix2 k q)) + ∑ k : Fin 1024, a1 (ix2 p k) * b1 (ix2 k q) := by
  rw [PayValue.pay2_1, PayValue.pay2_1, PayValue.pay1_1, zero_add]

/-- The accumulator after an odd point t, at entry (p, q), is entry (512 (t / 8) + p, 512 (t / 2 mod 4) + q) of x w2. -/
theorem acc1_odd_apply (c : Dev nD) (t : Fin cfg1.N) (h : t.val % 2 = 1) (p q : Fin 512) (P Q : Fin 2048)
    (hP : P.val = t.val / 8 * 512 + p.val) (hQ : Q.val = t.val / 2 % 4 * 512 + q.val) :
    acc1 V c t.val t.isLt (ix2 p q) = Cert.Spec.mmAt (V c main_v0) (V c main_v2) P Q := by
  have hN : cfg1.N = 32 := N_1
  have hlt : t.val - 1 < cfg1.N := Nat.lt_of_le_of_lt (Nat.sub_le _ _) t.isLt
  have hev : (⟨t.val - 1, hlt⟩ : Fin cfg1.N).val % 2 = 0 := by dsimp only; omega
  have e0 := acc1_even V c ⟨t.val - 1, hlt⟩ hev
  dsimp only at e0
  refine (congrFun (acc1_odd V c t h) (ix2 p q)).trans ?_
  rw [e0]
  refine (two_steps1 (iblk1 V c 0 ⟨t.val - 1, hlt⟩) (iblk1 V c 0 t) (iblk1 V c 1 ⟨t.val - 1, hlt⟩) (iblk1 V c 1 t) p q).trans ?_
  unfold Cert.Spec.mmAt
  rw [Cert.LibSplit.sum_two_halves]
  refine congrArg₂ (· + ·) (Finset.sum_congr rfl fun k _ => ?_) (Finset.sum_congr rfl fun k _ => ?_)
  · exact congrArg₂ (· * ·)
      (blkA1 V c ⟨t.val - 1, hlt⟩ p k P _ (by dsimp only; omega) (by dsimp only; omega))
      (blkB1 V c ⟨t.val - 1, hlt⟩ k q _ Q (by dsimp only; omega) (by dsimp only; omega))
  · exact congrArg₂ (· * ·)
      (blkA1 V c t p k P _ hP (by dsimp only; omega))
      (blkB1 V c t k q _ Q (by dsimp only; omega) hQ)

/-! ## What an odd point writes back -/

/-- The block written back at point t is block t of the matrix product x w2. -/
theorem flushed1_eq (c : Dev nD) (t : Fin cfg1.N) (hf : (cfg1.win 2).flush t = true) :
    (dat1 V c).flushed 2 t
      = ((cfg1.win 2).blk t).view.read (Elt Ideal) (Cert.Spec.mm (V c main_v0) (V c main_v2)) := by
  have hodd : t.val % 2 = 1 := (flush1_2 t).mp hf
  obtain ⟨-, -, -, -, e4, e5⟩ := idx_facts1 t
  show (cfg1.win 2).cut (grid1.coords t) ((dat1 V c).after 2 t) = _
  rw [after1_2]
  funext y
  obtain ⟨p, q, rfl⟩ : ∃ (p q : Fin 512), y = ix2 p q := ⟨y 0, y 1, eq_ix2 y⟩
  rw [View.read_apply]
  show acc1 V c t.val t.isLt (ix2 p q)
    = Cert.Spec.mm (V c main_v0) (V c main_v2) (((cfg1.win 2).blk t).view.emb (ix2 p q))
  unfold Cert.Spec.mm
  refine acc1_odd_apply V c t hodd p q _ _ ?_ ?_
  · show win1_2.index t 0 * 512 + 1 * p.val = t.val / 8 * 512 + p.val
    rw [e4]; omega
  · show win1_2.index t 1 * 512 + 1 * q.val = t.val / 2 % 4 * 512 + q.val
    rw [e5]; omega

/-! ## The blocks written back cover the array -/

/-- An entry of the array is in point t's output block iff each coordinate is in the block's range on its axis. -/
theorem mem_blk1 (t : Fin cfg1.N) (i : S2048x2048.Idx) :
    i ∈ ((cfg1.win 2).blk t).view.set
      ↔ ∀ a : Fin 2, win1_2.index t a * S512x512.size a ≤ (i a).val ∧ (i a).val < win1_2.index t a * S512x512.size a + S512x512.size a := by
  show i ∈ ((View.whole main_v5).slice (win1_2.rect t)).set ↔ _
  rw [View.set_slice_whole, Rect.mem_set_unit]
  exact Iff.rfl

/-- Entry (r, s) is in the block written back at the odd point of block (r / 512, s / 512). -/
theorem cover1 (i : S2048x2048.Idx) :
    ∃ t : Fin cfg1.N, (cfg1.win 2).flush t = true ∧ i ∈ ((cfg1.win 2).blk t).view.set := by
  have hN : cfg1.N = 32 := N_1
  have h0 : (i 0).val < 2048 := (i 0).isLt
  have h1 : (i 1).val < 2048 := (i 1).isLt
  let t : Fin cfg1.N := ⟨((i 0).val / 512 * 4 + (i 1).val / 512) * 2 + 1, by rw [hN]; omega⟩
  have ht : t.val = ((i 0).val / 512 * 4 + (i 1).val / 512) * 2 + 1 := rfl
  obtain ⟨-, -, -, -, e4, e5⟩ := idx_facts1 t
  refine ⟨t, (flush1_2 t).mpr (by rw [ht]; omega), ?_⟩
  rw [mem_blk1]
  intro a
  match a with
  | ⟨0, _⟩ =>
    show win1_2.index t 0 * 512 ≤ (i 0).val ∧ (i 0).val < win1_2.index t 0 * 512 + 512
    rw [e4, ht]; omega
  | ⟨1, _⟩ =>
    show win1_2.index t 1 * 512 ≤ (i 1).val ∧ (i 1).val < win1_2.index t 1 * 512 + 512
    rw [e5, ht]; omega

/-! ## The array after the region -/

/-- The second region's output array ends as the matrix product of its two operand arrays. -/
theorem final1 (c : Dev nD) :
    (dat1 (F := Ideal) V c).arrAt 2 cfg1.N = Cert.Spec.mm (V c main_v0) (V c main_v2) :=
  (dat1 V c).arrAt_eq_of_cover 2 (Cert.Spec.mm (V c main_v0) (V c main_v2)) (flushed1_eq V c) cover1

end Region1

end Cert.KernelIdeal.HandValue

end
-- ==== Proof.KI.Val2.lean ====
/-
  The third product's output array, entry by entry.

  The third region computes t3 = w3 w3 over a 4 × 4 × 2 grid of points t = (i · 4 + j) · 2 + k.  At point t it has the
  512 × 1024 block (i, k) of w3, the 1024 × 512 block (k, j) of the same array w3, and the 512 × 512 output block (i, j).
  At k = 0 the accumulator is set to zero plus the product of the two blocks; at k = 1 the product of the two blocks is
  added, and the output block (i, j) is written back.  So the block written back at an odd point holds, at entry (p, q),

      0 + ∑_{k < 1024} w3(512 i + p, k) · w3(k, 512 j + q) + ∑_{k < 1024} w3(512 i + p, 1024 + k) · w3(1024 + k, 512 j + q),

  which is the sum over all 2048 contraction indices, that is entry (512 i + p, 512 j + q) of the matrix product.  Every
  entry (r, s) of the 2048 × 2048 output lies in the block (r / 512, s / 512), written back at the odd point of that block,
  so the whole array ends as the matrix product.
-/
import proofs.«141637_j39676907881857_2_alg».proof.Proof.KI.Reg2
import proofs.«141637_j39676907881857_2_alg».proof.Proof.PayValue
import proofs.«141637_j39676907881857_2_alg».proof.Proof.LibSplit
import proofs.«141637_j39676907881857_2_alg».proof.Proof.Spec

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

section Region2

-- the TensorCore's buffer contents when the region is entered
variable (V : (c : Dev nD) → (b : Ref sig .tc) → Buf (Elt Ideal) ((c : Thread nD τ).loc b))

/-! ## The block indices at a point -/

/-- At point t = (i · 4 + j) · 2 + k the three windows are at the blocks (i, k), (k, j), (i, j):
    i = t / 8, j = t / 2 mod 4, k = t mod 2. -/
theorem idx_facts2 : ∀ t : Fin cfg2.N,
    win2_0.index t (0 : Fin 2) = t.val / 8 ∧ win2_0.index t (1 : Fin 2) = t.val % 2
    ∧ win2_1.index t (0 : Fin 2) = t.val % 2 ∧ win2_1.index t (1 : Fin 2) = t.val / 2 % 4
    ∧ win2_2.index t (0 : Fin 2) = t.val / 8 ∧ win2_2.index t (1 : Fin 2) = t.val / 2 % 4 :=
  (by decide +kernel : ∀ t : Fin grid2.N, _)

/-! ## The operand blocks at an entry -/

/-- Entry (p, k) of the left operand's block at point t is w3 at row 512 (t / 8) + p, column 1024 (t mod 2) + k. -/
theorem blkA2 (c : Dev nD) (t : Fin cfg2.N) (p : Fin 512) (k : Fin 1024) (P K : Fin 2048)
    (hP : P.val = t.val / 8 * 512 + p.val) (hK : K.val = t.val % 2 * 1024 + k.val) :
    (iblk2 V c 0 t : Vec Ideal S512x1024 .bf16) (ix2 p k) = (V c main_v3 : S2048x2048.Idx → EReal) (ix2 P K) := by
  obtain ⟨e0, e1, -⟩ := idx_facts2 t
  unfold iblk2
  rw [View.read_apply]
  show V c main_v3 _ = V c main_v3 _
  refine congrArg (V c main_v3) (funext fun a => Fin.ext ?_)
  match a with
  | ⟨0, _⟩ => show win2_0.index t 0 * 512 + 1 * p.val = P.val; rw [e0, hP]; omega
  | ⟨1, _⟩ => show win2_0.index t 1 * 1024 + 1 * k.val = K.val; rw [e1, hK]; omega

/-- Entry (k, q) of the right operand's block at point t is w3 at row 1024 (t mod 2) + k, column 512 (t / 2 mod 4) + q. -/
theorem blkB2 (c : Dev nD) (t : Fin cfg2.N) (k : Fin 1024) (q : Fin 512) (K Q : Fin 2048)
    (hK : K.val = t.val % 2 * 1024 + k.val) (hQ : Q.val = t.val / 2 % 4 * 512 + q.val) :
    (iblk2 V c 1 t : Vec Ideal S1024x512 .bf16) (ix2 k q) = (V c main_v3 : S2048x2048.Idx → EReal) (ix2 K Q) := by
  obtain ⟨-, -, e2, e3, -⟩ := idx_facts2 t
  unfold iblk2
  rw [View.read_apply]
  show V c main_v3 _ = V c main_v3 _
  refine congrArg (V c main_v3) (funext fun a => Fin.ext ?_)
  match a with
  | ⟨0, _⟩ => show win2_1.index t 0 * 1024 + 1 * k.val = K.val; rw [e2, hK]; omega
  | ⟨1, _⟩ => show win2_1.index t 1 * 512 + 1 * q.val = Q.val; rw [e3, hQ]; omega

/-! ## The accumulator after the two steps of a block -/

/-- Zero, plus one block product, plus a second one, at entry (p, q): the two sums over k < 1024. -/
theorem two_steps2 (a0 a1 : Vec Ideal S512x1024 .bf16) (b0 b1 : Vec Ideal S1024x512 .bf16) (p q : Fin 512) :
    k2_pay2 (F := Ideal) (k2_pay2 (F := Ideal) (k2_pay1 (F := Ideal)) a0 b0) a1 b1 (ix2 p q)
      = (∑ k : Fin 1024, a0 (ix2 p k) * b0 (ix2 k q)) + ∑ k : Fin 1024, a1 (ix2 p k) * b1 (ix2 k q) := by
  rw [PayValue.pay2_2, PayValue.pay2_2, PayValue.pay1_2, zero_add]

/-- The accumulator after an odd point t, at entry (p, q), is entry (512 (t / 8) + p, 512 (t / 2 mod 4) + q) of w3 w3. -/
theorem acc2_odd_apply (c : Dev nD) (t : Fin cfg2.N) (h : t.val % 2 = 1) (p q : Fin 512) (P Q : Fin 2048)
    (hP : P.val = t.val / 8 * 512 + p.val) (hQ : Q.val = t.val / 2 % 4 * 512 + q.val) :
    acc2 V c t.val t.isLt (ix2 p q) = Cert.Spec.mmAt (V c main_v3) (V c main_v3) P Q := by
  have hN : cfg2.N = 32 := N_2
  have hlt : t.val - 1 < cfg2.N := Nat.lt_of_le_of_lt (Nat.sub_le _ _) t.isLt
  have hev : (⟨t.val - 1, hlt⟩ : Fin cfg2.N).val % 2 = 0 := by dsimp only; omega
  have e0 := acc2_even V c ⟨t.val - 1, hlt⟩ hev
  dsimp only at e0
  refine (congrFun (acc2_odd V c t h) (ix2 p q)).trans ?_
  rw [e0]
  refine (two_steps2 (iblk2 V c 0 ⟨t.val - 1, hlt⟩) (iblk2 V c 0 t) (iblk2 V c 1 ⟨t.val - 1, hlt⟩) (iblk2 V c 1 t) p q).trans ?_
  unfold Cert.Spec.mmAt
  rw [Cert.LibSplit.sum_two_halves]
  refine congrArg₂ (· + ·) (Finset.sum_congr rfl fun k _ => ?_) (Finset.sum_congr rfl fun k _ => ?_)
  · exact congrArg₂ (· * ·)
      (blkA2 V c ⟨t.val - 1, hlt⟩ p k P _ (by dsimp only; omega) (by dsimp only; omega))
      (blkB2 V c ⟨t.val - 1, hlt⟩ k q _ Q (by dsimp only; omega) (by dsimp only; omega))
  · exact congrArg₂ (· * ·)
      (blkA2 V c t p k P _ hP (by dsimp only; omega))
      (blkB2 V c t k q _ Q (by dsimp only; omega) hQ)

/-! ## What an odd point writes back -/

/-- The block written back at point t is block t of the matrix product w3 w3. -/
theorem flushed2_eq (c : Dev nD) (t : Fin cfg2.N) (hf : (cfg2.win 2).flush t = true) :
    (dat2 V c).flushed 2 t
      = ((cfg2.win 2).blk t).view.read (Elt Ideal) (Cert.Spec.mm (V c main_v3) (V c main_v3)) := by
  have hodd : t.val % 2 = 1 := (flush2_2 t).mp hf
  obtain ⟨-, -, -, -, e4, e5⟩ := idx_facts2 t
  show (cfg2.win 2).cut (grid2.coords t) ((dat2 V c).after 2 t) = _
  rw [after2_2]
  funext y
  obtain ⟨p, q, rfl⟩ : ∃ (p q : Fin 512), y = ix2 p q := ⟨y 0, y 1, eq_ix2 y⟩
  rw [View.read_apply]
  show acc2 V c t.val t.isLt (ix2 p q)
    = Cert.Spec.mm (V c main_v3) (V c main_v3) (((cfg2.win 2).blk t).view.emb (ix2 p q))
  unfold Cert.Spec.mm
  refine acc2_odd_apply V c t hodd p q _ _ ?_ ?_
  · show win2_2.index t 0 * 512 + 1 * p.val = t.val / 8 * 512 + p.val
    rw [e4]; omega
  · show win2_2.index t 1 * 512 + 1 * q.val = t.val / 2 % 4 * 512 + q.val
    rw [e5]; omega

/-! ## The blocks written back cover the array -/

/-- An entry of the array is in point t's output block iff each coordinate is in the block's range on its axis. -/
theorem mem_blk2 (t : Fin cfg2.N) (i : S2048x2048.Idx) :
    i ∈ ((cfg2.win 2).blk t).view.set
      ↔ ∀ a : Fin 2, win2_2.index t a * S512x512.size a ≤ (i a).val ∧ (i a).val < win2_2.index t a * S512x512.size a + S512x512.size a := by
  show i ∈ ((View.whole main_v6).slice (win2_2.rect t)).set ↔ _
  rw [View.set_slice_whole, Rect.mem_set_unit]
  exact Iff.rfl

/-- Entry (r, s) is in the block written back at the odd point of block (r / 512, s / 512). -/
theorem cover2 (i : S2048x2048.Idx) :
    ∃ t : Fin cfg2.N, (cfg2.win 2).flush t = true ∧ i ∈ ((cfg2.win 2).blk t).view.set := by
  have hN : cfg2.N = 32 := N_2
  have h0 : (i 0).val < 2048 := (i 0).isLt
  have h1 : (i 1).val < 2048 := (i 1).isLt
  let t : Fin cfg2.N := ⟨((i 0).val / 512 * 4 + (i 1).val / 512) * 2 + 1, by rw [hN]; omega⟩
  have ht : t.val = ((i 0).val / 512 * 4 + (i 1).val / 512) * 2 + 1 := rfl
  obtain ⟨-, -, -, -, e4, e5⟩ := idx_facts2 t
  refine ⟨t, (flush2_2 t).mpr (by rw [ht]; omega), ?_⟩
  rw [mem_blk2]
  intro a
  match a with
  | ⟨0, _⟩ =>
    show win2_2.index t 0 * 512 ≤ (i 0).val ∧ (i 0).val < win2_2.index t 0 * 512 + 512
    rw [e4, ht]; omega
  | ⟨1, _⟩ =>
    show win2_2.index t 1 * 512 ≤ (i 1).val ∧ (i 1).val < win2_2.index t 1 * 512 + 512
    rw [e5, ht]; omega

/-! ## The array after the region -/

/-- The third region's output array ends as the matrix product of its two operand arrays. -/
theorem final2 (c : Dev nD) :
    (dat2 (F := Ideal) V c).arrAt 2 cfg2.N = Cert.Spec.mm (V c main_v3) (V c main_v3) :=
  (dat2 V c).arrAt_eq_of_cover 2 (Cert.Spec.mm (V c main_v3) (V c main_v3)) (flushed2_eq V c) cover2

end Region2

end Cert.KernelIdeal.HandValue

end
-- ==== Proof.KI.Val3.lean ====
/-
  The fourth region's output array, entry by entry:  t6 = ((t1 ∘ w1) x) ∘ w1  (∘ the entrywise product).

  The region runs over a 4 × 4 × 2 grid of points t = (i · 4 + j) · 2 + k.  At point t it has the 512 × 1024 blocks (i, k) of
  t1 and of w1, the 1024 × 512 block (k, j) of x, the 512 × 512 block (i, j) of w1 for the closing step, and the 512 × 512
  output block (i, j).  At k = 0 the accumulator is set to zero plus the product of the entrywise product of the t1 and w1
  blocks with the x block; at k = 1 the same product of the point's blocks is added, the result is multiplied entrywise
  by the (i, j) block of w1, and the output block (i, j) is written back.  So the block written back at an odd point
  holds, at entry (p, q), with r = 512 i + p and s = 512 j + q,

      (0 + ∑_{k < 1024} (t1(r, k) · w1(r, k)) · x(k, s) + ∑_{k < 1024} (t1(r, 1024 + k) · w1(r, 1024 + k)) · x(1024 + k, s)) · w1(r, s),

  which is entry (r, s) of ((t1 ∘ w1) x) ∘ w1.  Every entry (r, s) of the 2048 × 2048 output lies in the block
  (r / 512, s / 512), written back at the odd point of that block, so the whole array ends as that matrix.
-/
import proofs.«141637_j39676907881857_2_alg».proof.Proof.KI.Reg3
import proofs.«141637_j39676907881857_2_alg».proof.Proof.PayValue
import proofs.«141637_j39676907881857_2_alg».proof.Proof.LibSplit
import proofs.«141637_j39676907881857_2_alg».proof.Proof.Spec

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

section Region3

-- the TensorCore's buffer contents when the region is entered
variable (V : (c : Dev nD) → (b : Ref sig .tc) → Buf (Elt Ideal) ((c : Thread nD τ).loc b))

/-! ## The block indices at a point -/

/-- At point t = (i · 4 + j) · 2 + k the windows are at the blocks (i, k), (i, k), (k, j), (i, j), (i, j):
    i = t / 8, j = t / 2 mod 4, k = t mod 2. -/
theorem idx_facts3 : ∀ t : Fin cfg3.N,
    win3_0.index t (0 : Fin 2) = t.val / 8 ∧ win3_0.index t (1 : Fin 2) = t.val % 2
    ∧ win3_1.index t (0 : Fin 2) = t.val / 8 ∧ win3_1.index t (1 : Fin 2) = t.val % 2
    ∧ win3_2.index t (0 : Fin 2) = t.val % 2 ∧ win3_2.index t (1 : Fin 2) = t.val / 2 % 4
    ∧ win3_3.index t (0 : Fin 2) = t.val / 8 ∧ win3_3.index t (1 : Fin 2) = t.val / 2 % 4
    ∧ win3_4.index t (0 : Fin 2) = t.val / 8 ∧ win3_4.index t (1 : Fin 2) = t.val / 2 % 4 :=
  (by decide +kernel : ∀ t : Fin grid3.N, _)

/-! ## The input blocks at an entry -/

/-- Entry (p, k) of the t1 block at point t is t1 at row 512 (t / 8) + p, column 1024 (t mod 2) + k. -/
theorem blkT3 (c : Dev nD) (t : Fin cfg3.N) (p : Fin 512) (k : Fin 1024) (A B : Fin 2048)
    (hA : A.val = t.val / 8 * 512 + p.val) (hB : B.val = t.val % 2 * 1024 + k.val) :
    (iblk3 V c 0 t : Vec Ideal S512x1024 .f32) (ix2 p k) = (V c main_v4 : S2048x2048.Idx → EReal) (ix2 A B) := by
  obtain ⟨ea, eb, -⟩ := idx_facts3 t
  unfold iblk3
  rw [View.read_apply]
  show V c main_v4 _ = V c main_v4 _
  refine congrArg (V c main_v4) (funext fun a => Fin.ext ?_)
  match a with
  | ⟨0, _⟩ => show win3_0.index t 0 * 512 + 1 * p.val = A.val; rw [ea, hA]; omega
  | ⟨1, _⟩ => show win3_0.index t 1 * 1024 + 1 * k.val = B.val; rw [eb, hB]; omega

/-- Entry (p, k) of the w1 block at point t is w1 at row 512 (t / 8) + p, column 1024 (t mod 2) + k. -/
theorem blkW3 (c : Dev nD) (t : Fin cfg3.N) (p : Fin 512) (k : Fin 1024) (A B : Fin 2048)
    (hA : A.val = t.val / 8 * 512 + p.val) (hB : B.val = t.val % 2 * 1024 + k.val) :
    (iblk3 V c 1 t : Vec Ideal S512x1024 .f32) (ix2 p k) = (V c main_arg1 : S2048x2048.Idx → EReal) (ix2 A B) := by
  obtain ⟨-, -, ea, eb, -⟩ := idx_facts3 t
  unfold iblk3
  rw [View.read_apply]
  show V c main_arg1 _ = V c main_arg1 _
  refine congrArg (V c main_arg1) (funext fun a => Fin.ext ?_)
  match a with
  | ⟨0, _⟩ => show win3_1.index t 0 * 512 + 1 * p.val = A.val; rw [ea, hA]; omega
  | ⟨1, _⟩ => show win3_1.index t 1 * 1024 + 1 * k.val = B.val; rw [eb, hB]; omega

/-- Entry (k, q) of the x block at point t is x at row 1024 (t mod 2) + k, column 512 (t / 2 mod 4) + q. -/
theorem blkX3 (c : Dev nD) (t : Fin cfg3.N) (k : Fin 1024) (q : Fin 512) (A B : Fin 2048)
    (hA : A.val = t.val % 2 * 1024 + k.val) (hB : B.val = t.val / 2 % 4 * 512 + q.val) :
    (iblk3 V c 2 t : Vec Ideal S1024x512 .bf16) (ix2 k q) = (V c main_v0 : S2048x2048.Idx → EReal) (ix2 A B) := by
  obtain ⟨-, -, -, -, ea, eb, -⟩ := idx_facts3 t
  unfold iblk3
  rw [View.read_apply]
  show V c main_v0 _ = V c main_v0 _
  refine congrArg (V c main_v0) (funext fun a => Fin.ext ?_)
  match a with
  | ⟨0, _⟩ => show win3_2.index t 0 * 1024 + 1 * k.val = A.val; rw [ea, hA]; omega
  | ⟨1, _⟩ => show win3_2.index t 1 * 512 + 1 * q.val = B.val; rw [eb, hB]; omega

/-- Entry (p, q) of the closing step's w1 block at point t is w1 at row 512 (t / 8) + p, column 512 (t / 2 mod 4) + q. -/
theorem blkC3 (c : Dev nD) (t : Fin cfg3.N) (p q : Fin 512) (I : S2048x2048.Idx)
    (h0 : (I 0).val = t.val / 8 * 512 + p.val) (h1 : (I 1).val = t.val / 2 % 4 * 512 + q.val) :
    (iblk3 V c 3 t : Vec Ideal S512x512 .f32) (ix2 p q) = (V c main_arg1 : S2048x2048.Idx → EReal) I := by
  obtain ⟨-, -, -, -, -, -, ea, eb, -⟩ := idx_facts3 t
  unfold iblk3
  rw [View.read_apply]
  show V c main_arg1 _ = V c main_arg1 I
  refine congrArg (V c main_arg1) (funext fun a => Fin.ext ?_)
  match a with
  | ⟨0, _⟩ => show win3_3.index t 0 * 512 + 1 * p.val = (I 0).val; rw [ea, h0]; omega
  | ⟨1, _⟩ => show win3_3.index t 1 * 512 + 1 * q.val = (I 1).val; rw [eb, h1]; omega

/-! ## The accumulator after the two steps of a block -/

/-- Zero, plus one product of an entrywise product with a block, plus a second one, at entry (p, q): the two sums over k < 1024. -/
theorem two_steps3 (a0 a1 w0 w1 : Vec Ideal S512x1024 .f32) (b0 b1 : Vec Ideal S1024x512 .bf16) (p q : Fin 512) :
    k3_pay2 (F := Ideal) a1 w1 (k3_pay2 (F := Ideal) a0 w0 (k3_pay1 (F := Ideal)) b0) b1 (ix2 p q)
      = (∑ k : Fin 1024, (a0 (ix2 p k) * w0 (ix2 p k)) * b0 (ix2 k q))
        + ∑ k : Fin 1024, (a1 (ix2 p k) * w1 (ix2 p k)) * b1 (ix2 k q) := by
  rw [PayValue.pay2_3, PayValue.pay2_3, PayValue.pay1_3, zero_add]

/-- The accumulator after an odd point t, at entry (p, q), is entry (512 (t / 8) + p, 512 (t / 2 mod 4) + q) of (t1 ∘ w1) x. -/
theorem acc3_odd_apply (c : Dev nD) (t : Fin cfg3.N) (h : t.val % 2 = 1) (p q : Fin 512) (P Q : Fin 2048)
    (hP : P.val = t.val / 8 * 512 + p.val) (hQ : Q.val = t.val / 2 % 4 * 512 + q.val) :
    acc3 V c t.val t.isLt (ix2 p q)
      = Cert.Spec.mmAt (Cert.Spec.had (V c main_v4) (V c main_arg1)) (V c main_v0) P Q := by
  have hN : cfg3.N = 32 := N_3
  have hlt : t.val - 1 < cfg3.N := Nat.lt_of_le_of_lt (Nat.sub_le _ _) t.isLt
  have hev : (⟨t.val - 1, hlt⟩ : Fin cfg3.N).val % 2 = 0 := by dsimp only; omega
  have e0 := acc3_even V c ⟨t.val - 1, hlt⟩ hev
  dsimp only at e0
  refine (congrFun (acc3_odd V c t h) (ix2 p q)).trans ?_
  rw [e0]
  refine (two_steps3 (iblk3 V c 0 ⟨t.val - 1, hlt⟩) (iblk3 V c 0 t) (iblk3 V c 1 ⟨t.val - 1, hlt⟩) (iblk3 V c 1 t)
    (iblk3 V c 2 ⟨t.val - 1, hlt⟩) (iblk3 V c 2 t) p q).trans ?_
  unfold Cert.Spec.mmAt
  rw [Cert.LibSplit.sum_two_halves]
  refine congrArg₂ (· + ·) (Finset.sum_congr rfl fun k _ => ?_) (Finset.sum_congr rfl fun k _ => ?_)
  · exact congrArg₂ (· * ·)
      (congrArg₂ (· * ·)
        (blkT3 V c ⟨t.val - 1, hlt⟩ p k P _ (by dsimp only; omega) (by dsimp only; omega))
        (blkW3 V c ⟨t.val - 1, hlt⟩ p k P _ (by dsimp only; omega) (by dsimp only; omega)))
      (blkX3 V c ⟨t.val - 1, hlt⟩ k q _ Q (by dsimp only; omega) (by dsimp only; omega))
  · exact congrArg₂ (· * ·)
      (congrArg₂ (· * ·)
        (blkT3 V c t p k P _ hP (by dsimp only; omega))
        (blkW3 V c t p k P _ hP (by dsimp only; omega)))
      (blkX3 V c t k q _ Q (by dsimp only; omega) hQ)

/-! ## What an odd point writes back -/

/-- The block written back at point t is block t of ((t1 ∘ w1) x) ∘ w1. -/
theorem flushed3_eq (c : Dev nD) (t : Fin cfg3.N) (hf : (cfg3.win 4).flush t = true) :
    (dat3 V c).flushed 4 t
      = ((cfg3.win 4).blk t).view.read (Elt Ideal)
          (Cert.Spec.had (Cert.Spec.mm (Cert.Spec.had (V c main_v4) (V c main_arg1)) (V c main_v0)) (V c main_arg1)) := by
  have hodd : t.val % 2 = 1 := (flush3_4 t).mp hf
  obtain ⟨-, -, -, -, -, -, -, -, ea, eb⟩ := idx_facts3 t
  show (cfg3.win 4).cut (grid3.coords t) ((dat3 V c).after 4 t) = _
  rw [after3_4]
  funext y
  obtain ⟨p, q, rfl⟩ : ∃ (p q : Fin 512), y = ix2 p q := ⟨y 0, y 1, eq_ix2 y⟩
  rw [View.read_apply]
  have i0 : ((((cfg3.win 4).blk t).view.emb (ix2 p q)) 0).val = t.val / 8 * 512 + p.val := by
    show win3_4.index t 0 * 512 + 1 * p.val = t.val / 8 * 512 + p.val
    rw [ea]; omega
  have i1 : ((((cfg3.win 4).blk t).view.emb (ix2 p q)) 1).val = t.val / 2 % 4 * 512 + q.val := by
    show win3_4.index t 1 * 512 + 1 * q.val = t.val / 2 % 4 * 512 + q.val
    rw [eb]; omega
  show k3_pay3 (F := Ideal) (acc3 V c t.val t.isLt) (iblk3 V c 3 t) (ix2 p q)
    = Cert.Spec.mm (Cert.Spec.had (V c main_v4) (V c main_arg1)) (V c main_v0) (((cfg3.win 4).blk t).view.emb (ix2 p q))
      * (V c main_arg1 : S2048x2048.Idx → EReal) (((cfg3.win 4).blk t).view.emb (ix2 p q))
  refine (PayValue.pay3_3 (acc3 V c t.val t.isLt) (iblk3 V c 3 t) p q).trans ?_
  refine congrArg₂ (· * ·) ?_ (blkC3 V c t p q _ i0 i1)
  unfold Cert.Spec.mm
  exact acc3_odd_apply V c t hodd p q _ _ i0 i1

/-! ## The blocks written back cover the array -/

/-- An entry of the array is in point t's output block iff each coordinate is in the block's range on its axis. -/
theorem mem_blk3 (t : Fin cfg3.N) (i : S2048x2048.Idx) :
    i ∈ ((cfg3.win 4).blk t).view.set
      ↔ ∀ a : Fin 2, win3_4.index t a * S512x512.size a ≤ (i a).val ∧ (i a).val < win3_4.index t a * S512x512.size a + S512x512.size a := by
  show i ∈ ((View.whole main_v7).slice (win3_4.rect t)).set ↔ _
  rw [View.set_slice_whole, Rect.mem_set_unit]
  exact Iff.rfl

/-- Entry (r, s) is in the block written back at the odd point of block (r / 512, s / 512). -/
theorem cover3 (i : S2048x2048.Idx) :
    ∃ t : Fin cfg3.N, (cfg3.win 4).flush t = true ∧ i ∈ ((cfg3.win 4).blk t).view.set := by
  have hN : cfg3.N = 32 := N_3
  have h0 : (i 0).val < 2048 := (i 0).isLt
  have h1 : (i 1).val < 2048 := (i 1).isLt
  let t : Fin cfg3.N := ⟨((i 0).val / 512 * 4 + (i 1).val / 512) * 2 + 1, by rw [hN]; omega⟩
  have ht : t.val = ((i 0).val / 512 * 4 + (i 1).val / 512) * 2 + 1 := rfl
  obtain ⟨-, -, -, -, -, -, -, -, ea, eb⟩ := idx_facts3 t
  refine ⟨t, (flush3_4 t).mpr (by rw [ht]; omega), ?_⟩
  rw [mem_blk3]
  intro a
  match a with
  | ⟨0, _⟩ =>
    show win3_4.index t 0 * 512 ≤ (i 0).val ∧ (i 0).val < win3_4.index t 0 * 512 + 512
    rw [ea, ht]; omega
  | ⟨1, _⟩ =>
    show win3_4.index t 1 * 512 ≤ (i 1).val ∧ (i 1).val < win3_4.index t 1 * 512 + 512
    rw [eb, ht]; omega

/-! ## The array after the region -/

/-- The fourth region's output array ends as ((t1 ∘ w1) x) ∘ w1 of the arrays it reads. -/
theorem final3 (c : Dev nD) :
    (dat3 (F := Ideal) V c).arrAt 4 cfg3.N
      = Cert.Spec.had (Cert.Spec.mm (Cert.Spec.had (V c main_v4) (V c main_arg1)) (V c main_v0)) (V c main_arg1) :=
  (dat3 V c).arrAt_eq_of_cover 4
    (Cert.Spec.had (Cert.Spec.mm (Cert.Spec.had (V c main_v4) (V c main_arg1)) (V c main_v0)) (V c main_arg1))
    (flushed3_eq V c) cover3

end Region3

end Cert.KernelIdeal.HandValue

end
-- ==== Proof.KI.Val4.lean ====
/-
  The fifth region's output array, entry by entry:  the combination of t1, t2, t3, t6 and t1x = t1 x.

  The region runs over a 4 × 4 × 2 grid of points t = (i · 4 + j) · 2 + k.  At point t it has the 512 × 1024 block (i, k) of
  t1, the 1024 × 512 block (k, j) of x, the 512 × 512 blocks (i, j) of t1, t2, t3 and t6 for the closing step, and the
  512 × 512 output block (i, j).  At k = 0 the accumulator is set to zero plus the product of the t1 and x blocks; at k = 1
  the product of the point's blocks is added, so that the accumulator holds the block (i, j) of t1x = t1 x, and the closing
  step combines the five blocks entrywise,

      ((t1 · t2 + t1 + t3) + (t3 · t6) · t3) + (t3 · t6) · t1x,

  and the output block (i, j) is written back.  At entry (p, q) of block (i, j) every one of the five is the entry
  (512 i + p, 512 j + q) of its array.  Every entry (r, s) of the 2048 × 2048 output lies in the block (r / 512, s / 512),
  written back at the odd point of that block, so the whole array ends as the combination of the five arrays.
-/
import proofs.«141637_j39676907881857_2_alg».proof.Proof.KI.Reg4
import proofs.«141637_j39676907881857_2_alg».proof.Proof.PayValue
import proofs.«141637_j39676907881857_2_alg».proof.Proof.LibSplit
import proofs.«141637_j39676907881857_2_alg».proof.Proof.Spec

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

section Region4

-- the TensorCore's buffer contents when the region is entered
variable (V : (c : Dev nD) → (b : Ref sig .tc) → Buf (Elt Ideal) ((c : Thread nD τ).loc b))

/-! ## The block indices at a point -/

/-- At point t = (i · 4 + j) · 2 + k the windows are at the blocks (i, k), (k, j), and five times (i, j):
    i = t / 8, j = t / 2 mod 4, k = t mod 2. -/
theorem idx_facts4 : ∀ t : Fin cfg4.N,
    win4_0.index t (0 : Fin 2) = t.val / 8 ∧ win4_0.index t (1 : Fin 2) = t.val % 2
    ∧ win4_1.index t (0 : Fin 2) = t.val % 2 ∧ win4_1.index t (1 : Fin 2) = t.val / 2 % 4
    ∧ win4_2.index t (0 : Fin 2) = t.val / 8 ∧ win4_2.index t (1 : Fin 2) = t.val / 2 % 4
    ∧ win4_3.index t (0 : Fin 2) = t.val / 8 ∧ win4_3.index t (1 : Fin 2) = t.val / 2 % 4
    ∧ win4_4.index t (0 : Fin 2) = t.val / 8 ∧ win4_4.index t (1 : Fin 2) = t.val / 2 % 4
    ∧ win4_5.index t (0 : Fin 2) = t.val / 8 ∧ win4_5.index t (1 : Fin 2) = t.val / 2 % 4
    ∧ win4_6.index t (0 : Fin 2) = t.val / 8 ∧ win4_6.index t (1 : Fin 2) = t.val / 2 % 4 :=
  (by decide +kernel : ∀ t : Fin grid4.N, _)

/-! ## The input blocks at an entry -/

/-- Entry (p, k) of the t1 block at point t is t1 at row 512 (t / 8) + p, column 1024 (t mod 2) + k. -/
theorem blkT4 (c : Dev nD) (t : Fin cfg4.N) (p : Fin 512) (k : Fin 1024) (A B : Fin 2048)
    (hA : A.val = t.val / 8 * 512 + p.val) (hB : B.val = t.val % 2 * 1024 + k.val) :
    (iblk4 V c 0 t : Vec Ideal S512x1024 .f32) (ix2 p k) = (V c main_v4 : S2048x2048.Idx → EReal) (ix2 A B) := by
  obtain ⟨ea, eb, -⟩ := idx_facts4 t
  unfold iblk4
  rw [View.read_apply]
  show V c main_v4 _ = V c main_v4 _
  refine congrArg (V c main_v4) (funext fun a => Fin.ext ?_)
  match a with
  | ⟨0, _⟩ => show win4_0.index t 0 * 512 + 1 * p.val = A.val; rw [ea, hA]; omega
  | ⟨1, _⟩ => show win4_0.index t 1 * 1024 + 1 * k.val = B.val; rw [eb, hB]; omega

/-- Entry (k, q) of the x block at point t is x at row 1024 (t mod 2) + k, column 512 (t / 2 mod 4) + q. -/
theorem blkX4 (c : Dev nD) (t : Fin cfg4.N) (k : Fin 1024) (q : Fin 512) (A B : Fin 2048)
    (hA : A.val = t.val % 2 * 1024 + k.val) (hB : B.val = t.val / 2 % 4 * 512 + q.val) :
    (iblk4 V c 1 t : Vec Ideal S1024x512 .bf16) (ix2 k q) = (V c main_v0 : S2048x2048.Idx → EReal) (ix2 A B) := by
  obtain ⟨-, -, ea, eb, -⟩ := idx_facts4 t
  unfold iblk4
  rw [View.read_apply]
  show V c main_v0 _ = V c main_v0 _
  refine congrArg (V c main_v0) (funext fun a => Fin.ext ?_)
  match a with
  | ⟨0, _⟩ => show win4_1.index t 0 * 1024 + 1 * k.val = A.val; rw [ea, hA]; omega
  | ⟨1, _⟩ => show win4_1.index t 1 * 512 + 1 * q.val = B.val; rw [eb, hB]; omega

/-- Entry (p, q) of the closing step's t1 block at point t is t1 at row 512 (t / 8) + p, column 512 (t / 2 mod 4) + q. -/
theorem blkC4_2 (c : Dev nD) (t : Fin cfg4.N) (p q : Fin 512) (I : S2048x2048.Idx)
    (h0 : (I 0).val = t.val / 8 * 512 + p.val) (h1 : (I 1).val = t.val / 2 % 4 * 512 + q.val) :
    (iblk4 V c 2 t : Vec Ideal S512x512 .f32) (ix2 p q) = (V c main_v4 : S2048x2048.Idx → EReal) I := by
  obtain ⟨-, -, -, -, ea, eb, -⟩ := idx_facts4 t
  unfold iblk4
  rw [View.read_apply]
  show V c main_v4 _ = V c main_v4 I
  refine congrArg (V c main_v4) (funext fun a => Fin.ext ?_)
  match a with
  | ⟨0, _⟩ => show win4_2.index t 0 * 512 + 1 * p.val = (I 0).val; rw [ea, h0]; omega
  | ⟨1, _⟩ => show win4_2.index t 1 * 512 + 1 * q.val = (I 1).val; rw [eb, h1]; omega

/-- Entry (p, q) of the closing step's t2 block at point t is t2 at row 512 (t / 8) + p, column 512 (t / 2 mod 4) + q. -/
theorem blkC4_3 (c : Dev nD) (t : Fin cfg4.N) (p q : Fin 512) (I : S2048x2048.Idx)
    (h0 : (I 0).val = t.val / 8 * 512 + p.val) (h1 : (I 1).val = t.val / 2 % 4 * 512 + q.val) :
    (iblk4 V c 3 t : Vec Ideal S512x512 .f32) (ix2 p q) = (V c main_v5 : S2048x2048.Idx → EReal) I := by
  obtain ⟨-, -, -, -, -, -, ea, eb, -⟩ := idx_facts4 t
  unfold iblk4
  rw [View.read_apply]
  show V c main_v5 _ = V c main_v5 I
  refine congrArg (V c main_v5) (funext fun a => Fin.ext ?_)
  match a with
  | ⟨0, _⟩ => show win4_3.index t 0 * 512 + 1 * p.val = (I 0).val; rw [ea, h0]; omega
  | ⟨1, _⟩ => show win4_3.index t 1 * 512 + 1 * q.val = (I 1).val; rw [eb, h1]; omega

/-- Entry (p, q) of the closing step's t3 block at point t is t3 at row 512 (t / 8) + p, column 512 (t / 2 mod 4) + q. -/
theorem blkC4_4 (c : Dev nD) (t : Fin cfg4.N) (p q : Fin 512) (I : S2048x2048.Idx)
    (h0 : (I 0).val = t.val / 8 * 512 + p.val) (h1 : (I 1).val = t.val / 2 % 4 * 512 + q.val) :
    (iblk4 V c 4 t : Vec Ideal S512x512 .f32) (ix2 p q) = (V c main_v6 : S2048x2048.Idx → EReal) I := by
  obtain ⟨-, -, -, -, -, -, -, -, ea, eb, -⟩ := idx_facts4 t
  unfold iblk4
  rw [View.read_apply]
  show V c main_v6 _ = V c main_v6 I
  refine congrArg (V c main_v6) (funext fun a => Fin.ext ?_)
  match a with
  | ⟨0, _⟩ => show win4_4.index t 0 * 512 + 1 * p.val = (I 0).val; rw [ea, h0]; omega
  | ⟨1, _⟩ => show win4_4.index t 1 * 512 + 1 * q.val = (I 1).val; rw [eb, h1]; omega

/-- Entry (p, q) of the closing step's t6 block at point t is t6 at row 512 (t / 8) + p, column 512 (t / 2 mod 4) + q. -/
theorem blkC4_5 (c : Dev nD) (t : Fin cfg4.N) (p q : Fin 512) (I : S2048x2048.Idx)
    (h0 : (I 0).val = t.val / 8 * 512 + p.val) (h1 : (I 1).val = t.val / 2 % 4 * 512 + q.val) :
    (iblk4 V c 5 t : Vec Ideal S512x512 .f32) (ix2 p q) = (V c main_v7 : S2048x2048.Idx → EReal) I := by
  obtain ⟨-, -, -, -, -, -, -, -, -, -, ea, eb, -⟩ := idx_facts4 t
  unfold iblk4
  rw [View.read_apply]
  show V c main_v7 _ = V c main_v7 I
  refine congrArg (V c main_v7) (funext fun a => Fin.ext ?_)
  match a with
  | ⟨0, _⟩ => show win4_5.index t 0 * 512 + 1 * p.val = (I 0).val; rw [ea, h0]; omega
  | ⟨1, _⟩ => show win4_5.index t 1 * 512 + 1 * q.val = (I 1).val; rw [eb, h1]; omega

/-! ## The accumulator after the two steps of a block -/

/-- Zero, plus one block product, plus a second one, at entry (p, q): the two sums over k < 1024. -/
theorem two_steps4 (a0 a1 : Vec Ideal S512x1024 .f32) (b0 b1 : Vec Ideal S1024x512 .bf16) (p q : Fin 512) :
    k4_pay2 (F := Ideal) a1 (k4_pay2 (F := Ideal) a0 (k4_pay1 (F := Ideal)) b0) b1 (ix2 p q)
      = (∑ k : Fin 1024, a0 (ix2 p k) * b0 (ix2 k q)) + ∑ k : Fin 1024, a1 (ix2 p k) * b1 (ix2 k q) := by
  rw [PayValue.pay2_4, PayValue.pay2_4, PayValue.pay1_4, zero_add]

/-- The accumulator after an odd point t, at entry (p, q), is entry (512 (t / 8) + p, 512 (t / 2 mod 4) + q) of t1 x. -/
theorem acc4_odd_apply (c : Dev nD) (t : Fin cfg4.N) (h : t.val % 2 = 1) (p q : Fin 512) (P Q : Fin 2048)
    (hP : P.val = t.val / 8 * 512 + p.val) (hQ : Q.val = t.val / 2 % 4 * 512 + q.val) :
    acc4 V c t.val t.isLt (ix2 p q) = Cert.Spec.mmAt (V c main_v4) (V c main_v0) P Q := by
  have hN : cfg4.N = 32 := N_4
  have hlt : t.val - 1 < cfg4.N := Nat.lt_of_le_of_lt (Nat.sub_le _ _) t.isLt
  have hev : (⟨t.val - 1, hlt⟩ : Fin cfg4.N).val % 2 = 0 := by dsimp only; omega
  have e0 := acc4_even V c ⟨t.val - 1, hlt⟩ hev
  dsimp only at e0
  refine (congrFun (acc4_odd V c t h) (ix2 p q)).trans ?_
  rw [e0]
  refine (two_steps4 (iblk4 V c 0 ⟨t.val - 1, hlt⟩) (iblk4 V c 0 t) (iblk4 V c 1 ⟨t.val - 1, hlt⟩) (iblk4 V c 1 t) p q).trans ?_
  unfold Cert.Spec.mmAt
  rw [Cert.LibSplit.sum_two_halves]
  refine congrArg₂ (· + ·) (Finset.sum_congr rfl fun k _ => ?_) (Finset.sum_congr rfl fun k _ => ?_)
  · exact congrArg₂ (· * ·)
      (blkT4 V c ⟨t.val - 1, hlt⟩ p k P _ (by dsimp only; omega) (by dsimp only; omega))
      (blkX4 V c ⟨t.val - 1, hlt⟩ k q _ Q (by dsimp only; omega) (by dsimp only; omega))
  · exact congrArg₂ (· * ·)
      (blkT4 V c t p k P _ hP (by dsimp only; omega))
      (blkX4 V c t k q _ Q (by dsimp only; omega) hQ)

/-! ## What an odd point writes back -/

/-- The block written back at point t is block t of the combination of t1, t2, t3, t6 and t1 x. -/
theorem flushed4_eq (c : Dev nD) (t : Fin cfg4.N) (hf : (cfg4.win 6).flush t = true) :
    (dat4 V c).flushed 6 t
      = ((cfg4.win 6).blk t).view.read (Elt Ideal)
          (Cert.Spec.combine (V c main_v4) (V c main_v5) (V c main_v6) (V c main_v7) (Cert.Spec.mm (V c main_v4) (V c main_v0))) := by
  have hodd : t.val % 2 = 1 := (flush4_6 t).mp hf
  obtain ⟨-, -, -, -, -, -, -, -, -, -, -, -, ea, eb⟩ := idx_facts4 t
  show (cfg4.win 6).cut (grid4.coords t) ((dat4 V c).after 6 t) = _
  rw [after4_6]
  funext y
  obtain ⟨p, q, rfl⟩ : ∃ (p q : Fin 512), y = ix2 p q := ⟨y 0, y 1, eq_ix2 y⟩
  rw [View.read_apply]
  have i0 : ((((cfg4.win 6).blk t).view.emb (ix2 p q)) 0).val = t.val / 8 * 512 + p.val := by
    show win4_6.index t 0 * 512 + 1 * p.val = t.val / 8 * 512 + p.val
    rw [ea]; omega
  have i1 : ((((cfg4.win 6).blk t).view.emb (ix2 p q)) 1).val = t.val / 2 % 4 * 512 + q.val := by
    show win4_6.index t 1 * 512 + 1 * q.val = t.val / 2 % 4 * 512 + q.val
    rw [eb]; omega
  show k4_pay3 (F := Ideal) (acc4 V c t.val t.isLt) (iblk4 V c 2 t) (iblk4 V c 3 t) (iblk4 V c 4 t) (iblk4 V c 5 t) (ix2 p q)
    = Cert.Spec.combine (V c main_v4) (V c main_v5) (V c main_v6) (V c main_v7) (Cert.Spec.mm (V c main_v4) (V c main_v0))
        (((cfg4.win 6).blk t).view.emb (ix2 p q))
  refine (PayValue.pay3_4 (acc4 V c t.val t.isLt) (iblk4 V c 2 t) (iblk4 V c 3 t) (iblk4 V c 4 t) (iblk4 V c 5 t) p q).trans ?_
  have a1 := blkC4_2 V c t p q _ i0 i1
  have a2 := blkC4_3 V c t p q _ i0 i1
  have a3 := blkC4_4 V c t p q _ i0 i1
  have a6 := blkC4_5 V c t p q _ i0 i1
  have ax : acc4 V c t.val t.isLt (ix2 p q)
      = Cert.Spec.mm (V c main_v4) (V c main_v0) (((cfg4.win 6).blk t).view.emb (ix2 p q)) := by
    unfold Cert.Spec.mm
    exact acc4_odd_apply V c t hodd p q _ _ i0 i1
  rw [a1, a2, a3, a6, ax]
  rfl

/-! ## The blocks written back cover the array -/

/-- An entry of the array is in point t's output block iff each coordinate is in the block's range on its axis. -/
theorem mem_blk4 (t : Fin cfg4.N) (i : S2048x2048.Idx) :
    i ∈ ((cfg4.win 6).blk t).view.set
      ↔ ∀ a : Fin 2, win4_6.index t a * S512x512.size a ≤ (i a).val ∧ (i a).val < win4_6.index t a * S512x512.size a + S512x512.size a := by
  show i ∈ ((View.whole main_v8).slice (win4_6.rect t)).set ↔ _
  rw [View.set_slice_whole, Rect.mem_set_unit]
  exact Iff.rfl

/-- Entry (r, s) is in the block written back at the odd point of block (r / 512, s / 512). -/
theorem cover4 (i : S2048x2048.Idx) :
    ∃ t : Fin cfg4.N, (cfg4.win 6).flush t = true ∧ i ∈ ((cfg4.win 6).blk t).view.set := by
  have hN : cfg4.N = 32 := N_4
  have h0 : (i 0).val < 2048 := (i 0).isLt
  have h1 : (i 1).val < 2048 := (i 1).isLt
  let t : Fin cfg4.N := ⟨((i 0).val / 512 * 4 + (i 1).val / 512) * 2 + 1, by rw [hN]; omega⟩
  have ht : t.val = ((i 0).val / 512 * 4 + (i 1).val / 512) * 2 + 1 := rfl
  obtain ⟨-, -, -, -, -, -, -, -, -, -, -, -, ea, eb⟩ := idx_facts4 t
  refine ⟨t, (flush4_6 t).mpr (by rw [ht]; omega), ?_⟩
  rw [mem_blk4]
  intro a
  match a with
  | ⟨0, _⟩ =>
    show win4_6.index t 0 * 512 ≤ (i 0).val ∧ (i 0).val < win4_6.index t 0 * 512 + 512
    rw [ea, ht]; omega
  | ⟨1, _⟩ =>
    show win4_6.index t 1 * 512 ≤ (i 1).val ∧ (i 1).val < win4_6.index t 1 * 512 + 512
    rw [eb, ht]; omega

/-! ## The array after the region -/

/-- The fifth region's output array ends as the combination of t1, t2, t3, t6 and t1 x, of the arrays it reads. -/
theorem final4 (c : Dev nD) :
    (dat4 (F := Ideal) V c).arrAt 6 cfg4.N
      = Cert.Spec.combine (V c main_v4) (V c main_v5) (V c main_v6) (V c main_v7) (Cert.Spec.mm (V c main_v4) (V c main_v0)) :=
  (dat4 V c).arrAt_eq_of_cover 6
    (Cert.Spec.combine (V c main_v4) (V c main_v5) (V c main_v6) (V c main_v7) (Cert.Spec.mm (V c main_v4) (V c main_v0)))
    (flushed4_eq V c) cover4

end Region4

end Cert.KernelIdeal.HandValue

end
-- ==== Proof.KI.Casts.lean ====
/-
  The four conversions before the first region change nothing at the extended reals.

  Before its first region the program converts each of the four argument arrays from f32 to bf16.  At the extended reals a
  change of float format is the identity, so after the four conversions each converted array holds the argument it was
  converted from, entry by entry, and the arguments themselves are as they were.
-/
import proofs.«141637_j39676907881857_2_alg».proof.Proof.Gen.KernelIdeal.Launch
import Idealize.ShloMosaic.Lib.StableHlo.Run
import Idealize.ShloMosaic.PureOps.Ideal

noncomputable section

namespace Cert.KernelIdeal.HandValue

open Cert.KernelIdeal Cert.KernelIdeal.Gen
open Idealize.ShloMosaic Idealize.ShloMosaic.TcCoe Idealize.SL.Sem

variable (m : (ℓ : Loc nD τ sig) → Buf (Elt Ideal) ℓ) (c : Dev nD)

/-- The converted x holds x. -/
theorem cast_v0 :
    (StableHlo.after (Gen.hostOps0 (F := Ideal)) (fun b => m (c, b)) (Proc.devRef .tc main_v0) : S2048x2048.Idx → EReal)
      = m ((c : Thread nD τ).loc main_arg0) := by
  after_results
  rfl

/-- The converted w1 holds w1. -/
theorem cast_v1 :
    (StableHlo.after (Gen.hostOps0 (F := Ideal)) (fun b => m (c, b)) (Proc.devRef .tc main_v1) : S2048x2048.Idx → EReal)
      = m ((c : Thread nD τ).loc main_arg1) := by
  after_results
  rfl

/-- The converted w2 holds w2. -/
theorem cast_v2 :
    (StableHlo.after (Gen.hostOps0 (F := Ideal)) (fun b => m (c, b)) (Proc.devRef .tc main_v2) : S2048x2048.Idx → EReal)
      = m ((c : Thread nD τ).loc main_arg2) := by
  after_results
  rfl

/-- The converted w3 holds w3. -/
theorem cast_v3 :
    (StableHlo.after (Gen.hostOps0 (F := Ideal)) (fun b => m (c, b)) (Proc.devRef .tc main_v3) : S2048x2048.Idx → EReal)
      = m ((c : Thread nD τ).loc main_arg3) := by
  after_results
  rfl

/-- The conversions leave x as it was. -/
theorem keep_arg0 :
    (StableHlo.after (Gen.hostOps0 (F := Ideal)) (fun b => m (c, b)) (Proc.devRef .tc main_arg0) : S2048x2048.Idx → EReal)
      = m ((c : Thread nD τ).loc main_arg0) := by
  after_results

/-- The conversions leave w1 as it was. -/
theorem keep_arg1 :
    (StableHlo.after (Gen.hostOps0 (F := Ideal)) (fun b => m (c, b)) (Proc.devRef .tc main_arg1) : S2048x2048.Idx → EReal)
      = m ((c : Thread nD τ).loc main_arg1) := by
  after_results

/-- The conversions leave w2 as it was. -/
theorem keep_arg2 :
    (StableHlo.after (Gen.hostOps0 (F := Ideal)) (fun b => m (c, b)) (Proc.devRef .tc main_arg2) : S2048x2048.Idx → EReal)
      = m ((c : Thread nD τ).loc main_arg2) := by
  after_results

/-- The conversions leave w3 as it was. -/
theorem keep_arg3 :
    (StableHlo.after (Gen.hostOps0 (F := Ideal)) (fun b => m (c, b)) (Proc.devRef .tc main_arg3) : S2048x2048.Idx → EReal)
      = m ((c : Thread nD τ).loc main_arg3) := by
  after_results

end Cert.KernelIdeal.HandValue

end
-- ==== Proof.KI.OutValue.lean ====
/-
  The result buffer after the five regions is the specification of the four arguments.

  The program converts the four arguments x, w1, w2, w3 to bf16 (the identity at the extended reals) and then runs five
  regions, each of which changes one buffer: the first three leave t1 = x w1, t2 = x w2 and t3 = w3 w3, the fourth
  t6 = ((t1 ∘ w1) x) ∘ w1, the fifth the combination of t1, t2, t3, t6 and t1 x.  A buffer a region does not write is
  as the region found it, so each region reads the converted arguments and the earlier regions' outputs, and the last
  output is

      combine (x w1) (x w2) (w3 w3) (((x w1 ∘ w1) x) ∘ w1) ((x w1) x),

  which is the specification.  The four arguments are never written.
-/
import proofs.«141637_j39676907881857_2_alg».proof.Proof.KI.ChainB
import proofs.«141637_j39676907881857_2_alg».proof.Proof.KI.Val0
import proofs.«141637_j39676907881857_2_alg».proof.Proof.KI.Val1
import proofs.«141637_j39676907881857_2_alg».proof.Proof.KI.Val2
import proofs.«141637_j39676907881857_2_alg».proof.Proof.KI.Val3
import proofs.«141637_j39676907881857_2_alg».proof.Proof.KI.Val4
import proofs.«141637_j39676907881857_2_alg».proof.Proof.KI.Casts

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem

variable (m : (ℓ : Loc nD τ sig) → Buf (Elt Ideal) ℓ) (c : Dev nD)

/-! ## A buffer no region writes is, after any number of regions, as the conversions left it -/

theorem walk2 (r : Ref sig .tc) (h4 : r ≠ main_v4) : W2 m c (Proc.devRef .tc r) = W1 m c (Proc.devRef .tc r) :=
  W2_of_ne m c r h4
theorem walk3 (r : Ref sig .tc) (h4 : r ≠ main_v4) (h5 : r ≠ main_v5) :
    W3 m c (Proc.devRef .tc r) = W1 m c (Proc.devRef .tc r) :=
  (W3_of_ne m c r h5).trans (walk2 m c r h4)
theorem walk4 (r : Ref sig .tc) (h4 : r ≠ main_v4) (h5 : r ≠ main_v5) (h6 : r ≠ main_v6) :
    W4 m c (Proc.devRef .tc r) = W1 m c (Proc.devRef .tc r) :=
  (W4_of_ne m c r h6).trans (walk3 m c r h4 h5)
theorem walk5 (r : Ref sig .tc) (h4 : r ≠ main_v4) (h5 : r ≠ main_v5) (h6 : r ≠ main_v6) (h7 : r ≠ main_v7) :
    W5 m c (Proc.devRef .tc r) = W1 m c (Proc.devRef .tc r) :=
  (W5_of_ne m c r h7).trans (walk4 m c r h4 h5 h6)
theorem walk6 (r : Ref sig .tc) (h4 : r ≠ main_v4) (h5 : r ≠ main_v5) (h6 : r ≠ main_v6) (h7 : r ≠ main_v7)
    (h8 : r ≠ main_v8) : W6 m c (Proc.devRef .tc r) = W1 m c (Proc.devRef .tc r) :=
  (W6_of_ne m c r h8).trans (walk5 m c r h4 h5 h6 h7)

/-! ## After the conversions: each converted array holds its argument -/

theorem w1_v0 : W1 m c (Proc.devRef .tc main_v0) = m ((c : Thread nD τ).loc main_arg0) := cast_v0 m c
theorem w1_v1 : W1 m c (Proc.devRef .tc main_v1) = m ((c : Thread nD τ).loc main_arg1) := cast_v1 m c
theorem w1_v2 : W1 m c (Proc.devRef .tc main_v2) = m ((c : Thread nD τ).loc main_arg2) := cast_v2 m c
theorem w1_v3 : W1 m c (Proc.devRef .tc main_v3) = m ((c : Thread nD τ).loc main_arg3) := cast_v3 m c
theorem w1_arg1 : W1 m c (Proc.devRef .tc main_arg1) = m ((c : Thread nD τ).loc main_arg1) := keep_arg1 m c

/-! ## The first region: t1 = x w1 -/

theorem u1_v0 : U1 m c main_v0 = m ((c : Thread nD τ).loc main_arg0) := w1_v0 m c
theorem u1_v1 : U1 m c main_v1 = m ((c : Thread nD τ).loc main_arg1) := w1_v1 m c

/-- After the first region its output holds x w1. -/
theorem v4_at2 : W2 m c (Proc.devRef .tc main_v4)
    = Cert.Spec.mm (m ((c : Thread nD τ).loc main_arg0)) (m ((c : Thread nD τ).loc main_arg1)) := by
  rw [W2_out, final0, u1_v0, u1_v1]

/-! ## The second region: t2 = x w2 -/

theorem u2_v0 : U2 m c main_v0 = m ((c : Thread nD τ).loc main_arg0) :=
  (walk2 m c main_v0 (by decide)).trans (w1_v0 m c)
theorem u2_v2 : U2 m c main_v2 = m ((c : Thread nD τ).loc main_arg2) :=
  (walk2 m c main_v2 (by decide)).trans (w1_v2 m c)

/-- After the second region its output holds x w2. -/
theorem v5_at3 : W3 m c (Proc.devRef .tc main_v5)
    = Cert.Spec.mm (m ((c : Thread nD τ).loc main_arg0)) (m ((c : Thread nD τ).loc main_arg2)) := by
  rw [W3_out, final1, u2_v0, u2_v2]

/-! ## The third region: t3 = w3 w3 -/

theorem u3_v3 : U3 m c main_v3 = m ((c : Thread nD τ).loc main_arg3) :=
  (walk3 m c main_v3 (by decide) (by decide)).trans (w1_v3 m c)

/-- After the third region its output holds w3 w3. -/
theorem v6_at4 : W4 m c (Proc.devRef .tc main_v6)
    = Cert.Spec.mm (m ((c : Thread nD τ).loc main_arg3)) (m ((c : Thread nD τ).loc main_arg3)) := by
  rw [W4_out, final2, u3_v3]

/-! ## The fourth region: t6 = ((t1 ∘ w1) x) ∘ w1 -/

theorem u4_v4 : U4 m c main_v4
    = Cert.Spec.mm (m ((c : Thread nD τ).loc main_arg0)) (m ((c : Thread nD τ).loc main_arg1)) :=
  (W4_of_ne m c main_v4 (by decide)).trans ((W3_of_ne m c main_v4 (by decide)).trans (v4_at2 m c))
theorem u4_arg1 : U4 m c main_arg1 = m ((c : Thread nD τ).loc main_arg1) :=
  (walk4 m c main_arg1 (by decide) (by decide) (by decide)).trans (w1_arg1 m c)
theorem u4_v0 : U4 m c main_v0 = m ((c : Thread nD τ).loc main_arg0) :=
  (walk4 m c main_v0 (by decide) (by decide) (by decide)).trans (w1_v0 m c)

/-- After the fourth region its output holds t6 of x and w1. -/
theorem v7_at5 : W5 m c (Proc.devRef .tc main_v7)
    = Cert.Spec.t6 (m ((c : Thread nD τ).loc main_arg0)) (m ((c : Thread nD τ).loc main_arg1)) := by
  rw [W5_out, final3, u4_v4, u4_arg1, u4_v0]
  rfl

/-! ## The fifth region: the combination -/

theorem u5_v4 : U5 m c main_v4
    = Cert.Spec.mm (m ((c : Thread nD τ).loc main_arg0)) (m ((c : Thread nD τ).loc main_arg1)) :=
  (W5_of_ne m c main_v4 (by decide)).trans (u4_v4 m c)
theorem u5_v0 : U5 m c main_v0 = m ((c : Thread nD τ).loc main_arg0) :=
  (walk5 m c main_v0 (by decide) (by decide) (by decide) (by decide)).trans (w1_v0 m c)
theorem u5_v5 : U5 m c main_v5
    = Cert.Spec.mm (m ((c : Thread nD τ).loc main_arg0)) (m ((c : Thread nD τ).loc main_arg2)) :=
  (W5_of_ne m c main_v5 (by decide)).trans ((W4_of_ne m c main_v5 (by decide)).trans (v5_at3 m c))
theorem u5_v6 : U5 m c main_v6
    = Cert.Spec.mm (m ((c : Thread nD τ).loc main_arg3)) (m ((c : Thread nD τ).loc main_arg3)) :=
  (W5_of_ne m c main_v6 (by decide)).trans (v6_at4 m c)
theorem u5_v7 : U5 m c main_v7
    = Cert.Spec.t6 (m ((c : Thread nD τ).loc main_arg0)) (m ((c : Thread nD τ).loc main_arg1)) :=
  v7_at5 m c

/-- After the fifth region the result buffer holds the specification of the four arguments. -/
theorem out_value : W6 m c (Proc.devRef .tc main_v8)
    = Cert.Spec.out (m ((c : Thread nD τ).loc main_arg0)) (m ((c : Thread nD τ).loc main_arg1))
        (m ((c : Thread nD τ).loc main_arg2)) (m ((c : Thread nD τ).loc main_arg3)) := by
  rw [W6_out, final4, u5_v4, u5_v5, u5_v6, u5_v7, u5_v0]
  rfl

/-! ## The arguments are never written -/

theorem arg_kept0 : W6 m c (Proc.devRef .tc main_arg0) = m ((c : Thread nD τ).loc main_arg0) :=
  (walk6 m c main_arg0 (by decide) (by decide) (by decide) (by decide) (by decide)).trans (keep_arg0 m c)
theorem arg_kept1 : W6 m c (Proc.devRef .tc main_arg1) = m ((c : Thread nD τ).loc main_arg1) :=
  (walk6 m c main_arg1 (by decide) (by decide) (by decide) (by decide) (by decide)).trans (keep_arg1 m c)
theorem arg_kept2 : W6 m c (Proc.devRef .tc main_arg2) = m ((c : Thread nD τ).loc main_arg2) :=
  (walk6 m c main_arg2 (by decide) (by decide) (by decide) (by decide) (by decide)).trans (keep_arg2 m c)
theorem arg_kept3 : W6 m c (Proc.devRef .tc main_arg3) = m ((c : Thread nD τ).loc main_arg3) :=
  (walk6 m c main_arg3 (by decide) (by decide) (by decide) (by decide) (by decide)).trans (keep_arg3 m c)

end Cert.KernelIdeal.HandValue

end
-- ==== Proof.RefAlgebra.lean ====
/-
  Finite entries, and the algebra that joins the reference's arrangement to the specification's.

  An entry of an argument array is an extended real. The precondition says of every entry a that |a| < +∞, and an extended
  real with |a| < +∞ is a real number. Where every entry of two matrices is real, every entry of their product is real (a finite
  sum of products of reals), and so is every entry of their entrywise product. On real numbers the reference's expression

      (s + t3 · (s · (t2 − t2) + t6 · t3)) + ((t2 − t2) + (t3 · t1x) · t6),      s = t1 · t2 + t1 + t3,

  is the specification's (s + (t3 · t6) · t3) + (t3 · t6) · t1x: the difference t2 − t2 is 0 (this is where finiteness is used:
  +∞ − +∞ is not 0), the products with it vanish, and what is left is equal by commutativity and associativity.
-/
import proofs.«141637_j39676907881857_2_alg».proof.Proof.Spec
import proofs.«141637_j39676907881857_2_alg».proof.Pre_finite_inputs
import Idealize.ShloMosaic.Lib.ReduceAll
import Idealize.ShloMosaic.Lib.ValueIdx
import Idealize.ShloMosaic.PureOps.Ideal.Laws

noncomputable section

namespace Cert.RefValue

open Idealize.ShloMosaic Idealize.ShloMosaic.ValueIdx Cert.Spec
open scoped BigOperators

/-! ## From the precondition to real entries -/

/-- The scalar shape has one index. -/
instance : Subsingleton Cert.Pre_finite_inputs.S_.Idx := ⟨fun a b => funext fun d => d.elim0⟩

/-- An extended real whose absolute value max a (−a) is below the value of the f32 word 0x7F800000, which is +∞, is a real. -/
theorem real_of_abs_lt_inf (a : EReal)
    (h : Ideal.cmp .olt (max a (-a)) (Ideal.ofBits .f32 0x7F800000#32) = 1#1) : ∃ r : ℝ, a = (r : EReal) := by
  have hinf : Ideal.ofBits .f32 0x7F800000#32 = (⊤ : EReal) := by simp [Ideal.ofBits, Ideal.ieee]
  rw [hinf] at h
  induction a using EReal.rec with
  | bot => simp [Ideal.cmp] at h
  | top => simp [Ideal.cmp] at h
  | coe r => exact ⟨r, rfl⟩

/-- The precondition is the conjunction, over the four argument arrays, of "every entry a has |a| < +∞"; so under it every
    entry of every argument is a real number. -/
theorem finite_of_pre [Cert.Pre_finite_inputs.Facts]
    (x w1 w2 w3 : FVec Ideal Cert.Pre_finite_inputs.S2048x2048 .f32)
    (h : Cert.Pre_finite_inputs.fn (F := Ideal) x w1 w2 w3 = (fun _ => 1#1)) :
    (∀ i, ∃ r : ℝ, x i = (r : EReal)) ∧ (∀ i, ∃ r : ℝ, w1 i = (r : EReal))
      ∧ (∀ i, ∃ r : ℝ, w2 i = (r : EReal)) ∧ (∀ i, ∃ r : ℝ, w3 i = (r : EReal)) := by
  have h0 := congrFun h ValueIdx.ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨hx, h1⟩ := IntOp.andi_eq_one.1 h01
  have key : ∀ (a : FVec Ideal Cert.Pre_finite_inputs.S2048x2048 .f32),
      Host.reduce IntOp.andi
        (cmpf CmpFPredicate.olt (Host.absf a)
          (broadcastInDim Cert.Pre_finite_inputs.S2048x2048 ![] Cert.Pre_finite_inputs.Facts.bcast_S_S2048x2048
            (constant (F := Ideal) Cert.Pre_finite_inputs.S_ FTy.f32 0x7F800000#32)))
        (constantI Cert.Pre_finite_inputs.S_ 1 1#1) Cert.Pre_finite_inputs.Facts.reducesTo_S2048x2048_S_d0_1
        Cert.Pre_finite_inputs.Facts.h_S_ ix0 = 1#1 → ∀ i, ∃ r : ℝ, a i = (r : EReal) := by
    intro a ha i
    have hi := Host.reduce_andi_all _ _ _ _ _ ha i
    exact real_of_abs_lt_inf (a i) hi
  exact ⟨key x hx, key w1 h1, key w2 h2, key w3 h3⟩

/-! ## Real entries are kept by the products -/

/-- A finite sum of (coerced) reals is the (coerced) real sum. -/
theorem coe_sum {ι : Type*} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- Every entry of a product of two matrices with real entries is real. -/
theorem mm_real {a b : Arr} (ha : ∀ i, ∃ r : ℝ, a i = (r : EReal)) (hb : ∀ i, ∃ r : ℝ, b i = (r : EReal)) :
    ∀ i, ∃ r : ℝ, mm a b i = (r : EReal) := by
  choose fa hfa using ha
  choose fb hfb using hb
  intro i
  refine ⟨∑ k : Fin 2048, fa (ix2 ⟨(i 0).val, (i 0).isLt⟩ k) * fb (ix2 k ⟨(i 1).val, (i 1).isLt⟩), ?_⟩
  unfold mm mmAt
  rw [← coe_sum]
  exact Finset.sum_congr rfl fun k _ => by rw [hfa, hfb, EReal.coe_mul]

/-- Every entry of an entrywise product of two matrices with real entries is real. -/
theorem had_real {a b : Arr} (ha : ∀ i, ∃ r : ℝ, a i = (r : EReal)) (hb : ∀ i, ∃ r : ℝ, b i = (r : EReal)) :
    ∀ i, ∃ r : ℝ, had a b i = (r : EReal) := by
  intro i
  obtain ⟨p, hp⟩ := ha i
  obtain ⟨q, hq⟩ := hb i
  exact ⟨p * q, by unfold had; rw [hp, hq, EReal.coe_mul]⟩

/-- Every entry of t6 = ((x w1 ∘ w1) x) ∘ w1 is real when x and w1 have real entries. -/
theorem t6_real {x w1 : Arr} (hx : ∀ i, ∃ r : ℝ, x i = (r : EReal)) (h1 : ∀ i, ∃ r : ℝ, w1 i = (r : EReal)) :
    ∀ i, ∃ r : ℝ, t6 x w1 i = (r : EReal) :=
  had_real (mm_real (had_real (mm_real hx h1) h1) hx) h1

/-! ## The reference's arrangement against the specification's -/

/-- On real numbers: with s = a b + a + c, (s + c (s (b − b) + d c)) + ((b − b) + (c e) d) = (s + (c d) c) + (c d) e. -/
theorem arrange_real (a b c d e : ℝ) :
    (((a : EReal) * b + a + c) + c * (((a : EReal) * b + a + c) * ((b : EReal) - b) + d * c)) + (((b : EReal) - b) + (c * e) * d)
      = (((a : EReal) * b + a + c) + (c * d) * c) + (c * d) * e := by
  simp only [← EReal.coe_mul, ← EReal.coe_add, ← EReal.coe_sub]
  exact congrArg _ (by ring)

/-- The same at an index of five matrices with real entries, the right-hand side being the specification's combination. -/
theorem arrange {t1 t2 t3 t6' t1x : Arr} (h1 : ∀ i, ∃ r : ℝ, t1 i = (r : EReal)) (h2 : ∀ i, ∃ r : ℝ, t2 i = (r : EReal))
    (h3 : ∀ i, ∃ r : ℝ, t3 i = (r : EReal)) (h6 : ∀ i, ∃ r : ℝ, t6' i = (r : EReal))
    (hx : ∀ i, ∃ r : ℝ, t1x i = (r : EReal)) (i : (⟨2, ![2048, 2048]⟩ : Shape).Idx) :
    ((t1 i * t2 i + t1 i + t3 i) + t3 i * ((t1 i * t2 i + t1 i + t3 i) * (t2 i - t2 i) + t6' i * t3 i))
        + ((t2 i - t2 i) + (t3 i * t1x i) * t6' i)
      = combine t1 t2 t3 t6' t1x i := by
  obtain ⟨a, ha⟩ := h1 i
  obtain ⟨b, hb⟩ := h2 i
  obtain ⟨c, hc⟩ := h3 i
  obtain ⟨d, hd⟩ := h6 i
  obtain ⟨e, he⟩ := hx i
  unfold combine
  rw [ha, hb, hc, hd, he]
  exact arrange_real a b c d e

end Cert.RefValue

end
-- ==== Proof.RefValue.lean ====
/-
  The reference computes the specification, for arguments with real entries.

  The reference takes four matrix products of the arguments, x w1, x w2 (twice, as t2 and as t4) and w3 w3, then
  t6 = (((x w1) ∘ w1) x) ∘ w1 and t1x = (x w1) x, and combines them entrywise as

      t15 = (s + t3 · (s · (t2 − t4) + t6 · t3)) + ((t2 − t4) + (t3 · t1x) · t6),      s = t1 · t2 + t1 + t3.

  Each of its matrix products read at an entry (p, q) is the sum over k < 2048 of the left operand at (p, k) times the right
  operand at (k, q), which is the specification's matrix product; the entrywise products are the specification's too. With real
  entries in the arguments every one of these matrices has real entries, t2 − t4 = t2 − t2 = 0, and the combination is the
  specification's (the algebra is in the module of the real-entry facts).
-/
import proofs.«141637_j39676907881857_2_alg».proof.Proof.Gen.ReferenceIdeal.Read
import proofs.«141637_j39676907881857_2_alg».proof.Proof.RefAlgebra

noncomputable section

namespace Cert.RefValue

open Idealize.ShloMosaic Idealize.ShloMosaic.ValueIdx Idealize.ShloMosaic.TcCoe Idealize.SL.Sem
open Cert.ReferenceIdeal Cert.ReferenceIdeal.Gen Cert.ReferenceIdeal.Read Cert.Spec
open scoped BigOperators

/-! ## The reference's matrix products are the specification's -/

/-- A sum over k of l at (p, k) times r at (k, q), the two indices given as functions of k, is the product's entry (p, q). -/
theorem sum_eq_mm (l r : Arr) (i : (⟨2, ![2048, 2048]⟩ : Shape).Idx)
    (li ri : Fin 2048 → (⟨2, ![2048, 2048]⟩ : Shape).Idx)
    (hl : ∀ k, li k = ix2 ⟨(i 0).val, (i 0).isLt⟩ k) (hr : ∀ k, ri k = ix2 k ⟨(i 1).val, (i 1).isLt⟩) :
    ∑ k : Fin 2048, l (li k) * r (ri k) = mm l r i := by
  unfold mm mmAt
  exact Finset.sum_congr rfl fun k _ => congrArg₂ (fun a b => l a * r b) (hl k) (hr k)

/-- t1 = x w1. -/
theorem v0_eq (x w1 : Arr) : val_main_v0 (F := Ideal) x w1 = mm x w1 := by
  funext i
  rw [val_main_v0_apply]
  exact sum_eq_mm x w1 i _ _
    (fun k => funext fun a => by match a with | ⟨0, _⟩ => rfl | ⟨1, _⟩ => rfl)
    (fun k => funext fun a => by match a with | ⟨0, _⟩ => rfl | ⟨1, _⟩ => rfl)

/-- t2 = x w2. -/
theorem v1_eq (x w2 : Arr) : val_main_v1 (F := Ideal) x w2 = mm x w2 := by
  funext i
  rw [val_main_v1_apply]
  exact sum_eq_mm x w2 i _ _
    (fun k => funext fun a => by match a with | ⟨0, _⟩ => rfl | ⟨1, _⟩ => rfl)
    (fun k => funext fun a => by match a with | ⟨0, _⟩ => rfl | ⟨1, _⟩ => rfl)

/-- t3 = w3 w3. -/
theorem v2_eq (w3 : Arr) : val_main_v2 (F := Ideal) w3 = mm w3 w3 := by
  funext i
  rw [val_main_v2_apply]
  exact sum_eq_mm w3 w3 i _ _
    (fun k => funext fun a => by match a with | ⟨0, _⟩ => rfl | ⟨1, _⟩ => rfl)
    (fun k => funext fun a => by match a with | ⟨0, _⟩ => rfl | ⟨1, _⟩ => rfl)

/-- t4 = x w2, the same product as t2. -/
theorem v3_eq (x w2 : Arr) : val_main_v3 (F := Ideal) x w2 = mm x w2 := by
  funext i
  rw [val_main_v3_apply]
  exact sum_eq_mm x w2 i _ _
    (fun k => funext fun a => by match a with | ⟨0, _⟩ => rfl | ⟨1, _⟩ => rfl)
    (fun k => funext fun a => by match a with | ⟨0, _⟩ => rfl | ⟨1, _⟩ => rfl)

/-- (x w1) ∘ w1. -/
theorem v4_eq (x w1 : Arr) : val_main_v4 (F := Ideal) x w1 = had (mm x w1) w1 := by
  funext i
  rw [val_main_v4_apply, v0_eq, Ideal.mulf_def]
  rfl

/-- ((x w1) ∘ w1) x. -/
theorem v5_eq (x w1 : Arr) : val_main_v5 (F := Ideal) x w1 = mm (had (mm x w1) w1) x := by
  funext i
  rw [val_main_v5_apply, v4_eq]
  exact sum_eq_mm _ x i _ _
    (fun k => funext fun a => by match a with | ⟨0, _⟩ => rfl | ⟨1, _⟩ => rfl)
    (fun k => funext fun a => by match a with | ⟨0, _⟩ => rfl | ⟨1, _⟩ => rfl)

/-- t6 = (((x w1) ∘ w1) x) ∘ w1. -/
theorem v6_eq (x w1 : Arr) : val_main_v6 (F := Ideal) x w1 = t6 x w1 := by
  funext i
  rw [val_main_v6_apply, v5_eq, Ideal.mulf_def]
  rfl

/-- t1x = (x w1) x. -/
theorem v15_eq (x w1 : Arr) : val_main_v15 (F := Ideal) x w1 = mm (mm x w1) x := by
  funext i
  rw [val_main_v15_apply, v0_eq]
  exact sum_eq_mm _ x i _ _
    (fun k => funext fun a => by match a with | ⟨0, _⟩ => rfl | ⟨1, _⟩ => rfl)
    (fun k => funext fun a => by match a with | ⟨0, _⟩ => rfl | ⟨1, _⟩ => rfl)

/-! ## The reference's result is the specification -/

/-- The reference's last stage, as a function of the four arguments with real entries, is the specification. -/
theorem ref_eq_out (x w1 w2 w3 : Arr)
    (hx : ∀ i, ∃ r : ℝ, x i = (r : EReal)) (h1 : ∀ i, ∃ r : ℝ, w1 i = (r : EReal))
    (h2 : ∀ i, ∃ r : ℝ, w2 i = (r : EReal)) (h3 : ∀ i, ∃ r : ℝ, w3 i = (r : EReal)) :
    val_main_v20 (F := Ideal) x w1 w2 w3 = out x w1 w2 w3 := by
  funext i
  simp only [val_main_v20_apply, val_main_v19_apply, val_main_v18_apply, val_main_v17_apply, val_main_v16_apply,
    val_main_v14_apply, val_main_v13_apply, val_main_v12_apply, val_main_v11_apply, val_main_v10_apply,
    val_main_v9_apply, val_main_v8_apply, val_main_v7_apply,
    v0_eq, v1_eq, v2_eq, v3_eq, v6_eq, v15_eq, Ideal.mulf_def, Ideal.addf_def, Ideal.subf_def]
  exact arrange (mm_real hx h1) (mm_real hx h2) (mm_real h3 h3) (t6_real hx h1) (mm_real (mm_real hx h1) hx) i

/-! ## The reference's run, with the specification as its result -/

/-- From any memory whose four argument arrays have real entries on every core (counters zero): every weakly fair execution
    of the reference terminates, its result array is the specification of the argument arrays, and the arguments are unchanged. -/
theorem run_out (m' : (ℓ : Loc nD τ sig) → Buf (Elt Ideal) ℓ) (ρ' : Dev nD → PrngReg)
    (hfin : ∀ c : Dev nD,
      (∀ i, ∃ r : ℝ, m' ((c.tc : Thread nD τ).loc main_arg0) i = (r : EReal))
      ∧ (∀ i, ∃ r : ℝ, m' ((c.tc : Thread nD τ).loc main_arg1) i = (r : EReal))
      ∧ (∀ i, ∃ r : ℝ, m' ((c.tc : Thread nD τ).loc main_arg2) i = (r : EReal))
      ∧ (∀ i, ∃ r : ℝ, m' ((c.tc : Thread nD τ).loc main_arg3) i = (r : EReal))) :
    θ_run (defs (F := Ideal)) (onTc (τ := τ) (main (F := Ideal))) ⟨m', fun _ => 0, ρ'⟩ (fun r => ∀ c : Dev nD,
      r.2.mem ((c.tc : Thread nD τ).loc main_v20)
          = out (m' ((c.tc : Thread nD τ).loc main_arg0)) (m' ((c.tc : Thread nD τ).loc main_arg1))
              (m' ((c.tc : Thread nD τ).loc main_arg2)) (m' ((c.tc : Thread nD τ).loc main_arg3))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)) :=
  (θ_run (defs (F := Ideal)) _ _).mono
    (fun _ h c => ⟨(h c).1.trans ((val_main_v20_eq (F := Ideal) _ _ _ _).trans
        (ref_eq_out _ _ _ _ (hfin c).1 (hfin c).2.1 (hfin c).2.2.1 (hfin c).2.2.2)), (h c).2⟩)
    (Cert.ReferenceIdeal.Value.run (F := Ideal) m' ρ')

end Cert.RefValue

end
-- ==== Proof.Claims.lean ====
/-
  The five claims.

  The three frames: each program runs to the end, nothing faulting, and leaves its four argument arrays as launched — for
  the kernel and its idealization because no region's output and no conversion's result is an argument, for the
  reference because its run leaves the arguments unchanged.  The idealization is the kernel's own text read at the
  extended reals, so nothing is owed for it.

  The two idealized programs end with equal results.  Under the precondition every entry of the four arguments is a real
  number.  The kernel's five regions leave in its result buffer the specification

      out = (t1 · t2 + t1 + t3) + (t3 · t6) · t3 + (t3 · t6) · t1x,
      t1 = x w1, t2 = x w2, t3 = w3 w3, t6 = ((t1 ∘ w1) x) ∘ w1, t1x = t1 x,

  of its arguments (this needs no finiteness: both sides take the same sums and products in the same order, and a sum over
  2048 indices is the sum of its two halves).  The reference computes
  (s + t3 · (s · (t2 − t2) + t6 · t3)) + ((t2 − t2) + (t3 · t1x) · t6) with s = t1 · t2 + t1 + t3, which for real entries is
  the same number; its arguments agree with the kernel's, so they have real entries too.
-/
import proofs.«141637_j39676907881857_2_alg».proof.Defs
import proofs.«141637_j39676907881857_2_alg».proof.Proof.Gen.Kernel
import proofs.«141637_j39676907881857_2_alg».proof.Proof.Gen.KernelIdeal
import proofs.«141637_j39676907881857_2_alg».proof.Proof.Gen.ReferenceIdeal
import proofs.«141637_j39676907881857_2_alg».proof.Proof.Gen.Pre_finite_inputs
import proofs.«141637_j39676907881857_2_alg».proof.Proof.K.Main
import proofs.«141637_j39676907881857_2_alg».proof.Proof.KI.Main
import proofs.«141637_j39676907881857_2_alg».proof.Proof.KI.OutValue
import proofs.«141637_j39676907881857_2_alg».proof.Proof.RefValue

noncomputable section

namespace Cert.Proof.Claims

open Idealize.ShloMosaic Idealize.ShloMosaic.TcCoe Idealize.SL.Sem

/-! ## The frames -/

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-! ## The idealization rewrote nothing -/

theorem preserves : Cert.preserves_Kernel_KernelIdeal := trivial

/-! ## The two idealized programs end with equal results -/

/-- Both result arrays end as the specification of the kernel's arguments: the kernel's by the values its five regions
    leave, the reference's by its run and the algebra on real entries, its arguments being the kernel's. -/
theorem algebraic : Cert.algebraic_KernelIdeal_ReferenceIdeal := by
  intro m g m' g' hpre hagree
  refine ⟨fun c => Cert.Spec.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · -- the kernel: every unscoped buffer ends at the last valuation of the fold; read it at the result and at the arguments
    refine (θ_run (Cert.KernelIdeal.defs (F := Ideal)) _ _).mono (fun r h c => ⟨?_, ?_, ?_, ?_, ?_⟩)
      (Cert.KernelIdeal.Hand.run_all (F := Ideal) m g)
    · exact (h c _ (Cert.KernelIdeal.Hand.mem_uc Cert.KernelIdeal.main_v8 (by decide))).trans
        (Cert.KernelIdeal.HandValue.out_value m c)
    · exact (h c _ (Cert.KernelIdeal.Hand.mem_uc Cert.KernelIdeal.main_arg0 (by decide))).trans
        (Cert.KernelIdeal.HandValue.arg_kept0 m c)
    · exact (h c _ (Cert.KernelIdeal.Hand.mem_uc Cert.KernelIdeal.main_arg1 (by decide))).trans
        (Cert.KernelIdeal.HandValue.arg_kept1 m c)
    · exact (h c _ (Cert.KernelIdeal.Hand.mem_uc Cert.KernelIdeal.main_arg2 (by decide))).trans
        (Cert.KernelIdeal.HandValue.arg_kept2 m c)
    · exact (h c _ (Cert.KernelIdeal.Hand.mem_uc Cert.KernelIdeal.main_arg3 (by decide))).trans
        (Cert.KernelIdeal.HandValue.arg_kept3 m c)
  · -- the reference: its arguments are the kernel's, so their entries are real, and its result is the specification
    have hfin : ∀ c : Dev Cert.ReferenceIdeal.nD, _ := fun c => by
      have hc := Cert.RefValue.finite_of_pre _ _ _ _ (hpre c)
      rw [← (hagree c).1, ← (hagree c).2.1, ← (hagree c).2.2.1, ← (hagree c).2.2.2] at hc
      exact hc
    refine (θ_run (Cert.ReferenceIdeal.defs (F := Ideal)) _ _).mono (fun _ hr c => ⟨?_, (hr c).2⟩)
      (Cert.RefValue.run_out m' g' hfin)
    rw [(hr c).1, (hagree c).1, (hagree c).2.1, (hagree c).2.2.1, (hagree c).2.2.2]

end Cert.Proof.Claims

end
-- ==== Proof.lean ====
/-
  The certificate's claim, assembled.

  The kernel computes t15 = (t1 · t2 + t1 + t3) + (t3 · t6) · t3 + (t3 · t6) · t1x from t1 = x w1, t2 = x w2, t3 = w3 w3,
  t6 = ((t1 ∘ w1) x) ∘ w1 and t1x = t1 x, each matrix product accumulated over two halves of the contraction index; the
  reference computes (s + t3 · (s · (t2 − t4) + t6 · t3)) + ((t2 − t4) + (t3 · t1x) · t6) with s = t1 · t2 + t1 + t3 and
  t4 = t2.  Both programs run to the end and leave their arguments as launched; read at the extended reals, under the
  precondition that every argument entry is finite, both result arrays are the same function of the arguments.  The five
  claims are proved in the module of the claims; here the witnesses of the programs' stated side conditions are put in
  front of them.
-/
import proofs.«141637_j39676907881857_2_alg».proof.Defs
import proofs.«141637_j39676907881857_2_alg».proof.Proof.Gen.Kernel
import proofs.«141637_j39676907881857_2_alg».proof.Proof.Gen.Kernel.Skeleton
import proofs.«141637_j39676907881857_2_alg».proof.Proof.Gen.Kernel.Launch
import proofs.«141637_j39676907881857_2_alg».proof.Proof.Gen.Kernel.Regions
import proofs.«141637_j39676907881857_2_alg».proof.Proof.Gen.Kernel.Points
import proofs.«141637_j39676907881857_2_alg».proof.Proof.Gen.KernelIdeal
import proofs.«141637_j39676907881857_2_alg».proof.Proof.Gen.KernelIdeal.Skeleton
import proofs.«141637_j39676907881857_2_alg».proof.Proof.Gen.KernelIdeal.Launch
import proofs.«141637_j39676907881857_2_alg».proof.Proof.Gen.KernelIdeal.Regions
import proofs.«141637_j39676907881857_2_alg».proof.Proof.Gen.KernelIdeal.Points
import proofs.«141637_j39676907881857_2_alg».proof.Proof.Gen.ReferenceIdeal
import proofs.«141637_j39676907881857_2_alg».proof.Proof.Gen.Pre_finite_inputs
import proofs.«141637_j39676907881857_2_alg».proof.Proof.Gen.ReferenceIdeal.Run
import proofs.«141637_j39676907881857_2_alg».proof.Proof.Gen.ReferenceIdeal.Read
import Idealize.ShloMosaic.Adequacy
import Idealize.ShloMosaic.Init
import proofs.«141637_j39676907881857_2_alg».proof.Proof.Claims

noncomputable section

namespace Cert.Proof

open Cert.Proof.Claims

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
